-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v236)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v236) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v301) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x2 : Shape := ⟨2, ![1048576, 2]⟩
abbrev S512x512x8 : Shape := ⟨3, ![512, 512, 8]⟩
abbrev S32x10 : Shape := ⟨2, ![32, 10]⟩
abbrev S32 : Shape := ⟨1, ![32]⟩
abbrev S32x32 : Shape := ⟨2, ![32, 32]⟩
abbrev S1x32 : Shape := ⟨2, ![1, 32]⟩
abbrev S1 : Shape := ⟨1, ![1]⟩
abbrev S32x12 : Shape := ⟨2, ![32, 12]⟩
abbrev S3x32 : Shape := ⟨2, ![3, 32]⟩
abbrev S3 : Shape := ⟨1, ![3]⟩
abbrev S_ : Shape := ⟨0, ![]⟩

class Facts : Prop where
  bcast_S_S1048576x2 : S_.BroadcastsInDim S1048576x2 (![] : Fin 0 → Fin S1048576x2.rank)
  reducesTo_S1048576x2_S_d0_1 : S1048576x2.ReducesTo [0, 1] S_
  h_S_ : 0 < S_.numel
  bcast_S_S512x512x8 : S_.BroadcastsInDim S512x512x8 (![] : Fin 0 → Fin S512x512x8.rank)
  reducesTo_S512x512x8_S_d0_1_2 : S512x512x8.ReducesTo [0, 1, 2] S_
  bcast_S_S32x10 : S_.BroadcastsInDim S32x10 (![] : Fin 0 → Fin S32x10.rank)
  reducesTo_S32x10_S_d0_1 : S32x10.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  bcast_S_S32x12 : S_.BroadcastsInDim S32x12 (![] : Fin 0 → Fin S32x12.rank)
  reducesTo_S32x12_S_d0_1 : S32x12.ReducesTo [0, 1] S_
  bcast_S_S3x32 : S_.BroadcastsInDim S3x32 (![] : Fin 0 → Fin S3x32.rank)
  reducesTo_S3x32_S_d0_1 : S3x32.ReducesTo [0, 1] S_
  bcast_S_S3 : S_.BroadcastsInDim S3 (![] : Fin 0 → Fin S3.rank)
  reducesTo_S3_S_d0 : S3.ReducesTo [0] S_

variable [Facts]

def fn_part6 {F : FTy → Type} [FloatOps F] (main_v98 : IVec S_ 1) (main_v101 : IVec S3 1) (main_c_39 : IVec S_ 1) : IVec S_ 1 :=
  let main_v102 : IVec S_ 1 := (fun x v => Host.reduce IntOp.andi x v reducesTo_S3_S_d0 h_S_) main_v101 main_c_39
  let main_v103 : IVec S_ 1 := andi main_v98 main_v102
  main_v103

def fn_part5 {F : FTy → Type} [FloatOps F] (main_arg18 : FVec F S32 .f32) (main_arg19 : FVec F S3x32 .f32) (main_arg20 : FVec F S3 .f32) (main_v83 : IVec S_ 1) (main_v84 : FVec F S32x32 .f32) (main_cst_32 : FVec F S_ .f32) : IVec S_ 1 :=
  let main_v85 : FVec F S32x32 .f32 := broadcastInDim S32x32 ![] bcast_S_S32x32 main_cst_32
  let main_v86 : IVec S32x32 1 := cmpf .olt main_v84 main_v85
  let main_c_33 : IVec S_ 1 := constantI S_ 1 1#1
  let main_v87 : IVec S_ 1 := (fun x v => Host.reduce IntOp.andi x v reducesTo_S32x32_S_d0_1 h_S_) main_v86 main_c_33
  let main_v88 : IVec S_ 1 := andi main_v83 main_v87
  let main_v89 : FVec F S32 .f32 := Host.absf main_arg18
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S3x32 .f32 := Host.absf main_arg19
  let main_cst_36 : FVec F S_ .f32 := constant S_ .f32 0x7F800000#32
  let main_v95 : FVec F S3x32 .f32 := broadcastInDim S3x32 ![] bcast_S_S3x32 main_cst_36
  let main_v96 : IVec S3x32 1 := cmpf .olt main_v94 main_v95
  let main_c_37 : IVec S_ 1 := constantI S_ 1 1#1
  let main_v97 : IVec S_ 1 := (fun x v => Host.reduce IntOp.andi x v reducesTo_S3x32_S_d0_1 h_S_) main_v96 main_c_37
  let main_v98 : IVec S_ 1 := andi main_v93 main_v97
  let main_v99 : FVec F S3 .f32 := Host.absf main_arg20
  let main_cst_38 : FVec F S_ .f32 := constant S_ .f32 0x7F800000#32
  let main_v100 : FVec F S3 .f32 := broadcastInDim S3 ![] bcast_S_S3 main_cst_38
  let main_v101 : IVec S3 1 := cmpf .olt main_v99 main_v100
  let main_c_39 : IVec S_ 1 := constantI S_ 1 1#1
  fn_part6 (F := F) main_v98 main_v101 main_c_39

def fn_part4 {F : FTy → Type} [FloatOps F] (main_arg14 : FVec F S32 .f32) (main_arg15 : FVec F S32x32 .f32) (main_arg16 : FVec F S32 .f32) (main_arg17 : FVec F S32x32 .f32) (main_arg18 : FVec F S32 .f32) (main_arg19 : FVec F S3x32 .f32) (main_arg20 : FVec F S3 .f32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x32 .f32 := Host.absf main_arg15
  let main_cst_28 : FVec F S_ .f32 := constant S_ .f32 0x7F800000#32
  let main_v75 : FVec F S32x32 .f32 := broadcastInDim S32x32 ![] bcast_S_S32x32 main_cst_28
  let main_v76 : IVec S32x32 1 := cmpf .olt main_v74 main_v75
  let main_c_29 : IVec S_ 1 := constantI S_ 1 1#1
  let main_v77 : IVec S_ 1 := (fun x v => Host.reduce IntOp.andi x v reducesTo_S32x32_S_d0_1 h_S_) main_v76 main_c_29
  let main_v78 : IVec S_ 1 := andi main_v73 main_v77
  let main_v79 : FVec F S32 .f32 := Host.absf main_arg16
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x32 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S1x32 .f32) (main_arg12 : FVec F S1 .f32) (main_arg13 : FVec F S32x12 .f32) (main_arg14 : FVec F S32 .f32) (main_arg15 : FVec F S32x32 .f32) (main_arg16 : FVec F S32 .f32) (main_arg17 : FVec F S32x32 .f32) (main_arg18 : FVec F S32 .f32) (main_arg19 : FVec F S3x32 .f32) (main_arg20 : FVec F S3 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S1x32 .f32 := Host.absf main_arg11
  let main_cst_20 : FVec F S_ .f32 := constant S_ .f32 0x7F800000#32
  let main_v55 : FVec F S1x32 .f32 := broadcastInDim S1x32 ![] bcast_S_S1x32 main_cst_20
  let main_v56 : IVec S1x32 1 := cmpf .olt main_v54 main_v55
  let main_c_21 : IVec S_ 1 := constantI S_ 1 1#1
  let main_v57 : IVec S_ 1 := (fun x v => Host.reduce IntOp.andi x v reducesTo_S1x32_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S32x12 .f32 := Host.absf main_arg13
  let main_cst_24 : FVec F S_ .f32 := constant S_ .f32 0x7F800000#32
  let main_v65 : FVec F S32x12 .f32 := broadcastInDim S32x12 ![] bcast_S_S32x12 main_cst_24
  let main_v66 : IVec S32x12 1 := cmpf .olt main_v64 main_v65
  let main_c_25 : IVec S_ 1 := constantI S_ 1 1#1
  let main_v67 : IVec S_ 1 := (fun x v => Host.reduce IntOp.andi x v reducesTo_S32x12_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S32x32 .f32) (main_arg8 : FVec F S32 .f32) (main_arg9 : FVec F S32x32 .f32) (main_arg10 : FVec F S32 .f32) (main_arg11 : FVec F S1x32 .f32) (main_arg12 : FVec F S1 .f32) (main_arg13 : FVec F S32x12 .f32) (main_arg14 : FVec F S32 .f32) (main_arg15 : FVec F S32x32 .f32) (main_arg16 : FVec F S32 .f32) (main_arg17 : FVec F S32x32 .f32) (main_arg18 : FVec F S32 .f32) (main_arg19 : FVec F S3x32 .f32) (main_arg20 : FVec F S3 .f32) (main_v33 : IVec S_ 1) : IVec S_ 1 :=
  let main_v34 : FVec F S32x32 .f32 := Host.absf main_arg7
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg9
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S512x512x8 .f32) (main_arg5 : FVec F S32x10 .f32) (main_arg6 : FVec F S32 .f32) (main_arg7 : FVec F S32x32 .f32) (main_arg8 : FVec F S32 .f32) (main_arg9 : FVec F S32x32 .f32) (main_arg10 : FVec F S32 .f32) (main_arg11 : FVec F S1x32 .f32) (main_arg12 : FVec F S1 .f32) (main_arg13 : FVec F S32x12 .f32) (main_arg14 : FVec F S32 .f32) (main_arg15 : FVec F S32x32 .f32) (main_arg16 : FVec F S32 .f32) (main_arg17 : FVec F S32x32 .f32) (main_arg18 : FVec F S32 .f32) (main_arg19 : FVec F S3x32 .f32) (main_arg20 : FVec F S3 .f32) (main_v13 : IVec S_ 1) (main_v16 : IVec S512x512x8 1) : IVec S_ 1 :=
  let main_c_5 : IVec S_ 1 := constantI S_ 1 1#1
  let main_v17 : IVec S_ 1 := (fun x v => Host.reduce IntOp.andi x v reducesTo_S512x512x8_S_d0_1_2 h_S_) main_v16 main_c_5
  let main_v18 : IVec S_ 1 := andi main_v13 main_v17
  let main_v19 : FVec F S512x512x8 .f32 := Host.absf main_arg4
  let main_cst_6 : FVec F S_ .f32 := constant S_ .f32 0x7F800000#32
  let main_v20 : FVec F S512x512x8 .f32 := broadcastInDim S512x512x8 ![] bcast_S_S512x512x8 main_cst_6
  let main_v21 : IVec S512x512x8 1 := cmpf .olt main_v19 main_v20
  let main_c_7 : IVec S_ 1 := constantI S_ 1 1#1
  let main_v22 : IVec S_ 1 := (fun x v => Host.reduce IntOp.andi x v reducesTo_S512x512x8_S_d0_1_2 h_S_) main_v21 main_c_7
  let main_v23 : IVec S_ 1 := andi main_v18 main_v22
  let main_v24 : FVec F S32x10 .f32 := Host.absf main_arg5
  let main_cst_8 : FVec F S_ .f32 := constant S_ .f32 0x7F800000#32
  let main_v25 : FVec F S32x10 .f32 := broadcastInDim S32x10 ![] bcast_S_S32x10 main_cst_8
  let main_v26 : IVec S32x10 1 := cmpf .olt main_v24 main_v25
  let main_c_9 : IVec S_ 1 := constantI S_ 1 1#1
  let main_v27 : IVec S_ 1 := (fun x v => Host.reduce IntOp.andi x v reducesTo_S32x10_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S1048576x2 .f32) (main_arg1 : FVec F S1048576x2 .f32) (main_arg2 : FVec F S1048576x2 .f32) (main_arg3 : FVec F S512x512x8 .f32) (main_arg4 : FVec F S512x512x8 .f32) (main_arg5 : FVec F S32x10 .f32) (main_arg6 : FVec F S32 .f32) (main_arg7 : FVec F S32x32 .f32) (main_arg8 : FVec F S32 .f32) (main_arg9 : FVec F S32x32 .f32) (main_arg10 : FVec F S32 .f32) (main_arg11 : FVec F S1x32 .f32) (main_arg12 : FVec F S1 .f32) (main_arg13 : FVec F S32x12 .f32) (main_arg14 : FVec F S32 .f32) (main_arg15 : FVec F S32x32 .f32) (main_arg16 : FVec F S32 .f32) (main_arg17 : FVec F S32x32 .f32) (main_arg18 : FVec F S32 .f32) (main_arg19 : FVec F S3x32 .f32) (main_arg20 : FVec F S3 .f32) : IVec S_ 1 :=
  let main_v0 : FVec F S1048576x2 .f32 := Host.absf main_arg0
  let main_cst : FVec F S_ .f32 := constant S_ .f32 0x7F800000#32
  let main_v1 : FVec F S1048576x2 .f32 := broadcastInDim S1048576x2 ![] bcast_S_S1048576x2 main_cst
  let main_v2 : IVec S1048576x2 1 := cmpf .olt main_v0 main_v1
  let main_c : IVec S_ 1 := constantI S_ 1 1#1
  let main_v3 : IVec S_ 1 := (fun x v => Host.reduce IntOp.andi x v reducesTo_S1048576x2_S_d0_1 h_S_) main_v2 main_c
  let main_v4 : FVec F S1048576x2 .f32 := Host.absf main_arg1
  let main_cst_0 : FVec F S_ .f32 := constant S_ .f32 0x7F800000#32
  let main_v5 : FVec F S1048576x2 .f32 := broadcastInDim S1048576x2 ![] bcast_S_S1048576x2 main_cst_0
  let main_v6 : IVec S1048576x2 1 := cmpf .olt main_v4 main_v5
  let main_c_1 : IVec S_ 1 := constantI S_ 1 1#1
  let main_v7 : IVec S_ 1 := (fun x v => Host.reduce IntOp.andi x v reducesTo_S1048576x2_S_d0_1 h_S_) main_v6 main_c_1
  let main_v8 : IVec S_ 1 := andi main_v3 main_v7
  let main_v9 : FVec F S1048576x2 .f32 := Host.absf main_arg2
  let main_cst_2 : FVec F S_ .f32 := constant S_ .f32 0x7F800000#32
  let main_v10 : FVec F S1048576x2 .f32 := broadcastInDim S1048576x2 ![] bcast_S_S1048576x2 main_cst_2
  let main_v11 : IVec S1048576x2 1 := cmpf .olt main_v9 main_v10
  let main_c_3 : IVec S_ 1 := constantI S_ 1 1#1
  let main_v12 : IVec S_ 1 := (fun x v => Host.reduce IntOp.andi x v reducesTo_S1048576x2_S_d0_1 h_S_) main_v11 main_c_3
  let main_v13 : IVec S_ 1 := andi main_v8 main_v12
  let main_v14 : FVec F S512x512x8 .f32 := Host.absf main_arg3
  let main_cst_4 : FVec F S_ .f32 := constant S_ .f32 0x7F800000#32
  let main_v15 : FVec F S512x512x8 .f32 := broadcastInDim S512x512x8 ![] bcast_S_S512x512x8 main_cst_4
  let main_v16 : IVec S512x512x8 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S1048576x2 : Shape := ⟨2, ![1048576, 2]⟩
abbrev S512x512x8 : Shape := ⟨3, ![512, 512, 8]⟩
abbrev S32x10 : Shape := ⟨2, ![32, 10]⟩
abbrev S32 : Shape := ⟨1, ![32]⟩
abbrev S32x32 : Shape := ⟨2, ![32, 32]⟩
abbrev S1x32 : Shape := ⟨2, ![1, 32]⟩
abbrev S1 : Shape := ⟨1, ![1]⟩
abbrev S32x12 : Shape := ⟨2, ![32, 12]⟩
abbrev S3x32 : Shape := ⟨2, ![3, 32]⟩
abbrev S3 : Shape := ⟨1, ![3]⟩
abbrev S_ : Shape := ⟨0, ![]⟩
abbrev S1048576x1 : Shape := ⟨2, ![1048576, 1]⟩
abbrev S1048576 : Shape := ⟨1, ![1048576]⟩
abbrev S1048576x8 : Shape := ⟨2, ![1048576, 8]⟩
abbrev S8x1048576 : Shape := ⟨2, ![8, 1048576]⟩
abbrev S2x1048576 : Shape := ⟨2, ![2, 1048576]⟩
abbrev S12x1048576 : Shape := ⟨2, ![12, 1048576]⟩
abbrev S32x1 : Shape := ⟨2, ![32, 1]⟩
abbrev S1x1 : Shape := ⟨2, ![1, 1]⟩
abbrev S12x131072 : Shape := ⟨2, ![12, 131072]⟩
abbrev S2x131072 : Shape := ⟨2, ![2, 131072]⟩
abbrev S10x131072 : Shape := ⟨2, ![10, 131072]⟩
abbrev S32x131072 : Shape := ⟨2, ![32, 131072]⟩
abbrev S1x131072 : Shape := ⟨2, ![1, 131072]⟩
abbrev S131072 : Shape := ⟨1, ![131072]⟩
abbrev S3x1 : Shape := ⟨2, ![3, 1]⟩
abbrev S3x1048576 : Shape := ⟨2, ![3, 1048576]⟩
abbrev S3x131072 : Shape := ⟨2, ![3, 131072]⟩
abbrev S1048576x3 : Shape := ⟨2, ![1048576, 3]⟩

abbrev nBuf : Space → Nat
  | .hbm => 474
  | .vmem => 24
  | .smem => 0
  | _ => 0

abbrev hbmTy0_0 (i : Nat) : BufTy := match i % 128 with
  | 0 => ⟨S1048576x2, .f32⟩
  | 1 => ⟨S1048576x2, .f32⟩
  | 2 => ⟨S1048576x2, .f32⟩
  | 3 => ⟨S512x512x8, .f32⟩
  | 4 => ⟨S512x512x8, .f32⟩
  | 5 => ⟨S32x10, .f32⟩
  | 6 => ⟨S32, .f32⟩
  | 7 => ⟨S32x32, .f32⟩
  | 8 => ⟨S32, .f32⟩
  | 9 => ⟨S32x32, .f32⟩
  | 10 => ⟨S32, .f32⟩
  | 11 => ⟨S1x32, .f32⟩
  | 12 => ⟨S1, .f32⟩
  | 13 => ⟨S32x12, .f32⟩
  | 14 => ⟨S32, .f32⟩
  | 15 => ⟨S32x32, .f32⟩
  | 16 => ⟨S32, .f32⟩
  | 17 => ⟨S32x32, .f32⟩
  | 18 => ⟨S32, .f32⟩
  | 19 => ⟨S3x32, .f32⟩
  | 20 => ⟨S3, .f32⟩
  | 21 => ⟨S_, .f32⟩
  | 22 => ⟨S1048576x2, .f32⟩
  | 23 => ⟨S1048576x2, .f32⟩
  | 24 => ⟨S_, .f32⟩
  | 25 => ⟨S1048576x2, .f32⟩
  | 26 => ⟨S1048576x2, .f32⟩
  | 27 => ⟨S1048576x2, .f32⟩
  | 28 => ⟨S1048576x2, .i32⟩
  | 29 => ⟨S1048576x2, .f32⟩
  | 30 => ⟨S1048576x2, .f32⟩
  | 31 => ⟨S1048576x1, .i32⟩
  | 32 => ⟨S1048576, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S1048576, .i32⟩
  | 40 => ⟨S1048576, .i32⟩
  | 41 => ⟨S_, .i32⟩
  | 42 => ⟨S1048576, .i32⟩
  | 43 => ⟨S1048576, .i1⟩
  | 44 => ⟨S_, .i32⟩
  | 45 => ⟨S1048576, .i32⟩
  | 46 => ⟨S1048576, .i1⟩
  | 47 => ⟨S_, .i32⟩
  | 48 => ⟨S_, .i1⟩
  | 49 => ⟨S1048576, .i1⟩
  | 50 => ⟨S1048576, .i1⟩
  | 51 => ⟨S1048576, .i1⟩
  | 52 => ⟨S1048576, .i32⟩
  | 53 => ⟨S1048576, .i32⟩
  | 54 => ⟨S1048576, .i32⟩
  | 55 => ⟨S1048576x1, .i32⟩
  | 56 => ⟨S1048576, .i32⟩
  | 57 => ⟨S_, .i32⟩
  | 58 => ⟨S1048576, .i32⟩
  | 59 => ⟨S1048576, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S1048576, .i32⟩
  | 67 => ⟨S1048576, .i32⟩
  | 68 => ⟨S_, .i32⟩
  | 69 => ⟨S1048576, .i32⟩
  | 70 => ⟨S1048576, .i1⟩
  | 71 => ⟨S_, .i32⟩
  | 72 => ⟨S1048576, .i32⟩
  | 73 => ⟨S1048576, .i1⟩
  | 74 => ⟨S_, .i32⟩
  | 75 => ⟨S_, .i1⟩
  | 76 => ⟨S1048576, .i1⟩
  | 77 => ⟨S1048576, .i1⟩
  | 78 => ⟨S1048576, .i1⟩
  | 79 => ⟨S1048576, .i32⟩
  | 80 => ⟨S1048576, .i32⟩
  | 81 => ⟨S1048576, .i32⟩
  | 82 => ⟨S1048576x1, .i32⟩
  | 83 => ⟨S1048576, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S1048576, .i32⟩
  | 91 => ⟨S1048576, .i32⟩
  | 92 => ⟨S_, .i32⟩
  | 93 => ⟨S1048576, .i32⟩
  | 94 => ⟨S1048576, .i1⟩
  | 95 => ⟨S_, .i32⟩
  | 96 => ⟨S1048576, .i32⟩
  | 97 => ⟨S1048576, .i1⟩
  | 98 => ⟨S_, .i32⟩
  | 99 => ⟨S_, .i1⟩
  | 100 => ⟨S1048576, .i1⟩
  | 101 => ⟨S1048576, .i1⟩
  | 102 => ⟨S1048576, .i1⟩
  | 103 => ⟨S1048576, .i32⟩
  | 104 => ⟨S1048576, .i32⟩
  | 105 => ⟨S1048576, .i32⟩
  | 106 => ⟨S1048576x1, .i32⟩
  | 107 => ⟨S1048576, .i32⟩
  | 108 => ⟨S_, .i32⟩
  | 109 => ⟨S1048576, .i32⟩
  | 110 => ⟨S1048576, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S1048576, .i32⟩
  | 118 => ⟨S1048576, .i32⟩
  | 119 => ⟨S_, .i32⟩
  | 120 => ⟨S1048576, .i32⟩
  | 121 => ⟨S1048576, .i1⟩
  | 122 => ⟨S_, .i32⟩
  | 123 => ⟨S1048576, .i32⟩
  | 124 => ⟨S1048576, .i1⟩
  | 125 => ⟨S_, .i32⟩
  | 126 => ⟨S_, .i1⟩
  | 127 => ⟨S1048576, .i1⟩
  | _ => ⟨S1048576x2, .f32⟩

abbrev hbmTy0_1 (i : Nat) : BufTy := match i % 128 with
  | 0 => ⟨S1048576, .i1⟩
  | 1 => ⟨S1048576, .i1⟩
  | 2 => ⟨S1048576, .i32⟩
  | 3 => ⟨S1048576, .i32⟩
  | 4 => ⟨S1048576, .i32⟩
  | 5 => ⟨S1048576x1, .f32⟩
  | 6 => ⟨S1048576x1, .f32⟩
  | 7 => ⟨S_, .i32⟩
  | 8 => ⟨S1048576, .i32⟩
  | 9 => ⟨S1048576, .i1⟩
  | 10 => ⟨S_, .i32⟩
  | 11 => ⟨S1048576, .i32⟩
  | 12 => ⟨S1048576, .i32⟩
  | 13 => ⟨S1048576, .i32⟩
  | 14 => ⟨S_, .i32⟩
  | 15 => ⟨S1048576, .i32⟩
  | 16 => ⟨S1048576, .i1⟩
  | 17 => ⟨S_, .i32⟩
  | 18 => ⟨S1048576, .i32⟩
  | 19 => ⟨S1048576, .i32⟩
  | 20 => ⟨S1048576, .i32⟩
  | 21 => ⟨S1048576x1, .i32⟩
  | 22 => ⟨S1048576x1, .i32⟩
  | 23 => ⟨S1048576x2, .i32⟩
  | 24 => ⟨S1048576x8, .f32⟩
  | 25 => ⟨S_, .i32⟩
  | 26 => ⟨S1048576, .i32⟩
  | 27 => ⟨S1048576, .i1⟩
  | 28 => ⟨S_, .i32⟩
  | 29 => ⟨S1048576, .i32⟩
  | 30 => ⟨S1048576, .i32⟩
  | 31 => ⟨S1048576, .i32⟩
  | 32 => ⟨S_, .i32⟩
  | 33 => ⟨S1048576, .i32⟩
  | 34 => ⟨S1048576, .i1⟩
  | 35 => ⟨S_, .i32⟩
  | 36 => ⟨S1048576, .i32⟩
  | 37 => ⟨S1048576, .i32⟩
  | 38 => ⟨S1048576, .i32⟩
  | 39 => ⟨S1048576x1, .i32⟩
  | 40 => ⟨S1048576x1, .i32⟩
  | 41 => ⟨S1048576x2, .i32⟩
  | 42 => ⟨S1048576x8, .f32⟩
  | 43 => ⟨S_, .i32⟩
  | 44 => ⟨S1048576, .i32⟩
  | 45 => ⟨S1048576, .i1⟩
  | 46 => ⟨S_, .i32⟩
  | 47 => ⟨S1048576, .i32⟩
  | 48 => ⟨S1048576, .i32⟩
  | 49 => ⟨S1048576, .i32⟩
  | 50 => ⟨S_, .i32⟩
  | 51 => ⟨S1048576, .i32⟩
  | 52 => ⟨S1048576, .i1⟩
  | 53 => ⟨S_, .i32⟩
  | 54 => ⟨S1048576, .i32⟩
  | 55 => ⟨S1048576, .i32⟩
  | 56 => ⟨S1048576, .i32⟩
  | 57 => ⟨S1048576x1, .i32⟩
  | 58 => ⟨S1048576x1, .i32⟩
  | 59 => ⟨S1048576x2, .i32⟩
  | 60 => ⟨S1048576x8, .f32⟩
  | 61 => ⟨S_, .i32⟩
  | 62 => ⟨S1048576, .i32⟩
  | 63 => ⟨S1048576, .i1⟩
  | 64 => ⟨S_, .i32⟩
  | 65 => ⟨S1048576, .i32⟩
  | 66 => ⟨S1048576, .i32⟩
  | 67 => ⟨S1048576, .i32⟩
  | 68 => ⟨S_, .i32⟩
  | 69 => ⟨S1048576, .i32⟩
  | 70 => ⟨S1048576, .i1⟩
  | 71 => ⟨S_, .i32⟩
  | 72 => ⟨S1048576, .i32⟩
  | 73 => ⟨S1048576, .i32⟩
  | 74 => ⟨S1048576, .i32⟩
  | 75 => ⟨S1048576x1, .i32⟩
  | 76 => ⟨S1048576x1, .i32⟩
  | 77 => ⟨S1048576x2, .i32⟩
  | 78 => ⟨S1048576x8, .f32⟩
  | 79 => ⟨S_, .f32⟩
  | 80 => ⟨S1048576x1, .f32⟩
  | 81 => ⟨S1048576x1, .f32⟩
  | 82 => ⟨S1048576x8, .f32⟩
  | 83 => ⟨S1048576x8, .f32⟩
  | 84 => ⟨S_, .f32⟩
  | 85 => ⟨S1048576x1, .f32⟩
  | 86 => ⟨S1048576x1, .f32⟩
  | 87 => ⟨S1048576x8, .f32⟩
  | 88 => ⟨S1048576x8, .f32⟩
  | 89 => ⟨S1048576x8, .f32⟩
  | 90 => ⟨S1048576x8, .f32⟩
  | 91 => ⟨S_, .f32⟩
  | 92 => ⟨S1048576x1, .f32⟩
  | 93 => ⟨S1048576x1, .f32⟩
  | 94 => ⟨S1048576x8, .f32⟩
  | 95 => ⟨S1048576x8, .f32⟩
  | 96 => ⟨S1048576x8, .f32⟩
  | 97 => ⟨S_, .f32⟩
  | 98 => ⟨S1048576x1, .f32⟩
  | 99 => ⟨S1048576x1, .f32⟩
  | 100 => ⟨S1048576x8, .f32⟩
  | 101 => ⟨S1048576x8, .f32⟩
  | 102 => ⟨S1048576x8, .f32⟩
  | 103 => ⟨S1048576x8, .f32⟩
  | 104 => ⟨S1048576x8, .f32⟩
  | 105 => ⟨S1048576x8, .f32⟩
  | 106 => ⟨S1048576x8, .f32⟩
  | 107 => ⟨S1048576x8, .f32⟩
  | 108 => ⟨S1048576x8, .f32⟩
  | 109 => ⟨S1048576x8, .f32⟩
  | 110 => ⟨S8x1048576, .f32⟩
  | 111 => ⟨S2x1048576, .f32⟩
  | 112 => ⟨S2x1048576, .f32⟩
  | 113 => ⟨S12x1048576, .f32⟩
  | 114 => ⟨S32x1, .f32⟩
  | 115 => ⟨S32x1, .f32⟩
  | 116 => ⟨S32x1, .f32⟩
  | 117 => ⟨S1x1, .f32⟩
  | 118 => ⟨S2x1048576, .f32⟩
  | 119 => ⟨S1048576x2, .f32⟩
  | 120 => ⟨S_, .f32⟩
  | 121 => ⟨S1048576x2, .f32⟩
  | 122 => ⟨S1048576x2, .f32⟩
  | 123 => ⟨S_, .f32⟩
  | 124 => ⟨S1048576x2, .f32⟩
  | 125 => ⟨S1048576x2, .f32⟩
  | 126 => ⟨S1048576x2, .f32⟩
  | 127 => ⟨S1048576x2, .i32⟩
  | _ => ⟨S1048576x2, .f32⟩

abbrev hbmTy0_2 (i : Nat) : BufTy := match i % 128 with
  | 0 => ⟨S1048576x2, .f32⟩
  | 1 => ⟨S1048576x2, .f32⟩
  | 2 => ⟨S1048576x1, .i32⟩
  | 3 => ⟨S1048576, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S1048576, .i32⟩
  | 11 => ⟨S1048576, .i32⟩
  | 12 => ⟨S_, .i32⟩
  | 13 => ⟨S1048576, .i32⟩
  | 14 => ⟨S1048576, .i1⟩
  | 15 => ⟨S_, .i32⟩
  | 16 => ⟨S1048576, .i32⟩
  | 17 => ⟨S1048576, .i1⟩
  | 18 => ⟨S_, .i32⟩
  | 19 => ⟨S_, .i1⟩
  | 20 => ⟨S1048576, .i1⟩
  | 21 => ⟨S1048576, .i1⟩
  | 22 => ⟨S1048576, .i1⟩
  | 23 => ⟨S1048576, .i32⟩
  | 24 => ⟨S1048576, .i32⟩
  | 25 => ⟨S1048576, .i32⟩
  | 26 => ⟨S1048576x1, .i32⟩
  | 27 => ⟨S1048576, .i32⟩
  | 28 => ⟨S_, .i32⟩
  | 29 => ⟨S1048576, .i32⟩
  | 30 => ⟨S1048576, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S1048576, .i32⟩
  | 38 => ⟨S1048576, .i32⟩
  | 39 => ⟨S_, .i32⟩
  | 40 => ⟨S1048576, .i32⟩
  | 41 => ⟨S1048576, .i1⟩
  | 42 => ⟨S_, .i32⟩
  | 43 => ⟨S1048576, .i32⟩
  | 44 => ⟨S1048576, .i1⟩
  | 45 => ⟨S_, .i32⟩
  | 46 => ⟨S_, .i1⟩
  | 47 => ⟨S1048576, .i1⟩
  | 48 => ⟨S1048576, .i1⟩
  | 49 => ⟨S1048576, .i1⟩
  | 50 => ⟨S1048576, .i32⟩
  | 51 => ⟨S1048576, .i32⟩
  | 52 => ⟨S1048576, .i32⟩
  | 53 => ⟨S1048576x1, .i32⟩
  | 54 => ⟨S1048576, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1048576, .i32⟩
  | 62 => ⟨S1048576, .i32⟩
  | 63 => ⟨S_, .i32⟩
  | 64 => ⟨S1048576, .i32⟩
  | 65 => ⟨S1048576, .i1⟩
  | 66 => ⟨S_, .i32⟩
  | 67 => ⟨S1048576, .i32⟩
  | 68 => ⟨S1048576, .i1⟩
  | 69 => ⟨S_, .i32⟩
  | 70 => ⟨S_, .i1⟩
  | 71 => ⟨S1048576, .i1⟩
  | 72 => ⟨S1048576, .i1⟩
  | 73 => ⟨S1048576, .i1⟩
  | 74 => ⟨S1048576, .i32⟩
  | 75 => ⟨S1048576, .i32⟩
  | 76 => ⟨S1048576, .i32⟩
  | 77 => ⟨S1048576x1, .i32⟩
  | 78 => ⟨S1048576, .i32⟩
  | 79 => ⟨S_, .i32⟩
  | 80 => ⟨S1048576, .i32⟩
  | 81 => ⟨S1048576, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S1048576, .i32⟩
  | 89 => ⟨S1048576, .i32⟩
  | 90 => ⟨S_, .i32⟩
  | 91 => ⟨S1048576, .i32⟩
  | 92 => ⟨S1048576, .i1⟩
  | 93 => ⟨S_, .i32⟩
  | 94 => ⟨S1048576, .i32⟩
  | 95 => ⟨S1048576, .i1⟩
  | 96 => ⟨S_, .i32⟩
  | 97 => ⟨S_, .i1⟩
  | 98 => ⟨S1048576, .i1⟩
  | 99 => ⟨S1048576, .i1⟩
  | 100 => ⟨S1048576, .i1⟩
  | 101 => ⟨S1048576, .i32⟩
  | 102 => ⟨S1048576, .i32⟩
  | 103 => ⟨S1048576, .i32⟩
  | 104 => ⟨S1048576x1, .f32⟩
  | 105 => ⟨S1048576x1, .f32⟩
  | 106 => ⟨S_, .i32⟩
  | 107 => ⟨S1048576, .i32⟩
  | 108 => ⟨S1048576, .i1⟩
  | 109 => ⟨S_, .i32⟩
  | 110 => ⟨S1048576, .i32⟩
  | 111 => ⟨S1048576, .i32⟩
  | 112 => ⟨S1048576, .i32⟩
  | 113 => ⟨S_, .i32⟩
  | 114 => ⟨S1048576, .i32⟩
  | 115 => ⟨S1048576, .i1⟩
  | 116 => ⟨S_, .i32⟩
  | 117 => ⟨S1048576, .i32⟩
  | 118 => ⟨S1048576, .i32⟩
  | 119 => ⟨S1048576, .i32⟩
  | 120 => ⟨S1048576x1, .i32⟩
  | 121 => ⟨S1048576x1, .i32⟩
  | 122 => ⟨S1048576x2, .i32⟩
  | 123 => ⟨S1048576x8, .f32⟩
  | 124 => ⟨S_, .i32⟩
  | 125 => ⟨S1048576, .i32⟩
  | 126 => ⟨S1048576, .i1⟩
  | 127 => ⟨S_, .i32⟩
  | _ => ⟨S1048576x2, .f32⟩

abbrev hbmTy0_3 (i : Nat) : BufTy := match i % 128 with
  | 0 => ⟨S1048576, .i32⟩
  | 1 => ⟨S1048576, .i32⟩
  | 2 => ⟨S1048576, .i32⟩
  | 3 => ⟨S_, .i32⟩
  | 4 => ⟨S1048576, .i32⟩
  | 5 => ⟨S1048576, .i1⟩
  | 6 => ⟨S_, .i32⟩
  | 7 => ⟨S1048576, .i32⟩
  | 8 => ⟨S1048576, .i32⟩
  | 9 => ⟨S1048576, .i32⟩
  | 10 => ⟨S1048576x1, .i32⟩
  | 11 => ⟨S1048576x1, .i32⟩
  | 12 => ⟨S1048576x2, .i32⟩
  | 13 => ⟨S1048576x8, .f32⟩
  | 14 => ⟨S_, .i32⟩
  | 15 => ⟨S1048576, .i32⟩
  | 16 => ⟨S1048576, .i1⟩
  | 17 => ⟨S_, .i32⟩
  | 18 => ⟨S1048576, .i32⟩
  | 19 => ⟨S1048576, .i32⟩
  | 20 => ⟨S1048576, .i32⟩
  | 21 => ⟨S_, .i32⟩
  | 22 => ⟨S1048576, .i32⟩
  | 23 => ⟨S1048576, .i1⟩
  | 24 => ⟨S_, .i32⟩
  | 25 => ⟨S1048576, .i32⟩
  | 26 => ⟨S1048576, .i32⟩
  | 27 => ⟨S1048576, .i32⟩
  | 28 => ⟨S1048576x1, .i32⟩
  | 29 => ⟨S1048576x1, .i32⟩
  | 30 => ⟨S1048576x2, .i32⟩
  | 31 => ⟨S1048576x8, .f32⟩
  | 32 => ⟨S_, .i32⟩
  | 33 => ⟨S1048576, .i32⟩
  | 34 => ⟨S1048576, .i1⟩
  | 35 => ⟨S_, .i32⟩
  | 36 => ⟨S1048576, .i32⟩
  | 37 => ⟨S1048576, .i32⟩
  | 38 => ⟨S1048576, .i32⟩
  | 39 => ⟨S_, .i32⟩
  | 40 => ⟨S1048576, .i32⟩
  | 41 => ⟨S1048576, .i1⟩
  | 42 => ⟨S_, .i32⟩
  | 43 => ⟨S1048576, .i32⟩
  | 44 => ⟨S1048576, .i32⟩
  | 45 => ⟨S1048576, .i32⟩
  | 46 => ⟨S1048576x1, .i32⟩
  | 47 => ⟨S1048576x1, .i32⟩
  | 48 => ⟨S1048576x2, .i32⟩
  | 49 => ⟨S1048576x8, .f32⟩
  | 50 => ⟨S_, .f32⟩
  | 51 => ⟨S1048576x1, .f32⟩
  | 52 => ⟨S1048576x1, .f32⟩
  | 53 => ⟨S1048576x8, .f32⟩
  | 54 => ⟨S1048576x8, .f32⟩
  | 55 => ⟨S_, .f32⟩
  | 56 => ⟨S1048576x1, .f32⟩
  | 57 => ⟨S1048576x1, .f32⟩
  | 58 => ⟨S1048576x8, .f32⟩
  | 59 => ⟨S1048576x8, .f32⟩
  | 60 => ⟨S1048576x8, .f32⟩
  | 61 => ⟨S1048576x8, .f32⟩
  | 62 => ⟨S_, .f32⟩
  | 63 => ⟨S1048576x1, .f32⟩
  | 64 => ⟨S1048576x1, .f32⟩
  | 65 => ⟨S1048576x8, .f32⟩
  | 66 => ⟨S1048576x8, .f32⟩
  | 67 => ⟨S1048576x8, .f32⟩
  | 68 => ⟨S_, .f32⟩
  | 69 => ⟨S1048576x1, .f32⟩
  | 70 => ⟨S1048576x1, .f32⟩
  | 71 => ⟨S1048576x8, .f32⟩
  | 72 => ⟨S1048576x8, .f32⟩
  | 73 => ⟨S1048576x8, .f32⟩
  | 74 => ⟨S1048576x8, .f32⟩
  | 75 => ⟨S1048576x8, .f32⟩
  | 76 => ⟨S1048576x8, .f32⟩
  | 77 => ⟨S1048576x8, .f32⟩
  | 78 => ⟨S1048576x8, .f32⟩
  | 79 => ⟨S1048576x8, .f32⟩
  | 80 => ⟨S1048576x8, .f32⟩
  | 81 => ⟨S8x1048576, .f32⟩
  | 82 => ⟨S2x1048576, .f32⟩
  | 83 => ⟨S12x1048576, .f32⟩
  | 84 => ⟨S32x1, .f32⟩
  | 85 => ⟨S32x1, .f32⟩
  | 86 => ⟨S32x1, .f32⟩
  | 87 => ⟨S3x1, .f32⟩
  | 88 => ⟨S3x1048576, .f32⟩
  | 89 => ⟨S1048576x3, .f32⟩
  | _ => ⟨S1048576x2, .f32⟩

abbrev hbmTy (i : Nat) : BufTy := match i / 128 with
  | 0 => hbmTy0_0 i
  | 1 => hbmTy0_1 i
  | 2 => hbmTy0_2 i
  | 3 => hbmTy0_3 i
  | _ => ⟨S1048576x2, .f32⟩

abbrev bufTy : (tb : Table) → Fin (tcTables nBuf tb) → BufTy
  | .hbm, ⟨i, _⟩ => hbmTy i
  | .local _ .vmem, ⟨0, _⟩ => ⟨S12x131072, .f32⟩
  | .local _ .vmem, ⟨1, _⟩ => ⟨S12x131072, .f32⟩
  | .local _ .vmem, ⟨2, _⟩ => ⟨S32x10, .f32⟩
  | .local _ .vmem, ⟨3, _⟩ => ⟨S32x1, .f32⟩
  | .local _ .vmem, ⟨4, _⟩ => ⟨S32x32, .f32⟩
  | .local _ .vmem, ⟨5, _⟩ => ⟨S32x1, .f32⟩
  | .local _ .vmem, ⟨6, _⟩ => ⟨S32x32, .f32⟩
  | .local _ .vmem, ⟨7, _⟩ => ⟨S32x1, .f32⟩
  | .local _ .vmem, ⟨8, _⟩ => ⟨S1x32, .f32⟩
  | .local _ .vmem, ⟨9, _⟩ => ⟨S1x1, .f32⟩
  | .local _ .vmem, ⟨10, _⟩ => ⟨S2x131072, .f32⟩
  | .local _ .vmem, ⟨11, _⟩ => ⟨S2x131072, .f32⟩
  | .local _ .vmem, ⟨12, _⟩ => ⟨S12x131072, .f32⟩
  | .local _ .vmem, ⟨13, _⟩ => ⟨S12x131072, .f32⟩
  | .local _ .vmem, ⟨14, _⟩ => ⟨S32x12, .f32⟩
  | .local _ .vmem, ⟨15, _⟩ => ⟨S32x1, .f32⟩
  | .local _ .vmem, ⟨16, _⟩ => ⟨S32x32, .f32⟩
  | .local _ .vmem, ⟨17, _⟩ => ⟨S32x1, .f32⟩
  | .local _ .vmem, ⟨18, _⟩ => ⟨S32x32, .f32⟩
  | .local _ .vmem, ⟨19, _⟩ => ⟨S32x1, .f32⟩
  | .local _ .vmem, ⟨20, _⟩ => ⟨S3x32, .f32⟩
  | .local _ .vmem, ⟨21, _⟩ => ⟨S3x1, .f32⟩
  | .local _ .vmem, ⟨22, _⟩ => ⟨S3x131072, .f32⟩
  | .local _ .vmem, ⟨23, _⟩ => ⟨S3x131072, .f32⟩
  | _, _ => ⟨S1048576x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_cst_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c : Ref sig .tc := ⟨.hbm, 33, rfl⟩
abbrev main_call0_v0 : Ref sig .tc := ⟨.hbm, 34, rfl⟩
abbrev main_call0_c : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_c_1 : Ref sig .tc := ⟨.hbm, 41, rfl⟩
abbrev main_call0_v5 : Ref sig .tc := ⟨.hbm, 42, rfl⟩
abbrev main_call0_v6 : Ref sig .tc := ⟨.hbm, 43, rfl⟩
abbrev main_call0_c_2 : Ref sig .tc := ⟨.hbm, 44, rfl⟩
abbrev main_call0_v7 : Ref sig .tc := ⟨.hbm, 45, rfl⟩
abbrev main_call0_v8 : Ref sig .tc := ⟨.hbm, 46, rfl⟩
abbrev main_call0_c_3 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_c_1 : Ref sig .tc := ⟨.hbm, 57, rfl⟩
abbrev main_v13 : Ref sig .tc := ⟨.hbm, 58, rfl⟩
abbrev main_v14 : Ref sig .tc := ⟨.hbm, 59, rfl⟩
abbrev main_c_2 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_1 : Ref sig .tc := ⟨.hbm, 68, rfl⟩
abbrev main_call1_v5 : Ref sig .tc := ⟨.hbm, 69, rfl⟩
abbrev main_call1_v6 : Ref sig .tc := ⟨.hbm, 70, rfl⟩
abbrev main_call1_c_2 : Ref sig .tc := ⟨.hbm, 71, rfl⟩
abbrev main_call1_v7 : Ref sig .tc := ⟨.hbm, 72, rfl⟩
abbrev main_call1_v8 : Ref sig .tc := ⟨.hbm, 73, rfl⟩
abbrev main_call1_c_3 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_c_3 : Ref sig .tc := ⟨.hbm, 84, rfl⟩
abbrev main_call2_v0 : Ref sig .tc := ⟨.hbm, 85, rfl⟩
abbrev main_call2_c : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_c_1 : Ref sig .tc := ⟨.hbm, 92, rfl⟩
abbrev main_call2_v5 : Ref sig .tc := ⟨.hbm, 93, rfl⟩
abbrev main_call2_v6 : Ref sig .tc := ⟨.hbm, 94, rfl⟩
abbrev main_call2_c_2 : Ref sig .tc := ⟨.hbm, 95, rfl⟩
abbrev main_call2_v7 : Ref sig .tc := ⟨.hbm, 96, rfl⟩
abbrev main_call2_v8 : Ref sig .tc := ⟨.hbm, 97, rfl⟩
abbrev main_call2_c_3 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_v12 : Ref sig .tc := ⟨.hbm, 102, rfl⟩
abbrev main_call2_v13 : Ref sig .tc := ⟨.hbm, 103, rfl⟩
abbrev main_call2_v14 : Ref sig .tc := ⟨.hbm, 104, rfl⟩
abbrev main_v18 : Ref sig .tc := ⟨.hbm, 105, rfl⟩
abbrev main_v19 : Ref sig .tc := ⟨.hbm, 106, rfl⟩
abbrev main_v20 : Ref sig .tc := ⟨.hbm, 107, rfl⟩
abbrev main_c_4 : Ref sig .tc := ⟨.hbm, 108, rfl⟩
abbrev main_v21 : Ref sig .tc := ⟨.hbm, 109, rfl⟩
abbrev main_v22 : Ref sig .tc := ⟨.hbm, 110, rfl⟩
abbrev main_c_5 : Ref sig .tc := ⟨.hbm, 111, rfl⟩
abbrev main_call3_v0 : Ref sig .tc := ⟨.hbm, 112, rfl⟩
abbrev main_call3_c : Ref sig .tc := ⟨.hbm, 113, rfl⟩
abbrev main_call3_v1 : Ref sig .tc := ⟨.hbm, 114, rfl⟩
abbrev main_call3_c_0 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_c_1 : Ref sig .tc := ⟨.hbm, 119, rfl⟩
abbrev main_call3_v5 : Ref sig .tc := ⟨.hbm, 120, rfl⟩
abbrev main_call3_v6 : Ref sig .tc := ⟨.hbm, 121, rfl⟩
abbrev main_call3_c_2 : Ref sig .tc := ⟨.hbm, 122, rfl⟩
abbrev main_call3_v7 : Ref sig .tc := ⟨.hbm, 123, rfl⟩
abbrev main_call3_v8 : Ref sig .tc := ⟨.hbm, 124, rfl⟩
abbrev main_call3_c_3 : Ref sig .tc := ⟨.hbm, 125, rfl⟩
abbrev main_call3_v9 : Ref sig .tc := ⟨.hbm, 126, rfl⟩
abbrev main_call3_v10 : Ref sig .tc := ⟨.hbm, 127, rfl⟩
abbrev main_call3_v11 : Ref sig .tc := ⟨.hbm, 128, rfl⟩
abbrev main_call3_v12 : Ref sig .tc := ⟨.hbm, 129, rfl⟩
abbrev main_call3_v13 : Ref sig .tc := ⟨.hbm, 130, rfl⟩
abbrev main_call3_v14 : Ref sig .tc := ⟨.hbm, 131, rfl⟩
abbrev main_v23 : Ref sig .tc := ⟨.hbm, 132, rfl⟩
abbrev main_v24 : Ref sig .tc := ⟨.hbm, 133, rfl⟩
abbrev main_v25 : Ref sig .tc := ⟨.hbm, 134, rfl⟩
abbrev main_c_6 : Ref sig .tc := ⟨.hbm, 135, rfl⟩
abbrev main_v26 : Ref sig .tc := ⟨.hbm, 136, rfl⟩
abbrev main_v27 : Ref sig .tc := ⟨.hbm, 137, rfl⟩
abbrev main_c_7 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_c_8 : Ref sig .tc := ⟨.hbm, 142, rfl⟩
abbrev main_v31 : Ref sig .tc := ⟨.hbm, 143, rfl⟩
abbrev main_v32 : Ref sig .tc := ⟨.hbm, 144, rfl⟩
abbrev main_c_9 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_v39 : Ref sig .tc := ⟨.hbm, 152, rfl⟩
abbrev main_c_10 : Ref sig .tc := ⟨.hbm, 153, rfl⟩
abbrev main_v40 : Ref sig .tc := ⟨.hbm, 154, rfl⟩
abbrev main_v41 : Ref sig .tc := ⟨.hbm, 155, rfl⟩
abbrev main_c_11 : Ref sig .tc := ⟨.hbm, 156, rfl⟩
abbrev main_v42 : Ref sig .tc := ⟨.hbm, 157, rfl⟩
abbrev main_v43 : Ref sig .tc := ⟨.hbm, 158, rfl⟩
abbrev main_v44 : Ref sig .tc := ⟨.hbm, 159, rfl⟩
abbrev main_c_12 : Ref sig .tc := ⟨.hbm, 160, rfl⟩
abbrev main_v45 : Ref sig .tc := ⟨.hbm, 161, rfl⟩
abbrev main_v46 : Ref sig .tc := ⟨.hbm, 162, rfl⟩
abbrev main_c_13 : Ref sig .tc := ⟨.hbm, 163, rfl⟩
abbrev main_v47 : Ref sig .tc := ⟨.hbm, 164, rfl⟩
abbrev main_v48 : Ref sig .tc := ⟨.hbm, 165, rfl⟩
abbrev main_v49 : Ref sig .tc := ⟨.hbm, 166, rfl⟩
abbrev main_v50 : Ref sig .tc := ⟨.hbm, 167, rfl⟩
abbrev main_v51 : Ref sig .tc := ⟨.hbm, 168, rfl⟩
abbrev main_v52 : Ref sig .tc := ⟨.hbm, 169, rfl⟩
abbrev main_v53 : Ref sig .tc := ⟨.hbm, 170, rfl⟩
abbrev main_c_14 : Ref sig .tc := ⟨.hbm, 171, rfl⟩
abbrev main_v54 : Ref sig .tc := ⟨.hbm, 172, rfl⟩
abbrev main_v55 : Ref sig .tc := ⟨.hbm, 173, rfl⟩
abbrev main_c_15 : Ref sig .tc := ⟨.hbm, 174, rfl⟩
abbrev main_v56 : Ref sig .tc := ⟨.hbm, 175, rfl⟩
abbrev main_v57 : Ref sig .tc := ⟨.hbm, 176, rfl⟩
abbrev main_v58 : Ref sig .tc := ⟨.hbm, 177, rfl⟩
abbrev main_c_16 : Ref sig .tc := ⟨.hbm, 178, rfl⟩
abbrev main_v59 : Ref sig .tc := ⟨.hbm, 179, rfl⟩
abbrev main_v60 : Ref sig .tc := ⟨.hbm, 180, rfl⟩
abbrev main_c_17 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_c_18 : Ref sig .tc := ⟨.hbm, 189, rfl⟩
abbrev main_v68 : Ref sig .tc := ⟨.hbm, 190, rfl⟩
abbrev main_v69 : Ref sig .tc := ⟨.hbm, 191, rfl⟩
abbrev main_c_19 : Ref sig .tc := ⟨.hbm, 192, rfl⟩
abbrev main_v70 : Ref sig .tc := ⟨.hbm, 193, rfl⟩
abbrev main_v71 : Ref sig .tc := ⟨.hbm, 194, rfl⟩
abbrev main_v72 : Ref sig .tc := ⟨.hbm, 195, rfl⟩
abbrev main_c_20 : Ref sig .tc := ⟨.hbm, 196, rfl⟩
abbrev main_v73 : Ref sig .tc := ⟨.hbm, 197, rfl⟩
abbrev main_v74 : Ref sig .tc := ⟨.hbm, 198, rfl⟩
abbrev main_c_21 : Ref sig .tc := ⟨.hbm, 199, rfl⟩
abbrev main_v75 : Ref sig .tc := ⟨.hbm, 200, rfl⟩
abbrev main_v76 : Ref sig .tc := ⟨.hbm, 201, rfl⟩
abbrev main_v77 : Ref sig .tc := ⟨.hbm, 202, rfl⟩
abbrev main_v78 : Ref sig .tc := ⟨.hbm, 203, rfl⟩
abbrev main_v79 : Ref sig .tc := ⟨.hbm, 204, rfl⟩
abbrev main_v80 : Ref sig .tc := ⟨.hbm, 205, rfl⟩
abbrev main_v81 : Ref sig .tc := ⟨.hbm, 206, rfl⟩
abbrev main_cst_22 : Ref sig .tc := ⟨.hbm, 207, rfl⟩
abbrev main_v82 : Ref sig .tc := ⟨.hbm, 208, rfl⟩
abbrev main_v83 : Ref sig .tc := ⟨.hbm, 209, rfl⟩
abbrev main_v84 : Ref sig .tc := ⟨.hbm, 210, rfl⟩
abbrev main_v85 : Ref sig .tc := ⟨.hbm, 211, rfl⟩
abbrev main_cst_23 : Ref sig .tc := ⟨.hbm, 212, rfl⟩
abbrev main_v86 : Ref sig .tc := ⟨.hbm, 213, rfl⟩
abbrev main_v87 : Ref sig .tc := ⟨.hbm, 214, rfl⟩
abbrev main_v88 : Ref sig .tc := ⟨.hbm, 215, rfl⟩
abbrev main_v89 : Ref sig .tc := ⟨.hbm, 216, rfl⟩
abbrev main_v90 : Ref sig .tc := ⟨.hbm, 217, rfl⟩
abbrev main_v91 : Ref sig .tc := ⟨.hbm, 218, rfl⟩
abbrev main_cst_24 : Ref sig .tc := ⟨.hbm, 219, rfl⟩
abbrev main_v92 : Ref sig .tc := ⟨.hbm, 220, rfl⟩
abbrev main_v93 : Ref sig .tc := ⟨.hbm, 221, rfl⟩
abbrev main_v94 : Ref sig .tc := ⟨.hbm, 222, rfl⟩
abbrev main_v95 : Ref sig .tc := ⟨.hbm, 223, rfl⟩
abbrev main_v96 : Ref sig .tc := ⟨.hbm, 224, rfl⟩
abbrev main_cst_25 : Ref sig .tc := ⟨.hbm, 225, rfl⟩
abbrev main_v97 : Ref sig .tc := ⟨.hbm, 226, rfl⟩
abbrev main_v98 : Ref sig .tc := ⟨.hbm, 227, rfl⟩
abbrev main_v99 : Ref sig .tc := ⟨.hbm, 228, rfl⟩
abbrev main_v100 : Ref sig .tc := ⟨.hbm, 229, rfl⟩
abbrev main_v101 : Ref sig .tc := ⟨.hbm, 230, rfl⟩
abbrev main_v102 : Ref sig .tc := ⟨.hbm, 231, rfl⟩
abbrev main_v103 : Ref sig .tc := ⟨.hbm, 232, rfl⟩
abbrev main_v104 : Ref sig .tc := ⟨.hbm, 233, rfl⟩
abbrev main_v105 : Ref sig .tc := ⟨.hbm, 234, rfl⟩
abbrev main_v106 : Ref sig .tc := ⟨.hbm, 235, rfl⟩
abbrev main_v107 : Ref sig .tc := ⟨.hbm, 236, rfl⟩
abbrev main_v108 : Ref sig .tc := ⟨.hbm, 237, rfl⟩
abbrev main_v109 : Ref sig .tc := ⟨.hbm, 238, rfl⟩
abbrev main_v110 : Ref sig .tc := ⟨.hbm, 239, rfl⟩
abbrev main_v111 : Ref sig .tc := ⟨.hbm, 240, rfl⟩
abbrev main_v112 : Ref sig .tc := ⟨.hbm, 241, rfl⟩
abbrev main_v113 : Ref sig .tc := ⟨.hbm, 242, rfl⟩
abbrev main_v114 : Ref sig .tc := ⟨.hbm, 243, rfl⟩
abbrev main_v115 : Ref sig .tc := ⟨.hbm, 244, rfl⟩
abbrev main_v116 : Ref sig .tc := ⟨.hbm, 245, rfl⟩
abbrev main_v117 : Ref sig .tc := ⟨.hbm, 246, rfl⟩
abbrev main_v118 : Ref sig .tc := ⟨.hbm, 247, rfl⟩
abbrev main_cst_26 : Ref sig .tc := ⟨.hbm, 248, rfl⟩
abbrev main_v119 : Ref sig .tc := ⟨.hbm, 249, rfl⟩
abbrev main_v120 : Ref sig .tc := ⟨.hbm, 250, rfl⟩
abbrev main_cst_27 : Ref sig .tc := ⟨.hbm, 251, rfl⟩
abbrev main_v121 : Ref sig .tc := ⟨.hbm, 252, rfl⟩
abbrev main_v122 : Ref sig .tc := ⟨.hbm, 253, rfl⟩
abbrev main_v123 : Ref sig .tc := ⟨.hbm, 254, rfl⟩
abbrev main_v124 : Ref sig .tc := ⟨.hbm, 255, rfl⟩
abbrev main_v125 : Ref sig .tc := ⟨.hbm, 256, rfl⟩
abbrev main_v126 : Ref sig .tc := ⟨.hbm, 257, rfl⟩
abbrev main_v127 : Ref sig .tc := ⟨.hbm, 258, rfl⟩
abbrev main_v128 : Ref sig .tc := ⟨.hbm, 259, rfl⟩
abbrev main_c_28 : Ref sig .tc := ⟨.hbm, 260, rfl⟩
abbrev main_call4_v0 : Ref sig .tc := ⟨.hbm, 261, rfl⟩
abbrev main_call4_c : Ref sig .tc := ⟨.hbm, 262, rfl⟩
abbrev main_call4_v1 : Ref sig .tc := ⟨.hbm, 263, rfl⟩
abbrev main_call4_c_0 : Ref sig .tc := ⟨.hbm, 264, rfl⟩
abbrev main_call4_v2 : Ref sig .tc := ⟨.hbm, 265, rfl⟩
abbrev main_call4_v3 : Ref sig .tc := ⟨.hbm, 266, rfl⟩
abbrev main_call4_v4 : Ref sig .tc := ⟨.hbm, 267, rfl⟩
abbrev main_call4_c_1 : Ref sig .tc := ⟨.hbm, 268, rfl⟩
abbrev main_call4_v5 : Ref sig .tc := ⟨.hbm, 269, rfl⟩
abbrev main_call4_v6 : Ref sig .tc := ⟨.hbm, 270, rfl⟩
abbrev main_call4_c_2 : Ref sig .tc := ⟨.hbm, 271, rfl⟩
abbrev main_call4_v7 : Ref sig .tc := ⟨.hbm, 272, rfl⟩
abbrev main_call4_v8 : Ref sig .tc := ⟨.hbm, 273, rfl⟩
abbrev main_call4_c_3 : Ref sig .tc := ⟨.hbm, 274, rfl⟩
abbrev main_call4_v9 : Ref sig .tc := ⟨.hbm, 275, rfl⟩
abbrev main_call4_v10 : Ref sig .tc := ⟨.hbm, 276, rfl⟩
abbrev main_call4_v11 : Ref sig .tc := ⟨.hbm, 277, rfl⟩
abbrev main_call4_v12 : Ref sig .tc := ⟨.hbm, 278, rfl⟩
abbrev main_call4_v13 : Ref sig .tc := ⟨.hbm, 279, rfl⟩
abbrev main_call4_v14 : Ref sig .tc := ⟨.hbm, 280, rfl⟩
abbrev main_v129 : Ref sig .tc := ⟨.hbm, 281, rfl⟩
abbrev main_v130 : Ref sig .tc := ⟨.hbm, 282, rfl⟩
abbrev main_v131 : Ref sig .tc := ⟨.hbm, 283, rfl⟩
abbrev main_c_29 : Ref sig .tc := ⟨.hbm, 284, rfl⟩
abbrev main_v132 : Ref sig .tc := ⟨.hbm, 285, rfl⟩
abbrev main_v133 : Ref sig .tc := ⟨.hbm, 286, rfl⟩
abbrev main_c_30 : Ref sig .tc := ⟨.hbm, 287, rfl⟩
abbrev main_call5_v0 : Ref sig .tc := ⟨.hbm, 288, rfl⟩
abbrev main_call5_c : Ref sig .tc := ⟨.hbm, 289, rfl⟩
abbrev main_call5_v1 : Ref sig .tc := ⟨.hbm, 290, rfl⟩
abbrev main_call5_c_0 : Ref sig .tc := ⟨.hbm, 291, rfl⟩
abbrev main_call5_v2 : Ref sig .tc := ⟨.hbm, 292, rfl⟩
abbrev main_call5_v3 : Ref sig .tc := ⟨.hbm, 293, rfl⟩
abbrev main_call5_v4 : Ref sig .tc := ⟨.hbm, 294, rfl⟩
abbrev main_call5_c_1 : Ref sig .tc := ⟨.hbm, 295, rfl⟩
abbrev main_call5_v5 : Ref sig .tc := ⟨.hbm, 296, rfl⟩
abbrev main_call5_v6 : Ref sig .tc := ⟨.hbm, 297, rfl⟩
abbrev main_call5_c_2 : Ref sig .tc := ⟨.hbm, 298, rfl⟩
abbrev main_call5_v7 : Ref sig .tc := ⟨.hbm, 299, rfl⟩
abbrev main_call5_v8 : Ref sig .tc := ⟨.hbm, 300, rfl⟩
abbrev main_call5_c_3 : Ref sig .tc := ⟨.hbm, 301, rfl⟩
abbrev main_call5_v9 : Ref sig .tc := ⟨.hbm, 302, rfl⟩
abbrev main_call5_v10 : Ref sig .tc := ⟨.hbm, 303, rfl⟩
abbrev main_call5_v11 : Ref sig .tc := ⟨.hbm, 304, rfl⟩
abbrev main_call5_v12 : Ref sig .tc := ⟨.hbm, 305, rfl⟩
abbrev main_call5_v13 : Ref sig .tc := ⟨.hbm, 306, rfl⟩
abbrev main_call5_v14 : Ref sig .tc := ⟨.hbm, 307, rfl⟩
abbrev main_v134 : Ref sig .tc := ⟨.hbm, 308, rfl⟩
abbrev main_v135 : Ref sig .tc := ⟨.hbm, 309, rfl⟩
abbrev main_v136 : Ref sig .tc := ⟨.hbm, 310, rfl⟩
abbrev main_c_31 : Ref sig .tc := ⟨.hbm, 311, rfl⟩
abbrev main_call6_v0 : Ref sig .tc := ⟨.hbm, 312, rfl⟩
abbrev main_call6_c : Ref sig .tc := ⟨.hbm, 313, rfl⟩
abbrev main_call6_v1 : Ref sig .tc := ⟨.hbm, 314, rfl⟩
abbrev main_call6_c_0 : Ref sig .tc := ⟨.hbm, 315, rfl⟩
abbrev main_call6_v2 : Ref sig .tc := ⟨.hbm, 316, rfl⟩
abbrev main_call6_v3 : Ref sig .tc := ⟨.hbm, 317, rfl⟩
abbrev main_call6_v4 : Ref sig .tc := ⟨.hbm, 318, rfl⟩
abbrev main_call6_c_1 : Ref sig .tc := ⟨.hbm, 319, rfl⟩
abbrev main_call6_v5 : Ref sig .tc := ⟨.hbm, 320, rfl⟩
abbrev main_call6_v6 : Ref sig .tc := ⟨.hbm, 321, rfl⟩
abbrev main_call6_c_2 : Ref sig .tc := ⟨.hbm, 322, rfl⟩
abbrev main_call6_v7 : Ref sig .tc := ⟨.hbm, 323, rfl⟩
abbrev main_call6_v8 : Ref sig .tc := ⟨.hbm, 324, rfl⟩
abbrev main_call6_c_3 : Ref sig .tc := ⟨.hbm, 325, rfl⟩
abbrev main_call6_v9 : Ref sig .tc := ⟨.hbm, 326, rfl⟩
abbrev main_call6_v10 : Ref sig .tc := ⟨.hbm, 327, rfl⟩
abbrev main_call6_v11 : Ref sig .tc := ⟨.hbm, 328, rfl⟩
abbrev main_call6_v12 : Ref sig .tc := ⟨.hbm, 329, rfl⟩
abbrev main_call6_v13 : Ref sig .tc := ⟨.hbm, 330, rfl⟩
abbrev main_call6_v14 : Ref sig .tc := ⟨.hbm, 331, rfl⟩
abbrev main_v137 : Ref sig .tc := ⟨.hbm, 332, rfl⟩
abbrev main_v138 : Ref sig .tc := ⟨.hbm, 333, rfl⟩
abbrev main_v139 : Ref sig .tc := ⟨.hbm, 334, rfl⟩
abbrev main_c_32 : Ref sig .tc := ⟨.hbm, 335, rfl⟩
abbrev main_v140 : Ref sig .tc := ⟨.hbm, 336, rfl⟩
abbrev main_v141 : Ref sig .tc := ⟨.hbm, 337, rfl⟩
abbrev main_c_33 : Ref sig .tc := ⟨.hbm, 338, rfl⟩
abbrev main_call7_v0 : Ref sig .tc := ⟨.hbm, 339, rfl⟩
abbrev main_call7_c : Ref sig .tc := ⟨.hbm, 340, rfl⟩
abbrev main_call7_v1 : Ref sig .tc := ⟨.hbm, 341, rfl⟩
abbrev main_call7_c_0 : Ref sig .tc := ⟨.hbm, 342, rfl⟩
abbrev main_call7_v2 : Ref sig .tc := ⟨.hbm, 343, rfl⟩
abbrev main_call7_v3 : Ref sig .tc := ⟨.hbm, 344, rfl⟩
abbrev main_call7_v4 : Ref sig .tc := ⟨.hbm, 345, rfl⟩
abbrev main_call7_c_1 : Ref sig .tc := ⟨.hbm, 346, rfl⟩
abbrev main_call7_v5 : Ref sig .tc := ⟨.hbm, 347, rfl⟩
abbrev main_call7_v6 : Ref sig .tc := ⟨.hbm, 348, rfl⟩
abbrev main_call7_c_2 : Ref sig .tc := ⟨.hbm, 349, rfl⟩
abbrev main_call7_v7 : Ref sig .tc := ⟨.hbm, 350, rfl⟩
abbrev main_call7_v8 : Ref sig .tc := ⟨.hbm, 351, rfl⟩
abbrev main_call7_c_3 : Ref sig .tc := ⟨.hbm, 352, rfl⟩
abbrev main_call7_v9 : Ref sig .tc := ⟨.hbm, 353, rfl⟩
abbrev main_call7_v10 : Ref sig .tc := ⟨.hbm, 354, rfl⟩
abbrev main_call7_v11 : Ref sig .tc := ⟨.hbm, 355, rfl⟩
abbrev main_call7_v12 : Ref sig .tc := ⟨.hbm, 356, rfl⟩
abbrev main_call7_v13 : Ref sig .tc := ⟨.hbm, 357, rfl⟩
abbrev main_call7_v14 : Ref sig .tc := ⟨.hbm, 358, rfl⟩
abbrev main_v142 : Ref sig .tc := ⟨.hbm, 359, rfl⟩
abbrev main_v143 : Ref sig .tc := ⟨.hbm, 360, rfl⟩
abbrev main_v144 : Ref sig .tc := ⟨.hbm, 361, rfl⟩
abbrev main_c_34 : Ref sig .tc := ⟨.hbm, 362, rfl⟩
abbrev main_v145 : Ref sig .tc := ⟨.hbm, 363, rfl⟩
abbrev main_v146 : Ref sig .tc := ⟨.hbm, 364, rfl⟩
abbrev main_c_35 : Ref sig .tc := ⟨.hbm, 365, rfl⟩
abbrev main_v147 : Ref sig .tc := ⟨.hbm, 366, rfl⟩
abbrev main_v148 : Ref sig .tc := ⟨.hbm, 367, rfl⟩
abbrev main_v149 : Ref sig .tc := ⟨.hbm, 368, rfl⟩
abbrev main_c_36 : Ref sig .tc := ⟨.hbm, 369, rfl⟩
abbrev main_v150 : Ref sig .tc := ⟨.hbm, 370, rfl⟩
abbrev main_v151 : Ref sig .tc := ⟨.hbm, 371, rfl⟩
abbrev main_c_37 : Ref sig .tc := ⟨.hbm, 372, rfl⟩
abbrev main_v152 : Ref sig .tc := ⟨.hbm, 373, rfl⟩
abbrev main_v153 : Ref sig .tc := ⟨.hbm, 374, rfl⟩
abbrev main_v154 : Ref sig .tc := ⟨.hbm, 375, rfl⟩
abbrev main_v155 : Ref sig .tc := ⟨.hbm, 376, rfl⟩
abbrev main_v156 : Ref sig .tc := ⟨.hbm, 377, rfl⟩
abbrev main_v157 : Ref sig .tc := ⟨.hbm, 378, rfl⟩
abbrev main_v158 : Ref sig .tc := ⟨.hbm, 379, rfl⟩
abbrev main_c_38 : Ref sig .tc := ⟨.hbm, 380, rfl⟩
abbrev main_v159 : Ref sig .tc := ⟨.hbm, 381, rfl⟩
abbrev main_v160 : Ref sig .tc := ⟨.hbm, 382, rfl⟩
abbrev main_c_39 : Ref sig .tc := ⟨.hbm, 383, rfl⟩
abbrev main_v161 : Ref sig .tc := ⟨.hbm, 384, rfl⟩
abbrev main_v162 : Ref sig .tc := ⟨.hbm, 385, rfl⟩
abbrev main_v163 : Ref sig .tc := ⟨.hbm, 386, rfl⟩
abbrev main_c_40 : Ref sig .tc := ⟨.hbm, 387, rfl⟩
abbrev main_v164 : Ref sig .tc := ⟨.hbm, 388, rfl⟩
abbrev main_v165 : Ref sig .tc := ⟨.hbm, 389, rfl⟩
abbrev main_c_41 : Ref sig .tc := ⟨.hbm, 390, rfl⟩
abbrev main_v166 : Ref sig .tc := ⟨.hbm, 391, rfl⟩
abbrev main_v167 : Ref sig .tc := ⟨.hbm, 392, rfl⟩
abbrev main_v168 : Ref sig .tc := ⟨.hbm, 393, rfl⟩
abbrev main_v169 : Ref sig .tc := ⟨.hbm, 394, rfl⟩
abbrev main_v170 : Ref sig .tc := ⟨.hbm, 395, rfl⟩
abbrev main_v171 : Ref sig .tc := ⟨.hbm, 396, rfl⟩
abbrev main_v172 : Ref sig .tc := ⟨.hbm, 397, rfl⟩
abbrev main_c_42 : Ref sig .tc := ⟨.hbm, 398, rfl⟩
abbrev main_v173 : Ref sig .tc := ⟨.hbm, 399, rfl⟩
abbrev main_v174 : Ref sig .tc := ⟨.hbm, 400, rfl⟩
abbrev main_c_43 : Ref sig .tc := ⟨.hbm, 401, rfl⟩
abbrev main_v175 : Ref sig .tc := ⟨.hbm, 402, rfl⟩
abbrev main_v176 : Ref sig .tc := ⟨.hbm, 403, rfl⟩
abbrev main_v177 : Ref sig .tc := ⟨.hbm, 404, rfl⟩
abbrev main_c_44 : Ref sig .tc := ⟨.hbm, 405, rfl⟩
abbrev main_v178 : Ref sig .tc := ⟨.hbm, 406, rfl⟩
abbrev main_v179 : Ref sig .tc := ⟨.hbm, 407, rfl⟩
abbrev main_c_45 : Ref sig .tc := ⟨.hbm, 408, rfl⟩
abbrev main_v180 : Ref sig .tc := ⟨.hbm, 409, rfl⟩
abbrev main_v181 : Ref sig .tc := ⟨.hbm, 410, rfl⟩
abbrev main_v182 : Ref sig .tc := ⟨.hbm, 411, rfl⟩
abbrev main_v183 : Ref sig .tc := ⟨.hbm, 412, rfl⟩
abbrev main_v184 : Ref sig .tc := ⟨.hbm, 413, rfl⟩
abbrev main_v185 : Ref sig .tc := ⟨.hbm, 414, rfl⟩
abbrev main_v186 : Ref sig .tc := ⟨.hbm, 415, rfl⟩
abbrev main_c_46 : Ref sig .tc := ⟨.hbm, 416, rfl⟩
abbrev main_v187 : Ref sig .tc := ⟨.hbm, 417, rfl⟩
abbrev main_v188 : Ref sig .tc := ⟨.hbm, 418, rfl⟩
abbrev main_c_47 : Ref sig .tc := ⟨.hbm, 419, rfl⟩
abbrev main_v189 : Ref sig .tc := ⟨.hbm, 420, rfl⟩
abbrev main_v190 : Ref sig .tc := ⟨.hbm, 421, rfl⟩
abbrev main_v191 : Ref sig .tc := ⟨.hbm, 422, rfl⟩
abbrev main_c_48 : Ref sig .tc := ⟨.hbm, 423, rfl⟩
abbrev main_v192 : Ref sig .tc := ⟨.hbm, 424, rfl⟩
abbrev main_v193 : Ref sig .tc := ⟨.hbm, 425, rfl⟩
abbrev main_c_49 : Ref sig .tc := ⟨.hbm, 426, rfl⟩
abbrev main_v194 : Ref sig .tc := ⟨.hbm, 427, rfl⟩
abbrev main_v195 : Ref sig .tc := ⟨.hbm, 428, rfl⟩
abbrev main_v196 : Ref sig .tc := ⟨.hbm, 429, rfl⟩
abbrev main_v197 : Ref sig .tc := ⟨.hbm, 430, rfl⟩
abbrev main_v198 : Ref sig .tc := ⟨.hbm, 431, rfl⟩
abbrev main_v199 : Ref sig .tc := ⟨.hbm, 432, rfl⟩
abbrev main_v200 : Ref sig .tc := ⟨.hbm, 433, rfl⟩
abbrev main_cst_50 : Ref sig .tc := ⟨.hbm, 434, rfl⟩
abbrev main_v201 : Ref sig .tc := ⟨.hbm, 435, rfl⟩
abbrev main_v202 : Ref sig .tc := ⟨.hbm, 436, rfl⟩
abbrev main_v203 : Ref sig .tc := ⟨.hbm, 437, rfl⟩
abbrev main_v204 : Ref sig .tc := ⟨.hbm, 438, rfl⟩
abbrev main_cst_51 : Ref sig .tc := ⟨.hbm, 439, rfl⟩
abbrev main_v205 : Ref sig .tc := ⟨.hbm, 440, rfl⟩
abbrev main_v206 : Ref sig .tc := ⟨.hbm, 441, rfl⟩
abbrev main_v207 : Ref sig .tc := ⟨.hbm, 442, rfl⟩
abbrev main_v208 : Ref sig .tc := ⟨.hbm, 443, rfl⟩
abbrev main_v209 : Ref sig .tc := ⟨.hbm, 444, rfl⟩
abbrev main_v210 : Ref sig .tc := ⟨.hbm, 445, rfl⟩
abbrev main_cst_52 : Ref sig .tc := ⟨.hbm, 446, rfl⟩
abbrev main_v211 : Ref sig .tc := ⟨.hbm, 447, rfl⟩
abbrev main_v212 : Ref sig .tc := ⟨.hbm, 448, rfl⟩
abbrev main_v213 : Ref sig .tc := ⟨.hbm, 449, rfl⟩
abbrev main_v214 : Ref sig .tc := ⟨.hbm, 450, rfl⟩
abbrev main_v215 : Ref sig .tc := ⟨.hbm, 451, rfl⟩
abbrev main_cst_53 : Ref sig .tc := ⟨.hbm, 452, rfl⟩
abbrev main_v216 : Ref sig .tc := ⟨.hbm, 453, rfl⟩
abbrev main_v217 : Ref sig .tc := ⟨.hbm, 454, rfl⟩
abbrev main_v218 : Ref sig .tc := ⟨.hbm, 455, rfl⟩
abbrev main_v219 : Ref sig .tc := ⟨.hbm, 456, rfl⟩
abbrev main_v220 : Ref sig .tc := ⟨.hbm, 457, rfl⟩
abbrev main_v221 : Ref sig .tc := ⟨.hbm, 458, rfl⟩
abbrev main_v222 : Ref sig .tc := ⟨.hbm, 459, rfl⟩
abbrev main_v223 : Ref sig .tc := ⟨.hbm, 460, rfl⟩
abbrev main_v224 : Ref sig .tc := ⟨.hbm, 461, rfl⟩
abbrev main_v225 : Ref sig .tc := ⟨.hbm, 462, rfl⟩
abbrev main_v226 : Ref sig .tc := ⟨.hbm, 463, rfl⟩
abbrev main_v227 : Ref sig .tc := ⟨.hbm, 464, rfl⟩
abbrev main_v228 : Ref sig .tc := ⟨.hbm, 465, rfl⟩
abbrev main_v229 : Ref sig .tc := ⟨.hbm, 466, rfl⟩
abbrev main_v230 : Ref sig .tc := ⟨.hbm, 467, rfl⟩
abbrev main_v231 : Ref sig .tc := ⟨.hbm, 468, rfl⟩
abbrev main_v232 : Ref sig .tc := ⟨.hbm, 469, rfl⟩
abbrev main_v233 : Ref sig .tc := ⟨.hbm, 470, rfl⟩
abbrev main_v234 : Ref sig .tc := ⟨.hbm, 471, rfl⟩
abbrev main_v235 : Ref sig .tc := ⟨.hbm, 472, rfl⟩
abbrev main_v236 : Ref sig .tc := ⟨.hbm, 473, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S12x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x131072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S12x131072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x12 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S3x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S3x131072 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S1048576x2 : S_.BroadcastsInDim S1048576x2 (![] : Fin 0 → Fin S1048576x2.rank)
  slices_S1048576x2_S1048576x1_0_0 : S1048576x2.Slices ![0, 0] S1048576x1
  shapeCasts_S1048576x1_S1048576 : S1048576x1.ShapeCasts S1048576
  bcast_S_S1048576 : S_.BroadcastsInDim S1048576 (![] : Fin 0 → Fin S1048576.rank)
  slices_S1048576x2_S1048576x1_0_1 : S1048576x2.Slices ![0, 1] S1048576x1
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  bcast_S_S1048576x1 : S_.BroadcastsInDim S1048576x1 (![] : Fin 0 → Fin S1048576x1.rank)
  bcast_S1048576x1_S1048576x8_0_1 : S1048576x1.BroadcastsInDim S1048576x8 (![0, 1] : Fin 2 → Fin S1048576x8.rank)
  transposes_S1048576x8_S8x1048576_1_0 : S1048576x8.Transposes [1, 0] S8x1048576
  transposes_S1048576x2_S2x1048576_1_0 : S1048576x2.Transposes [1, 0] S2x1048576
  concatenates_S8x1048576_S2x1048576_S2x1048576_S12x1048576_d0 : Shape.Concatenates [S8x1048576, S2x1048576, S2x1048576] S12x1048576 0
  shapeCasts_S32_S32x1 : S32.ShapeCasts S32x1
  shapeCasts_S1_S1x1 : S1.ShapeCasts S1x1
  inb_S12x131072_S12x131072_0_0 : ∀ a, (![0, 0] : Fin 2 → Nat) a + S12x131072.size a ≤ S12x131072.size a
  h_S12x131072 : 0 < S12x131072.numel
  shapeCasts_S12x131072_S12x131072 : S12x131072.ShapeCasts S12x131072
  slices_S12x131072_o0_0_S10x131072 : S12x131072.Slices ![0, 0] S10x131072
  slices_S12x131072_o8_0_S2x131072 : S12x131072.Slices ![8, 0] S2x131072
  slices_S12x131072_o10_0_S2x131072 : S12x131072.Slices ![10, 0] S2x131072
  inb_S32x10_S32x10_0_0 : ∀ a, (![0, 0] : Fin 2 → Nat) a + S32x10.size a ≤ S32x10.size a
  h_S32x10 : 0 < S32x10.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x131072 : S32x1.Broadcasts S32x131072
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x131072 : S1x1.Broadcasts S1x131072
  reduces_S2x131072_S131072 : S2x131072.Reduces [0] S131072
  shapeCasts_S131072_S1x131072 : S131072.ShapeCasts S1x131072
  broadcasts_S1x131072_S2x131072 : S1x131072.Broadcasts S2x131072
  inb_S2x131072_S2x131072_0_0 : ∀ a, (![0, 0] : Fin 2 → Nat) a + S2x131072.size a ≤ S2x131072.size a
  h_S2x131072 : 0 < S2x131072.numel
  transposes_S2x1048576_S1048576x2_1_0 : S2x1048576.Transposes [1, 0] S1048576x2
  concatenates_S2x1048576_S2x1048576_S8x1048576_S12x1048576_d0 : Shape.Concatenates [S2x1048576, S2x1048576, S8x1048576] S12x1048576 0
  shapeCasts_S3_S3x1 : S3.ShapeCasts S3x1
  inb_S32x12_S32x12_0_0 : ∀ a, (![0, 0] : Fin 2 → Nat) a + S32x12.size a ≤ S32x12.size a
  h_S32x12 : 0 < S32x12.numel
  inb_S3x32_S3x32_0_0 : ∀ a, (![0, 0] : Fin 2 → Nat) a + S3x32.size a ≤ S3x32.size a
  h_S3x32 : 0 < S3x32.numel
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x131072 : S3x1.Broadcasts S3x131072
  inb_S3x131072_S3x131072_0_0 : ∀ a, (![0, 0] : Fin 2 → Nat) a + S3x131072.size a ≤ S3x131072.size a
  h_S3x131072 : 0 < S3x131072.numel
  transposes_S3x1048576_S1048576x3_1_0 : S3x1048576.Transposes [1, 0] S1048576x3
  gather_S512x512x8_S1048576x2_S1048576x8_1_01_n_n_01_1_118_wf : GatherDims.WF S512x512x8 S1048576x2 S1048576x8 [1] [0, 1] [] [0, 1] [] 1 ![1, 1, 8]
  dot_S32x10_S10x131072_S32x131072_1_0_0_1_n_n_wf : DotDims.WF S32x10 S10x131072 S32x131072 [1] [0] [0] [1] [] []
  dot_S32x32_S32x131072_S32x131072_1_0_0_1_n_n_wf : DotDims.WF S32x32 S32x131072 S32x131072 [1] [0] [0] [1] [] []
  dot_S1x32_S32x131072_S1x131072_1_0_0_1_n_n_wf : DotDims.WF S1x32 S32x131072 S1x131072 [1] [0] [0] [1] [] []
  dot_S32x12_S12x131072_S32x131072_1_0_0_1_n_n_wf : DotDims.WF S32x12 S12x131072 S32x131072 [1] [0] [0] [1] [] []
  dot_S3x32_S32x131072_S3x131072_1_0_0_1_n_n_wf : DotDims.WF S3x32 S32x131072 S3x131072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12x131072.size a ≤ S12x1048576.size a
  hwx0_0 : ∀ i : grid0.Coords, EltTy.bits .f32 = 32 ∨ (Rect.block (s := S12x1048576) S12x131072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x10.size a ≤ S32x10.size a
  hwx0_1 : ∀ i : grid0.Coords, EltTy.bits .f32 = 32 ∨ (Rect.block (s := S32x10) S32x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S32x1.size a
  hwx0_6 : ∀ i : grid0.Coords, EltTy.bits .f32 = 32 ∨ (Rect.block (s := S32x1) S32x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x131072.size a ≤ S2x1048576.size a
  hwx0_9 : ∀ i : grid0.Coords, EltTy.bits .f32 = 32 ∨ (Rect.block (s := S2x1048576) S2x131072.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12x131072.size a ≤ S12x1048576.size a
  hwx1_0 : ∀ i : grid1.Coords, EltTy.bits .f32 = 32 ∨ (Rect.block (s := S12x1048576) S12x131072.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x12.size a ≤ S32x12.size a
  hwx1_1 : ∀ i : grid1.Coords, EltTy.bits .f32 = 32 ∨ (Rect.block (s := S32x12) S32x12.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x1.size a ≤ S32x1.size a
  hwx1_2 : ∀ i : grid1.Coords, EltTy.bits .f32 = 32 ∨ (Rect.block (s := S32x1) S32x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x1.size a ≤ S32x1.size a
  hwx1_4 : ∀ i : grid1.Coords, EltTy.bits .f32 = 32 ∨ (Rect.block (s := S32x1) S32x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x1.size a ≤ S32x1.size a
  hwx1_6 : ∀ i : grid1.Coords, EltTy.bits .f32 = 32 ∨ (Rect.block (s := S32x1) S32x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S3x32.size a ≤ S3x32.size a
  hwx1_7 : ∀ i : grid1.Coords, EltTy.bits .f32 = 32 ∨ (Rect.block (s := S3x32) S3x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S3x1.size a ≤ S3x1.size a
  hwx1_8 : ∀ i : grid1.Coords, EltTy.bits .f32 = 32 ∨ (Rect.block (s := S3x1) S3x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S3x131072.size a ≤ S3x1048576.size a
  hwx1_9 : ∀ i : grid1.Coords, EltTy.bits .f32 = 32 ∨ (Rect.block (s := S3x1048576) S3x131072.size (cc1_transform_9 i) (hinb1_9 i)).WholeWords (EltTy.packing .f32)

variable [Facts₀]

def gather_S512x512x8_S1048576x2_S1048576x8_1_01_n_n_01_1_118 : GatherDims S512x512x8 S1048576x2 S1048576x8 where
  offsetDims := [1]
  collapsedSliceDims := [0, 1]
  operandBatchingDims := []
  startIndicesBatchingDims := []
  startIndexMap := [0, 1]
  indexVectorDim := 1
  sliceSizes := ![1, 1, 8]
  wf := gather_S512x512x8_S1048576x2_S1048576x8_1_01_n_n_01_1_118_wf
def dot_S32x10_S10x131072_S32x131072_1_0_0_1_n_n : DotDims S32x10 S10x131072 S32x131072 where
  lhsContracting := [1]
  rhsContracting := [0]
  lhsNonContracting := [0]
  rhsNonContracting := [1]
  lhsBatch := []
  rhsBatch := []
  wf := dot_S32x10_S10x131072_S32x131072_1_0_0_1_n_n_wf
def dot_S32x32_S32x131072_S32x131072_1_0_0_1_n_n : DotDims S32x32 S32x131072 S32x131072 where
  lhsContracting := [1]
  rhsContracting := [0]
  lhsNonContracting := [0]
  rhsNonContracting := [1]
  lhsBatch := []
  rhsBatch := []
  wf := dot_S32x32_S32x131072_S32x131072_1_0_0_1_n_n_wf
def dot_S1x32_S32x131072_S1x131072_1_0_0_1_n_n : DotDims S1x32 S32x131072 S1x131072 where
  lhsContracting := [1]
  rhsContracting := [0]
  lhsNonContracting := [0]
  rhsNonContracting := [1]
  lhsBatch := []
  rhsBatch := []
  wf := dot_S1x32_S32x131072_S1x131072_1_0_0_1_n_n_wf
def dot_S32x12_S12x131072_S32x131072_1_0_0_1_n_n : DotDims S32x12 S12x131072 S32x131072 where
  lhsContracting := [1]
  rhsContracting := [0]
  lhsNonContracting := [0]
  rhsNonContracting := [1]
  lhsBatch := []
  rhsBatch := []
  wf := dot_S32x12_S12x131072_S32x131072_1_0_0_1_n_n_wf
def dot_S3x32_S32x131072_S3x131072_1_0_0_1_n_n : DotDims S3x32 S32x131072 S3x131072 where
  lhsContracting := [1]
  rhsContracting := [0]
  lhsNonContracting := [0]
  rhsNonContracting := [1]
  lhsBatch := []
  rhsBatch := []
  wf := dot_S3x32_S32x131072_S3x131072_1_0_0_1_n_n_wf

abbrev win0_0 : Pipeline.Window sig grid0 :=
  Pipeline.Window.ofSpec (Memref.whole main_v112) S12x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S32x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v113) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v114) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v115) S32x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v116) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v117) S2x131072.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v230) S12x131072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg13) S32x12.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v231) S32x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg15) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v232) S32x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg17) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v233) S32x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg19) S3x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v234) S3x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v235) S3x131072.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S1048576x2 : Shape := ⟨2, ![1048576, 2]⟩
abbrev S512x512x8 : Shape := ⟨3, ![512, 512, 8]⟩
abbrev S32x10 : Shape := ⟨2, ![32, 10]⟩
abbrev S32 : Shape := ⟨1, ![32]⟩
abbrev S32x32 : Shape := ⟨2, ![32, 32]⟩
abbrev S1x32 : Shape := ⟨2, ![1, 32]⟩
abbrev S1 : Shape := ⟨1, ![1]⟩
abbrev S32x12 : Shape := ⟨2, ![32, 12]⟩
abbrev S3x32 : Shape := ⟨2, ![3, 32]⟩
abbrev S3 : Shape := ⟨1, ![3]⟩
abbrev S_ : Shape := ⟨0, ![]⟩
abbrev S1048576x1 : Shape := ⟨2, ![1048576, 1]⟩
abbrev S1048576 : Shape := ⟨1, ![1048576]⟩
abbrev S1048576x8 : Shape := ⟨2, ![1048576, 8]⟩
abbrev S1048576x10 : Shape := ⟨2, ![1048576, 10]⟩
abbrev S10x32 : Shape := ⟨2, ![10, 32]⟩
abbrev S1048576x32 : Shape := ⟨2, ![1048576, 32]⟩
abbrev S32x1 : Shape := ⟨2, ![32, 1]⟩
abbrev S1x1 : Shape := ⟨2, ![1, 1]⟩
abbrev S1048576x12 : Shape := ⟨2, ![1048576, 12]⟩
abbrev S12x32 : Shape := ⟨2, ![12, 32]⟩
abbrev S32x3 : Shape := ⟨2, ![32, 3]⟩
abbrev S1048576x3 : Shape := ⟨2, ![1048576, 3]⟩
abbrev S1x3 : Shape := ⟨2, ![1, 3]⟩

abbrev nBuf : Space → Nat
  | .hbm => 556
  | .vmem => 0
  | .smem => 0
  | _ => 0

abbrev hbmTy0_0 (i : Nat) : BufTy := match i % 128 with
  | 0 => ⟨S1048576x2, .f32⟩
  | 1 => ⟨S1048576x2, .f32⟩
  | 2 => ⟨S1048576x2, .f32⟩
  | 3 => ⟨S512x512x8, .f32⟩
  | 4 => ⟨S512x512x8, .f32⟩
  | 5 => ⟨S32x10, .f32⟩
  | 6 => ⟨S32, .f32⟩
  | 7 => ⟨S32x32, .f32⟩
  | 8 => ⟨S32, .f32⟩
  | 9 => ⟨S32x32, .f32⟩
  | 10 => ⟨S32, .f32⟩
  | 11 => ⟨S1x32, .f32⟩
  | 12 => ⟨S1, .f32⟩
  | 13 => ⟨S32x12, .f32⟩
  | 14 => ⟨S32, .f32⟩
  | 15 => ⟨S32x32, .f32⟩
  | 16 => ⟨S32, .f32⟩
  | 17 => ⟨S32x32, .f32⟩
  | 18 => ⟨S32, .f32⟩
  | 19 => ⟨S3x32, .f32⟩
  | 20 => ⟨S3, .f32⟩
  | 21 => ⟨S_, .f32⟩
  | 22 => ⟨S1048576x2, .f32⟩
  | 23 => ⟨S1048576x2, .f32⟩
  | 24 => ⟨S_, .f32⟩
  | 25 => ⟨S1048576x2, .f32⟩
  | 26 => ⟨S1048576x2, .f32⟩
  | 27 => ⟨S1048576x2, .f32⟩
  | 28 => ⟨S1048576x2, .i32⟩
  | 29 => ⟨S1048576x2, .f32⟩
  | 30 => ⟨S1048576x2, .f32⟩
  | 31 => ⟨S1048576x1, .i32⟩
  | 32 => ⟨S1048576, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S1048576, .i32⟩
  | 40 => ⟨S1048576, .i32⟩
  | 41 => ⟨S_, .i32⟩
  | 42 => ⟨S1048576, .i32⟩
  | 43 => ⟨S1048576, .i1⟩
  | 44 => ⟨S_, .i32⟩
  | 45 => ⟨S1048576, .i32⟩
  | 46 => ⟨S1048576, .i1⟩
  | 47 => ⟨S_, .i32⟩
  | 48 => ⟨S_, .i1⟩
  | 49 => ⟨S1048576, .i1⟩
  | 50 => ⟨S1048576, .i1⟩
  | 51 => ⟨S1048576, .i1⟩
  | 52 => ⟨S1048576, .i32⟩
  | 53 => ⟨S1048576, .i32⟩
  | 54 => ⟨S1048576, .i32⟩
  | 55 => ⟨S1048576x1, .i32⟩
  | 56 => ⟨S1048576, .i32⟩
  | 57 => ⟨S_, .i32⟩
  | 58 => ⟨S1048576, .i32⟩
  | 59 => ⟨S1048576, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S1048576, .i32⟩
  | 67 => ⟨S1048576, .i32⟩
  | 68 => ⟨S_, .i32⟩
  | 69 => ⟨S1048576, .i32⟩
  | 70 => ⟨S1048576, .i1⟩
  | 71 => ⟨S_, .i32⟩
  | 72 => ⟨S1048576, .i32⟩
  | 73 => ⟨S1048576, .i1⟩
  | 74 => ⟨S_, .i32⟩
  | 75 => ⟨S_, .i1⟩
  | 76 => ⟨S1048576, .i1⟩
  | 77 => ⟨S1048576, .i1⟩
  | 78 => ⟨S1048576, .i1⟩
  | 79 => ⟨S1048576, .i32⟩
  | 80 => ⟨S1048576, .i32⟩
  | 81 => ⟨S1048576, .i32⟩
  | 82 => ⟨S1048576x1, .i32⟩
  | 83 => ⟨S1048576, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S1048576, .i32⟩
  | 91 => ⟨S1048576, .i32⟩
  | 92 => ⟨S_, .i32⟩
  | 93 => ⟨S1048576, .i32⟩
  | 94 => ⟨S1048576, .i1⟩
  | 95 => ⟨S_, .i32⟩
  | 96 => ⟨S1048576, .i32⟩
  | 97 => ⟨S1048576, .i1⟩
  | 98 => ⟨S_, .i32⟩
  | 99 => ⟨S_, .i1⟩
  | 100 => ⟨S1048576, .i1⟩
  | 101 => ⟨S1048576, .i1⟩
  | 102 => ⟨S1048576, .i1⟩
  | 103 => ⟨S1048576, .i32⟩
  | 104 => ⟨S1048576, .i32⟩
  | 105 => ⟨S1048576, .i32⟩
  | 106 => ⟨S1048576x1, .i32⟩
  | 107 => ⟨S1048576, .i32⟩
  | 108 => ⟨S_, .i32⟩
  | 109 => ⟨S1048576, .i32⟩
  | 110 => ⟨S1048576, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S1048576, .i32⟩
  | 118 => ⟨S1048576, .i32⟩
  | 119 => ⟨S_, .i32⟩
  | 120 => ⟨S1048576, .i32⟩
  | 121 => ⟨S1048576, .i1⟩
  | 122 => ⟨S_, .i32⟩
  | 123 => ⟨S1048576, .i32⟩
  | 124 => ⟨S1048576, .i1⟩
  | 125 => ⟨S_, .i32⟩
  | 126 => ⟨S_, .i1⟩
  | 127 => ⟨S1048576, .i1⟩
  | _ => ⟨S1048576x2, .f32⟩

abbrev hbmTy0_1 (i : Nat) : BufTy := match i % 128 with
  | 0 => ⟨S1048576, .i1⟩
  | 1 => ⟨S1048576, .i1⟩
  | 2 => ⟨S1048576, .i32⟩
  | 3 => ⟨S1048576, .i32⟩
  | 4 => ⟨S1048576, .i32⟩
  | 5 => ⟨S1048576x1, .f32⟩
  | 6 => ⟨S1048576x1, .f32⟩
  | 7 => ⟨S_, .i32⟩
  | 8 => ⟨S1048576, .i32⟩
  | 9 => ⟨S1048576, .i1⟩
  | 10 => ⟨S_, .i32⟩
  | 11 => ⟨S1048576, .i32⟩
  | 12 => ⟨S1048576, .i32⟩
  | 13 => ⟨S1048576, .i32⟩
  | 14 => ⟨S_, .i32⟩
  | 15 => ⟨S1048576, .i32⟩
  | 16 => ⟨S1048576, .i1⟩
  | 17 => ⟨S_, .i32⟩
  | 18 => ⟨S1048576, .i32⟩
  | 19 => ⟨S1048576, .i32⟩
  | 20 => ⟨S1048576, .i32⟩
  | 21 => ⟨S1048576x1, .i32⟩
  | 22 => ⟨S1048576x1, .i32⟩
  | 23 => ⟨S1048576x2, .i32⟩
  | 24 => ⟨S1048576x8, .f32⟩
  | 25 => ⟨S_, .i32⟩
  | 26 => ⟨S1048576, .i32⟩
  | 27 => ⟨S1048576, .i1⟩
  | 28 => ⟨S_, .i32⟩
  | 29 => ⟨S1048576, .i32⟩
  | 30 => ⟨S1048576, .i32⟩
  | 31 => ⟨S1048576, .i32⟩
  | 32 => ⟨S_, .i32⟩
  | 33 => ⟨S1048576, .i32⟩
  | 34 => ⟨S1048576, .i1⟩
  | 35 => ⟨S_, .i32⟩
  | 36 => ⟨S1048576, .i32⟩
  | 37 => ⟨S1048576, .i32⟩
  | 38 => ⟨S1048576, .i32⟩
  | 39 => ⟨S1048576x1, .i32⟩
  | 40 => ⟨S1048576x1, .i32⟩
  | 41 => ⟨S1048576x2, .i32⟩
  | 42 => ⟨S1048576x8, .f32⟩
  | 43 => ⟨S_, .i32⟩
  | 44 => ⟨S1048576, .i32⟩
  | 45 => ⟨S1048576, .i1⟩
  | 46 => ⟨S_, .i32⟩
  | 47 => ⟨S1048576, .i32⟩
  | 48 => ⟨S1048576, .i32⟩
  | 49 => ⟨S1048576, .i32⟩
  | 50 => ⟨S_, .i32⟩
  | 51 => ⟨S1048576, .i32⟩
  | 52 => ⟨S1048576, .i1⟩
  | 53 => ⟨S_, .i32⟩
  | 54 => ⟨S1048576, .i32⟩
  | 55 => ⟨S1048576, .i32⟩
  | 56 => ⟨S1048576, .i32⟩
  | 57 => ⟨S1048576x1, .i32⟩
  | 58 => ⟨S1048576x1, .i32⟩
  | 59 => ⟨S1048576x2, .i32⟩
  | 60 => ⟨S1048576x8, .f32⟩
  | 61 => ⟨S_, .i32⟩
  | 62 => ⟨S1048576, .i32⟩
  | 63 => ⟨S1048576, .i1⟩
  | 64 => ⟨S_, .i32⟩
  | 65 => ⟨S1048576, .i32⟩
  | 66 => ⟨S1048576, .i32⟩
  | 67 => ⟨S1048576, .i32⟩
  | 68 => ⟨S_, .i32⟩
  | 69 => ⟨S1048576, .i32⟩
  | 70 => ⟨S1048576, .i1⟩
  | 71 => ⟨S_, .i32⟩
  | 72 => ⟨S1048576, .i32⟩
  | 73 => ⟨S1048576, .i32⟩
  | 74 => ⟨S1048576, .i32⟩
  | 75 => ⟨S1048576x1, .i32⟩
  | 76 => ⟨S1048576x1, .i32⟩
  | 77 => ⟨S1048576x2, .i32⟩
  | 78 => ⟨S1048576x8, .f32⟩
  | 79 => ⟨S_, .f32⟩
  | 80 => ⟨S1048576x1, .f32⟩
  | 81 => ⟨S1048576x1, .f32⟩
  | 82 => ⟨S1048576x8, .f32⟩
  | 83 => ⟨S1048576x8, .f32⟩
  | 84 => ⟨S_, .f32⟩
  | 85 => ⟨S1048576x1, .f32⟩
  | 86 => ⟨S1048576x1, .f32⟩
  | 87 => ⟨S1048576x8, .f32⟩
  | 88 => ⟨S1048576x8, .f32⟩
  | 89 => ⟨S1048576x8, .f32⟩
  | 90 => ⟨S1048576x8, .f32⟩
  | 91 => ⟨S_, .f32⟩
  | 92 => ⟨S1048576x1, .f32⟩
  | 93 => ⟨S1048576x1, .f32⟩
  | 94 => ⟨S1048576x8, .f32⟩
  | 95 => ⟨S1048576x8, .f32⟩
  | 96 => ⟨S1048576x8, .f32⟩
  | 97 => ⟨S_, .f32⟩
  | 98 => ⟨S1048576x1, .f32⟩
  | 99 => ⟨S1048576x1, .f32⟩
  | 100 => ⟨S1048576x8, .f32⟩
  | 101 => ⟨S1048576x8, .f32⟩
  | 102 => ⟨S1048576x8, .f32⟩
  | 103 => ⟨S1048576x8, .f32⟩
  | 104 => ⟨S1048576x8, .f32⟩
  | 105 => ⟨S1048576x8, .f32⟩
  | 106 => ⟨S1048576x8, .f32⟩
  | 107 => ⟨S1048576x8, .f32⟩
  | 108 => ⟨S1048576x8, .f32⟩
  | 109 => ⟨S1048576x8, .f32⟩
  | 110 => ⟨S1048576x10, .f32⟩
  | 111 => ⟨S10x32, .f32⟩
  | 112 => ⟨S1048576x32, .f32⟩
  | 113 => ⟨S1x32, .f32⟩
  | 114 => ⟨S1048576x32, .f32⟩
  | 115 => ⟨S1048576x32, .f32⟩
  | 116 => ⟨S_, .f32⟩
  | 117 => ⟨S1048576x32, .f32⟩
  | 118 => ⟨S1048576x32, .i1⟩
  | 119 => ⟨S_, .f32⟩
  | 120 => ⟨S1048576x32, .f32⟩
  | 121 => ⟨S1048576x32, .f32⟩
  | 122 => ⟨S1048576x32, .f32⟩
  | 123 => ⟨S32x32, .f32⟩
  | 124 => ⟨S1048576x32, .f32⟩
  | 125 => ⟨S1x32, .f32⟩
  | 126 => ⟨S1048576x32, .f32⟩
  | 127 => ⟨S1048576x32, .f32⟩
  | _ => ⟨S1048576x2, .f32⟩

abbrev hbmTy0_2 (i : Nat) : BufTy := match i % 128 with
  | 0 => ⟨S_, .f32⟩
  | 1 => ⟨S1048576x32, .f32⟩
  | 2 => ⟨S1048576x32, .i1⟩
  | 3 => ⟨S_, .f32⟩
  | 4 => ⟨S1048576x32, .f32⟩
  | 5 => ⟨S1048576x32, .f32⟩
  | 6 => ⟨S1048576x32, .f32⟩
  | 7 => ⟨S32x32, .f32⟩
  | 8 => ⟨S1048576x32, .f32⟩
  | 9 => ⟨S1x32, .f32⟩
  | 10 => ⟨S1048576x32, .f32⟩
  | 11 => ⟨S1048576x32, .f32⟩
  | 12 => ⟨S_, .f32⟩
  | 13 => ⟨S1048576x32, .f32⟩
  | 14 => ⟨S1048576x32, .i1⟩
  | 15 => ⟨S_, .f32⟩
  | 16 => ⟨S1048576x32, .f32⟩
  | 17 => ⟨S1048576x32, .f32⟩
  | 18 => ⟨S1048576x32, .f32⟩
  | 19 => ⟨S32x1, .f32⟩
  | 20 => ⟨S1048576x1, .f32⟩
  | 21 => ⟨S1x1, .f32⟩
  | 22 => ⟨S1048576x1, .f32⟩
  | 23 => ⟨S1048576x1, .f32⟩
  | 24 => ⟨S1048576x2, .f32⟩
  | 25 => ⟨S_, .f32⟩
  | 26 => ⟨S1048576, .f32⟩
  | 27 => ⟨S1048576x1, .f32⟩
  | 28 => ⟨S_, .f32⟩
  | 29 => ⟨S1048576x1, .f32⟩
  | 30 => ⟨S1048576x1, .f32⟩
  | 31 => ⟨S_, .f32⟩
  | 32 => ⟨S_, .f32⟩
  | 33 => ⟨S1048576x1, .f32⟩
  | 34 => ⟨S1048576x1, .f32⟩
  | 35 => ⟨S1048576x1, .f32⟩
  | 36 => ⟨S1048576x2, .f32⟩
  | 37 => ⟨S1048576x2, .f32⟩
  | 38 => ⟨S1048576x2, .f32⟩
  | 39 => ⟨S1048576x2, .f32⟩
  | 40 => ⟨S1048576x2, .f32⟩
  | 41 => ⟨S_, .f32⟩
  | 42 => ⟨S1048576x2, .f32⟩
  | 43 => ⟨S1048576x2, .f32⟩
  | 44 => ⟨S_, .f32⟩
  | 45 => ⟨S1048576x2, .f32⟩
  | 46 => ⟨S1048576x2, .f32⟩
  | 47 => ⟨S1048576x2, .f32⟩
  | 48 => ⟨S1048576x2, .i32⟩
  | 49 => ⟨S1048576x2, .f32⟩
  | 50 => ⟨S1048576x2, .f32⟩
  | 51 => ⟨S1048576x1, .i32⟩
  | 52 => ⟨S1048576, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S1048576, .i32⟩
  | 60 => ⟨S1048576, .i32⟩
  | 61 => ⟨S_, .i32⟩
  | 62 => ⟨S1048576, .i32⟩
  | 63 => ⟨S1048576, .i1⟩
  | 64 => ⟨S_, .i32⟩
  | 65 => ⟨S1048576, .i32⟩
  | 66 => ⟨S1048576, .i1⟩
  | 67 => ⟨S_, .i32⟩
  | 68 => ⟨S_, .i1⟩
  | 69 => ⟨S1048576, .i1⟩
  | 70 => ⟨S1048576, .i1⟩
  | 71 => ⟨S1048576, .i1⟩
  | 72 => ⟨S1048576, .i32⟩
  | 73 => ⟨S1048576, .i32⟩
  | 74 => ⟨S1048576, .i32⟩
  | 75 => ⟨S1048576x1, .i32⟩
  | 76 => ⟨S1048576, .i32⟩
  | 77 => ⟨S_, .i32⟩
  | 78 => ⟨S1048576, .i32⟩
  | 79 => ⟨S1048576, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S1048576, .i32⟩
  | 87 => ⟨S1048576, .i32⟩
  | 88 => ⟨S_, .i32⟩
  | 89 => ⟨S1048576, .i32⟩
  | 90 => ⟨S1048576, .i1⟩
  | 91 => ⟨S_, .i32⟩
  | 92 => ⟨S1048576, .i32⟩
  | 93 => ⟨S1048576, .i1⟩
  | 94 => ⟨S_, .i32⟩
  | 95 => ⟨S_, .i1⟩
  | 96 => ⟨S1048576, .i1⟩
  | 97 => ⟨S1048576, .i1⟩
  | 98 => ⟨S1048576, .i1⟩
  | 99 => ⟨S1048576, .i32⟩
  | 100 => ⟨S1048576, .i32⟩
  | 101 => ⟨S1048576, .i32⟩
  | 102 => ⟨S1048576x1, .i32⟩
  | 103 => ⟨S1048576, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S1048576, .i32⟩
  | 111 => ⟨S1048576, .i32⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i1⟩
  | 118 => ⟨S_, .i32⟩
  | 119 => ⟨S_, .i1⟩
  | 120 => ⟨S1048576, .i1⟩
  | 121 => ⟨S1048576, .i1⟩
  | 122 => ⟨S1048576, .i1⟩
  | 123 => ⟨S1048576, .i32⟩
  | 124 => ⟨S1048576, .i32⟩
  | 125 => ⟨S1048576, .i32⟩
  | 126 => ⟨S1048576x1, .i32⟩
  | 127 => ⟨S1048576, .i32⟩
  | _ => ⟨S1048576x2, .f32⟩

abbrev hbmTy0_3 (i : Nat) : BufTy := match i % 128 with
  | 0 => ⟨S_, .i32⟩
  | 1 => ⟨S1048576, .i32⟩
  | 2 => ⟨S1048576, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S1048576, .i32⟩
  | 10 => ⟨S1048576, .i32⟩
  | 11 => ⟨S_, .i32⟩
  | 12 => ⟨S1048576, .i32⟩
  | 13 => ⟨S1048576, .i1⟩
  | 14 => ⟨S_, .i32⟩
  | 15 => ⟨S1048576, .i32⟩
  | 16 => ⟨S1048576, .i1⟩
  | 17 => ⟨S_, .i32⟩
  | 18 => ⟨S_, .i1⟩
  | 19 => ⟨S1048576, .i1⟩
  | 20 => ⟨S1048576, .i1⟩
  | 21 => ⟨S1048576, .i1⟩
  | 22 => ⟨S1048576, .i32⟩
  | 23 => ⟨S1048576, .i32⟩
  | 24 => ⟨S1048576, .i32⟩
  | 25 => ⟨S1048576x1, .f32⟩
  | 26 => ⟨S1048576x1, .f32⟩
  | 27 => ⟨S_, .i32⟩
  | 28 => ⟨S1048576, .i32⟩
  | 29 => ⟨S1048576, .i1⟩
  | 30 => ⟨S_, .i32⟩
  | 31 => ⟨S1048576, .i32⟩
  | 32 => ⟨S1048576, .i32⟩
  | 33 => ⟨S1048576, .i32⟩
  | 34 => ⟨S_, .i32⟩
  | 35 => ⟨S1048576, .i32⟩
  | 36 => ⟨S1048576, .i1⟩
  | 37 => ⟨S_, .i32⟩
  | 38 => ⟨S1048576, .i32⟩
  | 39 => ⟨S1048576, .i32⟩
  | 40 => ⟨S1048576, .i32⟩
  | 41 => ⟨S1048576x1, .i32⟩
  | 42 => ⟨S1048576x1, .i32⟩
  | 43 => ⟨S1048576x2, .i32⟩
  | 44 => ⟨S1048576x8, .f32⟩
  | 45 => ⟨S_, .i32⟩
  | 46 => ⟨S1048576, .i32⟩
  | 47 => ⟨S1048576, .i1⟩
  | 48 => ⟨S_, .i32⟩
  | 49 => ⟨S1048576, .i32⟩
  | 50 => ⟨S1048576, .i32⟩
  | 51 => ⟨S1048576, .i32⟩
  | 52 => ⟨S_, .i32⟩
  | 53 => ⟨S1048576, .i32⟩
  | 54 => ⟨S1048576, .i1⟩
  | 55 => ⟨S_, .i32⟩
  | 56 => ⟨S1048576, .i32⟩
  | 57 => ⟨S1048576, .i32⟩
  | 58 => ⟨S1048576, .i32⟩
  | 59 => ⟨S1048576x1, .i32⟩
  | 60 => ⟨S1048576x1, .i32⟩
  | 61 => ⟨S1048576x2, .i32⟩
  | 62 => ⟨S1048576x8, .f32⟩
  | 63 => ⟨S_, .i32⟩
  | 64 => ⟨S1048576, .i32⟩
  | 65 => ⟨S1048576, .i1⟩
  | 66 => ⟨S_, .i32⟩
  | 67 => ⟨S1048576, .i32⟩
  | 68 => ⟨S1048576, .i32⟩
  | 69 => ⟨S1048576, .i32⟩
  | 70 => ⟨S_, .i32⟩
  | 71 => ⟨S1048576, .i32⟩
  | 72 => ⟨S1048576, .i1⟩
  | 73 => ⟨S_, .i32⟩
  | 74 => ⟨S1048576, .i32⟩
  | 75 => ⟨S1048576, .i32⟩
  | 76 => ⟨S1048576, .i32⟩
  | 77 => ⟨S1048576x1, .i32⟩
  | 78 => ⟨S1048576x1, .i32⟩
  | 79 => ⟨S1048576x2, .i32⟩
  | 80 => ⟨S1048576x8, .f32⟩
  | 81 => ⟨S_, .i32⟩
  | 82 => ⟨S1048576, .i32⟩
  | 83 => ⟨S1048576, .i1⟩
  | 84 => ⟨S_, .i32⟩
  | 85 => ⟨S1048576, .i32⟩
  | 86 => ⟨S1048576, .i32⟩
  | 87 => ⟨S1048576, .i32⟩
  | 88 => ⟨S_, .i32⟩
  | 89 => ⟨S1048576, .i32⟩
  | 90 => ⟨S1048576, .i1⟩
  | 91 => ⟨S_, .i32⟩
  | 92 => ⟨S1048576, .i32⟩
  | 93 => ⟨S1048576, .i32⟩
  | 94 => ⟨S1048576, .i32⟩
  | 95 => ⟨S1048576x1, .i32⟩
  | 96 => ⟨S1048576x1, .i32⟩
  | 97 => ⟨S1048576x2, .i32⟩
  | 98 => ⟨S1048576x8, .f32⟩
  | 99 => ⟨S_, .f32⟩
  | 100 => ⟨S1048576x1, .f32⟩
  | 101 => ⟨S1048576x1, .f32⟩
  | 102 => ⟨S1048576x8, .f32⟩
  | 103 => ⟨S1048576x8, .f32⟩
  | 104 => ⟨S_, .f32⟩
  | 105 => ⟨S1048576x1, .f32⟩
  | 106 => ⟨S1048576x1, .f32⟩
  | 107 => ⟨S1048576x8, .f32⟩
  | 108 => ⟨S1048576x8, .f32⟩
  | 109 => ⟨S1048576x8, .f32⟩
  | 110 => ⟨S1048576x8, .f32⟩
  | 111 => ⟨S_, .f32⟩
  | 112 => ⟨S1048576x1, .f32⟩
  | 113 => ⟨S1048576x1, .f32⟩
  | 114 => ⟨S1048576x8, .f32⟩
  | 115 => ⟨S1048576x8, .f32⟩
  | 116 => ⟨S1048576x8, .f32⟩
  | 117 => ⟨S_, .f32⟩
  | 118 => ⟨S1048576x1, .f32⟩
  | 119 => ⟨S1048576x1, .f32⟩
  | 120 => ⟨S1048576x8, .f32⟩
  | 121 => ⟨S1048576x8, .f32⟩
  | 122 => ⟨S1048576x8, .f32⟩
  | 123 => ⟨S1048576x8, .f32⟩
  | 124 => ⟨S1048576x8, .f32⟩
  | 125 => ⟨S1048576x8, .f32⟩
  | 126 => ⟨S1048576x8, .f32⟩
  | 127 => ⟨S1048576x8, .f32⟩
  | _ => ⟨S1048576x2, .f32⟩

abbrev hbmTy0_4 (i : Nat) : BufTy := match i % 128 with
  | 0 => ⟨S1048576x8, .f32⟩
  | 1 => ⟨S1048576x8, .f32⟩
  | 2 => ⟨S1048576x12, .f32⟩
  | 3 => ⟨S12x32, .f32⟩
  | 4 => ⟨S1048576x32, .f32⟩
  | 5 => ⟨S1x32, .f32⟩
  | 6 => ⟨S1048576x32, .f32⟩
  | 7 => ⟨S1048576x32, .f32⟩
  | 8 => ⟨S_, .f32⟩
  | 9 => ⟨S1048576x32, .f32⟩
  | 10 => ⟨S1048576x32, .i1⟩
  | 11 => ⟨S_, .f32⟩
  | 12 => ⟨S1048576x32, .f32⟩
  | 13 => ⟨S1048576x32, .f32⟩
  | 14 => ⟨S1048576x32, .f32⟩
  | 15 => ⟨S32x32, .f32⟩
  | 16 => ⟨S1048576x32, .f32⟩
  | 17 => ⟨S1x32, .f32⟩
  | 18 => ⟨S1048576x32, .f32⟩
  | 19 => ⟨S1048576x32, .f32⟩
  | 20 => ⟨S_, .f32⟩
  | 21 => ⟨S1048576x32, .f32⟩
  | 22 => ⟨S1048576x32, .i1⟩
  | 23 => ⟨S_, .f32⟩
  | 24 => ⟨S1048576x32, .f32⟩
  | 25 => ⟨S1048576x32, .f32⟩
  | 26 => ⟨S1048576x32, .f32⟩
  | 27 => ⟨S32x32, .f32⟩
  | 28 => ⟨S1048576x32, .f32⟩
  | 29 => ⟨S1x32, .f32⟩
  | 30 => ⟨S1048576x32, .f32⟩
  | 31 => ⟨S1048576x32, .f32⟩
  | 32 => ⟨S_, .f32⟩
  | 33 => ⟨S1048576x32, .f32⟩
  | 34 => ⟨S1048576x32, .i1⟩
  | 35 => ⟨S_, .f32⟩
  | 36 => ⟨S1048576x32, .f32⟩
  | 37 => ⟨S1048576x32, .f32⟩
  | 38 => ⟨S1048576x32, .f32⟩
  | 39 => ⟨S32x3, .f32⟩
  | 40 => ⟨S1048576x3, .f32⟩
  | 41 => ⟨S1x3, .f32⟩
  | 42 => ⟨S1048576x3, .f32⟩
  | 43 => ⟨S1048576x3, .f32⟩
  | _ => ⟨S1048576x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1048576x2, .f32⟩

abbrev bufTy : (tb : Table) → Fin (tcTables nBuf tb) → BufTy
  | .hbm, ⟨i, _⟩ => hbmTy i
  | _, _ => ⟨S1048576x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_cst_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c : Ref sig .tc := ⟨.hbm, 33, rfl⟩
abbrev main_call0_v0 : Ref sig .tc := ⟨.hbm, 34, rfl⟩
abbrev main_call0_c : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_c_1 : Ref sig .tc := ⟨.hbm, 41, rfl⟩
abbrev main_call0_v5 : Ref sig .tc := ⟨.hbm, 42, rfl⟩
abbrev main_call0_v6 : Ref sig .tc := ⟨.hbm, 43, rfl⟩
abbrev main_call0_c_2 : Ref sig .tc := ⟨.hbm, 44, rfl⟩
abbrev main_call0_v7 : Ref sig .tc := ⟨.hbm, 45, rfl⟩
abbrev main_call0_v8 : Ref sig .tc := ⟨.hbm, 46, rfl⟩
abbrev main_call0_c_3 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_c_1 : Ref sig .tc := ⟨.hbm, 57, rfl⟩
abbrev main_v13 : Ref sig .tc := ⟨.hbm, 58, rfl⟩
abbrev main_v14 : Ref sig .tc := ⟨.hbm, 59, rfl⟩
abbrev main_c_2 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_1 : Ref sig .tc := ⟨.hbm, 68, rfl⟩
abbrev main_call1_v5 : Ref sig .tc := ⟨.hbm, 69, rfl⟩
abbrev main_call1_v6 : Ref sig .tc := ⟨.hbm, 70, rfl⟩
abbrev main_call1_c_2 : Ref sig .tc := ⟨.hbm, 71, rfl⟩
abbrev main_call1_v7 : Ref sig .tc := ⟨.hbm, 72, rfl⟩
abbrev main_call1_v8 : Ref sig .tc := ⟨.hbm, 73, rfl⟩
abbrev main_call1_c_3 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_c_3 : Ref sig .tc := ⟨.hbm, 84, rfl⟩
abbrev main_call2_v0 : Ref sig .tc := ⟨.hbm, 85, rfl⟩
abbrev main_call2_c : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_c_1 : Ref sig .tc := ⟨.hbm, 92, rfl⟩
abbrev main_call2_v5 : Ref sig .tc := ⟨.hbm, 93, rfl⟩
abbrev main_call2_v6 : Ref sig .tc := ⟨.hbm, 94, rfl⟩
abbrev main_call2_c_2 : Ref sig .tc := ⟨.hbm, 95, rfl⟩
abbrev main_call2_v7 : Ref sig .tc := ⟨.hbm, 96, rfl⟩
abbrev main_call2_v8 : Ref sig .tc := ⟨.hbm, 97, rfl⟩
abbrev main_call2_c_3 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_v12 : Ref sig .tc := ⟨.hbm, 102, rfl⟩
abbrev main_call2_v13 : Ref sig .tc := ⟨.hbm, 103, rfl⟩
abbrev main_call2_v14 : Ref sig .tc := ⟨.hbm, 104, rfl⟩
abbrev main_v18 : Ref sig .tc := ⟨.hbm, 105, rfl⟩
abbrev main_v19 : Ref sig .tc := ⟨.hbm, 106, rfl⟩
abbrev main_v20 : Ref sig .tc := ⟨.hbm, 107, rfl⟩
abbrev main_c_4 : Ref sig .tc := ⟨.hbm, 108, rfl⟩
abbrev main_v21 : Ref sig .tc := ⟨.hbm, 109, rfl⟩
abbrev main_v22 : Ref sig .tc := ⟨.hbm, 110, rfl⟩
abbrev main_c_5 : Ref sig .tc := ⟨.hbm, 111, rfl⟩
abbrev main_call3_v0 : Ref sig .tc := ⟨.hbm, 112, rfl⟩
abbrev main_call3_c : Ref sig .tc := ⟨.hbm, 113, rfl⟩
abbrev main_call3_v1 : Ref sig .tc := ⟨.hbm, 114, rfl⟩
abbrev main_call3_c_0 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_c_1 : Ref sig .tc := ⟨.hbm, 119, rfl⟩
abbrev main_call3_v5 : Ref sig .tc := ⟨.hbm, 120, rfl⟩
abbrev main_call3_v6 : Ref sig .tc := ⟨.hbm, 121, rfl⟩
abbrev main_call3_c_2 : Ref sig .tc := ⟨.hbm, 122, rfl⟩
abbrev main_call3_v7 : Ref sig .tc := ⟨.hbm, 123, rfl⟩
abbrev main_call3_v8 : Ref sig .tc := ⟨.hbm, 124, rfl⟩
abbrev main_call3_c_3 : Ref sig .tc := ⟨.hbm, 125, rfl⟩
abbrev main_call3_v9 : Ref sig .tc := ⟨.hbm, 126, rfl⟩
abbrev main_call3_v10 : Ref sig .tc := ⟨.hbm, 127, rfl⟩
abbrev main_call3_v11 : Ref sig .tc := ⟨.hbm, 128, rfl⟩
abbrev main_call3_v12 : Ref sig .tc := ⟨.hbm, 129, rfl⟩
abbrev main_call3_v13 : Ref sig .tc := ⟨.hbm, 130, rfl⟩
abbrev main_call3_v14 : Ref sig .tc := ⟨.hbm, 131, rfl⟩
abbrev main_v23 : Ref sig .tc := ⟨.hbm, 132, rfl⟩
abbrev main_v24 : Ref sig .tc := ⟨.hbm, 133, rfl⟩
abbrev main_v25 : Ref sig .tc := ⟨.hbm, 134, rfl⟩
abbrev main_c_6 : Ref sig .tc := ⟨.hbm, 135, rfl⟩
abbrev main_v26 : Ref sig .tc := ⟨.hbm, 136, rfl⟩
abbrev main_v27 : Ref sig .tc := ⟨.hbm, 137, rfl⟩
abbrev main_c_7 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_c_8 : Ref sig .tc := ⟨.hbm, 142, rfl⟩
abbrev main_v31 : Ref sig .tc := ⟨.hbm, 143, rfl⟩
abbrev main_v32 : Ref sig .tc := ⟨.hbm, 144, rfl⟩
abbrev main_c_9 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_v39 : Ref sig .tc := ⟨.hbm, 152, rfl⟩
abbrev main_c_10 : Ref sig .tc := ⟨.hbm, 153, rfl⟩
abbrev main_v40 : Ref sig .tc := ⟨.hbm, 154, rfl⟩
abbrev main_v41 : Ref sig .tc := ⟨.hbm, 155, rfl⟩
abbrev main_c_11 : Ref sig .tc := ⟨.hbm, 156, rfl⟩
abbrev main_v42 : Ref sig .tc := ⟨.hbm, 157, rfl⟩
abbrev main_v43 : Ref sig .tc := ⟨.hbm, 158, rfl⟩
abbrev main_v44 : Ref sig .tc := ⟨.hbm, 159, rfl⟩
abbrev main_c_12 : Ref sig .tc := ⟨.hbm, 160, rfl⟩
abbrev main_v45 : Ref sig .tc := ⟨.hbm, 161, rfl⟩
abbrev main_v46 : Ref sig .tc := ⟨.hbm, 162, rfl⟩
abbrev main_c_13 : Ref sig .tc := ⟨.hbm, 163, rfl⟩
abbrev main_v47 : Ref sig .tc := ⟨.hbm, 164, rfl⟩
abbrev main_v48 : Ref sig .tc := ⟨.hbm, 165, rfl⟩
abbrev main_v49 : Ref sig .tc := ⟨.hbm, 166, rfl⟩
abbrev main_v50 : Ref sig .tc := ⟨.hbm, 167, rfl⟩
abbrev main_v51 : Ref sig .tc := ⟨.hbm, 168, rfl⟩
abbrev main_v52 : Ref sig .tc := ⟨.hbm, 169, rfl⟩
abbrev main_v53 : Ref sig .tc := ⟨.hbm, 170, rfl⟩
abbrev main_c_14 : Ref sig .tc := ⟨.hbm, 171, rfl⟩
abbrev main_v54 : Ref sig .tc := ⟨.hbm, 172, rfl⟩
abbrev main_v55 : Ref sig .tc := ⟨.hbm, 173, rfl⟩
abbrev main_c_15 : Ref sig .tc := ⟨.hbm, 174, rfl⟩
abbrev main_v56 : Ref sig .tc := ⟨.hbm, 175, rfl⟩
abbrev main_v57 : Ref sig .tc := ⟨.hbm, 176, rfl⟩
abbrev main_v58 : Ref sig .tc := ⟨.hbm, 177, rfl⟩
abbrev main_c_16 : Ref sig .tc := ⟨.hbm, 178, rfl⟩
abbrev main_v59 : Ref sig .tc := ⟨.hbm, 179, rfl⟩
abbrev main_v60 : Ref sig .tc := ⟨.hbm, 180, rfl⟩
abbrev main_c_17 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_c_18 : Ref sig .tc := ⟨.hbm, 189, rfl⟩
abbrev main_v68 : Ref sig .tc := ⟨.hbm, 190, rfl⟩
abbrev main_v69 : Ref sig .tc := ⟨.hbm, 191, rfl⟩
abbrev main_c_19 : Ref sig .tc := ⟨.hbm, 192, rfl⟩
abbrev main_v70 : Ref sig .tc := ⟨.hbm, 193, rfl⟩
abbrev main_v71 : Ref sig .tc := ⟨.hbm, 194, rfl⟩
abbrev main_v72 : Ref sig .tc := ⟨.hbm, 195, rfl⟩
abbrev main_c_20 : Ref sig .tc := ⟨.hbm, 196, rfl⟩
abbrev main_v73 : Ref sig .tc := ⟨.hbm, 197, rfl⟩
abbrev main_v74 : Ref sig .tc := ⟨.hbm, 198, rfl⟩
abbrev main_c_21 : Ref sig .tc := ⟨.hbm, 199, rfl⟩
abbrev main_v75 : Ref sig .tc := ⟨.hbm, 200, rfl⟩
abbrev main_v76 : Ref sig .tc := ⟨.hbm, 201, rfl⟩
abbrev main_v77 : Ref sig .tc := ⟨.hbm, 202, rfl⟩
abbrev main_v78 : Ref sig .tc := ⟨.hbm, 203, rfl⟩
abbrev main_v79 : Ref sig .tc := ⟨.hbm, 204, rfl⟩
abbrev main_v80 : Ref sig .tc := ⟨.hbm, 205, rfl⟩
abbrev main_v81 : Ref sig .tc := ⟨.hbm, 206, rfl⟩
abbrev main_cst_22 : Ref sig .tc := ⟨.hbm, 207, rfl⟩
abbrev main_v82 : Ref sig .tc := ⟨.hbm, 208, rfl⟩
abbrev main_v83 : Ref sig .tc := ⟨.hbm, 209, rfl⟩
abbrev main_v84 : Ref sig .tc := ⟨.hbm, 210, rfl⟩
abbrev main_v85 : Ref sig .tc := ⟨.hbm, 211, rfl⟩
abbrev main_cst_23 : Ref sig .tc := ⟨.hbm, 212, rfl⟩
abbrev main_v86 : Ref sig .tc := ⟨.hbm, 213, rfl⟩
abbrev main_v87 : Ref sig .tc := ⟨.hbm, 214, rfl⟩
abbrev main_v88 : Ref sig .tc := ⟨.hbm, 215, rfl⟩
abbrev main_v89 : Ref sig .tc := ⟨.hbm, 216, rfl⟩
abbrev main_v90 : Ref sig .tc := ⟨.hbm, 217, rfl⟩
abbrev main_v91 : Ref sig .tc := ⟨.hbm, 218, rfl⟩
abbrev main_cst_24 : Ref sig .tc := ⟨.hbm, 219, rfl⟩
abbrev main_v92 : Ref sig .tc := ⟨.hbm, 220, rfl⟩
abbrev main_v93 : Ref sig .tc := ⟨.hbm, 221, rfl⟩
abbrev main_v94 : Ref sig .tc := ⟨.hbm, 222, rfl⟩
abbrev main_v95 : Ref sig .tc := ⟨.hbm, 223, rfl⟩
abbrev main_v96 : Ref sig .tc := ⟨.hbm, 224, rfl⟩
abbrev main_cst_25 : Ref sig .tc := ⟨.hbm, 225, rfl⟩
abbrev main_v97 : Ref sig .tc := ⟨.hbm, 226, rfl⟩
abbrev main_v98 : Ref sig .tc := ⟨.hbm, 227, rfl⟩
abbrev main_v99 : Ref sig .tc := ⟨.hbm, 228, rfl⟩
abbrev main_v100 : Ref sig .tc := ⟨.hbm, 229, rfl⟩
abbrev main_v101 : Ref sig .tc := ⟨.hbm, 230, rfl⟩
abbrev main_v102 : Ref sig .tc := ⟨.hbm, 231, rfl⟩
abbrev main_v103 : Ref sig .tc := ⟨.hbm, 232, rfl⟩
abbrev main_v104 : Ref sig .tc := ⟨.hbm, 233, rfl⟩
abbrev main_v105 : Ref sig .tc := ⟨.hbm, 234, rfl⟩
abbrev main_v106 : Ref sig .tc := ⟨.hbm, 235, rfl⟩
abbrev main_v107 : Ref sig .tc := ⟨.hbm, 236, rfl⟩
abbrev main_v108 : Ref sig .tc := ⟨.hbm, 237, rfl⟩
abbrev main_v109 : Ref sig .tc := ⟨.hbm, 238, rfl⟩
abbrev main_v110 : Ref sig .tc := ⟨.hbm, 239, rfl⟩
abbrev main_v111 : Ref sig .tc := ⟨.hbm, 240, rfl⟩
abbrev main_v112 : Ref sig .tc := ⟨.hbm, 241, rfl⟩
abbrev main_v113 : Ref sig .tc := ⟨.hbm, 242, rfl⟩
abbrev main_v114 : Ref sig .tc := ⟨.hbm, 243, rfl⟩
abbrev main_cst_26 : Ref sig .tc := ⟨.hbm, 244, rfl⟩
abbrev main_v115 : Ref sig .tc := ⟨.hbm, 245, rfl⟩
abbrev main_v116 : Ref sig .tc := ⟨.hbm, 246, rfl⟩
abbrev main_cst_27 : Ref sig .tc := ⟨.hbm, 247, rfl⟩
abbrev main_v117 : Ref sig .tc := ⟨.hbm, 248, rfl⟩
abbrev main_v118 : Ref sig .tc := ⟨.hbm, 249, rfl⟩
abbrev main_v119 : Ref sig .tc := ⟨.hbm, 250, rfl⟩
abbrev main_v120 : Ref sig .tc := ⟨.hbm, 251, rfl⟩
abbrev main_v121 : Ref sig .tc := ⟨.hbm, 252, rfl⟩
abbrev main_v122 : Ref sig .tc := ⟨.hbm, 253, rfl⟩
abbrev main_v123 : Ref sig .tc := ⟨.hbm, 254, rfl⟩
abbrev main_v124 : Ref sig .tc := ⟨.hbm, 255, rfl⟩
abbrev main_cst_28 : Ref sig .tc := ⟨.hbm, 256, rfl⟩
abbrev main_v125 : Ref sig .tc := ⟨.hbm, 257, rfl⟩
abbrev main_v126 : Ref sig .tc := ⟨.hbm, 258, rfl⟩
abbrev main_cst_29 : Ref sig .tc := ⟨.hbm, 259, rfl⟩
abbrev main_v127 : Ref sig .tc := ⟨.hbm, 260, rfl⟩
abbrev main_v128 : Ref sig .tc := ⟨.hbm, 261, rfl⟩
abbrev main_v129 : Ref sig .tc := ⟨.hbm, 262, rfl⟩
abbrev main_v130 : Ref sig .tc := ⟨.hbm, 263, rfl⟩
abbrev main_v131 : Ref sig .tc := ⟨.hbm, 264, rfl⟩
abbrev main_v132 : Ref sig .tc := ⟨.hbm, 265, rfl⟩
abbrev main_v133 : Ref sig .tc := ⟨.hbm, 266, rfl⟩
abbrev main_v134 : Ref sig .tc := ⟨.hbm, 267, rfl⟩
abbrev main_cst_30 : Ref sig .tc := ⟨.hbm, 268, rfl⟩
abbrev main_v135 : Ref sig .tc := ⟨.hbm, 269, rfl⟩
abbrev main_v136 : Ref sig .tc := ⟨.hbm, 270, rfl⟩
abbrev main_cst_31 : Ref sig .tc := ⟨.hbm, 271, rfl⟩
abbrev main_v137 : Ref sig .tc := ⟨.hbm, 272, rfl⟩
abbrev main_v138 : Ref sig .tc := ⟨.hbm, 273, rfl⟩
abbrev main_v139 : Ref sig .tc := ⟨.hbm, 274, rfl⟩
abbrev main_v140 : Ref sig .tc := ⟨.hbm, 275, rfl⟩
abbrev main_v141 : Ref sig .tc := ⟨.hbm, 276, rfl⟩
abbrev main_v142 : Ref sig .tc := ⟨.hbm, 277, rfl⟩
abbrev main_v143 : Ref sig .tc := ⟨.hbm, 278, rfl⟩
abbrev main_v144 : Ref sig .tc := ⟨.hbm, 279, rfl⟩
abbrev main_v145 : Ref sig .tc := ⟨.hbm, 280, rfl⟩
abbrev main_cst_32 : Ref sig .tc := ⟨.hbm, 281, rfl⟩
abbrev main_v146 : Ref sig .tc := ⟨.hbm, 282, rfl⟩
abbrev main_v147 : Ref sig .tc := ⟨.hbm, 283, rfl⟩
abbrev main_cst_33 : Ref sig .tc := ⟨.hbm, 284, rfl⟩
abbrev main_v148 : Ref sig .tc := ⟨.hbm, 285, rfl⟩
abbrev main_v149 : Ref sig .tc := ⟨.hbm, 286, rfl⟩
abbrev main_cst_34 : Ref sig .tc := ⟨.hbm, 287, rfl⟩
abbrev main_call7_v0 : Ref sig .tc := ⟨.hbm, 288, rfl⟩
abbrev main_call7_v1 : Ref sig .tc := ⟨.hbm, 289, rfl⟩
abbrev main_v150 : Ref sig .tc := ⟨.hbm, 290, rfl⟩
abbrev main_v151 : Ref sig .tc := ⟨.hbm, 291, rfl⟩
abbrev main_v152 : Ref sig .tc := ⟨.hbm, 292, rfl⟩
abbrev main_v153 : Ref sig .tc := ⟨.hbm, 293, rfl⟩
abbrev main_v154 : Ref sig .tc := ⟨.hbm, 294, rfl⟩
abbrev main_v155 : Ref sig .tc := ⟨.hbm, 295, rfl⟩
abbrev main_v156 : Ref sig .tc := ⟨.hbm, 296, rfl⟩
abbrev main_cst_35 : Ref sig .tc := ⟨.hbm, 297, rfl⟩
abbrev main_v157 : Ref sig .tc := ⟨.hbm, 298, rfl⟩
abbrev main_v158 : Ref sig .tc := ⟨.hbm, 299, rfl⟩
abbrev main_cst_36 : Ref sig .tc := ⟨.hbm, 300, rfl⟩
abbrev main_v159 : Ref sig .tc := ⟨.hbm, 301, rfl⟩
abbrev main_v160 : Ref sig .tc := ⟨.hbm, 302, rfl⟩
abbrev main_v161 : Ref sig .tc := ⟨.hbm, 303, rfl⟩
abbrev main_v162 : Ref sig .tc := ⟨.hbm, 304, rfl⟩
abbrev main_v163 : Ref sig .tc := ⟨.hbm, 305, rfl⟩
abbrev main_v164 : Ref sig .tc := ⟨.hbm, 306, rfl⟩
abbrev main_v165 : Ref sig .tc := ⟨.hbm, 307, rfl⟩
abbrev main_v166 : Ref sig .tc := ⟨.hbm, 308, rfl⟩
abbrev main_c_37 : Ref sig .tc := ⟨.hbm, 309, rfl⟩
abbrev main_call8_v0 : Ref sig .tc := ⟨.hbm, 310, rfl⟩
abbrev main_call8_c : Ref sig .tc := ⟨.hbm, 311, rfl⟩
abbrev main_call8_v1 : Ref sig .tc := ⟨.hbm, 312, rfl⟩
abbrev main_call8_c_0 : Ref sig .tc := ⟨.hbm, 313, rfl⟩
abbrev main_call8_v2 : Ref sig .tc := ⟨.hbm, 314, rfl⟩
abbrev main_call8_v3 : Ref sig .tc := ⟨.hbm, 315, rfl⟩
abbrev main_call8_v4 : Ref sig .tc := ⟨.hbm, 316, rfl⟩
abbrev main_call8_c_1 : Ref sig .tc := ⟨.hbm, 317, rfl⟩
abbrev main_call8_v5 : Ref sig .tc := ⟨.hbm, 318, rfl⟩
abbrev main_call8_v6 : Ref sig .tc := ⟨.hbm, 319, rfl⟩
abbrev main_call8_c_2 : Ref sig .tc := ⟨.hbm, 320, rfl⟩
abbrev main_call8_v7 : Ref sig .tc := ⟨.hbm, 321, rfl⟩
abbrev main_call8_v8 : Ref sig .tc := ⟨.hbm, 322, rfl⟩
abbrev main_call8_c_3 : Ref sig .tc := ⟨.hbm, 323, rfl⟩
abbrev main_call8_v9 : Ref sig .tc := ⟨.hbm, 324, rfl⟩
abbrev main_call8_v10 : Ref sig .tc := ⟨.hbm, 325, rfl⟩
abbrev main_call8_v11 : Ref sig .tc := ⟨.hbm, 326, rfl⟩
abbrev main_call8_v12 : Ref sig .tc := ⟨.hbm, 327, rfl⟩
abbrev main_call8_v13 : Ref sig .tc := ⟨.hbm, 328, rfl⟩
abbrev main_call8_v14 : Ref sig .tc := ⟨.hbm, 329, rfl⟩
abbrev main_v167 : Ref sig .tc := ⟨.hbm, 330, rfl⟩
abbrev main_v168 : Ref sig .tc := ⟨.hbm, 331, rfl⟩
abbrev main_v169 : Ref sig .tc := ⟨.hbm, 332, rfl⟩
abbrev main_c_38 : Ref sig .tc := ⟨.hbm, 333, rfl⟩
abbrev main_v170 : Ref sig .tc := ⟨.hbm, 334, rfl⟩
abbrev main_v171 : Ref sig .tc := ⟨.hbm, 335, rfl⟩
abbrev main_c_39 : Ref sig .tc := ⟨.hbm, 336, rfl⟩
abbrev main_call9_v0 : Ref sig .tc := ⟨.hbm, 337, rfl⟩
abbrev main_call9_c : Ref sig .tc := ⟨.hbm, 338, rfl⟩
abbrev main_call9_v1 : Ref sig .tc := ⟨.hbm, 339, rfl⟩
abbrev main_call9_c_0 : Ref sig .tc := ⟨.hbm, 340, rfl⟩
abbrev main_call9_v2 : Ref sig .tc := ⟨.hbm, 341, rfl⟩
abbrev main_call9_v3 : Ref sig .tc := ⟨.hbm, 342, rfl⟩
abbrev main_call9_v4 : Ref sig .tc := ⟨.hbm, 343, rfl⟩
abbrev main_call9_c_1 : Ref sig .tc := ⟨.hbm, 344, rfl⟩
abbrev main_call9_v5 : Ref sig .tc := ⟨.hbm, 345, rfl⟩
abbrev main_call9_v6 : Ref sig .tc := ⟨.hbm, 346, rfl⟩
abbrev main_call9_c_2 : Ref sig .tc := ⟨.hbm, 347, rfl⟩
abbrev main_call9_v7 : Ref sig .tc := ⟨.hbm, 348, rfl⟩
abbrev main_call9_v8 : Ref sig .tc := ⟨.hbm, 349, rfl⟩
abbrev main_call9_c_3 : Ref sig .tc := ⟨.hbm, 350, rfl⟩
abbrev main_call9_v9 : Ref sig .tc := ⟨.hbm, 351, rfl⟩
abbrev main_call9_v10 : Ref sig .tc := ⟨.hbm, 352, rfl⟩
abbrev main_call9_v11 : Ref sig .tc := ⟨.hbm, 353, rfl⟩
abbrev main_call9_v12 : Ref sig .tc := ⟨.hbm, 354, rfl⟩
abbrev main_call9_v13 : Ref sig .tc := ⟨.hbm, 355, rfl⟩
abbrev main_call9_v14 : Ref sig .tc := ⟨.hbm, 356, rfl⟩
abbrev main_v172 : Ref sig .tc := ⟨.hbm, 357, rfl⟩
abbrev main_v173 : Ref sig .tc := ⟨.hbm, 358, rfl⟩
abbrev main_v174 : Ref sig .tc := ⟨.hbm, 359, rfl⟩
abbrev main_c_40 : Ref sig .tc := ⟨.hbm, 360, rfl⟩
abbrev main_call10_v0 : Ref sig .tc := ⟨.hbm, 361, rfl⟩
abbrev main_call10_c : Ref sig .tc := ⟨.hbm, 362, rfl⟩
abbrev main_call10_v1 : Ref sig .tc := ⟨.hbm, 363, rfl⟩
abbrev main_call10_c_0 : Ref sig .tc := ⟨.hbm, 364, rfl⟩
abbrev main_call10_v2 : Ref sig .tc := ⟨.hbm, 365, rfl⟩
abbrev main_call10_v3 : Ref sig .tc := ⟨.hbm, 366, rfl⟩
abbrev main_call10_v4 : Ref sig .tc := ⟨.hbm, 367, rfl⟩
abbrev main_call10_c_1 : Ref sig .tc := ⟨.hbm, 368, rfl⟩
abbrev main_call10_v5 : Ref sig .tc := ⟨.hbm, 369, rfl⟩
abbrev main_call10_v6 : Ref sig .tc := ⟨.hbm, 370, rfl⟩
abbrev main_call10_c_2 : Ref sig .tc := ⟨.hbm, 371, rfl⟩
abbrev main_call10_v7 : Ref sig .tc := ⟨.hbm, 372, rfl⟩
abbrev main_call10_v8 : Ref sig .tc := ⟨.hbm, 373, rfl⟩
abbrev main_call10_c_3 : Ref sig .tc := ⟨.hbm, 374, rfl⟩
abbrev main_call10_v9 : Ref sig .tc := ⟨.hbm, 375, rfl⟩
abbrev main_call10_v10 : Ref sig .tc := ⟨.hbm, 376, rfl⟩
abbrev main_call10_v11 : Ref sig .tc := ⟨.hbm, 377, rfl⟩
abbrev main_call10_v12 : Ref sig .tc := ⟨.hbm, 378, rfl⟩
abbrev main_call10_v13 : Ref sig .tc := ⟨.hbm, 379, rfl⟩
abbrev main_call10_v14 : Ref sig .tc := ⟨.hbm, 380, rfl⟩
abbrev main_v175 : Ref sig .tc := ⟨.hbm, 381, rfl⟩
abbrev main_v176 : Ref sig .tc := ⟨.hbm, 382, rfl⟩
abbrev main_v177 : Ref sig .tc := ⟨.hbm, 383, rfl⟩
abbrev main_c_41 : Ref sig .tc := ⟨.hbm, 384, rfl⟩
abbrev main_v178 : Ref sig .tc := ⟨.hbm, 385, rfl⟩
abbrev main_v179 : Ref sig .tc := ⟨.hbm, 386, rfl⟩
abbrev main_c_42 : Ref sig .tc := ⟨.hbm, 387, rfl⟩
abbrev main_call11_v0 : Ref sig .tc := ⟨.hbm, 388, rfl⟩
abbrev main_call11_c : Ref sig .tc := ⟨.hbm, 389, rfl⟩
abbrev main_call11_v1 : Ref sig .tc := ⟨.hbm, 390, rfl⟩
abbrev main_call11_c_0 : Ref sig .tc := ⟨.hbm, 391, rfl⟩
abbrev main_call11_v2 : Ref sig .tc := ⟨.hbm, 392, rfl⟩
abbrev main_call11_v3 : Ref sig .tc := ⟨.hbm, 393, rfl⟩
abbrev main_call11_v4 : Ref sig .tc := ⟨.hbm, 394, rfl⟩
abbrev main_call11_c_1 : Ref sig .tc := ⟨.hbm, 395, rfl⟩
abbrev main_call11_v5 : Ref sig .tc := ⟨.hbm, 396, rfl⟩
abbrev main_call11_v6 : Ref sig .tc := ⟨.hbm, 397, rfl⟩
abbrev main_call11_c_2 : Ref sig .tc := ⟨.hbm, 398, rfl⟩
abbrev main_call11_v7 : Ref sig .tc := ⟨.hbm, 399, rfl⟩
abbrev main_call11_v8 : Ref sig .tc := ⟨.hbm, 400, rfl⟩
abbrev main_call11_c_3 : Ref sig .tc := ⟨.hbm, 401, rfl⟩
abbrev main_call11_v9 : Ref sig .tc := ⟨.hbm, 402, rfl⟩
abbrev main_call11_v10 : Ref sig .tc := ⟨.hbm, 403, rfl⟩
abbrev main_call11_v11 : Ref sig .tc := ⟨.hbm, 404, rfl⟩
abbrev main_call11_v12 : Ref sig .tc := ⟨.hbm, 405, rfl⟩
abbrev main_call11_v13 : Ref sig .tc := ⟨.hbm, 406, rfl⟩
abbrev main_call11_v14 : Ref sig .tc := ⟨.hbm, 407, rfl⟩
abbrev main_v180 : Ref sig .tc := ⟨.hbm, 408, rfl⟩
abbrev main_v181 : Ref sig .tc := ⟨.hbm, 409, rfl⟩
abbrev main_v182 : Ref sig .tc := ⟨.hbm, 410, rfl⟩
abbrev main_c_43 : Ref sig .tc := ⟨.hbm, 411, rfl⟩
abbrev main_v183 : Ref sig .tc := ⟨.hbm, 412, rfl⟩
abbrev main_v184 : Ref sig .tc := ⟨.hbm, 413, rfl⟩
abbrev main_c_44 : Ref sig .tc := ⟨.hbm, 414, rfl⟩
abbrev main_v185 : Ref sig .tc := ⟨.hbm, 415, rfl⟩
abbrev main_v186 : Ref sig .tc := ⟨.hbm, 416, rfl⟩
abbrev main_v187 : Ref sig .tc := ⟨.hbm, 417, rfl⟩
abbrev main_c_45 : Ref sig .tc := ⟨.hbm, 418, rfl⟩
abbrev main_v188 : Ref sig .tc := ⟨.hbm, 419, rfl⟩
abbrev main_v189 : Ref sig .tc := ⟨.hbm, 420, rfl⟩
abbrev main_c_46 : Ref sig .tc := ⟨.hbm, 421, rfl⟩
abbrev main_v190 : Ref sig .tc := ⟨.hbm, 422, rfl⟩
abbrev main_v191 : Ref sig .tc := ⟨.hbm, 423, rfl⟩
abbrev main_v192 : Ref sig .tc := ⟨.hbm, 424, rfl⟩
abbrev main_v193 : Ref sig .tc := ⟨.hbm, 425, rfl⟩
abbrev main_v194 : Ref sig .tc := ⟨.hbm, 426, rfl⟩
abbrev main_v195 : Ref sig .tc := ⟨.hbm, 427, rfl⟩
abbrev main_v196 : Ref sig .tc := ⟨.hbm, 428, rfl⟩
abbrev main_c_47 : Ref sig .tc := ⟨.hbm, 429, rfl⟩
abbrev main_v197 : Ref sig .tc := ⟨.hbm, 430, rfl⟩
abbrev main_v198 : Ref sig .tc := ⟨.hbm, 431, rfl⟩
abbrev main_c_48 : Ref sig .tc := ⟨.hbm, 432, rfl⟩
abbrev main_v199 : Ref sig .tc := ⟨.hbm, 433, rfl⟩
abbrev main_v200 : Ref sig .tc := ⟨.hbm, 434, rfl⟩
abbrev main_v201 : Ref sig .tc := ⟨.hbm, 435, rfl⟩
abbrev main_c_49 : Ref sig .tc := ⟨.hbm, 436, rfl⟩
abbrev main_v202 : Ref sig .tc := ⟨.hbm, 437, rfl⟩
abbrev main_v203 : Ref sig .tc := ⟨.hbm, 438, rfl⟩
abbrev main_c_50 : Ref sig .tc := ⟨.hbm, 439, rfl⟩
abbrev main_v204 : Ref sig .tc := ⟨.hbm, 440, rfl⟩
abbrev main_v205 : Ref sig .tc := ⟨.hbm, 441, rfl⟩
abbrev main_v206 : Ref sig .tc := ⟨.hbm, 442, rfl⟩
abbrev main_v207 : Ref sig .tc := ⟨.hbm, 443, rfl⟩
abbrev main_v208 : Ref sig .tc := ⟨.hbm, 444, rfl⟩
abbrev main_v209 : Ref sig .tc := ⟨.hbm, 445, rfl⟩
abbrev main_v210 : Ref sig .tc := ⟨.hbm, 446, rfl⟩
abbrev main_c_51 : Ref sig .tc := ⟨.hbm, 447, rfl⟩
abbrev main_v211 : Ref sig .tc := ⟨.hbm, 448, rfl⟩
abbrev main_v212 : Ref sig .tc := ⟨.hbm, 449, rfl⟩
abbrev main_c_52 : Ref sig .tc := ⟨.hbm, 450, rfl⟩
abbrev main_v213 : Ref sig .tc := ⟨.hbm, 451, rfl⟩
abbrev main_v214 : Ref sig .tc := ⟨.hbm, 452, rfl⟩
abbrev main_v215 : Ref sig .tc := ⟨.hbm, 453, rfl⟩
abbrev main_c_53 : Ref sig .tc := ⟨.hbm, 454, rfl⟩
abbrev main_v216 : Ref sig .tc := ⟨.hbm, 455, rfl⟩
abbrev main_v217 : Ref sig .tc := ⟨.hbm, 456, rfl⟩
abbrev main_c_54 : Ref sig .tc := ⟨.hbm, 457, rfl⟩
abbrev main_v218 : Ref sig .tc := ⟨.hbm, 458, rfl⟩
abbrev main_v219 : Ref sig .tc := ⟨.hbm, 459, rfl⟩
abbrev main_v220 : Ref sig .tc := ⟨.hbm, 460, rfl⟩
abbrev main_v221 : Ref sig .tc := ⟨.hbm, 461, rfl⟩
abbrev main_v222 : Ref sig .tc := ⟨.hbm, 462, rfl⟩
abbrev main_v223 : Ref sig .tc := ⟨.hbm, 463, rfl⟩
abbrev main_v224 : Ref sig .tc := ⟨.hbm, 464, rfl⟩
abbrev main_c_55 : Ref sig .tc := ⟨.hbm, 465, rfl⟩
abbrev main_v225 : Ref sig .tc := ⟨.hbm, 466, rfl⟩
abbrev main_v226 : Ref sig .tc := ⟨.hbm, 467, rfl⟩
abbrev main_c_56 : Ref sig .tc := ⟨.hbm, 468, rfl⟩
abbrev main_v227 : Ref sig .tc := ⟨.hbm, 469, rfl⟩
abbrev main_v228 : Ref sig .tc := ⟨.hbm, 470, rfl⟩
abbrev main_v229 : Ref sig .tc := ⟨.hbm, 471, rfl⟩
abbrev main_c_57 : Ref sig .tc := ⟨.hbm, 472, rfl⟩
abbrev main_v230 : Ref sig .tc := ⟨.hbm, 473, rfl⟩
abbrev main_v231 : Ref sig .tc := ⟨.hbm, 474, rfl⟩
abbrev main_c_58 : Ref sig .tc := ⟨.hbm, 475, rfl⟩
abbrev main_v232 : Ref sig .tc := ⟨.hbm, 476, rfl⟩
abbrev main_v233 : Ref sig .tc := ⟨.hbm, 477, rfl⟩
abbrev main_v234 : Ref sig .tc := ⟨.hbm, 478, rfl⟩
abbrev main_v235 : Ref sig .tc := ⟨.hbm, 479, rfl⟩
abbrev main_v236 : Ref sig .tc := ⟨.hbm, 480, rfl⟩
abbrev main_v237 : Ref sig .tc := ⟨.hbm, 481, rfl⟩
abbrev main_v238 : Ref sig .tc := ⟨.hbm, 482, rfl⟩
abbrev main_cst_59 : Ref sig .tc := ⟨.hbm, 483, rfl⟩
abbrev main_v239 : Ref sig .tc := ⟨.hbm, 484, rfl⟩
abbrev main_v240 : Ref sig .tc := ⟨.hbm, 485, rfl⟩
abbrev main_v241 : Ref sig .tc := ⟨.hbm, 486, rfl⟩
abbrev main_v242 : Ref sig .tc := ⟨.hbm, 487, rfl⟩
abbrev main_cst_60 : Ref sig .tc := ⟨.hbm, 488, rfl⟩
abbrev main_v243 : Ref sig .tc := ⟨.hbm, 489, rfl⟩
abbrev main_v244 : Ref sig .tc := ⟨.hbm, 490, rfl⟩
abbrev main_v245 : Ref sig .tc := ⟨.hbm, 491, rfl⟩
abbrev main_v246 : Ref sig .tc := ⟨.hbm, 492, rfl⟩
abbrev main_v247 : Ref sig .tc := ⟨.hbm, 493, rfl⟩
abbrev main_v248 : Ref sig .tc := ⟨.hbm, 494, rfl⟩
abbrev main_cst_61 : Ref sig .tc := ⟨.hbm, 495, rfl⟩
abbrev main_v249 : Ref sig .tc := ⟨.hbm, 496, rfl⟩
abbrev main_v250 : Ref sig .tc := ⟨.hbm, 497, rfl⟩
abbrev main_v251 : Ref sig .tc := ⟨.hbm, 498, rfl⟩
abbrev main_v252 : Ref sig .tc := ⟨.hbm, 499, rfl⟩
abbrev main_v253 : Ref sig .tc := ⟨.hbm, 500, rfl⟩
abbrev main_cst_62 : Ref sig .tc := ⟨.hbm, 501, rfl⟩
abbrev main_v254 : Ref sig .tc := ⟨.hbm, 502, rfl⟩
abbrev main_v255 : Ref sig .tc := ⟨.hbm, 503, rfl⟩
abbrev main_v256 : Ref sig .tc := ⟨.hbm, 504, rfl⟩
abbrev main_v257 : Ref sig .tc := ⟨.hbm, 505, rfl⟩
abbrev main_v258 : Ref sig .tc := ⟨.hbm, 506, rfl⟩
abbrev main_v259 : Ref sig .tc := ⟨.hbm, 507, rfl⟩
abbrev main_v260 : Ref sig .tc := ⟨.hbm, 508, rfl⟩
abbrev main_v261 : Ref sig .tc := ⟨.hbm, 509, rfl⟩
abbrev main_v262 : Ref sig .tc := ⟨.hbm, 510, rfl⟩
abbrev main_v263 : Ref sig .tc := ⟨.hbm, 511, rfl⟩
abbrev main_v264 : Ref sig .tc := ⟨.hbm, 512, rfl⟩
abbrev main_v265 : Ref sig .tc := ⟨.hbm, 513, rfl⟩
abbrev main_v266 : Ref sig .tc := ⟨.hbm, 514, rfl⟩
abbrev main_v267 : Ref sig .tc := ⟨.hbm, 515, rfl⟩
abbrev main_v268 : Ref sig .tc := ⟨.hbm, 516, rfl⟩
abbrev main_v269 : Ref sig .tc := ⟨.hbm, 517, rfl⟩
abbrev main_v270 : Ref sig .tc := ⟨.hbm, 518, rfl⟩
abbrev main_v271 : Ref sig .tc := ⟨.hbm, 519, rfl⟩
abbrev main_cst_63 : Ref sig .tc := ⟨.hbm, 520, rfl⟩
abbrev main_v272 : Ref sig .tc := ⟨.hbm, 521, rfl⟩
abbrev main_v273 : Ref sig .tc := ⟨.hbm, 522, rfl⟩
abbrev main_cst_64 : Ref sig .tc := ⟨.hbm, 523, rfl⟩
abbrev main_v274 : Ref sig .tc := ⟨.hbm, 524, rfl⟩
abbrev main_v275 : Ref sig .tc := ⟨.hbm, 525, rfl⟩
abbrev main_v276 : Ref sig .tc := ⟨.hbm, 526, rfl⟩
abbrev main_v277 : Ref sig .tc := ⟨.hbm, 527, rfl⟩
abbrev main_v278 : Ref sig .tc := ⟨.hbm, 528, rfl⟩
abbrev main_v279 : Ref sig .tc := ⟨.hbm, 529, rfl⟩
abbrev main_v280 : Ref sig .tc := ⟨.hbm, 530, rfl⟩
abbrev main_v281 : Ref sig .tc := ⟨.hbm, 531, rfl⟩
abbrev main_cst_65 : Ref sig .tc := ⟨.hbm, 532, rfl⟩
abbrev main_v282 : Ref sig .tc := ⟨.hbm, 533, rfl⟩
abbrev main_v283 : Ref sig .tc := ⟨.hbm, 534, rfl⟩
abbrev main_cst_66 : Ref sig .tc := ⟨.hbm, 535, rfl⟩
abbrev main_v284 : Ref sig .tc := ⟨.hbm, 536, rfl⟩
abbrev main_v285 : Ref sig .tc := ⟨.hbm, 537, rfl⟩
abbrev main_v286 : Ref sig .tc := ⟨.hbm, 538, rfl⟩
abbrev main_v287 : Ref sig .tc := ⟨.hbm, 539, rfl⟩
abbrev main_v288 : Ref sig .tc := ⟨.hbm, 540, rfl⟩
abbrev main_v289 : Ref sig .tc := ⟨.hbm, 541, rfl⟩
abbrev main_v290 : Ref sig .tc := ⟨.hbm, 542, rfl⟩
abbrev main_v291 : Ref sig .tc := ⟨.hbm, 543, rfl⟩
abbrev main_cst_67 : Ref sig .tc := ⟨.hbm, 544, rfl⟩
abbrev main_v292 : Ref sig .tc := ⟨.hbm, 545, rfl⟩
abbrev main_v293 : Ref sig .tc := ⟨.hbm, 546, rfl⟩
abbrev main_cst_68 : Ref sig .tc := ⟨.hbm, 547, rfl⟩
abbrev main_v294 : Ref sig .tc := ⟨.hbm, 548, rfl⟩
abbrev main_v295 : Ref sig .tc := ⟨.hbm, 549, rfl⟩
abbrev main_v296 : Ref sig .tc := ⟨.hbm, 550, rfl⟩
abbrev main_v297 : Ref sig .tc := ⟨.hbm, 551, rfl⟩
abbrev main_v298 : Ref sig .tc := ⟨.hbm, 552, rfl⟩
abbrev main_v299 : Ref sig .tc := ⟨.hbm, 553, rfl⟩
abbrev main_v300 : Ref sig .tc := ⟨.hbm, 554, rfl⟩
abbrev main_v301 : Ref sig .tc := ⟨.hbm, 555, rfl⟩

abbrev nD : Nat := 1
abbrev τ : Topo := Topo.v7x

variable {F : FTy → Type} [FloatOps F]

class Facts₀ : Prop where
  bcast_S_S1048576x2 : S_.BroadcastsInDim S1048576x2 (![] : Fin 0 → Fin S1048576x2.rank)
  slices_S1048576x2_S1048576x1_0_0 : S1048576x2.Slices ![0, 0] S1048576x1
  shapeCasts_S1048576x1_S1048576 : S1048576x1.ShapeCasts S1048576
  bcast_S_S1048576 : S_.BroadcastsInDim S1048576 (![] : Fin 0 → Fin S1048576.rank)
  slices_S1048576x2_S1048576x1_0_1 : S1048576x2.Slices ![0, 1] S1048576x1
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  bcast_S_S1048576x1 : S_.BroadcastsInDim S1048576x1 (![] : Fin 0 → Fin S1048576x1.rank)
  bcast_S1048576x1_S1048576x8_0_1 : S1048576x1.BroadcastsInDim S1048576x8 (![0, 1] : Fin 2 → Fin S1048576x8.rank)
  concatenates_S1048576x8_S1048576x2_S1048576x10_d1 : Shape.Concatenates [S1048576x8, S1048576x2] S1048576x10 1
  transposes_S32x10_S10x32_1_0 : S32x10.Transposes [1, 0] S10x32
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  bcast_S_S1048576x32 : S_.BroadcastsInDim S1048576x32 (![] : Fin 0 → Fin S1048576x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x2_S1048576_d1 : S1048576x2.ReducesTo [1] S1048576
  h_S_ : 0 < S_.numel
  bcast_S1048576x1_S1048576x2_0_1 : S1048576x1.BroadcastsInDim S1048576x2 (![0, 1] : Fin 2 → Fin S1048576x2.rank)
  concatenates_S1048576x2_S1048576x2_S1048576x8_S1048576x12_d1 : Shape.Concatenates [S1048576x2, S1048576x2, S1048576x8] S1048576x12 1
  transposes_S32x12_S12x32_1_0 : S32x12.Transposes [1, 0] S12x32
  transposes_S3x32_S32x3_1_0 : S3x32.Transposes [1, 0] S32x3
  bcast_S3_S1x3_1 : S3.BroadcastsInDim S1x3 (![1] : Fin 1 → Fin S1x3.rank)
  bcast_S1x3_S1048576x3_0_1 : S1x3.BroadcastsInDim S1048576x3 (![0, 1] : Fin 2 → Fin S1048576x3.rank)
  gather_S512x512x8_S1048576x2_S1048576x8_1_01_n_n_01_1_118_wf : GatherDims.WF S512x512x8 S1048576x2 S1048576x8 [1] [0, 1] [] [0, 1] [] 1 ![1, 1, 8]
  dot_S1048576x10_S10x32_S1048576x32_1_0_0_1_n_n_wf : DotDims.WF S1048576x10 S10x32 S1048576x32 [1] [0] [0] [1] [] []
  dot_S1048576x32_S32x32_S1048576x32_1_0_0_1_n_n_wf : DotDims.WF S1048576x32 S32x32 S1048576x32 [1] [0] [0] [1] [] []
  dot_S1048576x32_S32x1_S1048576x1_1_0_0_1_n_n_wf : DotDims.WF S1048576x32 S32x1 S1048576x1 [1] [0] [0] [1] [] []
  dot_S1048576x12_S12x32_S1048576x32_1_0_0_1_n_n_wf : DotDims.WF S1048576x12 S12x32 S1048576x32 [1] [0] [0] [1] [] []
  dot_S1048576x32_S32x3_S1048576x3_1_0_0_1_n_n_wf : DotDims.WF S1048576x32 S32x3 S1048576x3 [1] [0] [0] [1] [] []

variable [Facts₀]

def gather_S512x512x8_S1048576x2_S1048576x8_1_01_n_n_01_1_118 : GatherDims S512x512x8 S1048576x2 S1048576x8 where
  offsetDims := [1]
  collapsedSliceDims := [0, 1]
  operandBatchingDims := []
  startIndicesBatchingDims := []
  startIndexMap := [0, 1]
  indexVectorDim := 1
  sliceSizes := ![1, 1, 8]
  wf := gather_S512x512x8_S1048576x2_S1048576x8_1_01_n_n_01_1_118_wf
def dot_S1048576x10_S10x32_S1048576x32_1_0_0_1_n_n : DotDims S1048576x10 S10x32 S1048576x32 where
  lhsContracting := [1]
  rhsContracting := [0]
  lhsNonContracting := [0]
  rhsNonContracting := [1]
  lhsBatch := []
  rhsBatch := []
  wf := dot_S1048576x10_S10x32_S1048576x32_1_0_0_1_n_n_wf
def dot_S1048576x32_S32x32_S1048576x32_1_0_0_1_n_n : DotDims S1048576x32 S32x32 S1048576x32 where
  lhsContracting := [1]
  rhsContracting := [0]
  lhsNonContracting := [0]
  rhsNonContracting := [1]
  lhsBatch := []
  rhsBatch := []
  wf := dot_S1048576x32_S32x32_S1048576x32_1_0_0_1_n_n_wf
def dot_S1048576x32_S32x1_S1048576x1_1_0_0_1_n_n : DotDims S1048576x32 S32x1 S1048576x1 where
  lhsContracting := [1]
  rhsContracting := [0]
  lhsNonContracting := [0]
  rhsNonContracting := [1]
  lhsBatch := []
  rhsBatch := []
  wf := dot_S1048576x32_S32x1_S1048576x1_1_0_0_1_n_n_wf
def dot_S1048576x12_S12x32_S1048576x32_1_0_0_1_n_n : DotDims S1048576x12 S12x32 S1048576x32 where
  lhsContracting := [1]
  rhsContracting := [0]
  lhsNonContracting := [0]
  rhsNonContracting := [1]
  lhsBatch := []
  rhsBatch := []
  wf := dot_S1048576x12_S12x32_S1048576x32_1_0_0_1_n_n_wf
def dot_S1048576x32_S32x3_S1048576x3_1_0_0_1_n_n : DotDims S1048576x32 S32x3 S1048576x3 where
  lhsContracting := [1]
  rhsContracting := [0]
  lhsNonContracting := [0]
  rhsNonContracting := [1]
  lhsBatch := []
  rhsBatch := []
  wf := dot_S1048576x32_S32x3_S1048576x3_1_0_0_1_n_n_wf

class Facts : Prop extends Facts₀ where

variable [Facts]
-- ==== Proof.K.Host.lean ====
/-
  The host side of the program between its two kernel regions: the contents of the core's buffers at every boundary
  between two items of the entry function — the launch memory, then each stretch of host operations folded over what
  the item before left, a region replacing its windows' arrays by what its write-backs leave (a parameter here) —,
  the references each stretch writes, and the argument arrays read back through all of it to their launch contents:
  no stretch writes an argument, and a region gives an input window's array back as it found it.
-/
import proofs.«142216_j1408749273558_2_alg».proof.Proof.Gen.Kernel.Launch
import Idealize.ShloMosaic.Lib.Pipeline.FrameSuffix
import Idealize.ShloMosaic.Lib.Pipeline.Regions
import Idealize.ShloMosaic.Lib.StableHlo.Run

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## No stretch allocates, and what each stretch writes -/

theorem hostOps0_fresh : (hostOps0 : List (HloOp τ sig (Elt F))).Forall fun op => op.fresh = ∅ := by
  simp only [List.Forall]; repeat' constructor
abbrev hostOps0_W : List (Ref sig .tc) := [main_cst, main_v0, main_v1, main_cst_0, main_v2, main_v3, main_v4, main_v5, main_v6, main_v7, main_v8, main_v9, main_c]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_1_fresh : (hostOps0_1 : List (HloOp τ sig (Elt F))).Forall fun op => op.fresh = ∅ := by
  simp only [List.Forall]; repeat' constructor
abbrev hostOps0_1_W : List (Ref sig .tc) := [main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v10]
theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_2_fresh : (hostOps0_2 : List (HloOp τ sig (Elt F))).Forall fun op => op.fresh = ∅ := by
  simp only [List.Forall]; repeat' constructor
abbrev hostOps0_2_W : List (Ref sig .tc) := [main_v11, main_v12, main_c_1, main_v13, main_v14, main_c_2]
theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_3_fresh : (hostOps0_3 : List (HloOp τ sig (Elt F))).Forall fun op => op.fresh = ∅ := by
  simp only [List.Forall]; repeat' constructor
abbrev hostOps0_3_W : List (Ref sig .tc) := [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v15]
theorem hostOps0_3_writes : (hostOps0_3 : List (HloOp τ sig (Elt F))).Forall fun op => op.writes ⊆ (hostOps0_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_4_fresh : (hostOps0_4 : List (HloOp τ sig (Elt F))).Forall fun op => op.fresh = ∅ := by
  simp only [List.Forall]; repeat' constructor
abbrev hostOps0_4_W : List (Ref sig .tc) := [main_v16, main_v17, main_c_3]
theorem hostOps0_4_writes : (hostOps0_4 : List (HloOp τ sig (Elt F))).Forall fun op => op.writes ⊆ (hostOps0_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_5_fresh : (hostOps0_5 : List (HloOp τ sig (Elt F))).Forall fun op => op.fresh = ∅ := by
  simp only [List.Forall]; repeat' constructor
abbrev hostOps0_5_W : List (Ref sig .tc) := [main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v18]
theorem hostOps0_5_writes : (hostOps0_5 : List (HloOp τ sig (Elt F))).Forall fun op => op.writes ⊆ (hostOps0_5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_6_fresh : (hostOps0_6 : List (HloOp τ sig (Elt F))).Forall fun op => op.fresh = ∅ := by
  simp only [List.Forall]; repeat' constructor
abbrev hostOps0_6_W : List (Ref sig .tc) := [main_v19, main_v20, main_c_4, main_v21, main_v22, main_c_5]
theorem hostOps0_6_writes : (hostOps0_6 : List (HloOp τ sig (Elt F))).Forall fun op => op.writes ⊆ (hostOps0_6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_7_fresh : (hostOps0_7 : List (HloOp τ sig (Elt F))).Forall fun op => op.fresh = ∅ := by
  simp only [List.Forall]; repeat' constructor
abbrev hostOps0_7_W : List (Ref sig .tc) := [main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v23]
theorem hostOps0_7_writes : (hostOps0_7 : List (HloOp τ sig (Elt F))).Forall fun op => op.writes ⊆ (hostOps0_7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_8_fresh : (hostOps0_8 : List (HloOp τ sig (Elt F))).Forall fun op => op.fresh = ∅ := by
  simp only [List.Forall]; repeat' constructor
abbrev hostOps0_8_W : List (Ref sig .tc) := [main_v24, main_v25, main_c_6, main_v26, main_v27, main_c_7, main_v28, main_v29, main_v30, main_c_8, main_v31, main_v32, main_c_9, main_v33, main_v34, main_v35, main_v36, main_v37, main_v38, main_v39, main_c_10, main_v40, main_v41, main_c_11, main_v42, main_v43, main_v44, main_c_12, main_v45, main_v46, main_c_13, main_v47, main_v48, main_v49, main_v50, main_v51, main_v52, main_v53, main_c_14, main_v54, main_v55, main_c_15, main_v56, main_v57, main_v58, main_c_16, main_v59, main_v60, main_c_17, main_v61, main_v62, main_v63, main_v64, main_v65, main_v66, main_v67, main_c_18, main_v68, main_v69, main_c_19, main_v70, main_v71, main_v72, main_c_20, main_v73, main_v74, main_c_21, main_v75, main_v76, main_v77, main_v78, main_v79, main_v80, main_v81, main_cst_22, main_v82, main_v83, main_v84, main_v85, main_cst_23, main_v86, main_v87, main_v88, main_v89, main_v90, main_v91, main_cst_24, main_v92, main_v93, main_v94, main_v95, main_v96, main_cst_25, main_v97, main_v98, main_v99, main_v100, main_v101, main_v102, main_v103, main_v104, main_v105, main_v106, main_v107, main_v108, main_v109, main_v110, main_v111, main_v112, main_v113, main_v114, main_v115, main_v116]
theorem hostOps0_8_writes : (hostOps0_8 : List (HloOp τ sig (Elt F))).Forall fun op => op.writes ⊆ (hostOps0_8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_fresh : (hostOps1 : List (HloOp τ sig (Elt F))).Forall fun op => op.fresh = ∅ := by
  simp only [List.Forall]; repeat' constructor
abbrev hostOps1_W : List (Ref sig .tc) := [main_v118, main_cst_26, main_v119, main_v120, main_cst_27, main_v121, main_v122, main_v123, main_v124, main_v125, main_v126, main_v127, main_v128, main_c_28]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_1_fresh : (hostOps1_1 : List (HloOp τ sig (Elt F))).Forall fun op => op.fresh = ∅ := by
  simp only [List.Forall]; repeat' constructor
abbrev hostOps1_1_W : List (Ref sig .tc) := [main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v129]
theorem hostOps1_1_writes : (hostOps1_1 : List (HloOp τ sig (Elt F))).Forall fun op => op.writes ⊆ (hostOps1_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_2_fresh : (hostOps1_2 : List (HloOp τ sig (Elt F))).Forall fun op => op.fresh = ∅ := by
  simp only [List.Forall]; repeat' constructor
abbrev hostOps1_2_W : List (Ref sig .tc) := [main_v130, main_v131, main_c_29, main_v132, main_v133, main_c_30]
theorem hostOps1_2_writes : (hostOps1_2 : List (HloOp τ sig (Elt F))).Forall fun op => op.writes ⊆ (hostOps1_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_3_fresh : (hostOps1_3 : List (HloOp τ sig (Elt F))).Forall fun op => op.fresh = ∅ := by
  simp only [List.Forall]; repeat' constructor
abbrev hostOps1_3_W : List (Ref sig .tc) := [main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v134]
theorem hostOps1_3_writes : (hostOps1_3 : List (HloOp τ sig (Elt F))).Forall fun op => op.writes ⊆ (hostOps1_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_4_fresh : (hostOps1_4 : List (HloOp τ sig (Elt F))).Forall fun op => op.fresh = ∅ := by
  simp only [List.Forall]; repeat' constructor
abbrev hostOps1_4_W : List (Ref sig .tc) := [main_v135, main_v136, main_c_31]
theorem hostOps1_4_writes : (hostOps1_4 : List (HloOp τ sig (Elt F))).Forall fun op => op.writes ⊆ (hostOps1_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_5_fresh : (hostOps1_5 : List (HloOp τ sig (Elt F))).Forall fun op => op.fresh = ∅ := by
  simp only [List.Forall]; repeat' constructor
abbrev hostOps1_5_W : List (Ref sig .tc) := [main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v137]
theorem hostOps1_5_writes : (hostOps1_5 : List (HloOp τ sig (Elt F))).Forall fun op => op.writes ⊆ (hostOps1_5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_6_fresh : (hostOps1_6 : List (HloOp τ sig (Elt F))).Forall fun op => op.fresh = ∅ := by
  simp only [List.Forall]; repeat' constructor
abbrev hostOps1_6_W : List (Ref sig .tc) := [main_v138, main_v139, main_c_32, main_v140, main_v141, main_c_33]
theorem hostOps1_6_writes : (hostOps1_6 : List (HloOp τ sig (Elt F))).Forall fun op => op.writes ⊆ (hostOps1_6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_7_fresh : (hostOps1_7 : List (HloOp τ sig (Elt F))).Forall fun op => op.fresh = ∅ := by
  simp only [List.Forall]; repeat' constructor
abbrev hostOps1_7_W : List (Ref sig .tc) := [main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v142]
theorem hostOps1_7_writes : (hostOps1_7 : List (HloOp τ sig (Elt F))).Forall fun op => op.writes ⊆ (hostOps1_7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_8_fresh : (hostOps1_8 : List (HloOp τ sig (Elt F))).Forall fun op => op.fresh = ∅ := by
  simp only [List.Forall]; repeat' constructor
abbrev hostOps1_8_W : List (Ref sig .tc) := [main_v143, main_v144, main_c_34, main_v145, main_v146, main_c_35, main_v147, main_v148, main_v149, main_c_36, main_v150, main_v151, main_c_37, main_v152, main_v153, main_v154, main_v155, main_v156, main_v157, main_v158, main_c_38, main_v159, main_v160, main_c_39, main_v161, main_v162, main_v163, main_c_40, main_v164, main_v165, main_c_41, main_v166, main_v167, main_v168, main_v169, main_v170, main_v171, main_v172, main_c_42, main_v173, main_v174, main_c_43, main_v175, main_v176, main_v177, main_c_44, main_v178, main_v179, main_c_45, main_v180, main_v181, main_v182, main_v183, main_v184, main_v185, main_v186, main_c_46, main_v187, main_v188, main_c_47, main_v189, main_v190, main_v191, main_c_48, main_v192, main_v193, main_c_49, main_v194, main_v195, main_v196, main_v197, main_v198, main_v199, main_v200, main_cst_50, main_v201, main_v202, main_v203, main_v204, main_cst_51, main_v205, main_v206, main_v207, main_v208, main_v209, main_v210, main_cst_52, main_v211, main_v212, main_v213, main_v214, main_v215, main_cst_53, main_v216, main_v217, main_v218, main_v219, main_v220, main_v221, main_v222, main_v223, main_v224, main_v225, main_v226, main_v227, main_v228, main_v229, main_v230, main_v231, main_v232, main_v233, main_v234]
theorem hostOps1_8_writes : (hostOps1_8 : List (HloOp τ sig (Elt F))).Forall fun op => op.writes ⊆ (hostOps1_8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_fresh : (hostOps2 : List (HloOp τ sig (Elt F))).Forall fun op => op.fresh = ∅ := by
  simp only [List.Forall]; repeat' constructor
abbrev hostOps2_W : List (Ref sig .tc) := [main_v236]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## The argument arrays, and that no stretch writes one -/

/-- The entry function's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

theorem hostOps0_args : ∀ r ∈ argRefs, r ∉ hostOps0_W := by decide
theorem hostOps0_1_args : ∀ r ∈ argRefs, r ∉ hostOps0_1_W := by decide
theorem hostOps0_2_args : ∀ r ∈ argRefs, r ∉ hostOps0_2_W := by decide
theorem hostOps0_3_args : ∀ r ∈ argRefs, r ∉ hostOps0_3_W := by decide
theorem hostOps0_4_args : ∀ r ∈ argRefs, r ∉ hostOps0_4_W := by decide
theorem hostOps0_5_args : ∀ r ∈ argRefs, r ∉ hostOps0_5_W := by decide
theorem hostOps0_6_args : ∀ r ∈ argRefs, r ∉ hostOps0_6_W := by decide
theorem hostOps0_7_args : ∀ r ∈ argRefs, r ∉ hostOps0_7_W := by decide
theorem hostOps0_8_args : ∀ r ∈ argRefs, r ∉ hostOps0_8_W := by decide
theorem hostOps1_args : ∀ r ∈ argRefs, r ∉ hostOps1_W := by decide
theorem hostOps1_1_args : ∀ r ∈ argRefs, r ∉ hostOps1_1_W := by decide
theorem hostOps1_2_args : ∀ r ∈ argRefs, r ∉ hostOps1_2_W := by decide
theorem hostOps1_3_args : ∀ r ∈ argRefs, r ∉ hostOps1_3_W := by decide
theorem hostOps1_4_args : ∀ r ∈ argRefs, r ∉ hostOps1_4_W := by decide
theorem hostOps1_5_args : ∀ r ∈ argRefs, r ∉ hostOps1_5_W := by decide
theorem hostOps1_6_args : ∀ r ∈ argRefs, r ∉ hostOps1_6_W := by decide
theorem hostOps1_7_args : ∀ r ∈ argRefs, r ∉ hostOps1_7_W := by decide
theorem hostOps1_8_args : ∀ r ∈ argRefs, r ∉ hostOps1_8_W := by decide
theorem hostOps2_args : ∀ r ∈ argRefs, r ∉ hostOps2_W := by decide

/-! ## The buffers' contents at each boundary -/

section Fold

variable (m : (ℓ : Loc nD τ sig) → Buf (Elt F) ℓ)
variable (o0 : (c : Dev nD) → (w : Fin cfg0.W) → Buf (Elt F) ((spec0 w).arr.view.loc (c.tc : Thread nD τ)))
variable (o1 : (c : Dev nD) → (w : Fin cfg1.W) → Buf (Elt F) ((spec1 w).arr.view.loc (c.tc : Thread nD τ)))

/-- Core `c`'s buffers at launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev W6 : Dev nD → Valuation τ sig (Elt F) := fun c => StableHlo.after hostOps0_5 (W5 m c)
abbrev W7 : Dev nD → Valuation τ sig (Elt F) := fun c => StableHlo.after hostOps0_6 (W6 m c)
abbrev W8 : Dev nD → Valuation τ sig (Elt F) := fun c => StableHlo.after hostOps0_7 (W7 m c)
abbrev W9 : Dev nD → Valuation τ sig (Elt F) := fun c => StableHlo.after hostOps0_8 (W8 m c)
/-- After the first region: its windows' arrays at `o0`, every other buffer as the region found it. -/
def W10 (c : Dev nD) : Valuation τ sig (Elt F) := Pipeline.withArrays spec0 c (W9 m c) (o0 c)
abbrev W11 : Dev nD → Valuation τ sig (Elt F) := fun c => StableHlo.after hostOps1 (W10 m o0 c)
abbrev W12 : Dev nD → Valuation τ sig (Elt F) := fun c => StableHlo.after hostOps1_1 (W11 m o0 c)
abbrev W13 : Dev nD → Valuation τ sig (Elt F) := fun c => StableHlo.after hostOps1_2 (W12 m o0 c)
abbrev W14 : Dev nD → Valuation τ sig (Elt F) := fun c => StableHlo.after hostOps1_3 (W13 m o0 c)
abbrev W15 : Dev nD → Valuation τ sig (Elt F) := fun c => StableHlo.after hostOps1_4 (W14 m o0 c)
abbrev W16 : Dev nD → Valuation τ sig (Elt F) := fun c => StableHlo.after hostOps1_5 (W15 m o0 c)
abbrev W17 : Dev nD → Valuation τ sig (Elt F) := fun c => StableHlo.after hostOps1_6 (W16 m o0 c)
abbrev W18 : Dev nD → Valuation τ sig (Elt F) := fun c => StableHlo.after hostOps1_7 (W17 m o0 c)
abbrev W19 : Dev nD → Valuation τ sig (Elt F) := fun c => StableHlo.after hostOps1_8 (W18 m o0 c)
/-- After the second region: its windows' arrays at `o1`, every other buffer as the region found it. -/
def W20 (c : Dev nD) : Valuation τ sig (Elt F) := Pipeline.withArrays spec1 c (W19 m o0 c) (o1 c)
abbrev W21 : Dev nD → Valuation τ sig (Elt F) := fun c => StableHlo.after hostOps2 (W20 m o0 o1 c)

theorem W10_arr (c : Dev nD) (w : Fin cfg0.W) : W10 m o0 c (Proc.devRef .tc (Pipeline.arrRef spec0 w)) = o0 c w := by
  unfold W10; exact Pipeline.withArrays_arr spec0 launch0.win.arr_inj c _ _ w
theorem W10_of_ne (c : Dev nD) (b : Ref sig .tc) (hb : ∀ w, Pipeline.arrRef spec0 w ≠ b) :
    W10 m o0 c (Proc.devRef .tc b) = W9 m c (Proc.devRef .tc b) := by
  unfold W10; exact Pipeline.withArrays_of_ne spec0 c _ _ b hb
theorem W20_arr (c : Dev nD) (w : Fin cfg1.W) : W20 m o0 o1 c (Proc.devRef .tc (Pipeline.arrRef spec1 w)) = o1 c w := by
  unfold W20; exact Pipeline.withArrays_arr spec1 launch1.win.arr_inj c _ _ w
theorem W20_of_ne (c : Dev nD) (b : Ref sig .tc) (hb : ∀ w, Pipeline.arrRef spec1 w ≠ b) :
    W20 m o0 o1 c (Proc.devRef .tc b) = W19 m o0 c (Proc.devRef .tc b) := by
  unfold W20; exact Pipeline.withArrays_of_ne spec1 c _ _ b hb

/-- The one output window of each region is no argument array. -/
theorem out0_not_arg : Pipeline.arrRef spec0 9 ∉ argRefs := by decide
theorem out1_not_arg : Pipeline.arrRef spec1 9 ∉ argRefs := by decide

/-- An argument array holds its launch contents at the end, when each region gives its input windows' arrays back as
    it found them. -/
theorem W21_arg (ho0 : ∀ c (w : Fin cfg0.W), w ≠ 9 → o0 c w = W9 m c (Proc.devRef .tc (Pipeline.arrRef spec0 w)))
    (ho1 : ∀ c (w : Fin cfg1.W), w ≠ 9 → o1 c w = W19 m o0 c (Proc.devRef .tc (Pipeline.arrRef spec1 w)))
    (c : Dev nD) (r : Ref sig .tc) (hr : r ∈ argRefs) :
    W21 m o0 o1 c (Proc.devRef .tc r) = m ((c.tc : Thread nD τ).loc r) := by
  have h10 : W10 m o0 c (Proc.devRef .tc r) = W9 m c (Proc.devRef .tc r) := by
    by_cases h : ∃ w, Pipeline.arrRef spec0 w = r
    · obtain ⟨w, rfl⟩ := h
      rw [W10_arr]
      exact ho0 c w (fun e => out0_not_arg (e ▸ hr))
    · exact W10_of_ne m o0 c r fun w e => h ⟨w, e⟩
  have h20 : W20 m o0 o1 c (Proc.devRef .tc r) = W19 m o0 c (Proc.devRef .tc r) := by
    by_cases h : ∃ w, Pipeline.arrRef spec1 w = r
    · obtain ⟨w, rfl⟩ := h
      rw [W20_arr]
      exact ho1 c w (fun e => out1_not_arg (e ▸ hr))
    · exact W20_of_ne m o0 o1 c r fun w e => h ⟨w, e⟩
  calc W21 m o0 o1 c (Proc.devRef .tc r)
      _ = W20 m o0 o1 c (Proc.devRef .tc r) := StableHlo.after_of_writes_sub hostOps2 _ hostOps2_writes (hostOps2_args r hr)
      _ = W19 m o0 c (Proc.devRef .tc r) := h20
      _ = W18 m o0 c (Proc.devRef .tc r) := StableHlo.after_of_writes_sub hostOps1_8 _ hostOps1_8_writes (hostOps1_8_args r hr)
      _ = W17 m o0 c (Proc.devRef .tc r) := StableHlo.after_of_writes_sub hostOps1_7 _ hostOps1_7_writes (hostOps1_7_args r hr)
      _ = W16 m o0 c (Proc.devRef .tc r) := StableHlo.after_of_writes_sub hostOps1_6 _ hostOps1_6_writes (hostOps1_6_args r hr)
      _ = W15 m o0 c (Proc.devRef .tc r) := StableHlo.after_of_writes_sub hostOps1_5 _ hostOps1_5_writes (hostOps1_5_args r hr)
      _ = W14 m o0 c (Proc.devRef .tc r) := StableHlo.after_of_writes_sub hostOps1_4 _ hostOps1_4_writes (hostOps1_4_args r hr)
      _ = W13 m o0 c (Proc.devRef .tc r) := StableHlo.after_of_writes_sub hostOps1_3 _ hostOps1_3_writes (hostOps1_3_args r hr)
      _ = W12 m o0 c (Proc.devRef .tc r) := StableHlo.after_of_writes_sub hostOps1_2 _ hostOps1_2_writes (hostOps1_2_args r hr)
      _ = W11 m o0 c (Proc.devRef .tc r) := StableHlo.after_of_writes_sub hostOps1_1 _ hostOps1_1_writes (hostOps1_1_args r hr)
      _ = W10 m o0 c (Proc.devRef .tc r) := StableHlo.after_of_writes_sub hostOps1 _ hostOps1_writes (hostOps1_args r hr)
      _ = W9 m c (Proc.devRef .tc r) := h10
      _ = W8 m c (Proc.devRef .tc r) := StableHlo.after_of_writes_sub hostOps0_8 _ hostOps0_8_writes (hostOps0_8_args r hr)
      _ = W7 m c (Proc.devRef .tc r) := StableHlo.after_of_writes_sub hostOps0_7 _ hostOps0_7_writes (hostOps0_7_args r hr)
      _ = W6 m c (Proc.devRef .tc r) := StableHlo.after_of_writes_sub hostOps0_6 _ hostOps0_6_writes (hostOps0_6_args r hr)
      _ = W5 m c (Proc.devRef .tc r) := StableHlo.after_of_writes_sub hostOps0_5 _ hostOps0_5_writes (hostOps0_5_args r hr)
      _ = W4 m c (Proc.devRef .tc r) := StableHlo.after_of_writes_sub hostOps0_4 _ hostOps0_4_writes (hostOps0_4_args r hr)
      _ = W3 m c (Proc.devRef .tc r) := StableHlo.after_of_writes_sub hostOps0_3 _ hostOps0_3_writes (hostOps0_3_args r hr)
      _ = W2 m c (Proc.devRef .tc r) := StableHlo.after_of_writes_sub hostOps0_2 _ hostOps0_2_writes (hostOps0_2_args r hr)
      _ = W1 m c (Proc.devRef .tc r) := StableHlo.after_of_writes_sub hostOps0_1 _ hostOps0_1_writes (hostOps0_1_args r hr)
      _ = W0 m c (Proc.devRef .tc r) := StableHlo.after_of_writes_sub hostOps0 _ hostOps0_writes (hostOps0_args r hr)
      _ = m ((c.tc : Thread nD τ).loc r) := rfl

end Fold

end Cert.Kernel.Hand

end
-- ==== Proof.K.Region0.lean ====
import proofs.«142216_j1408749273558_2_alg».proof.Proof.Gen.Kernel.Launch
import proofs.«142216_j1408749273558_2_alg».proof.Proof.Gen.Kernel.Skeleton
import proofs.«142216_j1408749273558_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pipeline 0 of the program: the kernel body's obligation at the region-entry contents

Stated at a parameter `V`, the TensorCore's buffer contents when the region is entered. Each of the nine
input windows is uncut and never idle, so its current staging buffer holds the window's block at every grid
point, whether the pipeline fetched it there (window 0, whose block index moves with the point) or not
(windows 1–8, whose index map is constant). The body loads the nine input buffers whole, loads the output
buffer once (a value it never uses), and stores one payload over the whole output buffer: what it leaves there
is the canonical contents of that single covering write, a closed function of the nine input blocks.
-/

-- membership in a rectangle of these extents: the elaborator's structural recursion goes once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block
    index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block
    index has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): unfetched, the block
    index has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s (`hA`) and whose body leaves the block in place (`hafter`): unfetched, the block
    index has not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for any proof
    data whose array is `V`'s (`hA`) and whose body leaves the block in place (`hafter`): unfetched, the block
    index has not moved; the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for any proof
    data whose array is `V`'s (`hA`) and whose body leaves the block in place (`hafter`): unfetched, the block
    index has not moved; the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_a : Rect S12x131072 := Rect.unit (s := S12x131072) ![0, 0] S12x131072.size inb_S12x131072_S12x131072_0_0
abbrev r0_b : Rect S32x10 := Rect.unit (s := S32x10) ![0, 0] S32x10.size inb_S32x10_S32x10_0_0
abbrev r0_c : Rect S32x1 := Rect.unit (s := S32x1) ![0, 0] S32x1.size inb_S32x1_S32x1_0_0
abbrev r0_d : Rect S32x32 := Rect.unit (s := S32x32) ![0, 0] S32x32.size inb_S32x32_S32x32_0_0
abbrev r0_e : Rect S1x32 := Rect.unit (s := S1x32) ![0, 0] S1x32.size inb_S1x32_S1x32_0_0
abbrev r0_f : Rect S1x1 := Rect.unit (s := S1x1) ![0, 0] S1x1.size inb_S1x1_S1x1_0_0
abbrev r0_out : Rect S2x131072 := Rect.unit (s := S2x131072) ![0, 0] S2x131072.size inb_S2x131072_S2x131072_0_0

/-! ## What the body leaves in the output window's buffer -/

/-- Window 9's staging buffer after the body, from the input windows' blocks: its one store as a piece over the whole
    buffer, the payload the skeleton's chain over what the loads read of the blocks. -/
def out0_9 (x0 : Vec F S12x131072 .f32) (x1 : Vec F S32x10 .f32) (x2 : Vec F S32x1 .f32) (x3 : Vec F S32x32 .f32) (x4 : Vec F S32x1 .f32) (x5 : Vec F S32x32 .f32) (x6 : Vec F S32x1 .f32) (x7 : Vec F S1x32 .f32) (x8 : Vec F S1x1 .f32) : Vec F S2x131072 .f32 :=
  View.canon [⟨r0_out, k0_pay1 (k0_pay3 (View.ld x0 r0_a)) (k0_pay4 (View.ld x0 r0_a)) (k0_pay5 (View.ld x0 r0_a) (View.ld x1 r0_b) (View.ld x2 r0_c) (View.ld x3 r0_d) (View.ld x4 r0_c) (View.ld x5 r0_d) (View.ld x6 r0_c)) (k0_pay6 (View.ld x0 r0_a) (View.ld x1 r0_b) (View.ld x2 r0_c) (View.ld x3 r0_d) (View.ld x4 r0_c) (View.ld x5 r0_d) (View.ld x6 r0_c)) (k0_pay7 (F := F)) (View.ld x7 r0_e) (View.ld x8 r0_f)⟩]

/-- The one store tiles the buffer, so it covers it. -/
theorem cover0_9 (p0 : Vec F S2x131072 .f32) (y : S2x131072.Idx) :
    ∃ pc ∈ ([⟨r0_out, p0⟩] : List (View.Piece (Elt F) S2x131072 .f32)), y ∈ pc.1.set :=
  View.cover_of_tiled [⟨r0_out, p0⟩] S2x131072.size (by rfl) y

/-! ## The body's triple -/

set_option maxHeartbeats 1000000 in
/-- The kernel body on whole staging memrefs, the inputs' at read contents `xW` and the output's at anything, runs to
    the continuation holding the inputs' as they were and the output's at `out0_9` of the inputs': the printed
    functions are their skeletons, run operation by operation through the part call. -/
theorem sound_kernel0 (c : Dev nD) (E : Set ℕ) (i : grid0.Coords) (arg1 : Memref sig .tc .vmem S12x131072 .f32) (harg1 : arg1.IsWhole) (arg2 : Memref sig .tc .vmem S32x10 .f32) (harg2 : arg2.IsWhole) (arg3 : Memref sig .tc .vmem S32x1 .f32) (harg3 : arg3.IsWhole) (arg4 : Memref sig .tc .vmem S32x32 .f32) (harg4 : arg4.IsWhole) (arg5 : Memref sig .tc .vmem S32x1 .f32) (harg5 : arg5.IsWhole) (arg6 : Memref sig .tc .vmem S32x32 .f32) (harg6 : arg6.IsWhole) (arg7 : Memref sig .tc .vmem S32x1 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S2x131072 .f32) (harg10 : arg10.IsWhole)
    (x0 : Vec F S12x131072 .f32) (x1 : Vec F S32x10 .f32) (x2 : Vec F S32x1 .f32) (x3 : Vec F S32x32 .f32) (x4 : Vec F S32x1 .f32) (x5 : Vec F S32x32 .f32) (x6 : Vec F S32x1 .f32) (x7 : Vec F S1x32 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__offset_kernel i arg1 harg1 arg2 harg2 arg3 harg3 arg4 harg4 arg5 harg5 arg6 harg6 arg7 harg7 arg8 harg8 arg9 harg9 arg10 harg10) K := by
  simp only [cc0__offset_kernel_eq_skeleton]; unfold cc0__offset_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

/-! ## The pipeline's proof data -/

/-- The proof data of pipeline 0 on core `c`: the arrays as the region finds them (`V`); after the body at point `t`
    each input's buffer at its block and the output's at `out0_9` of the input blocks; the invariant the scoped rest
    and the random-number register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so `sound_kernel0` applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
import proofs.«142216_j1408749273558_2_alg».proof.Proof.Gen.Kernel.Launch
import proofs.«142216_j1408749273558_2_alg».proof.Proof.Gen.Kernel.Skeleton
import proofs.«142216_j1408749273558_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pipeline 1 of the program: the kernel body's obligation at the region-entry contents

Stated at a parameter `V`, the TensorCore's buffer contents when the region is entered. Each of the nine
input windows is uncut and never idle, so its current staging buffer holds the window's block at every grid
point, whether the pipeline fetched it there (window 0, whose block index moves with the point) or not
(windows 1–8, whose index map is constant). The body loads the nine input buffers whole, loads the output
buffer once (a value it never uses), and stores one payload over the whole output buffer: what it leaves there
is the canonical contents of that single covering write, a closed function of the nine input blocks.
-/

-- membership in a rectangle of these extents: the elaborator's structural recursion goes once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): unfetched, the block
    index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): unfetched, the block
    index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): unfetched, the block
    index has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof
    data whose array is `V`'s (`hA`) and whose body leaves the block in place (`hafter`): unfetched, the block
    index has not moved; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for any proof
    data whose array is `V`'s (`hA`) and whose body leaves the block in place (`hafter`): unfetched, the block
    index has not moved; the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for any proof
    data whose array is `V`'s (`hA`) and whose body leaves the block in place (`hafter`): unfetched, the block
    index has not moved; the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_a : Rect S12x131072 := Rect.unit (s := S12x131072) ![0, 0] S12x131072.size inb_S12x131072_S12x131072_0_0
abbrev r1_b : Rect S32x12 := Rect.unit (s := S32x12) ![0, 0] S32x12.size inb_S32x12_S32x12_0_0
abbrev r1_c : Rect S32x1 := Rect.unit (s := S32x1) ![0, 0] S32x1.size inb_S32x1_S32x1_0_0
abbrev r1_d : Rect S32x32 := Rect.unit (s := S32x32) ![0, 0] S32x32.size inb_S32x32_S32x32_0_0
abbrev r1_e : Rect S3x32 := Rect.unit (s := S3x32) ![0, 0] S3x32.size inb_S3x32_S3x32_0_0
abbrev r1_f : Rect S3x1 := Rect.unit (s := S3x1) ![0, 0] S3x1.size inb_S3x1_S3x1_0_0
abbrev r1_out : Rect S3x131072 := Rect.unit (s := S3x131072) ![0, 0] S3x131072.size inb_S3x131072_S3x131072_0_0

/-! ## What the body leaves in the output window's buffer -/

/-- Window 9's staging buffer after the body, from the input windows' blocks: its one store as a piece over the whole
    buffer, the payload the skeleton's chain over what the loads read of the blocks. -/
def out1_9 (x0 : Vec F S12x131072 .f32) (x1 : Vec F S32x12 .f32) (x2 : Vec F S32x1 .f32) (x3 : Vec F S32x32 .f32) (x4 : Vec F S32x1 .f32) (x5 : Vec F S32x32 .f32) (x6 : Vec F S32x1 .f32) (x7 : Vec F S3x32 .f32) (x8 : Vec F S3x1 .f32) : Vec F S3x131072 .f32 :=
  View.canon [⟨r1_out, k1_pay1 (k1_pay2 (View.ld x0 r1_a) (View.ld x1 r1_b) (View.ld x2 r1_c) (View.ld x3 r1_d) (View.ld x4 r1_c) (View.ld x5 r1_d) (View.ld x6 r1_c)) (View.ld x7 r1_e) (View.ld x8 r1_f)⟩]

/-- The one store tiles the buffer, so it covers it. -/
theorem cover1_9 (p0 : Vec F S3x131072 .f32) (y : S3x131072.Idx) :
    ∃ pc ∈ ([⟨r1_out, p0⟩] : List (View.Piece (Elt F) S3x131072 .f32)), y ∈ pc.1.set :=
  View.cover_of_tiled [⟨r1_out, p0⟩] S3x131072.size (by rfl) y

/-! ## The body's triple -/

set_option maxHeartbeats 1000000 in
/-- The kernel body on whole staging memrefs, the inputs' at read contents `xW` and the output's at anything, runs to
    the continuation holding the inputs' as they were and the output's at `out1_9` of the inputs': the printed
    functions are their skeletons, run operation by operation through the part call. -/
theorem sound_kernel1 (c : Dev nD) (E : Set ℕ) (i : grid1.Coords) (arg1 : Memref sig .tc .vmem S12x131072 .f32) (harg1 : arg1.IsWhole) (arg2 : Memref sig .tc .vmem S32x12 .f32) (harg2 : arg2.IsWhole) (arg3 : Memref sig .tc .vmem S32x1 .f32) (harg3 : arg3.IsWhole) (arg4 : Memref sig .tc .vmem S32x32 .f32) (harg4 : arg4.IsWhole) (arg5 : Memref sig .tc .vmem S32x1 .f32) (harg5 : arg5.IsWhole) (arg6 : Memref sig .tc .vmem S32x32 .f32) (harg6 : arg6.IsWhole) (arg7 : Memref sig .tc .vmem S32x1 .f32) (harg7 : arg7.IsWhole) (arg8 : Memref sig .tc .vmem S3x32 .f32) (harg8 : arg8.IsWhole) (arg9 : Memref sig .tc .vmem S3x1 .f32) (harg9 : arg9.IsWhole) (arg10 : Memref sig .tc .vmem S3x131072 .f32) (harg10 : arg10.IsWhole)
    (x0 : Vec F S12x131072 .f32) (x1 : Vec F S32x12 .f32) (x2 : Vec F S32x1 .f32) (x3 : Vec F S32x32 .f32) (x4 : Vec F S32x1 .f32) (x5 : Vec F S32x32 .f32) (x6 : Vec F S32x1 .f32) (x7 : Vec F S3x32 .f32) (x8 : Vec F S3x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__rgb_kernel i arg1 harg1 arg2 harg2 arg3 harg3 arg4 harg4 arg5 harg5 arg6 harg6 arg7 harg7 arg8 harg8 arg9 harg9 arg10 harg10) K := by
  simp only [cc1__rgb_kernel_eq_skeleton]; unfold cc1__rgb_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-! ## The pipeline's proof data -/

/-- The proof data of pipeline 1 on core `c`: the arrays as the region finds them (`V`); after the body at point `t`
    each input's buffer at its block and the output's at `out1_9` of the input blocks; the invariant the scoped rest
    and the random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so `sound_kernel1` applies; the invariant and the
    core's owed count pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole run of the entry function: its twenty-one items — host stretches and the two kernel regions — as segments
  over the thread state "every unscoped buffer of the core whole at the boundary's contents", each region's proof data
  taken at the contents the stretch before it leaves. Every weakly fair execution terminates without a fault, and at the
  end every unscoped buffer holds the last boundary's contents; in particular each argument array its launch contents.
-/
import proofs.«142216_j1408749273558_2_alg».proof.Proof.K.Host
import proofs.«142216_j1408749273558_2_alg».proof.Proof.K.Region0
import proofs.«142216_j1408749273558_2_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions find and leave -/

/-- What the first region finds: the contents after the ninth host stretch, read at the core's references. -/
abbrev V9 : (c : Dev nD) → (b : Ref sig .tc) → Buf (Elt F) ((c : Thread nD τ).loc b) := fun c b => W9 m c b
/-- What the first region leaves in its windows' arrays: the inputs as found, the output's write-backs folded. -/
def o0 (c : Dev nD) (w : Fin cfg0.W) : Buf (Elt F) ((spec0 w).arr.view.loc (c.tc : Thread nD τ)) := (dat0 (V9 m) c).arrAt w cfg0.N
abbrev X10 : Dev nD → Valuation τ sig (Elt F) := W10 m (o0 m)
abbrev V10 : (c : Dev nD) → (b : Ref sig .tc) → Buf (Elt F) ((c : Thread nD τ).loc b) := fun c b => X10 m c b
abbrev X19 : Dev nD → Valuation τ sig (Elt F) := W19 m (o0 m)
/-- What the second region finds. -/
abbrev V19 : (c : Dev nD) → (b : Ref sig .tc) → Buf (Elt F) ((c : Thread nD τ).loc b) := fun c b => X19 m c b
/-- What the second region leaves in its windows' arrays. -/
def o1 (c : Dev nD) (w : Fin cfg1.W) : Buf (Elt F) ((spec1 w).arr.view.loc (c.tc : Thread nD τ)) := (dat1 (V19 m) c).arrAt w cfg1.N
abbrev X20 : Dev nD → Valuation τ sig (Elt F) := W20 m (o0 m) (o1 m)
abbrev V20 : (c : Dev nD) → (b : Ref sig .tc) → Buf (Elt F) ((c : Thread nD τ).loc b) := fun c b => X20 m c b
/-- The contents at the end. -/
abbrev X21 : Dev nD → Valuation τ sig (Elt F) := W21 m (o0 m) (o1 m)

theorem hF0 (c : Dev nD) (w : Fin cfg0.W) : (dat0 (V9 m) c).arrAt w cfg0.N = V10 m c (Pipeline.arrRef spec0 w) :=
  (W10_arr m (o0 m) c w).symm
theorem hrest0 (c : Dev nD) : ∀ b, b ∉ Finset.univ.image (Pipeline.arrRef spec0) → V10 m c b = V9 m c b :=
  fun b hb => W10_of_ne m (o0 m) c b fun w e => hb (Finset.mem_image.mpr ⟨w, Finset.mem_univ _, e⟩)
theorem hF1 (c : Dev nD) (w : Fin cfg1.W) : (dat1 (V19 m) c).arrAt w cfg1.N = V20 m c (Pipeline.arrRef spec1 w) :=
  (W20_arr m (o0 m) (o1 m) c w).symm
theorem hrest1 (c : Dev nD) : ∀ b, b ∉ Finset.univ.image (Pipeline.arrRef spec1) → V20 m c b = V19 m c b :=
  fun b hb => W20_of_ne m (o0 m) (o1 m) c b fun w e => hb (Finset.mem_image.mpr ⟨w, Finset.mem_univ _, e⟩)

/-- Every window but the last is an input window. -/
theorem isIn0 : ∀ w : Fin cfg0.W, w ≠ 9 → (cfg0.win w).isOut = false := by decide
theorem isIn1 : ∀ w : Fin cfg1.W, w ≠ 9 → (cfg1.win w).isOut = false := by decide
/-- A region gives each input window's array back as it found it. -/
theorem o0_in (c : Dev nD) (w : Fin cfg0.W) (hw : w ≠ 9) : o0 m c w = W9 m c (Proc.devRef .tc (Pipeline.arrRef spec0 w)) :=
  ((dat0 (V9 m) c).arrAt_in w (isIn0 w hw) _).trans (A_eq0 (V9 m) c w)
theorem o1_in (c : Dev nD) (w : Fin cfg1.W) (hw : w ≠ 9) : o1 m c w = W19 m (o0 m) c (Proc.devRef .tc (Pipeline.arrRef spec1 w)) :=
  ((dat1 (V19 m) c).arrAt_in w (isIn1 w hw) _).trans (A_eq1 (V19 m) c w)

/-- Each argument array ends at its launch contents. -/
theorem X21_arg (c : Dev nD) (r : Ref sig .tc) (hr : r ∈ argRefs) : X21 m c (Proc.devRef .tc r) = m ((c.tc : Thread nD τ).loc r) :=
  W21_arg m (o0 m) (o1 m) (o0_in m) (o1_in m) c r hr

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V9 m) c
  | ⟨1, _⟩ => fun c => dat1 (V19 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (X21 m c) ∗ ∃ r, prngReg c r)

/-! ## The regions as segments -/

set_option backward.isDefEq.respectTransparency.types false in
/-- Region 0 over the thread state "every unscoped buffer whole at the boundary's contents, the generator register at
    some state, nothing owed": its windows' arrays are split out of the unscoped buffers on entry and put back at what the
    write-backs leave on exit; the generator register goes into the class invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V9 m) c).loose
  hwaits := Pipeline.hwaits_of_owed_zero _ _ _ _ L lv 0 fun _ _ => rfl
  pre c := iprop(StableHlo.held (c : Thread nD τ) (Pipeline.ucRefs τ sig) (W9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec0 c (V9 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V9 m c) (V10 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer whole at the boundary's contents, the generator register at
    some state, nothing owed": its windows' arrays are split out of the unscoped buffers on entry and put back at what the
    write-backs leave on exit; the generator register goes into the class invariant and comes back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V19 m) c).loose
  hwaits := Pipeline.hwaits_of_owed_zero _ _ _ _ L lv 1 fun _ _ => rfl
  pre c := iprop(StableHlo.held (c : Thread nD τ) (Pipeline.ucRefs τ sig) (X19 m c) ∗ R c)
  post c := iprop(StableHlo.held (c : Thread nD τ) (Pipeline.ucRefs τ sig) (X20 m c) ∗ R c)
  X c := iprop(∃ r, prngReg c r)
  Y c := iprop(∃ r, prngReg c r)
  Z c := Pipeline.unscopedRest (Ix := Unit) (Name := ℕ) (U := UR sig nD τ) (Lvl := ℕ) spec1 c (V19 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V19 m c) (V20 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .host (hseg hostOps0_8 hostOps0_8_sub hostOps0_8_fresh (W8 m)),
    .region (reg0 m),
    .host (hseg hostOps1 hostOps1_sub hostOps1_fresh (X10 m)),
    .host (hseg hostOps1_1 hostOps1_1_sub hostOps1_1_fresh (W11 m (o0 m))),
    .host (hseg hostOps1_2 hostOps1_2_sub hostOps1_2_fresh (W12 m (o0 m))),
    .host (hseg hostOps1_3 hostOps1_3_sub hostOps1_3_fresh (W13 m (o0 m))),
    .host (hseg hostOps1_4 hostOps1_4_sub hostOps1_4_fresh (W14 m (o0 m))),
    .host (hseg hostOps1_5 hostOps1_5_sub hostOps1_5_fresh (W15 m (o0 m))),
    .host (hseg hostOps1_6 hostOps1_6_sub hostOps1_6_fresh (W16 m (o0 m))),
    .host (hseg hostOps1_7 hostOps1_7_sub hostOps1_7_fresh (W17 m (o0 m))),
    .host (hseg hostOps1_8 hostOps1_8_sub hostOps1_8_fresh (W18 m (o0 m))),
    .region (reg1 m),
    .host (hseg hostOps2 hostOps2_sub hostOps2_fresh (X20 m)) ]

theorem main_run (c : Dev nD) : main (F := F) c = Pipeline.Seg.run (segs m) := (main_chain c).trans (by chain_rfl)

set_option backward.isDefEq.respectTransparency.types false in
/-- The run: every weakly fair execution of the entry function terminates, nothing faulting, and at the end every
    unscoped buffer of every core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = X21 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (X21 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X21 m c b)
    (hfin := fun c s' => by
      iintro ⟨⟨Hh, -⟩, HSI⟩
      unfold StableHlo.held
      imodintro
      iapply (pointsTo_read_all (Pipeline.ucRefs τ sig) (fun b => (((c : Thread nD τ)).1, b)) (X21 m c) s')
      isplitl [Hh] <;> iassumption)
    (hQ := fun s h c => h c)

/-- The run with the result named and the arguments kept: the result array ends at the last boundary's contents of its
    buffer, each argument array at its launch contents. -/
theorem run_out : θ_run defs (onTc (τ := τ) (main (F := F))) ⟨m, fun _ => 0, ρ⟩ (fun r => ∀ c : Dev nD,
      r.2.mem ((c.tc : Thread nD τ).loc main_v236) = X21 m c (Proc.devRef .tc main_v236)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨h c _ (mem_uc main_v236 (by decide)),
      (h c _ (mem_uc main_arg0 (by decide))).trans (X21_arg m c main_arg0 (by decide)),
      (h c _ (mem_uc main_arg1 (by decide))).trans (X21_arg m c main_arg1 (by decide)),
      (h c _ (mem_uc main_arg2 (by decide))).trans (X21_arg m c main_arg2 (by decide)),
      (h c _ (mem_uc main_arg3 (by decide))).trans (X21_arg m c main_arg3 (by decide)),
      (h c _ (mem_uc main_arg4 (by decide))).trans (X21_arg m c main_arg4 (by decide)),
      (h c _ (mem_uc main_arg5 (by decide))).trans (X21_arg m c main_arg5 (by decide)),
      (h c _ (mem_uc main_arg6 (by decide))).trans (X21_arg m c main_arg6 (by decide)),
      (h c _ (mem_uc main_arg7 (by decide))).trans (X21_arg m c main_arg7 (by decide)),
      (h c _ (mem_uc main_arg8 (by decide))).trans (X21_arg m c main_arg8 (by decide)),
      (h c _ (mem_uc main_arg9 (by decide))).trans (X21_arg m c main_arg9 (by decide)),
      (h c _ (mem_uc main_arg10 (by decide))).trans (X21_arg m c main_arg10 (by decide)),
      (h c _ (mem_uc main_arg11 (by decide))).trans (X21_arg m c main_arg11 (by decide)),
      (h c _ (mem_uc main_arg12 (by decide))).trans (X21_arg m c main_arg12 (by decide)),
      (h c _ (mem_uc main_arg13 (by decide))).trans (X21_arg m c main_arg13 (by decide)),
      (h c _ (mem_uc main_arg14 (by decide))).trans (X21_arg m c main_arg14 (by decide)),
      (h c _ (mem_uc main_arg15 (by decide))).trans (X21_arg m c main_arg15 (by decide)),
      (h c _ (mem_uc main_arg16 (by decide))).trans (X21_arg m c main_arg16 (by decide)),
      (h c _ (mem_uc main_arg17 (by decide))).trans (X21_arg m c main_arg17 (by decide)),
      (h c _ (mem_uc main_arg18 (by decide))).trans (X21_arg m c main_arg18 (by decide)),
      (h c _ (mem_uc main_arg19 (by decide))).trans (X21_arg m c main_arg19 (by decide)),
      (h c _ (mem_uc main_arg20 (by decide))).trans (X21_arg m c main_arg20 (by decide))⟩) (run m ρ)

/-- The frame: every execution terminates without a fault and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => (h c).2) (run_out m ρ)

end Cert.Kernel.Hand

end
-- ==== Proof.KI.Host.lean ====
/-
  The host side of the program between its two kernel regions: the contents of the core's buffers at every boundary
  between two items of the entry function — the launch memory, then each stretch of host operations folded over what
  the item before left, a region replacing its windows' arrays by what its write-backs leave (a parameter here) —,
  the references each stretch writes, and the argument arrays read back through all of it to their launch contents:
  no stretch writes an argument, and a region gives an input window's array back as it found it.
-/
import proofs.«142216_j1408749273558_2_alg».proof.Proof.Gen.KernelIdeal.Launch
import Idealize.ShloMosaic.Lib.Pipeline.FrameSuffix
import Idealize.ShloMosaic.Lib.Pipeline.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## No stretch allocates, and what each stretch writes -/

theorem hostOps0_fresh : (hostOps0 : List (HloOp τ sig (Elt F))).Forall fun op => op.fresh = ∅ := by
  simp only [List.Forall]; repeat' constructor
abbrev hostOps0_W : List (Ref sig .tc) := [main_cst, main_v0, main_v1, main_cst_0, main_v2, main_v3, main_v4, main_v5, main_v6, main_v7, main_v8, main_v9, main_c]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_1_fresh : (hostOps0_1 : List (HloOp τ sig (Elt F))).Forall fun op => op.fresh = ∅ := by
  simp only [List.Forall]; repeat' constructor
abbrev hostOps0_1_W : List (Ref sig .tc) := [main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v10]
theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_2_fresh : (hostOps0_2 : List (HloOp τ sig (Elt F))).Forall fun op => op.fresh = ∅ := by
  simp only [List.Forall]; repeat' constructor
abbrev hostOps0_2_W : List (Ref sig .tc) := [main_v11, main_v12, main_c_1, main_v13, main_v14, main_c_2]
theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_3_fresh : (hostOps0_3 : List (HloOp τ sig (Elt F))).Forall fun op => op.fresh = ∅ := by
  simp only [List.Forall]; repeat' constructor
abbrev hostOps0_3_W : List (Ref sig .tc) := [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v15]
theorem hostOps0_3_writes : (hostOps0_3 : List (HloOp τ sig (Elt F))).Forall fun op => op.writes ⊆ (hostOps0_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_4_fresh : (hostOps0_4 : List (HloOp τ sig (Elt F))).Forall fun op => op.fresh = ∅ := by
  simp only [List.Forall]; repeat' constructor
abbrev hostOps0_4_W : List (Ref sig .tc) := [main_v16, main_v17, main_c_3]
theorem hostOps0_4_writes : (hostOps0_4 : List (HloOp τ sig (Elt F))).Forall fun op => op.writes ⊆ (hostOps0_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_5_fresh : (hostOps0_5 : List (HloOp τ sig (Elt F))).Forall fun op => op.fresh = ∅ := by
  simp only [List.Forall]; repeat' constructor
abbrev hostOps0_5_W : List (Ref sig .tc) := [main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v18]
theorem hostOps0_5_writes : (hostOps0_5 : List (HloOp τ sig (Elt F))).Forall fun op => op.writes ⊆ (hostOps0_5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_6_fresh : (hostOps0_6 : List (HloOp τ sig (Elt F))).Forall fun op => op.fresh = ∅ := by
  simp only [List.Forall]; repeat' constructor
abbrev hostOps0_6_W : List (Ref sig .tc) := [main_v19, main_v20, main_c_4, main_v21, main_v22, main_c_5]
theorem hostOps0_6_writes : (hostOps0_6 : List (HloOp τ sig (Elt F))).Forall fun op => op.writes ⊆ (hostOps0_6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_7_fresh : (hostOps0_7 : List (HloOp τ sig (Elt F))).Forall fun op => op.fresh = ∅ := by
  simp only [List.Forall]; repeat' constructor
abbrev hostOps0_7_W : List (Ref sig .tc) := [main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v23]
theorem hostOps0_7_writes : (hostOps0_7 : List (HloOp τ sig (Elt F))).Forall fun op => op.writes ⊆ (hostOps0_7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_8_fresh : (hostOps0_8 : List (HloOp τ sig (Elt F))).Forall fun op => op.fresh = ∅ := by
  simp only [List.Forall]; repeat' constructor
abbrev hostOps0_8_W : List (Ref sig .tc) := [main_v24, main_v25, main_c_6, main_v26, main_v27, main_c_7, main_v28, main_v29, main_v30, main_c_8, main_v31, main_v32, main_c_9, main_v33, main_v34, main_v35, main_v36, main_v37, main_v38, main_v39, main_c_10, main_v40, main_v41, main_c_11, main_v42, main_v43, main_v44, main_c_12, main_v45, main_v46, main_c_13, main_v47, main_v48, main_v49, main_v50, main_v51, main_v52, main_v53, main_c_14, main_v54, main_v55, main_c_15, main_v56, main_v57, main_v58, main_c_16, main_v59, main_v60, main_c_17, main_v61, main_v62, main_v63, main_v64, main_v65, main_v66, main_v67, main_c_18, main_v68, main_v69, main_c_19, main_v70, main_v71, main_v72, main_c_20, main_v73, main_v74, main_c_21, main_v75, main_v76, main_v77, main_v78, main_v79, main_v80, main_v81, main_cst_22, main_v82, main_v83, main_v84, main_v85, main_cst_23, main_v86, main_v87, main_v88, main_v89, main_v90, main_v91, main_cst_24, main_v92, main_v93, main_v94, main_v95, main_v96, main_cst_25, main_v97, main_v98, main_v99, main_v100, main_v101, main_v102, main_v103, main_v104, main_v105, main_v106, main_v107, main_v108, main_v109, main_v110, main_v111, main_v112, main_v113, main_v114, main_v115, main_v116]
theorem hostOps0_8_writes : (hostOps0_8 : List (HloOp τ sig (Elt F))).Forall fun op => op.writes ⊆ (hostOps0_8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_fresh : (hostOps1 : List (HloOp τ sig (Elt F))).Forall fun op => op.fresh = ∅ := by
  simp only [List.Forall]; repeat' constructor
abbrev hostOps1_W : List (Ref sig .tc) := [main_v118, main_cst_26, main_v119, main_v120, main_cst_27, main_v121, main_v122, main_v123, main_v124, main_v125, main_v126, main_v127, main_v128, main_c_28]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_1_fresh : (hostOps1_1 : List (HloOp τ sig (Elt F))).Forall fun op => op.fresh = ∅ := by
  simp only [List.Forall]; repeat' constructor
abbrev hostOps1_1_W : List (Ref sig .tc) := [main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v129]
theorem hostOps1_1_writes : (hostOps1_1 : List (HloOp τ sig (Elt F))).Forall fun op => op.writes ⊆ (hostOps1_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_2_fresh : (hostOps1_2 : List (HloOp τ sig (Elt F))).Forall fun op => op.fresh = ∅ := by
  simp only [List.Forall]; repeat' constructor
abbrev hostOps1_2_W : List (Ref sig .tc) := [main_v130, main_v131, main_c_29, main_v132, main_v133, main_c_30]
theorem hostOps1_2_writes : (hostOps1_2 : List (HloOp τ sig (Elt F))).Forall fun op => op.writes ⊆ (hostOps1_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_3_fresh : (hostOps1_3 : List (HloOp τ sig (Elt F))).Forall fun op => op.fresh = ∅ := by
  simp only [List.Forall]; repeat' constructor
abbrev hostOps1_3_W : List (Ref sig .tc) := [main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v134]
theorem hostOps1_3_writes : (hostOps1_3 : List (HloOp τ sig (Elt F))).Forall fun op => op.writes ⊆ (hostOps1_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_4_fresh : (hostOps1_4 : List (HloOp τ sig (Elt F))).Forall fun op => op.fresh = ∅ := by
  simp only [List.Forall]; repeat' constructor
abbrev hostOps1_4_W : List (Ref sig .tc) := [main_v135, main_v136, main_c_31]
theorem hostOps1_4_writes : (hostOps1_4 : List (HloOp τ sig (Elt F))).Forall fun op => op.writes ⊆ (hostOps1_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_5_fresh : (hostOps1_5 : List (HloOp τ sig (Elt F))).Forall fun op => op.fresh = ∅ := by
  simp only [List.Forall]; repeat' constructor
abbrev hostOps1_5_W : List (Ref sig .tc) := [main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v137]
theorem hostOps1_5_writes : (hostOps1_5 : List (HloOp τ sig (Elt F))).Forall fun op => op.writes ⊆ (hostOps1_5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_6_fresh : (hostOps1_6 : List (HloOp τ sig (Elt F))).Forall fun op => op.fresh = ∅ := by
  simp only [List.Forall]; repeat' constructor
abbrev hostOps1_6_W : List (Ref sig .tc) := [main_v138, main_v139, main_c_32, main_v140, main_v141, main_c_33]
theorem hostOps1_6_writes : (hostOps1_6 : List (HloOp τ sig (Elt F))).Forall fun op => op.writes ⊆ (hostOps1_6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_7_fresh : (hostOps1_7 : List (HloOp τ sig (Elt F))).Forall fun op => op.fresh = ∅ := by
  simp only [List.Forall]; repeat' constructor
abbrev hostOps1_7_W : List (Ref sig .tc) := [main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v142]
theorem hostOps1_7_writes : (hostOps1_7 : List (HloOp τ sig (Elt F))).Forall fun op => op.writes ⊆ (hostOps1_7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_8_fresh : (hostOps1_8 : List (HloOp τ sig (Elt F))).Forall fun op => op.fresh = ∅ := by
  simp only [List.Forall]; repeat' constructor
abbrev hostOps1_8_W : List (Ref sig .tc) := [main_v143, main_v144, main_c_34, main_v145, main_v146, main_c_35, main_v147, main_v148, main_v149, main_c_36, main_v150, main_v151, main_c_37, main_v152, main_v153, main_v154, main_v155, main_v156, main_v157, main_v158, main_c_38, main_v159, main_v160, main_c_39, main_v161, main_v162, main_v163, main_c_40, main_v164, main_v165, main_c_41, main_v166, main_v167, main_v168, main_v169, main_v170, main_v171, main_v172, main_c_42, main_v173, main_v174, main_c_43, main_v175, main_v176, main_v177, main_c_44, main_v178, main_v179, main_c_45, main_v180, main_v181, main_v182, main_v183, main_v184, main_v185, main_v186, main_c_46, main_v187, main_v188, main_c_47, main_v189, main_v190, main_v191, main_c_48, main_v192, main_v193, main_c_49, main_v194, main_v195, main_v196, main_v197, main_v198, main_v199, main_v200, main_cst_50, main_v201, main_v202, main_v203, main_v204, main_cst_51, main_v205, main_v206, main_v207, main_v208, main_v209, main_v210, main_cst_52, main_v211, main_v212, main_v213, main_v214, main_v215, main_cst_53, main_v216, main_v217, main_v218, main_v219, main_v220, main_v221, main_v222, main_v223, main_v224, main_v225, main_v226, main_v227, main_v228, main_v229, main_v230, main_v231, main_v232, main_v233, main_v234]
theorem hostOps1_8_writes : (hostOps1_8 : List (HloOp τ sig (Elt F))).Forall fun op => op.writes ⊆ (hostOps1_8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_fresh : (hostOps2 : List (HloOp τ sig (Elt F))).Forall fun op => op.fresh = ∅ := by
  simp only [List.Forall]; repeat' constructor
abbrev hostOps2_W : List (Ref sig .tc) := [main_v236]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## The argument arrays, and that no stretch writes one -/

/-- The entry function's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

theorem hostOps0_args : ∀ r ∈ argRefs, r ∉ hostOps0_W := by decide
theorem hostOps0_1_args : ∀ r ∈ argRefs, r ∉ hostOps0_1_W := by decide
theorem hostOps0_2_args : ∀ r ∈ argRefs, r ∉ hostOps0_2_W := by decide
theorem hostOps0_3_args : ∀ r ∈ argRefs, r ∉ hostOps0_3_W := by decide
theorem hostOps0_4_args : ∀ r ∈ argRefs, r ∉ hostOps0_4_W := by decide
theorem hostOps0_5_args : ∀ r ∈ argRefs, r ∉ hostOps0_5_W := by decide
theorem hostOps0_6_args : ∀ r ∈ argRefs, r ∉ hostOps0_6_W := by decide
theorem hostOps0_7_args : ∀ r ∈ argRefs, r ∉ hostOps0_7_W := by decide
theorem hostOps0_8_args : ∀ r ∈ argRefs, r ∉ hostOps0_8_W := by decide
theorem hostOps1_args : ∀ r ∈ argRefs, r ∉ hostOps1_W := by decide
theorem hostOps1_1_args : ∀ r ∈ argRefs, r ∉ hostOps1_1_W := by decide
theorem hostOps1_2_args : ∀ r ∈ argRefs, r ∉ hostOps1_2_W := by decide
theorem hostOps1_3_args : ∀ r ∈ argRefs, r ∉ hostOps1_3_W := by decide
theorem hostOps1_4_args : ∀ r ∈ argRefs, r ∉ hostOps1_4_W := by decide
theorem hostOps1_5_args : ∀ r ∈ argRefs, r ∉ hostOps1_5_W := by decide
theorem hostOps1_6_args : ∀ r ∈ argRefs, r ∉ hostOps1_6_W := by decide
theorem hostOps1_7_args : ∀ r ∈ argRefs, r ∉ hostOps1_7_W := by decide
theorem hostOps1_8_args : ∀ r ∈ argRefs, r ∉ hostOps1_8_W := by decide
theorem hostOps2_args : ∀ r ∈ argRefs, r ∉ hostOps2_W := by decide

/-! ## The buffers' contents at each boundary -/

section Fold

variable (m : (ℓ : Loc nD τ sig) → Buf (Elt F) ℓ)
variable (o0 : (c : Dev nD) → (w : Fin cfg0.W) → Buf (Elt F) ((spec0 w).arr.view.loc (c.tc : Thread nD τ)))
variable (o1 : (c : Dev nD) → (w : Fin cfg1.W) → Buf (Elt F) ((spec1 w).arr.view.loc (c.tc : Thread nD τ)))

/-- Core `c`'s buffers at launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev W6 : Dev nD → Valuation τ sig (Elt F) := fun c => StableHlo.after hostOps0_5 (W5 m c)
abbrev W7 : Dev nD → Valuation τ sig (Elt F) := fun c => StableHlo.after hostOps0_6 (W6 m c)
abbrev W8 : Dev nD → Valuation τ sig (Elt F) := fun c => StableHlo.after hostOps0_7 (W7 m c)
abbrev W9 : Dev nD → Valuation τ sig (Elt F) := fun c => StableHlo.after hostOps0_8 (W8 m c)
/-- After the first region: its windows' arrays at `o0`, every other buffer as the region found it. -/
def W10 (c : Dev nD) : Valuation τ sig (Elt F) := Pipeline.withArrays spec0 c (W9 m c) (o0 c)
abbrev W11 : Dev nD → Valuation τ sig (Elt F) := fun c => StableHlo.after hostOps1 (W10 m o0 c)
abbrev W12 : Dev nD → Valuation τ sig (Elt F) := fun c => StableHlo.after hostOps1_1 (W11 m o0 c)
abbrev W13 : Dev nD → Valuation τ sig (Elt F) := fun c => StableHlo.after hostOps1_2 (W12 m o0 c)
abbrev W14 : Dev nD → Valuation τ sig (Elt F) := fun c => StableHlo.after hostOps1_3 (W13 m o0 c)
abbrev W15 : Dev nD → Valuation τ sig (Elt F) := fun c => StableHlo.after hostOps1_4 (W14 m o0 c)
abbrev W16 : Dev nD → Valuation τ sig (Elt F) := fun c => StableHlo.after hostOps1_5 (W15 m o0 c)
abbrev W17 : Dev nD → Valuation τ sig (Elt F) := fun c => StableHlo.after hostOps1_6 (W16 m o0 c)
abbrev W18 : Dev nD → Valuation τ sig (Elt F) := fun c => StableHlo.after hostOps1_7 (W17 m o0 c)
abbrev W19 : Dev nD → Valuation τ sig (Elt F) := fun c => StableHlo.after hostOps1_8 (W18 m o0 c)
/-- After the second region: its windows' arrays at `o1`, every other buffer as the region found it. -/
def W20 (c : Dev nD) : Valuation τ sig (Elt F) := Pipeline.withArrays spec1 c (W19 m o0 c) (o1 c)
abbrev W21 : Dev nD → Valuation τ sig (Elt F) := fun c => StableHlo.after hostOps2 (W20 m o0 o1 c)

theorem W10_arr (c : Dev nD) (w : Fin cfg0.W) : W10 m o0 c (Proc.devRef .tc (Pipeline.arrRef spec0 w)) = o0 c w := by
  unfold W10; exact Pipeline.withArrays_arr spec0 launch0.win.arr_inj c _ _ w
theorem W10_of_ne (c : Dev nD) (b : Ref sig .tc) (hb : ∀ w, Pipeline.arrRef spec0 w ≠ b) :
    W10 m o0 c (Proc.devRef .tc b) = W9 m c (Proc.devRef .tc b) := by
  unfold W10; exact Pipeline.withArrays_of_ne spec0 c _ _ b hb
theorem W20_arr (c : Dev nD) (w : Fin cfg1.W) : W20 m o0 o1 c (Proc.devRef .tc (Pipeline.arrRef spec1 w)) = o1 c w := by
  unfold W20; exact Pipeline.withArrays_arr spec1 launch1.win.arr_inj c _ _ w
theorem W20_of_ne (c : Dev nD) (b : Ref sig .tc) (hb : ∀ w, Pipeline.arrRef spec1 w ≠ b) :
    W20 m o0 o1 c (Proc.devRef .tc b) = W19 m o0 c (Proc.devRef .tc b) := by
  unfold W20; exact Pipeline.withArrays_of_ne spec1 c _ _ b hb

/-- The one output window of each region is no argument array. -/
theorem out0_not_arg : Pipeline.arrRef spec0 9 ∉ argRefs := by decide
theorem out1_not_arg : Pipeline.arrRef spec1 9 ∉ argRefs := by decide

/-- An argument array holds its launch contents at the end, when each region gives its input windows' arrays back as
    it found them. -/
theorem W21_arg (ho0 : ∀ c (w : Fin cfg0.W), w ≠ 9 → o0 c w = W9 m c (Proc.devRef .tc (Pipeline.arrRef spec0 w)))
    (ho1 : ∀ c (w : Fin cfg1.W), w ≠ 9 → o1 c w = W19 m o0 c (Proc.devRef .tc (Pipeline.arrRef spec1 w)))
    (c : Dev nD) (r : Ref sig .tc) (hr : r ∈ argRefs) :
    W21 m o0 o1 c (Proc.devRef .tc r) = m ((c.tc : Thread nD τ).loc r) := by
  have h10 : W10 m o0 c (Proc.devRef .tc r) = W9 m c (Proc.devRef .tc r) := by
    by_cases h : ∃ w, Pipeline.arrRef spec0 w = r
    · obtain ⟨w, rfl⟩ := h
      rw [W10_arr]
      exact ho0 c w (fun e => out0_not_arg (e ▸ hr))
    · exact W10_of_ne m o0 c r fun w e => h ⟨w, e⟩
  have h20 : W20 m o0 o1 c (Proc.devRef .tc r) = W19 m o0 c (Proc.devRef .tc r) := by
    by_cases h : ∃ w, Pipeline.arrRef spec1 w = r
    · obtain ⟨w, rfl⟩ := h
      rw [W20_arr]
      exact ho1 c w (fun e => out1_not_arg (e ▸ hr))
    · exact W20_of_ne m o0 o1 c r fun w e => h ⟨w, e⟩
  calc W21 m o0 o1 c (Proc.devRef .tc r)
      _ = W20 m o0 o1 c (Proc.devRef .tc r) := StableHlo.after_of_writes_sub hostOps2 _ hostOps2_writes (hostOps2_args r hr)
      _ = W19 m o0 c (Proc.devRef .tc r) := h20
      _ = W18 m o0 c (Proc.devRef .tc r) := StableHlo.after_of_writes_sub hostOps1_8 _ hostOps1_8_writes (hostOps1_8_args r hr)
      _ = W17 m o0 c (Proc.devRef .tc r) := StableHlo.after_of_writes_sub hostOps1_7 _ hostOps1_7_writes (hostOps1_7_args r hr)
      _ = W16 m o0 c (Proc.devRef .tc r) := StableHlo.after_of_writes_sub hostOps1_6 _ hostOps1_6_writes (hostOps1_6_args r hr)
      _ = W15 m o0 c (Proc.devRef .tc r) := StableHlo.after_of_writes_sub hostOps1_5 _ hostOps1_5_writes (hostOps1_5_args r hr)
      _ = W14 m o0 c (Proc.devRef .tc r) := StableHlo.after_of_writes_sub hostOps1_4 _ hostOps1_4_writes (hostOps1_4_args r hr)
      _ = W13 m o0 c (Proc.devRef .tc r) := StableHlo.after_of_writes_sub hostOps1_3 _ hostOps1_3_writes (hostOps1_3_args r hr)
      _ = W12 m o0 c (Proc.devRef .tc r) := StableHlo.after_of_writes_sub hostOps1_2 _ hostOps1_2_writes (hostOps1_2_args r hr)
      _ = W11 m o0 c (Proc.devRef .tc r) := StableHlo.after_of_writes_sub hostOps1_1 _ hostOps1_1_writes (hostOps1_1_args r hr)
      _ = W10 m o0 c (Proc.devRef .tc r) := StableHlo.after_of_writes_sub hostOps1 _ hostOps1_writes (hostOps1_args r hr)
      _ = W9 m c (Proc.devRef .tc r) := h10
      _ = W8 m c (Proc.devRef .tc r) := StableHlo.after_of_writes_sub hostOps0_8 _ hostOps0_8_writes (hostOps0_8_args r hr)
      _ = W7 m c (Proc.devRef .tc r) := StableHlo.after_of_writes_sub hostOps0_7 _ hostOps0_7_writes (hostOps0_7_args r hr)
      _ = W6 m c (Proc.devRef .tc r) := StableHlo.after_of_writes_sub hostOps0_6 _ hostOps0_6_writes (hostOps0_6_args r hr)
      _ = W5 m c (Proc.devRef .tc r) := StableHlo.after_of_writes_sub hostOps0_5 _ hostOps0_5_writes (hostOps0_5_args r hr)
      _ = W4 m c (Proc.devRef .tc r) := StableHlo.after_of_writes_sub hostOps0_4 _ hostOps0_4_writes (hostOps0_4_args r hr)
      _ = W3 m c (Proc.devRef .tc r) := StableHlo.after_of_writes_sub hostOps0_3 _ hostOps0_3_writes (hostOps0_3_args r hr)
      _ = W2 m c (Proc.devRef .tc r) := StableHlo.after_of_writes_sub hostOps0_2 _ hostOps0_2_writes (hostOps0_2_args r hr)
      _ = W1 m c (Proc.devRef .tc r) := StableHlo.after_of_writes_sub hostOps0_1 _ hostOps0_1_writes (hostOps0_1_args r hr)
      _ = W0 m c (Proc.devRef .tc r) := StableHlo.after_of_writes_sub hostOps0 _ hostOps0_writes (hostOps0_args r hr)
      _ = m ((c.tc : Thread nD τ).loc r) := rfl

end Fold

end Cert.KernelIdeal.Hand

end
-- ==== Proof.KI.Region0.lean ====
import proofs.«142216_j1408749273558_2_alg».proof.Proof.Gen.KernelIdeal.Launch
import proofs.«142216_j1408749273558_2_alg».proof.Proof.Gen.KernelIdeal.Skeleton
import proofs.«142216_j1408749273558_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pipeline 0 of the program: the kernel body's obligation at the region-entry contents

Stated at a parameter `V`, the TensorCore's buffer contents when the region is entered. Each of the nine
input windows is uncut and never idle, so its current staging buffer holds the window's block at every grid
point, whether the pipeline fetched it there (window 0, whose block index moves with the point) or not
(windows 1–8, whose index map is constant). The body loads the nine input buffers whole, loads the output
buffer once (a value it never uses), and stores one payload over the whole output buffer: what it leaves there
is the canonical contents of that single covering write, a closed function of the nine input blocks.
-/

-- membership in a rectangle of these extents: the elaborator's structural recursion goes once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block
    index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block
    index has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): unfetched, the block
    index has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s (`hA`) and whose body leaves the block in place (`hafter`): unfetched, the block
    index has not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for any proof
    data whose array is `V`'s (`hA`) and whose body leaves the block in place (`hafter`): unfetched, the block
    index has not moved; the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for any proof
    data whose array is `V`'s (`hA`) and whose body leaves the block in place (`hafter`): unfetched, the block
    index has not moved; the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_a : Rect S12x131072 := Rect.unit (s := S12x131072) ![0, 0] S12x131072.size inb_S12x131072_S12x131072_0_0
abbrev r0_b : Rect S32x10 := Rect.unit (s := S32x10) ![0, 0] S32x10.size inb_S32x10_S32x10_0_0
abbrev r0_c : Rect S32x1 := Rect.unit (s := S32x1) ![0, 0] S32x1.size inb_S32x1_S32x1_0_0
abbrev r0_d : Rect S32x32 := Rect.unit (s := S32x32) ![0, 0] S32x32.size inb_S32x32_S32x32_0_0
abbrev r0_e : Rect S1x32 := Rect.unit (s := S1x32) ![0, 0] S1x32.size inb_S1x32_S1x32_0_0
abbrev r0_f : Rect S1x1 := Rect.unit (s := S1x1) ![0, 0] S1x1.size inb_S1x1_S1x1_0_0
abbrev r0_out : Rect S2x131072 := Rect.unit (s := S2x131072) ![0, 0] S2x131072.size inb_S2x131072_S2x131072_0_0

/-! ## What the body leaves in the output window's buffer -/

/-- Window 9's staging buffer after the body, from the input windows' blocks: its one store as a piece over the whole
    buffer, the payload the skeleton's chain over what the loads read of the blocks. -/
def out0_9 (x0 : Vec F S12x131072 .f32) (x1 : Vec F S32x10 .f32) (x2 : Vec F S32x1 .f32) (x3 : Vec F S32x32 .f32) (x4 : Vec F S32x1 .f32) (x5 : Vec F S32x32 .f32) (x6 : Vec F S32x1 .f32) (x7 : Vec F S1x32 .f32) (x8 : Vec F S1x1 .f32) : Vec F S2x131072 .f32 :=
  View.canon [⟨r0_out, k0_pay1 (k0_pay3 (View.ld x0 r0_a)) (k0_pay4 (View.ld x0 r0_a)) (k0_pay5 (View.ld x0 r0_a) (View.ld x1 r0_b) (View.ld x2 r0_c) (View.ld x3 r0_d) (View.ld x4 r0_c) (View.ld x5 r0_d) (View.ld x6 r0_c)) (k0_pay6 (View.ld x0 r0_a) (View.ld x1 r0_b) (View.ld x2 r0_c) (View.ld x3 r0_d) (View.ld x4 r0_c) (View.ld x5 r0_d) (View.ld x6 r0_c)) (k0_pay7 (F := F)) (View.ld x7 r0_e) (View.ld x8 r0_f)⟩]

/-- The one store tiles the buffer, so it covers it. -/
theorem cover0_9 (p0 : Vec F S2x131072 .f32) (y : S2x131072.Idx) :
    ∃ pc ∈ ([⟨r0_out, p0⟩] : List (View.Piece (Elt F) S2x131072 .f32)), y ∈ pc.1.set :=
  View.cover_of_tiled [⟨r0_out, p0⟩] S2x131072.size (by rfl) y

/-! ## The body's triple -/

set_option maxHeartbeats 1000000 in
/-- The kernel body on whole staging memrefs, the inputs' at read contents `xW` and the output's at anything, runs to
    the continuation holding the inputs' as they were and the output's at `out0_9` of the inputs': the printed
    functions are their skeletons, run operation by operation through the part call. -/
theorem sound_kernel0 (c : Dev nD) (E : Set ℕ) (i : grid0.Coords) (arg1 : Memref sig .tc .vmem S12x131072 .f32) (harg1 : arg1.IsWhole) (arg2 : Memref sig .tc .vmem S32x10 .f32) (harg2 : arg2.IsWhole) (arg3 : Memref sig .tc .vmem S32x1 .f32) (harg3 : arg3.IsWhole) (arg4 : Memref sig .tc .vmem S32x32 .f32) (harg4 : arg4.IsWhole) (arg5 : Memref sig .tc .vmem S32x1 .f32) (harg5 : arg5.IsWhole) (arg6 : Memref sig .tc .vmem S32x32 .f32) (harg6 : arg6.IsWhole) (arg7 : Memref sig .tc .vmem S32x1 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S2x131072 .f32) (harg10 : arg10.IsWhole)
    (x0 : Vec F S12x131072 .f32) (x1 : Vec F S32x10 .f32) (x2 : Vec F S32x1 .f32) (x3 : Vec F S32x32 .f32) (x4 : Vec F S32x1 .f32) (x5 : Vec F S32x32 .f32) (x6 : Vec F S32x1 .f32) (x7 : Vec F S1x32 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__offset_kernel i arg1 harg1 arg2 harg2 arg3 harg3 arg4 harg4 arg5 harg5 arg6 harg6 arg7 harg7 arg8 harg8 arg9 harg9 arg10 harg10) K := by
  simp only [cc0__offset_kernel_eq_skeleton]; unfold cc0__offset_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

/-! ## The pipeline's proof data -/

/-- The proof data of pipeline 0 on core `c`: the arrays as the region finds them (`V`); after the body at point `t`
    each input's buffer at its block and the output's at `out0_9` of the input blocks; the invariant the scoped rest
    and the random-number register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so `sound_kernel0` applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«142216_j1408749273558_2_alg».proof.Proof.Gen.KernelIdeal.Launch
import proofs.«142216_j1408749273558_2_alg».proof.Proof.Gen.KernelIdeal.Skeleton
import proofs.«142216_j1408749273558_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pipeline 1 of the program: the kernel body's obligation at the region-entry contents

Stated at a parameter `V`, the TensorCore's buffer contents when the region is entered. Each of the nine
input windows is uncut and never idle, so its current staging buffer holds the window's block at every grid
point, whether the pipeline fetched it there (window 0, whose block index moves with the point) or not
(windows 1–8, whose index map is constant). The body loads the nine input buffers whole, loads the output
buffer once (a value it never uses), and stores one payload over the whole output buffer: what it leaves there
is the canonical contents of that single covering write, a closed function of the nine input blocks.
-/

-- membership in a rectangle of these extents: the elaborator's structural recursion goes once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): unfetched, the block
    index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): unfetched, the block
    index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): unfetched, the block
    index has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof
    data whose array is `V`'s (`hA`) and whose body leaves the block in place (`hafter`): unfetched, the block
    index has not moved; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for any proof
    data whose array is `V`'s (`hA`) and whose body leaves the block in place (`hafter`): unfetched, the block
    index has not moved; the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for any proof
    data whose array is `V`'s (`hA`) and whose body leaves the block in place (`hafter`): unfetched, the block
    index has not moved; the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_a : Rect S12x131072 := Rect.unit (s := S12x131072) ![0, 0] S12x131072.size inb_S12x131072_S12x131072_0_0
abbrev r1_b : Rect S32x12 := Rect.unit (s := S32x12) ![0, 0] S32x12.size inb_S32x12_S32x12_0_0
abbrev r1_c : Rect S32x1 := Rect.unit (s := S32x1) ![0, 0] S32x1.size inb_S32x1_S32x1_0_0
abbrev r1_d : Rect S32x32 := Rect.unit (s := S32x32) ![0, 0] S32x32.size inb_S32x32_S32x32_0_0
abbrev r1_e : Rect S3x32 := Rect.unit (s := S3x32) ![0, 0] S3x32.size inb_S3x32_S3x32_0_0
abbrev r1_f : Rect S3x1 := Rect.unit (s := S3x1) ![0, 0] S3x1.size inb_S3x1_S3x1_0_0
abbrev r1_out : Rect S3x131072 := Rect.unit (s := S3x131072) ![0, 0] S3x131072.size inb_S3x131072_S3x131072_0_0

/-! ## What the body leaves in the output window's buffer -/

/-- Window 9's staging buffer after the body, from the input windows' blocks: its one store as a piece over the whole
    buffer, the payload the skeleton's chain over what the loads read of the blocks. -/
def out1_9 (x0 : Vec F S12x131072 .f32) (x1 : Vec F S32x12 .f32) (x2 : Vec F S32x1 .f32) (x3 : Vec F S32x32 .f32) (x4 : Vec F S32x1 .f32) (x5 : Vec F S32x32 .f32) (x6 : Vec F S32x1 .f32) (x7 : Vec F S3x32 .f32) (x8 : Vec F S3x1 .f32) : Vec F S3x131072 .f32 :=
  View.canon [⟨r1_out, k1_pay1 (k1_pay2 (View.ld x0 r1_a) (View.ld x1 r1_b) (View.ld x2 r1_c) (View.ld x3 r1_d) (View.ld x4 r1_c) (View.ld x5 r1_d) (View.ld x6 r1_c)) (View.ld x7 r1_e) (View.ld x8 r1_f)⟩]

/-- The one store tiles the buffer, so it covers it. -/
theorem cover1_9 (p0 : Vec F S3x131072 .f32) (y : S3x131072.Idx) :
    ∃ pc ∈ ([⟨r1_out, p0⟩] : List (View.Piece (Elt F) S3x131072 .f32)), y ∈ pc.1.set :=
  View.cover_of_tiled [⟨r1_out, p0⟩] S3x131072.size (by rfl) y

/-! ## The body's triple -/

set_option maxHeartbeats 1000000 in
/-- The kernel body on whole staging memrefs, the inputs' at read contents `xW` and the output's at anything, runs to
    the continuation holding the inputs' as they were and the output's at `out1_9` of the inputs': the printed
    functions are their skeletons, run operation by operation through the part call. -/
theorem sound_kernel1 (c : Dev nD) (E : Set ℕ) (i : grid1.Coords) (arg1 : Memref sig .tc .vmem S12x131072 .f32) (harg1 : arg1.IsWhole) (arg2 : Memref sig .tc .vmem S32x12 .f32) (harg2 : arg2.IsWhole) (arg3 : Memref sig .tc .vmem S32x1 .f32) (harg3 : arg3.IsWhole) (arg4 : Memref sig .tc .vmem S32x32 .f32) (harg4 : arg4.IsWhole) (arg5 : Memref sig .tc .vmem S32x1 .f32) (harg5 : arg5.IsWhole) (arg6 : Memref sig .tc .vmem S32x32 .f32) (harg6 : arg6.IsWhole) (arg7 : Memref sig .tc .vmem S32x1 .f32) (harg7 : arg7.IsWhole) (arg8 : Memref sig .tc .vmem S3x32 .f32) (harg8 : arg8.IsWhole) (arg9 : Memref sig .tc .vmem S3x1 .f32) (harg9 : arg9.IsWhole) (arg10 : Memref sig .tc .vmem S3x131072 .f32) (harg10 : arg10.IsWhole)
    (x0 : Vec F S12x131072 .f32) (x1 : Vec F S32x12 .f32) (x2 : Vec F S32x1 .f32) (x3 : Vec F S32x32 .f32) (x4 : Vec F S32x1 .f32) (x5 : Vec F S32x32 .f32) (x6 : Vec F S32x1 .f32) (x7 : Vec F S3x32 .f32) (x8 : Vec F S3x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__rgb_kernel i arg1 harg1 arg2 harg2 arg3 harg3 arg4 harg4 arg5 harg5 arg6 harg6 arg7 harg7 arg8 harg8 arg9 harg9 arg10 harg10) K := by
  simp only [cc1__rgb_kernel_eq_skeleton]; unfold cc1__rgb_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-! ## The pipeline's proof data -/

/-- The proof data of pipeline 1 on core `c`: the arrays as the region finds them (`V`); after the body at point `t`
    each input's buffer at its block and the output's at `out1_9` of the input blocks; the invariant the scoped rest
    and the random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so `sound_kernel1` applies; the invariant and the
    core's owed count pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run of the entry function: its twenty-one items — host stretches and the two kernel regions — as segments
  over the thread state "every unscoped buffer of the core whole at the boundary's contents", each region's proof data
  taken at the contents the stretch before it leaves. Every weakly fair execution terminates without a fault, and at the
  end every unscoped buffer holds the last boundary's contents; in particular each argument array its launch contents.
-/
import proofs.«142216_j1408749273558_2_alg».proof.Proof.KI.Host
import proofs.«142216_j1408749273558_2_alg».proof.Proof.KI.Region0
import proofs.«142216_j1408749273558_2_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions find and leave -/

/-- What the first region finds: the contents after the ninth host stretch, read at the core's references. -/
abbrev V9 : (c : Dev nD) → (b : Ref sig .tc) → Buf (Elt F) ((c : Thread nD τ).loc b) := fun c b => W9 m c b
/-- What the first region leaves in its windows' arrays: the inputs as found, the output's write-backs folded. -/
def o0 (c : Dev nD) (w : Fin cfg0.W) : Buf (Elt F) ((spec0 w).arr.view.loc (c.tc : Thread nD τ)) := (dat0 (V9 m) c).arrAt w cfg0.N
abbrev X10 : Dev nD → Valuation τ sig (Elt F) := W10 m (o0 m)
abbrev V10 : (c : Dev nD) → (b : Ref sig .tc) → Buf (Elt F) ((c : Thread nD τ).loc b) := fun c b => X10 m c b
abbrev X19 : Dev nD → Valuation τ sig (Elt F) := W19 m (o0 m)
/-- What the second region finds. -/
abbrev V19 : (c : Dev nD) → (b : Ref sig .tc) → Buf (Elt F) ((c : Thread nD τ).loc b) := fun c b => X19 m c b
/-- What the second region leaves in its windows' arrays. -/
def o1 (c : Dev nD) (w : Fin cfg1.W) : Buf (Elt F) ((spec1 w).arr.view.loc (c.tc : Thread nD τ)) := (dat1 (V19 m) c).arrAt w cfg1.N
abbrev X20 : Dev nD → Valuation τ sig (Elt F) := W20 m (o0 m) (o1 m)
abbrev V20 : (c : Dev nD) → (b : Ref sig .tc) → Buf (Elt F) ((c : Thread nD τ).loc b) := fun c b => X20 m c b
/-- The contents at the end. -/
abbrev X21 : Dev nD → Valuation τ sig (Elt F) := W21 m (o0 m) (o1 m)

theorem hF0 (c : Dev nD) (w : Fin cfg0.W) : (dat0 (V9 m) c).arrAt w cfg0.N = V10 m c (Pipeline.arrRef spec0 w) :=
  (W10_arr m (o0 m) c w).symm
theorem hrest0 (c : Dev nD) : ∀ b, b ∉ Finset.univ.image (Pipeline.arrRef spec0) → V10 m c b = V9 m c b :=
  fun b hb => W10_of_ne m (o0 m) c b fun w e => hb (Finset.mem_image.mpr ⟨w, Finset.mem_univ _, e⟩)
theorem hF1 (c : Dev nD) (w : Fin cfg1.W) : (dat1 (V19 m) c).arrAt w cfg1.N = V20 m c (Pipeline.arrRef spec1 w) :=
  (W20_arr m (o0 m) (o1 m) c w).symm
theorem hrest1 (c : Dev nD) : ∀ b, b ∉ Finset.univ.image (Pipeline.arrRef spec1) → V20 m c b = V19 m c b :=
  fun b hb => W20_of_ne m (o0 m) (o1 m) c b fun w e => hb (Finset.mem_image.mpr ⟨w, Finset.mem_univ _, e⟩)

/-- Every window but the last is an input window. -/
theorem isIn0 : ∀ w : Fin cfg0.W, w ≠ 9 → (cfg0.win w).isOut = false := by decide
theorem isIn1 : ∀ w : Fin cfg1.W, w ≠ 9 → (cfg1.win w).isOut = false := by decide
/-- A region gives each input window's array back as it found it. -/
theorem o0_in (c : Dev nD) (w : Fin cfg0.W) (hw : w ≠ 9) : o0 m c w = W9 m c (Proc.devRef .tc (Pipeline.arrRef spec0 w)) :=
  ((dat0 (V9 m) c).arrAt_in w (isIn0 w hw) _).trans (A_eq0 (V9 m) c w)
theorem o1_in (c : Dev nD) (w : Fin cfg1.W) (hw : w ≠ 9) : o1 m c w = W19 m (o0 m) c (Proc.devRef .tc (Pipeline.arrRef spec1 w)) :=
  ((dat1 (V19 m) c).arrAt_in w (isIn1 w hw) _).trans (A_eq1 (V19 m) c w)

/-- Each argument array ends at its launch contents. -/
theorem X21_arg (c : Dev nD) (r : Ref sig .tc) (hr : r ∈ argRefs) : X21 m c (Proc.devRef .tc r) = m ((c.tc : Thread nD τ).loc r) :=
  W21_arg m (o0 m) (o1 m) (o0_in m) (o1_in m) c r hr

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V9 m) c
  | ⟨1, _⟩ => fun c => dat1 (V19 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (X21 m c) ∗ ∃ r, prngReg c r)

/-! ## The regions as segments -/

set_option backward.isDefEq.respectTransparency.types false in
/-- Region 0 over the thread state "every unscoped buffer whole at the boundary's contents, the generator register at
    some state, nothing owed": its windows' arrays are split out of the unscoped buffers on entry and put back at what the
    write-backs leave on exit; the generator register goes into the class invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V9 m) c).loose
  hwaits := Pipeline.hwaits_of_owed_zero _ _ _ _ L lv 0 fun _ _ => rfl
  pre c := iprop(StableHlo.held (c : Thread nD τ) (Pipeline.ucRefs τ sig) (W9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec0 c (V9 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V9 m c) (V10 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer whole at the boundary's contents, the generator register at
    some state, nothing owed": its windows' arrays are split out of the unscoped buffers on entry and put back at what the
    write-backs leave on exit; the generator register goes into the class invariant and comes back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V19 m) c).loose
  hwaits := Pipeline.hwaits_of_owed_zero _ _ _ _ L lv 1 fun _ _ => rfl
  pre c := iprop(StableHlo.held (c : Thread nD τ) (Pipeline.ucRefs τ sig) (X19 m c) ∗ R c)
  post c := iprop(StableHlo.held (c : Thread nD τ) (Pipeline.ucRefs τ sig) (X20 m c) ∗ R c)
  X c := iprop(∃ r, prngReg c r)
  Y c := iprop(∃ r, prngReg c r)
  Z c := Pipeline.unscopedRest (Ix := Unit) (Name := ℕ) (U := UR sig nD τ) (Lvl := ℕ) spec1 c (V19 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V19 m c) (V20 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .host (hseg hostOps0_8 hostOps0_8_sub hostOps0_8_fresh (W8 m)),
    .region (reg0 m),
    .host (hseg hostOps1 hostOps1_sub hostOps1_fresh (X10 m)),
    .host (hseg hostOps1_1 hostOps1_1_sub hostOps1_1_fresh (W11 m (o0 m))),
    .host (hseg hostOps1_2 hostOps1_2_sub hostOps1_2_fresh (W12 m (o0 m))),
    .host (hseg hostOps1_3 hostOps1_3_sub hostOps1_3_fresh (W13 m (o0 m))),
    .host (hseg hostOps1_4 hostOps1_4_sub hostOps1_4_fresh (W14 m (o0 m))),
    .host (hseg hostOps1_5 hostOps1_5_sub hostOps1_5_fresh (W15 m (o0 m))),
    .host (hseg hostOps1_6 hostOps1_6_sub hostOps1_6_fresh (W16 m (o0 m))),
    .host (hseg hostOps1_7 hostOps1_7_sub hostOps1_7_fresh (W17 m (o0 m))),
    .host (hseg hostOps1_8 hostOps1_8_sub hostOps1_8_fresh (W18 m (o0 m))),
    .region (reg1 m),
    .host (hseg hostOps2 hostOps2_sub hostOps2_fresh (X20 m)) ]

theorem main_run (c : Dev nD) : main (F := F) c = Pipeline.Seg.run (segs m) := (main_chain c).trans (by chain_rfl)

set_option backward.isDefEq.respectTransparency.types false in
/-- The run: every weakly fair execution of the entry function terminates, nothing faulting, and at the end every
    unscoped buffer of every core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = X21 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (X21 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X21 m c b)
    (hfin := fun c s' => by
      iintro ⟨⟨Hh, -⟩, HSI⟩
      unfold StableHlo.held
      imodintro
      iapply (pointsTo_read_all (Pipeline.ucRefs τ sig) (fun b => (((c : Thread nD τ)).1, b)) (X21 m c) s')
      isplitl [Hh] <;> iassumption)
    (hQ := fun s h c => h c)

/-- The run with the result named and the arguments kept: the result array ends at the last boundary's contents of its
    buffer, each argument array at its launch contents. -/
theorem run_out : θ_run defs (onTc (τ := τ) (main (F := F))) ⟨m, fun _ => 0, ρ⟩ (fun r => ∀ c : Dev nD,
      r.2.mem ((c.tc : Thread nD τ).loc main_v236) = X21 m c (Proc.devRef .tc main_v236)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨h c _ (mem_uc main_v236 (by decide)),
      (h c _ (mem_uc main_arg0 (by decide))).trans (X21_arg m c main_arg0 (by decide)),
      (h c _ (mem_uc main_arg1 (by decide))).trans (X21_arg m c main_arg1 (by decide)),
      (h c _ (mem_uc main_arg2 (by decide))).trans (X21_arg m c main_arg2 (by decide)),
      (h c _ (mem_uc main_arg3 (by decide))).trans (X21_arg m c main_arg3 (by decide)),
      (h c _ (mem_uc main_arg4 (by decide))).trans (X21_arg m c main_arg4 (by decide)),
      (h c _ (mem_uc main_arg5 (by decide))).trans (X21_arg m c main_arg5 (by decide)),
      (h c _ (mem_uc main_arg6 (by decide))).trans (X21_arg m c main_arg6 (by decide)),
      (h c _ (mem_uc main_arg7 (by decide))).trans (X21_arg m c main_arg7 (by decide)),
      (h c _ (mem_uc main_arg8 (by decide))).trans (X21_arg m c main_arg8 (by decide)),
      (h c _ (mem_uc main_arg9 (by decide))).trans (X21_arg m c main_arg9 (by decide)),
      (h c _ (mem_uc main_arg10 (by decide))).trans (X21_arg m c main_arg10 (by decide)),
      (h c _ (mem_uc main_arg11 (by decide))).trans (X21_arg m c main_arg11 (by decide)),
      (h c _ (mem_uc main_arg12 (by decide))).trans (X21_arg m c main_arg12 (by decide)),
      (h c _ (mem_uc main_arg13 (by decide))).trans (X21_arg m c main_arg13 (by decide)),
      (h c _ (mem_uc main_arg14 (by decide))).trans (X21_arg m c main_arg14 (by decide)),
      (h c _ (mem_uc main_arg15 (by decide))).trans (X21_arg m c main_arg15 (by decide)),
      (h c _ (mem_uc main_arg16 (by decide))).trans (X21_arg m c main_arg16 (by decide)),
      (h c _ (mem_uc main_arg17 (by decide))).trans (X21_arg m c main_arg17 (by decide)),
      (h c _ (mem_uc main_arg18 (by decide))).trans (X21_arg m c main_arg18 (by decide)),
      (h c _ (mem_uc main_arg19 (by decide))).trans (X21_arg m c main_arg19 (by decide)),
      (h c _ (mem_uc main_arg20 (by decide))).trans (X21_arg m c main_arg20 (by decide))⟩) (run m ρ)

/-- The frame: every execution terminates without a fault and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => (h c).2) (run_out m ρ)

end Cert.KernelIdeal.Hand

end
-- ==== Proof.Ref.Base.lean ====
/- Two facts about a straight line of host operations, used by the run of the reference program: the
   fold of a concatenation is the second line's fold over the first's, and the buffers a line writes can be
   listed operation by operation. -/
import Idealize.ShloMosaic.Lib.StableHlo.Run

namespace Cert.ReferenceIdeal.RefRun

open Idealize.ShloMosaic Idealize.ShloMosaic.TcCoe Idealize.ShloMosaic.StableHlo

variable {τ : Topo} {sig : RefSig} {Val : EltTy → Type}

/-- The contents after two lines run in turn: the second line's fold over the first line's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The empty line writes nothing. -/
theorem writes_nil (W : List (Ref sig .tc)) :
    ([] : List (HloOp τ sig Val)).Forall fun o => o.writes ⊆ (W.map (Proc.devRef (τ := τ) .tc)).toFinset :=
  List.forall_iff_forall_mem.mpr fun _ h => nomatch h

/-- An operation writing the one buffer `y`, before a line writing inside `W`: the line writes inside `y :: W`. -/
theorem writes_cons {op : HloOp τ sig Val} {ops : List (HloOp τ sig Val)} {y : Ref sig .tc} {W : List (Ref sig .tc)}
    (h : op.writes = {Proc.devRef .tc y})
    (hr : ops.Forall fun o => o.writes ⊆ (W.map (Proc.devRef (τ := τ) .tc)).toFinset) :
    (op :: ops).Forall fun o => o.writes ⊆ ((y :: W).map (Proc.devRef (τ := τ) .tc)).toFinset := by
  refine List.forall_iff_forall_mem.mpr fun o ho => ?_
  rw [List.map_cons, List.toFinset_cons]
  rcases List.mem_cons.mp ho with rfl | ho
  · rw [h, Finset.singleton_subset_iff]; exact Finset.mem_insert_self _ _
  · exact ((List.forall_iff_forall_mem.mp hr) o ho).trans (Finset.subset_insert _ _)

/-- An operation allocating nothing, before a line allocating nothing. -/
theorem fresh_cons {op : HloOp τ sig Val} {ops : List (HloOp τ sig Val)} (h : op.fresh = ∅)
    (hr : ops.Forall fun o => o.fresh = ∅) : (op :: ops).Forall fun o => o.fresh = ∅ := by
  refine List.forall_iff_forall_mem.mpr fun o ho => ?_
  rcases List.mem_cons.mp ho with rfl | ho
  · exact h
  · exact (List.forall_iff_forall_mem.mp hr) o ho

/-- The empty line allocates nothing. -/
theorem fresh_nil : ([] : List (HloOp τ sig Val)).Forall fun o => o.fresh = ∅ :=
  List.forall_iff_forall_mem.mpr fun _ h => nomatch h

/-- A property of every operation of two lines holds of every operation of their concatenation. -/
theorem forall_append {p : HloOp τ sig Val → Prop} {l₁ l₂ : List (HloOp τ sig Val)} (h₁ : l₁.Forall p) (h₂ : l₂.Forall p) :
    (l₁ ++ l₂).Forall p :=
  List.forall_iff_forall_mem.mpr fun o ho => (List.mem_append.mp ho).elim
    ((List.forall_iff_forall_mem.mp h₁) o) ((List.forall_iff_forall_mem.mp h₂) o)

end Cert.ReferenceIdeal.RefRun
-- ==== Proof.Ref.Ops0.lean ====
/- The reference program's @main, statements 1 … 60 (its window `main_part0`), as the list of the 140 host
   operations it runs in order — the 4 calls it makes replaced by the callee's operations over that call's buffers —: the window
   is that straight line, every operation touches TensorCore buffers only and allocates none, and the buffers the
   line writes are listed. -/
import proofs.«142216_j1408749273558_2_alg».proof.Proof.Gen.ReferenceIdeal
import proofs.«142216_j1408749273558_2_alg».proof.Proof.Ref.Base
import Idealize.ShloMosaic.Lib.StableHlo.Run
import Idealize.ShloMosaic.Lib.Pipeline.Regions

-- a list of over a hundred operations written with `::` nests past the default depth
set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The 140 operations of @main's statements 1 … 60, in order, calls inlined. -/
abbrev opsP0 : List (HloOp τ sig (Elt F)) :=
  ( StableHlo.nullary main_cst (constant S_ .f32 0x44000000#32)
  :: StableHlo.unary main_cst main_v0 (broadcastInDim S1048576x2 ![] bcast_S_S1048576x2 : (⟨S_, .f32⟩ : BufTy).Contents (Elt F) → (⟨S1048576x2, .f32⟩ : BufTy).Contents (Elt F))
  :: StableHlo.binary main_arg2 main_v0 main_v1 (mulf : (⟨S1048576x2, .f32⟩ : BufTy).Contents (Elt F) → (⟨S1048576x2, .f32⟩ : BufTy).Contents (Elt F) → (⟨S1048576x2, .f32⟩ : BufTy).Contents (Elt F))
  :: StableHlo.nullary main_cst_0 (constant S_ .f32 0x3F000000#32)
  :: StableHlo.unary main_cst_0 main_v2 (broadcastInDim S1048576x2 ![] bcast_S_S1048576x2 : (⟨S_, .f32⟩ : BufTy).Contents (Elt F) → (⟨S1048576x2, .f32⟩ : BufTy).Contents (Elt F))
  :: StableHlo.binary main_v1 main_v2 main_v3 (subf : (⟨S1048576x2, .f32⟩ : BufTy).Contents (Elt F) → (⟨S1048576x2, .f32⟩ : BufTy).Contents (Elt F) → (⟨S1048576x2, .f32⟩ : BufTy).Contents (Elt F))
  :: StableHlo.unary main_v3 main_v4 (Host.floor : (⟨S1048576x2, .f32⟩ : BufTy).Contents (Elt F) → (⟨S1048576x2, .f32⟩ : BufTy).Contents (Elt F))
  :: StableHlo.unary main_v4 main_v5 (fptosi 32 : (⟨S1048576x2, .f32⟩ : BufTy).Contents (Elt F) → (⟨S1048576x2, .i32⟩ : BufTy).Contents (Elt F))
  :: StableHlo.unary main_v5 main_v6 (sitofp .f32 : (⟨S1048576x2, .i32⟩ : BufTy).Contents (Elt F) → (⟨S1048576x2, .f32⟩ : BufTy).Contents (Elt F))
  :: StableHlo.binary main_v3 main_v6 main_v7 (subf : (⟨S1048576x2, .f32⟩ : BufTy).Contents (Elt F) → (⟨S1048576x2, .f32⟩ : BufTy).Contents (Elt F) → (⟨S1048576x2, .f32⟩ : BufTy).Contents (Elt F))
  :: StableHlo.unary main_v5 main_v8 ((extractStridedSlice S1048576x1 ![0, 0] · slices_S1048576x2_S1048576x1_0_0) : (⟨S1048576x2, .i32⟩ : BufTy).Contents (Elt F) → (⟨S1048576x1, .i32⟩ : BufTy).Contents (Elt F))
  :: StableHlo.reshape main_v8 main_v9 rfl shapeCasts_S1048576x1_S1048576
  :: StableHlo.nullary main_c (constantI S_ 32 512#32)
  :: StableHlo.TRef.unary (.of main_c : StableHlo.TRef sig ⟨S_, .i32⟩) (.of main_call0_v0 : StableHlo.TRef sig ⟨S_, .i32⟩) id
  :: StableHlo.TRef.nullary (.of main_call0_c : StableHlo.TRef sig ⟨S_, .i32⟩) (constantI S_ 32 0#32)
  :: StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq)
  :: StableHlo.TRef.nullary (.of main_call0_c_0 : StableHlo.TRef sig ⟨S_, .i32⟩) (constantI S_ 32 1#32)
  :: StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select
  :: StableHlo.TRef.unary (.of main_call0_v2 : StableHlo.TRef sig ⟨S_, .i32⟩) (.of main_call0_v3 : StableHlo.TRef sig ⟨S1048576, .i32⟩) (broadcastInDim S1048576 ![] bcast_S_S1048576)
  :: StableHlo.TRef.binary (.of main_v9 : StableHlo.TRef sig ⟨S1048576, .i32⟩) (.of main_call0_v3 : StableHlo.TRef sig ⟨S1048576, .i32⟩) (.of main_call0_v4 : StableHlo.TRef sig ⟨S1048576, .i32⟩) Host.remsi
  :: StableHlo.TRef.nullary (.of main_call0_c_1 : StableHlo.TRef sig ⟨S_, .i32⟩) (constantI S_ 32 0#32)
  :: StableHlo.TRef.unary (.of main_call0_c_1 : StableHlo.TRef sig ⟨S_, .i32⟩) (.of main_call0_v5 : StableHlo.TRef sig ⟨S1048576, .i32⟩) (broadcastInDim S1048576 ![] bcast_S_S1048576)
  :: StableHlo.TRef.binary (.of main_call0_v4 : StableHlo.TRef sig ⟨S1048576, .i32⟩) (.of main_call0_v5 : StableHlo.TRef sig ⟨S1048576, .i32⟩) (.of main_call0_v6 : StableHlo.TRef sig ⟨S1048576, .i1⟩) (cmpi .ne)
  :: StableHlo.TRef.nullary (.of main_call0_c_2 : StableHlo.TRef sig ⟨S_, .i32⟩) (constantI S_ 32 0#32)
  :: StableHlo.TRef.unary (.of main_call0_c_2 : StableHlo.TRef sig ⟨S_, .i32⟩) (.of main_call0_v7 : StableHlo.TRef sig ⟨S1048576, .i32⟩) (broadcastInDim S1048576 ![] bcast_S_S1048576)
  :: StableHlo.TRef.binary (.of main_call0_v4 : StableHlo.TRef sig ⟨S1048576, .i32⟩) (.of main_call0_v7 : StableHlo.TRef sig ⟨S1048576, .i32⟩) (.of main_call0_v8 : StableHlo.TRef sig ⟨S1048576, .i1⟩) (cmpi .slt)
  :: StableHlo.TRef.nullary (.of main_call0_c_3 : StableHlo.TRef sig ⟨S_, .i32⟩) (constantI S_ 32 0#32)
  :: StableHlo.TRef.binary (.of main_call0_v2 : StableHlo.TRef sig ⟨S_, .i32⟩) (.of main_call0_c_3 : StableHlo.TRef sig ⟨S_, .i32⟩) (.of main_call0_v9 : StableHlo.TRef sig ⟨S_, .i1⟩) (cmpi .slt)
  :: StableHlo.TRef.unary (.of main_call0_v9 : StableHlo.TRef sig ⟨S_, .i1⟩) (.of main_call0_v10 : StableHlo.TRef sig ⟨S1048576, .i1⟩) (broadcastInDim S1048576 ![] bcast_S_S1048576)
  :: StableHlo.TRef.binary (.of main_call0_v8 : StableHlo.TRef sig ⟨S1048576, .i1⟩) (.of main_call0_v10 : StableHlo.TRef sig ⟨S1048576, .i1⟩) (.of main_call0_v11 : StableHlo.TRef sig ⟨S1048576, .i1⟩) (cmpi .ne)
  :: StableHlo.TRef.binary (.of main_call0_v11 : StableHlo.TRef sig ⟨S1048576, .i1⟩) (.of main_call0_v6 : StableHlo.TRef sig ⟨S1048576, .i1⟩) (.of main_call0_v12 : StableHlo.TRef sig ⟨S1048576, .i1⟩) andi
  :: StableHlo.TRef.unary (.of main_call0_v2 : StableHlo.TRef sig ⟨S_, .i32⟩) (.of main_call0_v13 : StableHlo.TRef sig ⟨S1048576, .i32⟩) (broadcastInDim S1048576 ![] bcast_S_S1048576)
  :: StableHlo.TRef.binary (.of main_call0_v4 : StableHlo.TRef sig ⟨S1048576, .i32⟩) (.of main_call0_v13 : StableHlo.TRef sig ⟨S1048576, .i32⟩) (.of main_call0_v14 : StableHlo.TRef sig ⟨S1048576, .i32⟩) addi
  :: StableHlo.TRef.ternary (.of main_call0_v12 : StableHlo.TRef sig ⟨S1048576, .i1⟩) (.of main_call0_v14 : StableHlo.TRef sig ⟨S1048576, .i32⟩) (.of main_call0_v4 : StableHlo.TRef sig ⟨S1048576, .i32⟩) (.of main_v10 : StableHlo.TRef sig ⟨S1048576, .i32⟩) select
  :: StableHlo.unary main_v5 main_v11 ((extractStridedSlice S1048576x1 ![0, 0] · slices_S1048576x2_S1048576x1_0_0) : (⟨S1048576x2, .i32⟩ : BufTy).Contents (Elt F) → (⟨S1048576x1, .i32⟩ : BufTy).Contents (Elt F))
  :: StableHlo.reshape main_v11 main_v12 rfl shapeCasts_S1048576x1_S1048576
  :: StableHlo.nullary main_c_1 (constantI S_ 32 1#32)
  :: StableHlo.unary main_c_1 main_v13 (broadcastInDim S1048576 ![] bcast_S_S1048576 : (⟨S_, .i32⟩ : BufTy).Contents (Elt F) → (⟨S1048576, .i32⟩ : BufTy).Contents (Elt F))
  :: StableHlo.binary main_v12 main_v13 main_v14 (addi : (⟨S1048576, .i32⟩ : BufTy).Contents (Elt F) → (⟨S1048576, .i32⟩ : BufTy).Contents (Elt F) → (⟨S1048576, .i32⟩ : BufTy).Contents (Elt F))
  :: StableHlo.nullary main_c_2 (constantI S_ 32 512#32)
  :: StableHlo.TRef.unary (.of main_c_2 : StableHlo.TRef sig ⟨S_, .i32⟩) (.of main_call1_v0 : StableHlo.TRef sig ⟨S_, .i32⟩) id
  :: StableHlo.TRef.nullary (.of main_call1_c : StableHlo.TRef sig ⟨S_, .i32⟩) (constantI S_ 32 0#32)
  :: StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq)
  :: StableHlo.TRef.nullary (.of main_call1_c_0 : StableHlo.TRef sig ⟨S_, .i32⟩) (constantI S_ 32 1#32)
  :: StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select
  :: StableHlo.TRef.unary (.of main_call1_v2 : StableHlo.TRef sig ⟨S_, .i32⟩) (.of main_call1_v3 : StableHlo.TRef sig ⟨S1048576, .i32⟩) (broadcastInDim S1048576 ![] bcast_S_S1048576)
  :: StableHlo.TRef.binary (.of main_v14 : StableHlo.TRef sig ⟨S1048576, .i32⟩) (.of main_call1_v3 : StableHlo.TRef sig ⟨S1048576, .i32⟩) (.of main_call1_v4 : StableHlo.TRef sig ⟨S1048576, .i32⟩) Host.remsi
  :: StableHlo.TRef.nullary (.of main_call1_c_1 : StableHlo.TRef sig ⟨S_, .i32⟩) (constantI S_ 32 0#32)
  :: StableHlo.TRef.unary (.of main_call1_c_1 : StableHlo.TRef sig ⟨S_, .i32⟩) (.of main_call1_v5 : StableHlo.TRef sig ⟨S1048576, .i32⟩) (broadcastInDim S1048576 ![] bcast_S_S1048576)
  :: StableHlo.TRef.binary (.of main_call1_v4 : StableHlo.TRef sig ⟨S1048576, .i32⟩) (.of main_call1_v5 : StableHlo.TRef sig ⟨S1048576, .i32⟩) (.of main_call1_v6 : StableHlo.TRef sig ⟨S1048576, .i1⟩) (cmpi .ne)
  :: StableHlo.TRef.nullary (.of main_call1_c_2 : StableHlo.TRef sig ⟨S_, .i32⟩) (constantI S_ 32 0#32)
  :: StableHlo.TRef.unary (.of main_call1_c_2 : StableHlo.TRef sig ⟨S_, .i32⟩) (.of main_call1_v7 : StableHlo.TRef sig ⟨S1048576, .i32⟩) (broadcastInDim S1048576 ![] bcast_S_S1048576)
  :: StableHlo.TRef.binary (.of main_call1_v4 : StableHlo.TRef sig ⟨S1048576, .i32⟩) (.of main_call1_v7 : StableHlo.TRef sig ⟨S1048576, .i32⟩) (.of main_call1_v8 : StableHlo.TRef sig ⟨S1048576, .i1⟩) (cmpi .slt)
  :: StableHlo.TRef.nullary (.of main_call1_c_3 : StableHlo.TRef sig ⟨S_, .i32⟩) (constantI S_ 32 0#32)
  :: StableHlo.TRef.binary (.of main_call1_v2 : StableHlo.TRef sig ⟨S_, .i32⟩) (.of main_call1_c_3 : StableHlo.TRef sig ⟨S_, .i32⟩) (.of main_call1_v9 : StableHlo.TRef sig ⟨S_, .i1⟩) (cmpi .slt)
  :: StableHlo.TRef.unary (.of main_call1_v9 : StableHlo.TRef sig ⟨S_, .i1⟩) (.of main_call1_v10 : StableHlo.TRef sig ⟨S1048576, .i1⟩) (broadcastInDim S1048576 ![] bcast_S_S1048576)
  :: StableHlo.TRef.binary (.of main_call1_v8 : StableHlo.TRef sig ⟨S1048576, .i1⟩) (.of main_call1_v10 : StableHlo.TRef sig ⟨S1048576, .i1⟩) (.of main_call1_v11 : StableHlo.TRef sig ⟨S1048576, .i1⟩) (cmpi .ne)
  :: StableHlo.TRef.binary (.of main_call1_v11 : StableHlo.TRef sig ⟨S1048576, .i1⟩) (.of main_call1_v6 : StableHlo.TRef sig ⟨S1048576, .i1⟩) (.of main_call1_v12 : StableHlo.TRef sig ⟨S1048576, .i1⟩) andi
  :: StableHlo.TRef.unary (.of main_call1_v2 : StableHlo.TRef sig ⟨S_, .i32⟩) (.of main_call1_v13 : StableHlo.TRef sig ⟨S1048576, .i32⟩) (broadcastInDim S1048576 ![] bcast_S_S1048576)
  :: StableHlo.TRef.binary (.of main_call1_v4 : StableHlo.TRef sig ⟨S1048576, .i32⟩) (.of main_call1_v13 : StableHlo.TRef sig ⟨S1048576, .i32⟩) (.of main_call1_v14 : StableHlo.TRef sig ⟨S1048576, .i32⟩) addi
  :: StableHlo.TRef.ternary (.of main_call1_v12 : StableHlo.TRef sig ⟨S1048576, .i1⟩) (.of main_call1_v14 : StableHlo.TRef sig ⟨S1048576, .i32⟩) (.of main_call1_v4 : StableHlo.TRef sig ⟨S1048576, .i32⟩) (.of main_v15 : StableHlo.TRef sig ⟨S1048576, .i32⟩) select
  :: StableHlo.unary main_v5 main_v16 ((extractStridedSlice S1048576x1 ![0, 1] · slices_S1048576x2_S1048576x1_0_1) : (⟨S1048576x2, .i32⟩ : BufTy).Contents (Elt F) → (⟨S1048576x1, .i32⟩ : BufTy).Contents (Elt F))
  :: StableHlo.reshape main_v16 main_v17 rfl shapeCasts_S1048576x1_S1048576
  :: StableHlo.nullary main_c_3 (constantI S_ 32 512#32)
  :: StableHlo.TRef.unary (.of main_c_3 : StableHlo.TRef sig ⟨S_, .i32⟩) (.of main_call2_v0 : StableHlo.TRef sig ⟨S_, .i32⟩) id
  :: StableHlo.TRef.nullary (.of main_call2_c : StableHlo.TRef sig ⟨S_, .i32⟩) (constantI S_ 32 0#32)
  :: StableHlo.TRef.binary (.of main_call2_v0 : StableHlo.TRef sig ⟨S_, .i32⟩) (.of main_call2_c : StableHlo.TRef sig ⟨S_, .i32⟩) (.of main_call2_v1 : StableHlo.TRef sig ⟨S_, .i1⟩) (cmpi .eq)
  :: StableHlo.TRef.nullary (.of main_call2_c_0 : StableHlo.TRef sig ⟨S_, .i32⟩) (constantI S_ 32 1#32)
  :: StableHlo.TRef.ternary (.of main_call2_v1 : StableHlo.TRef sig ⟨S_, .i1⟩) (.of main_call2_c_0 : StableHlo.TRef sig ⟨S_, .i32⟩) (.of main_call2_v0 : StableHlo.TRef sig ⟨S_, .i32⟩) (.of main_call2_v2 : StableHlo.TRef sig ⟨S_, .i32⟩) select
  :: StableHlo.TRef.unary (.of main_call2_v2 : StableHlo.TRef sig ⟨S_, .i32⟩) (.of main_call2_v3 : StableHlo.TRef sig ⟨S1048576, .i32⟩) (broadcastInDim S1048576 ![] bcast_S_S1048576)
  :: StableHlo.TRef.binary (.of main_v17 : StableHlo.TRef sig ⟨S1048576, .i32⟩) (.of main_call2_v3 : StableHlo.TRef sig ⟨S1048576, .i32⟩) (.of main_call2_v4 : StableHlo.TRef sig ⟨S1048576, .i32⟩) Host.remsi
  :: StableHlo.TRef.nullary (.of main_call2_c_1 : StableHlo.TRef sig ⟨S_, .i32⟩) (constantI S_ 32 0#32)
  :: StableHlo.TRef.unary (.of main_call2_c_1 : StableHlo.TRef sig ⟨S_, .i32⟩) (.of main_call2_v5 : StableHlo.TRef sig ⟨S1048576, .i32⟩) (broadcastInDim S1048576 ![] bcast_S_S1048576)
  :: StableHlo.TRef.binary (.of main_call2_v4 : StableHlo.TRef sig ⟨S1048576, .i32⟩) (.of main_call2_v5 : StableHlo.TRef sig ⟨S1048576, .i32⟩) (.of main_call2_v6 : StableHlo.TRef sig ⟨S1048576, .i1⟩) (cmpi .ne)
  :: StableHlo.TRef.nullary (.of main_call2_c_2 : StableHlo.TRef sig ⟨S_, .i32⟩) (constantI S_ 32 0#32)
  :: StableHlo.TRef.unary (.of main_call2_c_2 : StableHlo.TRef sig ⟨S_, .i32⟩) (.of main_call2_v7 : StableHlo.TRef sig ⟨S1048576, .i32⟩) (broadcastInDim S1048576 ![] bcast_S_S1048576)
  :: StableHlo.TRef.binary (.of main_call2_v4 : StableHlo.TRef sig ⟨S1048576, .i32⟩) (.of main_call2_v7 : StableHlo.TRef sig ⟨S1048576, .i32⟩) (.of main_call2_v8 : StableHlo.TRef sig ⟨S1048576, .i1⟩) (cmpi .slt)
  :: StableHlo.TRef.nullary (.of main_call2_c_3 : StableHlo.TRef sig ⟨S_, .i32⟩) (constantI S_ 32 0#32)
  :: StableHlo.TRef.binary (.of main_call2_v2 : StableHlo.TRef sig ⟨S_, .i32⟩) (.of main_call2_c_3 : StableHlo.TRef sig ⟨S_, .i32⟩) (.of main_call2_v9 : StableHlo.TRef sig ⟨S_, .i1⟩) (cmpi .slt)
  :: StableHlo.TRef.unary (.of main_call2_v9 : StableHlo.TRef sig ⟨S_, .i1⟩) (.of main_call2_v10 : StableHlo.TRef sig ⟨S1048576, .i1⟩) (broadcastInDim S1048576 ![] bcast_S_S1048576)
  :: StableHlo.TRef.binary (.of main_call2_v8 : StableHlo.TRef sig ⟨S1048576, .i1⟩) (.of main_call2_v10 : StableHlo.TRef sig ⟨S1048576, .i1⟩) (.of main_call2_v11 : StableHlo.TRef sig ⟨S1048576, .i1⟩) (cmpi .ne)
  :: StableHlo.TRef.binary (.of main_call2_v11 : StableHlo.TRef sig ⟨S1048576, .i1⟩) (.of main_call2_v6 : StableHlo.TRef sig ⟨S1048576, .i1⟩) (.of main_call2_v12 : StableHlo.TRef sig ⟨S1048576, .i1⟩) andi
  :: StableHlo.TRef.unary (.of main_call2_v2 : StableHlo.TRef sig ⟨S_, .i32⟩) (.of main_call2_v13 : StableHlo.TRef sig ⟨S1048576, .i32⟩) (broadcastInDim S1048576 ![] bcast_S_S1048576)
  :: StableHlo.TRef.binary (.of main_call2_v4 : StableHlo.TRef sig ⟨S1048576, .i32⟩) (.of main_call2_v13 : StableHlo.TRef sig ⟨S1048576, .i32⟩) (.of main_call2_v14 : StableHlo.TRef sig ⟨S1048576, .i32⟩) addi
  :: StableHlo.TRef.ternary (.of main_call2_v12 : StableHlo.TRef sig ⟨S1048576, .i1⟩) (.of main_call2_v14 : StableHlo.TRef sig ⟨S1048576, .i32⟩) (.of main_call2_v4 : StableHlo.TRef sig ⟨S1048576, .i32⟩) (.of main_v18 : StableHlo.TRef sig ⟨S1048576, .i32⟩) select
  :: StableHlo.unary main_v5 main_v19 ((extractStridedSlice S1048576x1 ![0, 1] · slices_S1048576x2_S1048576x1_0_1) : (⟨S1048576x2, .i32⟩ : BufTy).Contents (Elt F) → (⟨S1048576x1, .i32⟩ : BufTy).Contents (Elt F))
  :: StableHlo.reshape main_v19 main_v20 rfl shapeCasts_S1048576x1_S1048576
  :: StableHlo.nullary main_c_4 (constantI S_ 32 1#32)
  :: StableHlo.unary main_c_4 main_v21 (broadcastInDim S1048576 ![] bcast_S_S1048576 : (⟨S_, .i32⟩ : BufTy).Contents (Elt F) → (⟨S1048576, .i32⟩ : BufTy).Contents (Elt F))
  :: StableHlo.binary main_v20 main_v21 main_v22 (addi : (⟨S1048576, .i32⟩ : BufTy).Contents (Elt F) → (⟨S1048576, .i32⟩ : BufTy).Contents (Elt F) → (⟨S1048576, .i32⟩ : BufTy).Contents (Elt F))
  :: StableHlo.nullary main_c_5 (constantI S_ 32 512#32)
  :: StableHlo.TRef.unary (.of main_c_5 : StableHlo.TRef sig ⟨S_, .i32⟩) (.of main_call3_v0 : StableHlo.TRef sig ⟨S_, .i32⟩) id
  :: StableHlo.TRef.nullary (.of main_call3_c : StableHlo.TRef sig ⟨S_, .i32⟩) (constantI S_ 32 0#32)
  :: StableHlo.TRef.binary (.of main_call3_v0 : StableHlo.TRef sig ⟨S_, .i32⟩) (.of main_call3_c : StableHlo.TRef sig ⟨S_, .i32⟩) (.of main_call3_v1 : StableHlo.TRef sig ⟨S_, .i1⟩) (cmpi .eq)
  :: StableHlo.TRef.nullary (.of main_call3_c_0 : StableHlo.TRef sig ⟨S_, .i32⟩) (constantI S_ 32 1#32)
  :: StableHlo.TRef.ternary (.of main_call3_v1 : StableHlo.TRef sig ⟨S_, .i1⟩) (.of main_call3_c_0 : StableHlo.TRef sig ⟨S_, .i32⟩) (.of main_call3_v0 : StableHlo.TRef sig ⟨S_, .i32⟩) (.of main_call3_v2 : StableHlo.TRef sig ⟨S_, .i32⟩) select
  :: StableHlo.TRef.unary (.of main_call3_v2 : StableHlo.TRef sig ⟨S_, .i32⟩) (.of main_call3_v3 : StableHlo.TRef sig ⟨S1048576, .i32⟩) (broadcastInDim S1048576 ![] bcast_S_S1048576)
  :: StableHlo.TRef.binary (.of main_v22 : StableHlo.TRef sig ⟨S1048576, .i32⟩) (.of main_call3_v3 : StableHlo.TRef sig ⟨S1048576, .i32⟩) (.of main_call3_v4 : StableHlo.TRef sig ⟨S1048576, .i32⟩) Host.remsi
  :: StableHlo.TRef.nullary (.of main_call3_c_1 : StableHlo.TRef sig ⟨S_, .i32⟩) (constantI S_ 32 0#32)
  :: StableHlo.TRef.unary (.of main_call3_c_1 : StableHlo.TRef sig ⟨S_, .i32⟩) (.of main_call3_v5 : StableHlo.TRef sig ⟨S1048576, .i32⟩) (broadcastInDim S1048576 ![] bcast_S_S1048576)
  :: StableHlo.TRef.binary (.of main_call3_v4 : StableHlo.TRef sig ⟨S1048576, .i32⟩) (.of main_call3_v5 : StableHlo.TRef sig ⟨S1048576, .i32⟩) (.of main_call3_v6 : StableHlo.TRef sig ⟨S1048576, .i1⟩) (cmpi .ne)
  :: StableHlo.TRef.nullary (.of main_call3_c_2 : StableHlo.TRef sig ⟨S_, .i32⟩) (constantI S_ 32 0#32)
  :: StableHlo.TRef.unary (.of main_call3_c_2 : StableHlo.TRef sig ⟨S_, .i32⟩) (.of main_call3_v7 : StableHlo.TRef sig ⟨S1048576, .i32⟩) (broadcastInDim S1048576 ![] bcast_S_S1048576)
  :: StableHlo.TRef.binary (.of main_call3_v4 : StableHlo.TRef sig ⟨S1048576, .i32⟩) (.of main_call3_v7 : StableHlo.TRef sig ⟨S1048576, .i32⟩) (.of main_call3_v8 : StableHlo.TRef sig ⟨S1048576, .i1⟩) (cmpi .slt)
  :: StableHlo.TRef.nullary (.of main_call3_c_3 : StableHlo.TRef sig ⟨S_, .i32⟩) (constantI S_ 32 0#32)
  :: StableHlo.TRef.binary (.of main_call3_v2 : StableHlo.TRef sig ⟨S_, .i32⟩) (.of main_call3_c_3 : StableHlo.TRef sig ⟨S_, .i32⟩) (.of main_call3_v9 : StableHlo.TRef sig ⟨S_, .i1⟩) (cmpi .slt)
  :: StableHlo.TRef.unary (.of main_call3_v9 : StableHlo.TRef sig ⟨S_, .i1⟩) (.of main_call3_v10 : StableHlo.TRef sig ⟨S1048576, .i1⟩) (broadcastInDim S1048576 ![] bcast_S_S1048576)
  :: StableHlo.TRef.binary (.of main_call3_v8 : StableHlo.TRef sig ⟨S1048576, .i1⟩) (.of main_call3_v10 : StableHlo.TRef sig ⟨S1048576, .i1⟩) (.of main_call3_v11 : StableHlo.TRef sig ⟨S1048576, .i1⟩) (cmpi .ne)
  :: StableHlo.TRef.binary (.of main_call3_v11 : StableHlo.TRef sig ⟨S1048576, .i1⟩) (.of main_call3_v6 : StableHlo.TRef sig ⟨S1048576, .i1⟩) (.of main_call3_v12 : StableHlo.TRef sig ⟨S1048576, .i1⟩) andi
  :: StableHlo.TRef.unary (.of main_call3_v2 : StableHlo.TRef sig ⟨S_, .i32⟩) (.of main_call3_v13 : StableHlo.TRef sig ⟨S1048576, .i32⟩) (broadcastInDim S1048576 ![] bcast_S_S1048576)
  :: StableHlo.TRef.binary (.of main_call3_v4 : StableHlo.TRef sig ⟨S1048576, .i32⟩) (.of main_call3_v13 : StableHlo.TRef sig ⟨S1048576, .i32⟩) (.of main_call3_v14 : StableHlo.TRef sig ⟨S1048576, .i32⟩) addi
  :: StableHlo.TRef.ternary (.of main_call3_v12 : StableHlo.TRef sig ⟨S1048576, .i1⟩) (.of main_call3_v14 : StableHlo.TRef sig ⟨S1048576, .i32⟩) (.of main_call3_v4 : StableHlo.TRef sig ⟨S1048576, .i32⟩) (.of main_v23 : StableHlo.TRef sig ⟨S1048576, .i32⟩) select
  :: StableHlo.unary main_v7 main_v24 ((extractStridedSlice S1048576x1 ![0, 0] · slices_S1048576x2_S1048576x1_0_0) : (⟨S1048576x2, .f32⟩ : BufTy).Contents (Elt F) → (⟨S1048576x1, .f32⟩ : BufTy).Contents (Elt F))
  :: StableHlo.unary main_v7 main_v25 ((extractStridedSlice S1048576x1 ![0, 1] · slices_S1048576x2_S1048576x1_0_1) : (⟨S1048576x2, .f32⟩ : BufTy).Contents (Elt F) → (⟨S1048576x1, .f32⟩ : BufTy).Contents (Elt F))
  :: StableHlo.nullary main_c_6 (constantI S_ 32 0#32)
  :: StableHlo.unary main_c_6 main_v26 (broadcastInDim S1048576 ![] bcast_S_S1048576 : (⟨S_, .i32⟩ : BufTy).Contents (Elt F) → (⟨S1048576, .i32⟩ : BufTy).Contents (Elt F))
  :: StableHlo.binary main_v18 main_v26 main_v27 (cmpi .slt : (⟨S1048576, .i32⟩ : BufTy).Contents (Elt F) → (⟨S1048576, .i32⟩ : BufTy).Contents (Elt F) → (⟨S1048576, .i1⟩ : BufTy).Contents (Elt F))
  :: StableHlo.nullary main_c_7 (constantI S_ 32 512#32)
  :: StableHlo.unary main_c_7 main_v28 (broadcastInDim S1048576 ![] bcast_S_S1048576 : (⟨S_, .i32⟩ : BufTy).Contents (Elt F) → (⟨S1048576, .i32⟩ : BufTy).Contents (Elt F))
  :: StableHlo.binary main_v18 main_v28 main_v29 (addi : (⟨S1048576, .i32⟩ : BufTy).Contents (Elt F) → (⟨S1048576, .i32⟩ : BufTy).Contents (Elt F) → (⟨S1048576, .i32⟩ : BufTy).Contents (Elt F))
  :: StableHlo.ternary main_v27 main_v29 main_v18 main_v30 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.nullary main_c_8 (constantI S_ 32 0#32)
  :: StableHlo.unary main_c_8 main_v31 (broadcastInDim S1048576 ![] bcast_S_S1048576 : (⟨S_, .i32⟩ : BufTy).Contents (Elt F) → (⟨S1048576, .i32⟩ : BufTy).Contents (Elt F))
  :: StableHlo.binary main_v10 main_v31 main_v32 (cmpi .slt : (⟨S1048576, .i32⟩ : BufTy).Contents (Elt F) → (⟨S1048576, .i32⟩ : BufTy).Contents (Elt F) → (⟨S1048576, .i1⟩ : BufTy).Contents (Elt F))
  :: StableHlo.nullary main_c_9 (constantI S_ 32 512#32)
  :: StableHlo.unary main_c_9 main_v33 (broadcastInDim S1048576 ![] bcast_S_S1048576 : (⟨S_, .i32⟩ : BufTy).Contents (Elt F) → (⟨S1048576, .i32⟩ : BufTy).Contents (Elt F))
  :: StableHlo.binary main_v10 main_v33 main_v34 (addi : (⟨S1048576, .i32⟩ : BufTy).Contents (Elt F) → (⟨S1048576, .i32⟩ : BufTy).Contents (Elt F) → (⟨S1048576, .i32⟩ : BufTy).Contents (Elt F))
  :: StableHlo.ternary main_v32 main_v34 main_v10 main_v35 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.unary main_v30 main_v36 (broadcastInDim S1048576x1 ![0] bcast_S1048576_S1048576x1_0 : (⟨S1048576, .i32⟩ : BufTy).Contents (Elt F) → (⟨S1048576x1, .i32⟩ : BufTy).Contents (Elt F))
  :: StableHlo.unary main_v35 main_v37 (broadcastInDim S1048576x1 ![0] bcast_S1048576_S1048576x1_0 : (⟨S1048576, .i32⟩ : BufTy).Contents (Elt F) → (⟨S1048576x1, .i32⟩ : BufTy).Contents (Elt F))
  :: StableHlo.binary main_v36 main_v37 main_v38 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F))
  :: StableHlo.binary main_arg3 main_v38 main_v39 ((fun x i => Host.gather gather_S512x512x8_S1048576x2_S1048576x8_1_01_n_n_01_1_118 x i) : (⟨S512x512x8, .f32⟩ : BufTy).Contents (Elt F) → (⟨S1048576x2, .i32⟩ : BufTy).Contents (Elt F) → (⟨S1048576x8, .f32⟩ : BufTy).Contents (Elt F))
  :: StableHlo.nullary main_c_10 (constantI S_ 32 0#32)
  :: StableHlo.unary main_c_10 main_v40 (broadcastInDim S1048576 ![] bcast_S_S1048576 : (⟨S_, .i32⟩ : BufTy).Contents (Elt F) → (⟨S1048576, .i32⟩ : BufTy).Contents (Elt F))
  :: StableHlo.binary main_v18 main_v40 main_v41 (cmpi .slt : (⟨S1048576, .i32⟩ : BufTy).Contents (Elt F) → (⟨S1048576, .i32⟩ : BufTy).Contents (Elt F) → (⟨S1048576, .i1⟩ : BufTy).Contents (Elt F))
  :: StableHlo.nullary main_c_11 (constantI S_ 32 512#32)
  :: StableHlo.unary main_c_11 main_v42 (broadcastInDim S1048576 ![] bcast_S_S1048576 : (⟨S_, .i32⟩ : BufTy).Contents (Elt F) → (⟨S1048576, .i32⟩ : BufTy).Contents (Elt F))
  :: StableHlo.binary main_v18 main_v42 main_v43 (addi : (⟨S1048576, .i32⟩ : BufTy).Contents (Elt F) → (⟨S1048576, .i32⟩ : BufTy).Contents (Elt F) → (⟨S1048576, .i32⟩ : BufTy).Contents (Elt F))
  :: StableHlo.ternary main_v41 main_v43 main_v18 main_v44 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.nullary main_c_12 (constantI S_ 32 0#32)
  :: [] )

/-- The window is that straight line: both sides unfold to the same chain of operation steps. -/
theorem main_part0_eq (c : Dev nD) : main_part0 (F := F) c = seq opsP0 := by
  chain_rfl

/-- Each operation touches TensorCore references only. -/
theorem opsP0_sub : (opsP0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    unary_bufs_sub .., unary_bufs_sub .., unary_bufs_sub .., binary_bufs_sub .., unary_bufs_sub .., reshape_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., unary_bufs_sub .., reshape_bufs_sub ..,
    nullary_bufs_sub .., unary_bufs_sub .., binary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., unary_bufs_sub .., reshape_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., unary_bufs_sub .., reshape_bufs_sub .., nullary_bufs_sub .., unary_bufs_sub .., binary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., unary_bufs_sub .., unary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., nullary_bufs_sub ..⟩

/-- No operation allocates a buffer. -/
theorem opsP0_fresh : (opsP0 : List (HloOp τ sig (Elt F))).Forall fun op => op.fresh = ∅ :=
  fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_nil

/-- The references the line writes: each operation's result, in order. -/
abbrev opsP0_W : List (Ref sig .tc) :=
  [main_cst, main_v0, main_v1, main_cst_0, main_v2, main_v3, main_v4, main_v5, main_v6, main_v7,
   main_v8, main_v9, main_c, main_call0_v0, main_call0_c, main_call0_v1, main_call0_c_0, main_call0_v2, main_call0_v3, main_call0_v4,
   main_call0_c_1, main_call0_v5, main_call0_v6, main_call0_c_2, main_call0_v7, main_call0_v8, main_call0_c_3, main_call0_v9, main_call0_v10, main_call0_v11,
   main_call0_v12, main_call0_v13, main_call0_v14, main_v10, main_v11, main_v12, main_c_1, main_v13, main_v14, main_c_2,
   main_call1_v0, main_call1_c, main_call1_v1, main_call1_c_0, main_call1_v2, main_call1_v3, main_call1_v4, main_call1_c_1, main_call1_v5, main_call1_v6,
   main_call1_c_2, main_call1_v7, main_call1_v8, main_call1_c_3, main_call1_v9, main_call1_v10, main_call1_v11, main_call1_v12, main_call1_v13, main_call1_v14,
   main_v15, main_v16, main_v17, main_c_3, main_call2_v0, main_call2_c, main_call2_v1, main_call2_c_0, main_call2_v2, main_call2_v3,
   main_call2_v4, main_call2_c_1, main_call2_v5, main_call2_v6, main_call2_c_2, main_call2_v7, main_call2_v8, main_call2_c_3, main_call2_v9, main_call2_v10,
   main_call2_v11, main_call2_v12, main_call2_v13, main_call2_v14, main_v18, main_v19, main_v20, main_c_4, main_v21, main_v22,
   main_c_5, main_call3_v0, main_call3_c, main_call3_v1, main_call3_c_0, main_call3_v2, main_call3_v3, main_call3_v4, main_call3_c_1, main_call3_v5,
   main_call3_v6, main_call3_c_2, main_call3_v7, main_call3_v8, main_call3_c_3, main_call3_v9, main_call3_v10, main_call3_v11, main_call3_v12, main_call3_v13,
   main_call3_v14, main_v23, main_v24, main_v25, main_c_6, main_v26, main_v27, main_c_7, main_v28, main_v29,
   main_v30, main_c_8, main_v31, main_v32, main_c_9, main_v33, main_v34, main_v35, main_v36, main_v37,
   main_v38, main_v39, main_c_10, main_v40, main_v41, main_c_11, main_v42, main_v43, main_v44, main_c_12]

/-- Every operation writes its one result buffer, which is listed. -/
theorem opsP0_writes : (opsP0 : List (HloOp τ sig (Elt F))).Forall fun op => op.writes ⊆ (opsP0_W.map (Proc.devRef (τ := τ) .tc)).toFinset :=
  writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_nil []

end Cert.ReferenceIdeal.RefRun

end
-- ==== Proof.Ref.Ops1.lean ====
/- The reference program's @main, statements 61 … 120 (its window `main_part1`), as the list of the 60 host
   operations it runs in order: the window
   is that straight line, every operation touches TensorCore buffers only and allocates none, and the buffers the
   line writes are listed. -/
import proofs.«142216_j1408749273558_2_alg».proof.Proof.Gen.ReferenceIdeal
import proofs.«142216_j1408749273558_2_alg».proof.Proof.Ref.Base
import Idealize.ShloMosaic.Lib.StableHlo.Run
import Idealize.ShloMosaic.Lib.Pipeline.Regions

-- a list of over a hundred operations written with `::` nests past the default depth
set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The 60 operations of @main's statements 61 … 120, in order, calls inlined. -/
abbrev opsP1 : List (HloOp τ sig (Elt F)) :=
  ( StableHlo.unary main_c_12 main_v45 (broadcastInDim S1048576 ![] bcast_S_S1048576 : (⟨S_, .i32⟩ : BufTy).Contents (Elt F) → (⟨S1048576, .i32⟩ : BufTy).Contents (Elt F))
  :: StableHlo.binary main_v15 main_v45 main_v46 (cmpi .slt : (⟨S1048576, .i32⟩ : BufTy).Contents (Elt F) → (⟨S1048576, .i32⟩ : BufTy).Contents (Elt F) → (⟨S1048576, .i1⟩ : BufTy).Contents (Elt F))
  :: StableHlo.nullary main_c_13 (constantI S_ 32 512#32)
  :: StableHlo.unary main_c_13 main_v47 (broadcastInDim S1048576 ![] bcast_S_S1048576 : (⟨S_, .i32⟩ : BufTy).Contents (Elt F) → (⟨S1048576, .i32⟩ : BufTy).Contents (Elt F))
  :: StableHlo.binary main_v15 main_v47 main_v48 (addi : (⟨S1048576, .i32⟩ : BufTy).Contents (Elt F) → (⟨S1048576, .i32⟩ : BufTy).Contents (Elt F) → (⟨S1048576, .i32⟩ : BufTy).Contents (Elt F))
  :: StableHlo.ternary main_v46 main_v48 main_v15 main_v49 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.unary main_v44 main_v50 (broadcastInDim S1048576x1 ![0] bcast_S1048576_S1048576x1_0 : (⟨S1048576, .i32⟩ : BufTy).Contents (Elt F) → (⟨S1048576x1, .i32⟩ : BufTy).Contents (Elt F))
  :: StableHlo.unary main_v49 main_v51 (broadcastInDim S1048576x1 ![0] bcast_S1048576_S1048576x1_0 : (⟨S1048576, .i32⟩ : BufTy).Contents (Elt F) → (⟨S1048576x1, .i32⟩ : BufTy).Contents (Elt F))
  :: StableHlo.binary main_v50 main_v51 main_v52 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F))
  :: StableHlo.binary main_arg3 main_v52 main_v53 ((fun x i => Host.gather gather_S512x512x8_S1048576x2_S1048576x8_1_01_n_n_01_1_118 x i) : (⟨S512x512x8, .f32⟩ : BufTy).Contents (Elt F) → (⟨S1048576x2, .i32⟩ : BufTy).Contents (Elt F) → (⟨S1048576x8, .f32⟩ : BufTy).Contents (Elt F))
  :: StableHlo.nullary main_c_14 (constantI S_ 32 0#32)
  :: StableHlo.unary main_c_14 main_v54 (broadcastInDim S1048576 ![] bcast_S_S1048576 : (⟨S_, .i32⟩ : BufTy).Contents (Elt F) → (⟨S1048576, .i32⟩ : BufTy).Contents (Elt F))
  :: StableHlo.binary main_v23 main_v54 main_v55 (cmpi .slt : (⟨S1048576, .i32⟩ : BufTy).Contents (Elt F) → (⟨S1048576, .i32⟩ : BufTy).Contents (Elt F) → (⟨S1048576, .i1⟩ : BufTy).Contents (Elt F))
  :: StableHlo.nullary main_c_15 (constantI S_ 32 512#32)
  :: StableHlo.unary main_c_15 main_v56 (broadcastInDim S1048576 ![] bcast_S_S1048576 : (⟨S_, .i32⟩ : BufTy).Contents (Elt F) → (⟨S1048576, .i32⟩ : BufTy).Contents (Elt F))
  :: StableHlo.binary main_v23 main_v56 main_v57 (addi : (⟨S1048576, .i32⟩ : BufTy).Contents (Elt F) → (⟨S1048576, .i32⟩ : BufTy).Contents (Elt F) → (⟨S1048576, .i32⟩ : BufTy).Contents (Elt F))
  :: StableHlo.ternary main_v55 main_v57 main_v23 main_v58 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.nullary main_c_16 (constantI S_ 32 0#32)
  :: StableHlo.unary main_c_16 main_v59 (broadcastInDim S1048576 ![] bcast_S_S1048576 : (⟨S_, .i32⟩ : BufTy).Contents (Elt F) → (⟨S1048576, .i32⟩ : BufTy).Contents (Elt F))
  :: StableHlo.binary main_v10 main_v59 main_v60 (cmpi .slt : (⟨S1048576, .i32⟩ : BufTy).Contents (Elt F) → (⟨S1048576, .i32⟩ : BufTy).Contents (Elt F) → (⟨S1048576, .i1⟩ : BufTy).Contents (Elt F))
  :: StableHlo.nullary main_c_17 (constantI S_ 32 512#32)
  :: StableHlo.unary main_c_17 main_v61 (broadcastInDim S1048576 ![] bcast_S_S1048576 : (⟨S_, .i32⟩ : BufTy).Contents (Elt F) → (⟨S1048576, .i32⟩ : BufTy).Contents (Elt F))
  :: StableHlo.binary main_v10 main_v61 main_v62 (addi : (⟨S1048576, .i32⟩ : BufTy).Contents (Elt F) → (⟨S1048576, .i32⟩ : BufTy).Contents (Elt F) → (⟨S1048576, .i32⟩ : BufTy).Contents (Elt F))
  :: StableHlo.ternary main_v60 main_v62 main_v10 main_v63 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.unary main_v58 main_v64 (broadcastInDim S1048576x1 ![0] bcast_S1048576_S1048576x1_0 : (⟨S1048576, .i32⟩ : BufTy).Contents (Elt F) → (⟨S1048576x1, .i32⟩ : BufTy).Contents (Elt F))
  :: StableHlo.unary main_v63 main_v65 (broadcastInDim S1048576x1 ![0] bcast_S1048576_S1048576x1_0 : (⟨S1048576, .i32⟩ : BufTy).Contents (Elt F) → (⟨S1048576x1, .i32⟩ : BufTy).Contents (Elt F))
  :: StableHlo.binary main_v64 main_v65 main_v66 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F))
  :: StableHlo.binary main_arg3 main_v66 main_v67 ((fun x i => Host.gather gather_S512x512x8_S1048576x2_S1048576x8_1_01_n_n_01_1_118 x i) : (⟨S512x512x8, .f32⟩ : BufTy).Contents (Elt F) → (⟨S1048576x2, .i32⟩ : BufTy).Contents (Elt F) → (⟨S1048576x8, .f32⟩ : BufTy).Contents (Elt F))
  :: StableHlo.nullary main_c_18 (constantI S_ 32 0#32)
  :: StableHlo.unary main_c_18 main_v68 (broadcastInDim S1048576 ![] bcast_S_S1048576 : (⟨S_, .i32⟩ : BufTy).Contents (Elt F) → (⟨S1048576, .i32⟩ : BufTy).Contents (Elt F))
  :: StableHlo.binary main_v23 main_v68 main_v69 (cmpi .slt : (⟨S1048576, .i32⟩ : BufTy).Contents (Elt F) → (⟨S1048576, .i32⟩ : BufTy).Contents (Elt F) → (⟨S1048576, .i1⟩ : BufTy).Contents (Elt F))
  :: StableHlo.nullary main_c_19 (constantI S_ 32 512#32)
  :: StableHlo.unary main_c_19 main_v70 (broadcastInDim S1048576 ![] bcast_S_S1048576 : (⟨S_, .i32⟩ : BufTy).Contents (Elt F) → (⟨S1048576, .i32⟩ : BufTy).Contents (Elt F))
  :: StableHlo.binary main_v23 main_v70 main_v71 (addi : (⟨S1048576, .i32⟩ : BufTy).Contents (Elt F) → (⟨S1048576, .i32⟩ : BufTy).Contents (Elt F) → (⟨S1048576, .i32⟩ : BufTy).Contents (Elt F))
  :: StableHlo.ternary main_v69 main_v71 main_v23 main_v72 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.nullary main_c_20 (constantI S_ 32 0#32)
  :: StableHlo.unary main_c_20 main_v73 (broadcastInDim S1048576 ![] bcast_S_S1048576 : (⟨S_, .i32⟩ : BufTy).Contents (Elt F) → (⟨S1048576, .i32⟩ : BufTy).Contents (Elt F))
  :: StableHlo.binary main_v15 main_v73 main_v74 (cmpi .slt : (⟨S1048576, .i32⟩ : BufTy).Contents (Elt F) → (⟨S1048576, .i32⟩ : BufTy).Contents (Elt F) → (⟨S1048576, .i1⟩ : BufTy).Contents (Elt F))
  :: StableHlo.nullary main_c_21 (constantI S_ 32 512#32)
  :: StableHlo.unary main_c_21 main_v75 (broadcastInDim S1048576 ![] bcast_S_S1048576 : (⟨S_, .i32⟩ : BufTy).Contents (Elt F) → (⟨S1048576, .i32⟩ : BufTy).Contents (Elt F))
  :: StableHlo.binary main_v15 main_v75 main_v76 (addi : (⟨S1048576, .i32⟩ : BufTy).Contents (Elt F) → (⟨S1048576, .i32⟩ : BufTy).Contents (Elt F) → (⟨S1048576, .i32⟩ : BufTy).Contents (Elt F))
  :: StableHlo.ternary main_v74 main_v76 main_v15 main_v77 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.unary main_v72 main_v78 (broadcastInDim S1048576x1 ![0] bcast_S1048576_S1048576x1_0 : (⟨S1048576, .i32⟩ : BufTy).Contents (Elt F) → (⟨S1048576x1, .i32⟩ : BufTy).Contents (Elt F))
  :: StableHlo.unary main_v77 main_v79 (broadcastInDim S1048576x1 ![0] bcast_S1048576_S1048576x1_0 : (⟨S1048576, .i32⟩ : BufTy).Contents (Elt F) → (⟨S1048576x1, .i32⟩ : BufTy).Contents (Elt F))
  :: StableHlo.binary main_v78 main_v79 main_v80 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F))
  :: StableHlo.binary main_arg3 main_v80 main_v81 ((fun x i => Host.gather gather_S512x512x8_S1048576x2_S1048576x8_1_01_n_n_01_1_118 x i) : (⟨S512x512x8, .f32⟩ : BufTy).Contents (Elt F) → (⟨S1048576x2, .i32⟩ : BufTy).Contents (Elt F) → (⟨S1048576x8, .f32⟩ : BufTy).Contents (Elt F))
  :: StableHlo.nullary main_cst_22 (constant S_ .f32 0x3F800000#32)
  :: StableHlo.unary main_cst_22 main_v82 (broadcastInDim S1048576x1 ![] bcast_S_S1048576x1 : (⟨S_, .f32⟩ : BufTy).Contents (Elt F) → (⟨S1048576x1, .f32⟩ : BufTy).Contents (Elt F))
  :: StableHlo.binary main_v82 main_v24 main_v83 (subf : (⟨S1048576x1, .f32⟩ : BufTy).Contents (Elt F) → (⟨S1048576x1, .f32⟩ : BufTy).Contents (Elt F) → (⟨S1048576x1, .f32⟩ : BufTy).Contents (Elt F))
  :: StableHlo.unary main_v83 main_v84 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v39 main_v84 main_v85 (mulf : (⟨S1048576x8, .f32⟩ : BufTy).Contents (Elt F) → (⟨S1048576x8, .f32⟩ : BufTy).Contents (Elt F) → (⟨S1048576x8, .f32⟩ : BufTy).Contents (Elt F))
  :: StableHlo.nullary main_cst_23 (constant S_ .f32 0x3F800000#32)
  :: StableHlo.unary main_cst_23 main_v86 (broadcastInDim S1048576x1 ![] bcast_S_S1048576x1 : (⟨S_, .f32⟩ : BufTy).Contents (Elt F) → (⟨S1048576x1, .f32⟩ : BufTy).Contents (Elt F))
  :: StableHlo.binary main_v86 main_v25 main_v87 (subf : (⟨S1048576x1, .f32⟩ : BufTy).Contents (Elt F) → (⟨S1048576x1, .f32⟩ : BufTy).Contents (Elt F) → (⟨S1048576x1, .f32⟩ : BufTy).Contents (Elt F))
  :: StableHlo.unary main_v87 main_v88 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v85 main_v88 main_v89 (mulf : (⟨S1048576x8, .f32⟩ : BufTy).Contents (Elt F) → (⟨S1048576x8, .f32⟩ : BufTy).Contents (Elt F) → (⟨S1048576x8, .f32⟩ : BufTy).Contents (Elt F))
  :: StableHlo.unary main_v24 main_v90 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v53 main_v90 main_v91 (mulf : (⟨S1048576x8, .f32⟩ : BufTy).Contents (Elt F) → (⟨S1048576x8, .f32⟩ : BufTy).Contents (Elt F) → (⟨S1048576x8, .f32⟩ : BufTy).Contents (Elt F))
  :: StableHlo.nullary main_cst_24 (constant S_ .f32 0x3F800000#32)
  :: StableHlo.unary main_cst_24 main_v92 (broadcastInDim S1048576x1 ![] bcast_S_S1048576x1 : (⟨S_, .f32⟩ : BufTy).Contents (Elt F) → (⟨S1048576x1, .f32⟩ : BufTy).Contents (Elt F))
  :: [] )

/-- The window is that straight line: both sides unfold to the same chain of operation steps. -/
theorem main_part1_eq (c : Dev nD) : main_part1 (F := F) c = seq opsP1 := by
  chain_rfl

/-- Each operation touches TensorCore references only. -/
theorem opsP1_sub : (opsP1 : List (HloOp τ sig (Elt F))).Forall fun op => op.bufs ⊆ tcRefs τ sig :=
  ⟨unary_bufs_sub .., binary_bufs_sub .., nullary_bufs_sub .., unary_bufs_sub .., binary_bufs_sub .., ternary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub .., nullary_bufs_sub .., unary_bufs_sub ..,
    binary_bufs_sub .., unary_bufs_sub .., binary_bufs_sub .., nullary_bufs_sub .., unary_bufs_sub .., binary_bufs_sub ..,
    unary_bufs_sub .., binary_bufs_sub .., unary_bufs_sub .., binary_bufs_sub .., nullary_bufs_sub .., unary_bufs_sub ..⟩

/-- No operation allocates a buffer. -/
theorem opsP1_fresh : (opsP1 : List (HloOp τ sig (Elt F))).Forall fun op => op.fresh = ∅ :=
  fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_nil

/-- The references the line writes: each operation's result, in order. -/
abbrev opsP1_W : List (Ref sig .tc) :=
  [main_v45, main_v46, main_c_13, main_v47, main_v48, main_v49, main_v50, main_v51, main_v52, main_v53,
   main_c_14, main_v54, main_v55, main_c_15, main_v56, main_v57, main_v58, main_c_16, main_v59, main_v60,
   main_c_17, main_v61, main_v62, main_v63, main_v64, main_v65, main_v66, main_v67, main_c_18, main_v68,
   main_v69, main_c_19, main_v70, main_v71, main_v72, main_c_20, main_v73, main_v74, main_c_21, main_v75,
   main_v76, main_v77, main_v78, main_v79, main_v80, main_v81, main_cst_22, main_v82, main_v83, main_v84,
   main_v85, main_cst_23, main_v86, main_v87, main_v88, main_v89, main_v90, main_v91, main_cst_24, main_v92]

/-- Every operation writes its one result buffer, which is listed. -/
theorem opsP1_writes : (opsP1 : List (HloOp τ sig (Elt F))).Forall fun op => op.writes ⊆ (opsP1_W.map (Proc.devRef (τ := τ) .tc)).toFinset :=
  writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_nil []

end Cert.ReferenceIdeal.RefRun

end
-- ==== Proof.Ref.Ops2.lean ====
/- The reference program's @main, statements 121 … 180 (its window `main_part2`), as the list of the 60 host
   operations it runs in order — the 3 calls it makes replaced by the callee's operations over that call's buffers —: the window
   is that straight line, every operation touches TensorCore buffers only and allocates none, and the buffers the
   line writes are listed. -/
import proofs.«142216_j1408749273558_2_alg».proof.Proof.Gen.ReferenceIdeal
import proofs.«142216_j1408749273558_2_alg».proof.Proof.Ref.Base
import Idealize.ShloMosaic.Lib.StableHlo.Run
import Idealize.ShloMosaic.Lib.Pipeline.Regions

-- a list of over a hundred operations written with `::` nests past the default depth
set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The 60 operations of @main's statements 121 … 180, in order, calls inlined. -/
abbrev opsP2 : List (HloOp τ sig (Elt F)) :=
  ( StableHlo.binary main_v92 main_v25 main_v93 (subf : (⟨S1048576x1, .f32⟩ : BufTy).Contents (Elt F) → (⟨S1048576x1, .f32⟩ : BufTy).Contents (Elt F) → (⟨S1048576x1, .f32⟩ : BufTy).Contents (Elt F))
  :: StableHlo.unary main_v93 main_v94 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v91 main_v94 main_v95 (mulf : (⟨S1048576x8, .f32⟩ : BufTy).Contents (Elt F) → (⟨S1048576x8, .f32⟩ : BufTy).Contents (Elt F) → (⟨S1048576x8, .f32⟩ : BufTy).Contents (Elt F))
  :: StableHlo.binary main_v89 main_v95 main_v96 (addf : (⟨S1048576x8, .f32⟩ : BufTy).Contents (Elt F) → (⟨S1048576x8, .f32⟩ : BufTy).Contents (Elt F) → (⟨S1048576x8, .f32⟩ : BufTy).Contents (Elt F))
  :: StableHlo.nullary main_cst_25 (constant S_ .f32 0x3F800000#32)
  :: StableHlo.unary main_cst_25 main_v97 (broadcastInDim S1048576x1 ![] bcast_S_S1048576x1 : (⟨S_, .f32⟩ : BufTy).Contents (Elt F) → (⟨S1048576x1, .f32⟩ : BufTy).Contents (Elt F))
  :: StableHlo.binary main_v97 main_v24 main_v98 (subf : (⟨S1048576x1, .f32⟩ : BufTy).Contents (Elt F) → (⟨S1048576x1, .f32⟩ : BufTy).Contents (Elt F) → (⟨S1048576x1, .f32⟩ : BufTy).Contents (Elt F))
  :: StableHlo.unary main_v98 main_v99 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v67 main_v99 main_v100 (mulf : (⟨S1048576x8, .f32⟩ : BufTy).Contents (Elt F) → (⟨S1048576x8, .f32⟩ : BufTy).Contents (Elt F) → (⟨S1048576x8, .f32⟩ : BufTy).Contents (Elt F))
  :: StableHlo.unary main_v25 main_v101 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v100 main_v101 main_v102 (mulf : (⟨S1048576x8, .f32⟩ : BufTy).Contents (Elt F) → (⟨S1048576x8, .f32⟩ : BufTy).Contents (Elt F) → (⟨S1048576x8, .f32⟩ : BufTy).Contents (Elt F))
  :: StableHlo.binary main_v96 main_v102 main_v103 (addf : (⟨S1048576x8, .f32⟩ : BufTy).Contents (Elt F) → (⟨S1048576x8, .f32⟩ : BufTy).Contents (Elt F) → (⟨S1048576x8, .f32⟩ : BufTy).Contents (Elt F))
  :: StableHlo.unary main_v24 main_v104 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v81 main_v104 main_v105 (mulf : (⟨S1048576x8, .f32⟩ : BufTy).Contents (Elt F) → (⟨S1048576x8, .f32⟩ : BufTy).Contents (Elt F) → (⟨S1048576x8, .f32⟩ : BufTy).Contents (Elt F))
  :: StableHlo.unary main_v25 main_v106 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v105 main_v106 main_v107 (mulf : (⟨S1048576x8, .f32⟩ : BufTy).Contents (Elt F) → (⟨S1048576x8, .f32⟩ : BufTy).Contents (Elt F) → (⟨S1048576x8, .f32⟩ : BufTy).Contents (Elt F))
  :: StableHlo.binary main_v103 main_v107 main_v108 (addf : (⟨S1048576x8, .f32⟩ : BufTy).Contents (Elt F) → (⟨S1048576x8, .f32⟩ : BufTy).Contents (Elt F) → (⟨S1048576x8, .f32⟩ : BufTy).Contents (Elt F))
  :: StableHlo.binary main_v108 main_arg0 main_v109 ((fun a b => concatenate S1048576x10 1 [⟨S1048576x8, a⟩, ⟨S1048576x2, b⟩] concatenates_S1048576x8_S1048576x2_S1048576x10_d1) : (⟨S1048576x8, .f32⟩ : BufTy).Contents (Elt F) → (⟨S1048576x2, .f32⟩ : BufTy).Contents (Elt F) → (⟨S1048576x10, .f32⟩ : BufTy).Contents (Elt F))
  :: StableHlo.unary main_arg5 main_v110 ((transpose S10x32 [1, 0] · transposes_S32x10_S10x32_1_0) : (⟨S32x10, .f32⟩ : BufTy).Contents (Elt F) → (⟨S10x32, .f32⟩ : BufTy).Contents (Elt F))
  :: StableHlo.binary main_v109 main_v110 main_v111 ((fun l r => Host.dotGeneral dot_S1048576x10_S10x32_S1048576x32_1_0_0_1_n_n none l r) : (⟨S1048576x10, .f32⟩ : BufTy).Contents (Elt F) → (⟨S10x32, .f32⟩ : BufTy).Contents (Elt F) → (⟨S1048576x32, .f32⟩ : BufTy).Contents (Elt F))
  :: StableHlo.unary main_arg6 main_v112 (broadcastInDim S1x32 ![1] bcast_S32_S1x32_1 : (⟨S32, .f32⟩ : BufTy).Contents (Elt F) → (⟨S1x32, .f32⟩ : BufTy).Contents (Elt F))
  :: StableHlo.unary main_v112 main_v113 (broadcastInDim S1048576x32 ![0, 1] bcast_S1x32_S1048576x32_0_1 : (⟨S1x32, .f32⟩ : BufTy).Contents (Elt F) → (⟨S1048576x32, .f32⟩ : BufTy).Contents (Elt F))
  :: StableHlo.binary main_v111 main_v113 main_v114 (addf : (⟨S1048576x32, .f32⟩ : BufTy).Contents (Elt F) → (⟨S1048576x32, .f32⟩ : BufTy).Contents (Elt F) → (⟨S1048576x32, .f32⟩ : BufTy).Contents (Elt F))
  :: StableHlo.nullary main_cst_26 (constant S_ .f32 0x00000000#32)
  :: StableHlo.unary main_cst_26 main_v115 (broadcastInDim S1048576x32 ![] bcast_S_S1048576x32 : (⟨S_, .f32⟩ : BufTy).Contents (Elt F) → (⟨S1048576x32, .f32⟩ : BufTy).Contents (Elt F))
  :: StableHlo.binary main_v114 main_v115 main_v116 (cmpf .oge : (⟨S1048576x32, .f32⟩ : BufTy).Contents (Elt F) → (⟨S1048576x32, .f32⟩ : BufTy).Contents (Elt F) → (⟨S1048576x32, .i1⟩ : BufTy).Contents (Elt F))
  :: StableHlo.nullary main_cst_27 (constant S_ .f32 0x3C23D70A#32)
  :: StableHlo.unary main_cst_27 main_v117 (broadcastInDim S1048576x32 ![] bcast_S_S1048576x32 : (⟨S_, .f32⟩ : BufTy).Contents (Elt F) → (⟨S1048576x32, .f32⟩ : BufTy).Contents (Elt F))
  :: StableHlo.binary main_v117 main_v114 main_v118 (mulf : (⟨S1048576x32, .f32⟩ : BufTy).Contents (Elt F) → (⟨S1048576x32, .f32⟩ : BufTy).Contents (Elt F) → (⟨S1048576x32, .f32⟩ : BufTy).Contents (Elt F))
  :: StableHlo.TRef.ternary (.of main_v116 : StableHlo.TRef sig ⟨S1048576x32, .i1⟩) (.of main_v114 : StableHlo.TRef sig ⟨S1048576x32, .f32⟩) (.of main_v118 : StableHlo.TRef sig ⟨S1048576x32, .f32⟩) (.of main_v119 : StableHlo.TRef sig ⟨S1048576x32, .f32⟩) select
  :: StableHlo.unary main_arg7 main_v120 ((transpose S32x32 [1, 0] · transposes_S32x32_S32x32_1_0) : (⟨S32x32, .f32⟩ : BufTy).Contents (Elt F) → (⟨S32x32, .f32⟩ : BufTy).Contents (Elt F))
  :: StableHlo.binary main_v119 main_v120 main_v121 ((fun l r => Host.dotGeneral dot_S1048576x32_S32x32_S1048576x32_1_0_0_1_n_n none l r) : (⟨S1048576x32, .f32⟩ : BufTy).Contents (Elt F) → (⟨S32x32, .f32⟩ : BufTy).Contents (Elt F) → (⟨S1048576x32, .f32⟩ : BufTy).Contents (Elt F))
  :: StableHlo.unary main_arg8 main_v122 (broadcastInDim S1x32 ![1] bcast_S32_S1x32_1 : (⟨S32, .f32⟩ : BufTy).Contents (Elt F) → (⟨S1x32, .f32⟩ : BufTy).Contents (Elt F))
  :: StableHlo.unary main_v122 main_v123 (broadcastInDim S1048576x32 ![0, 1] bcast_S1x32_S1048576x32_0_1 : (⟨S1x32, .f32⟩ : BufTy).Contents (Elt F) → (⟨S1048576x32, .f32⟩ : BufTy).Contents (Elt F))
  :: StableHlo.binary main_v121 main_v123 main_v124 (addf : (⟨S1048576x32, .f32⟩ : BufTy).Contents (Elt F) → (⟨S1048576x32, .f32⟩ : BufTy).Contents (Elt F) → (⟨S1048576x32, .f32⟩ : BufTy).Contents (Elt F))
  :: StableHlo.nullary main_cst_28 (constant S_ .f32 0x00000000#32)
  :: StableHlo.unary main_cst_28 main_v125 (broadcastInDim S1048576x32 ![] bcast_S_S1048576x32 : (⟨S_, .f32⟩ : BufTy).Contents (Elt F) → (⟨S1048576x32, .f32⟩ : BufTy).Contents (Elt F))
  :: StableHlo.binary main_v124 main_v125 main_v126 (cmpf .oge : (⟨S1048576x32, .f32⟩ : BufTy).Contents (Elt F) → (⟨S1048576x32, .f32⟩ : BufTy).Contents (Elt F) → (⟨S1048576x32, .i1⟩ : BufTy).Contents (Elt F))
  :: StableHlo.nullary main_cst_29 (constant S_ .f32 0x3C23D70A#32)
  :: StableHlo.unary main_cst_29 main_v127 (broadcastInDim S1048576x32 ![] bcast_S_S1048576x32 : (⟨S_, .f32⟩ : BufTy).Contents (Elt F) → (⟨S1048576x32, .f32⟩ : BufTy).Contents (Elt F))
  :: StableHlo.binary main_v127 main_v124 main_v128 (mulf : (⟨S1048576x32, .f32⟩ : BufTy).Contents (Elt F) → (⟨S1048576x32, .f32⟩ : BufTy).Contents (Elt F) → (⟨S1048576x32, .f32⟩ : BufTy).Contents (Elt F))
  :: StableHlo.TRef.ternary (.of main_v126 : StableHlo.TRef sig ⟨S1048576x32, .i1⟩) (.of main_v124 : StableHlo.TRef sig ⟨S1048576x32, .f32⟩) (.of main_v128 : StableHlo.TRef sig ⟨S1048576x32, .f32⟩) (.of main_v129 : StableHlo.TRef sig ⟨S1048576x32, .f32⟩) select
  :: StableHlo.unary main_arg9 main_v130 ((transpose S32x32 [1, 0] · transposes_S32x32_S32x32_1_0) : (⟨S32x32, .f32⟩ : BufTy).Contents (Elt F) → (⟨S32x32, .f32⟩ : BufTy).Contents (Elt F))
  :: StableHlo.binary main_v129 main_v130 main_v131 ((fun l r => Host.dotGeneral dot_S1048576x32_S32x32_S1048576x32_1_0_0_1_n_n none l r) : (⟨S1048576x32, .f32⟩ : BufTy).Contents (Elt F) → (⟨S32x32, .f32⟩ : BufTy).Contents (Elt F) → (⟨S1048576x32, .f32⟩ : BufTy).Contents (Elt F))
  :: StableHlo.unary main_arg10 main_v132 (broadcastInDim S1x32 ![1] bcast_S32_S1x32_1 : (⟨S32, .f32⟩ : BufTy).Contents (Elt F) → (⟨S1x32, .f32⟩ : BufTy).Contents (Elt F))
  :: StableHlo.unary main_v132 main_v133 (broadcastInDim S1048576x32 ![0, 1] bcast_S1x32_S1048576x32_0_1 : (⟨S1x32, .f32⟩ : BufTy).Contents (Elt F) → (⟨S1048576x32, .f32⟩ : BufTy).Contents (Elt F))
  :: StableHlo.binary main_v131 main_v133 main_v134 (addf : (⟨S1048576x32, .f32⟩ : BufTy).Contents (Elt F) → (⟨S1048576x32, .f32⟩ : BufTy).Contents (Elt F) → (⟨S1048576x32, .f32⟩ : BufTy).Contents (Elt F))
  :: StableHlo.nullary main_cst_30 (constant S_ .f32 0x00000000#32)
  :: StableHlo.unary main_cst_30 main_v135 (broadcastInDim S1048576x32 ![] bcast_S_S1048576x32 : (⟨S_, .f32⟩ : BufTy).Contents (Elt F) → (⟨S1048576x32, .f32⟩ : BufTy).Contents (Elt F))
  :: StableHlo.binary main_v134 main_v135 main_v136 (cmpf .oge : (⟨S1048576x32, .f32⟩ : BufTy).Contents (Elt F) → (⟨S1048576x32, .f32⟩ : BufTy).Contents (Elt F) → (⟨S1048576x32, .i1⟩ : BufTy).Contents (Elt F))
  :: StableHlo.nullary main_cst_31 (constant S_ .f32 0x3C23D70A#32)
  :: StableHlo.unary main_cst_31 main_v137 (broadcastInDim S1048576x32 ![] bcast_S_S1048576x32 : (⟨S_, .f32⟩ : BufTy).Contents (Elt F) → (⟨S1048576x32, .f32⟩ : BufTy).Contents (Elt F))
  :: StableHlo.binary main_v137 main_v134 main_v138 (mulf : (⟨S1048576x32, .f32⟩ : BufTy).Contents (Elt F) → (⟨S1048576x32, .f32⟩ : BufTy).Contents (Elt F) → (⟨S1048576x32, .f32⟩ : BufTy).Contents (Elt F))
  :: StableHlo.TRef.ternary (.of main_v136 : StableHlo.TRef sig ⟨S1048576x32, .i1⟩) (.of main_v134 : StableHlo.TRef sig ⟨S1048576x32, .f32⟩) (.of main_v138 : StableHlo.TRef sig ⟨S1048576x32, .f32⟩) (.of main_v139 : StableHlo.TRef sig ⟨S1048576x32, .f32⟩) select
  :: StableHlo.unary main_arg11 main_v140 ((transpose S32x1 [1, 0] · transposes_S1x32_S32x1_1_0) : (⟨S1x32, .f32⟩ : BufTy).Contents (Elt F) → (⟨S32x1, .f32⟩ : BufTy).Contents (Elt F))
  :: StableHlo.binary main_v139 main_v140 main_v141 ((fun l r => Host.dotGeneral dot_S1048576x32_S32x1_S1048576x1_1_0_0_1_n_n none l r) : (⟨S1048576x32, .f32⟩ : BufTy).Contents (Elt F) → (⟨S32x1, .f32⟩ : BufTy).Contents (Elt F) → (⟨S1048576x1, .f32⟩ : BufTy).Contents (Elt F))
  :: StableHlo.unary main_arg12 main_v142 (broadcastInDim S1x1 ![1] bcast_S1_S1x1_1 : (⟨S1, .f32⟩ : BufTy).Contents (Elt F) → (⟨S1x1, .f32⟩ : BufTy).Contents (Elt F))
  :: StableHlo.unary main_v142 main_v143 (broadcastInDim S1048576x1 ![0, 1] bcast_S1x1_S1048576x1_0_1 : (⟨S1x1, .f32⟩ : BufTy).Contents (Elt F) → (⟨S1048576x1, .f32⟩ : BufTy).Contents (Elt F))
  :: StableHlo.binary main_v141 main_v143 main_v144 (addf : (⟨S1048576x1, .f32⟩ : BufTy).Contents (Elt F) → (⟨S1048576x1, .f32⟩ : BufTy).Contents (Elt F) → (⟨S1048576x1, .f32⟩ : BufTy).Contents (Elt F))
  :: StableHlo.binary main_arg0 main_arg0 main_v145 (mulf : (⟨S1048576x2, .f32⟩ : BufTy).Contents (Elt F) → (⟨S1048576x2, .f32⟩ : BufTy).Contents (Elt F) → (⟨S1048576x2, .f32⟩ : BufTy).Contents (Elt F))
  :: [] )

/-- The window is that straight line: both sides unfold to the same chain of operation steps. -/
theorem main_part2_eq (c : Dev nD) : main_part2 (F := F) c = seq opsP2 := by
  chain_rfl

/-- Each operation touches TensorCore references only. -/
theorem opsP2_sub : (opsP2 : List (HloOp τ sig (Elt F))).Forall fun op => op.bufs ⊆ tcRefs τ sig :=
  ⟨binary_bufs_sub .., unary_bufs_sub .., binary_bufs_sub .., binary_bufs_sub .., nullary_bufs_sub .., unary_bufs_sub ..,
    binary_bufs_sub .., unary_bufs_sub .., binary_bufs_sub .., unary_bufs_sub .., binary_bufs_sub .., binary_bufs_sub ..,
    unary_bufs_sub .., binary_bufs_sub .., unary_bufs_sub .., binary_bufs_sub .., binary_bufs_sub .., binary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., binary_bufs_sub ..⟩

/-- No operation allocates a buffer. -/
theorem opsP2_fresh : (opsP2 : List (HloOp τ sig (Elt F))).Forall fun op => op.fresh = ∅ :=
  fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_nil

/-- The references the line writes: each operation's result, in order. -/
abbrev opsP2_W : List (Ref sig .tc) :=
  [main_v93, main_v94, main_v95, main_v96, main_cst_25, main_v97, main_v98, main_v99, main_v100, main_v101,
   main_v102, main_v103, main_v104, main_v105, main_v106, main_v107, main_v108, main_v109, main_v110, main_v111,
   main_v112, main_v113, main_v114, main_cst_26, main_v115, main_v116, main_cst_27, main_v117, main_v118, main_v119,
   main_v120, main_v121, main_v122, main_v123, main_v124, main_cst_28, main_v125, main_v126, main_cst_29, main_v127,
   main_v128, main_v129, main_v130, main_v131, main_v132, main_v133, main_v134, main_cst_30, main_v135, main_v136,
   main_cst_31, main_v137, main_v138, main_v139, main_v140, main_v141, main_v142, main_v143, main_v144, main_v145]

/-- Every operation writes its one result buffer, which is listed. -/
theorem opsP2_writes : (opsP2 : List (HloOp τ sig (Elt F))).Forall fun op => op.writes ⊆ (opsP2_W.map (Proc.devRef (τ := τ) .tc)).toFinset :=
  writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_nil []

end Cert.ReferenceIdeal.RefRun

end
-- ==== Proof.Ref.Ops3.lean ====
/- The reference program's @main, statements 181 … 240 (its window `main_part3`), as the list of the 142 host
   operations it runs in order — the 5 calls it makes replaced by the callee's operations over that call's buffers —: the window
   is that straight line, every operation touches TensorCore buffers only and allocates none, and the buffers the
   line writes are listed. -/
import proofs.«142216_j1408749273558_2_alg».proof.Proof.Gen.ReferenceIdeal
import proofs.«142216_j1408749273558_2_alg».proof.Proof.Ref.Base
import Idealize.ShloMosaic.Lib.StableHlo.Run
import Idealize.ShloMosaic.Lib.Pipeline.Regions

-- a list of over a hundred operations written with `::` nests past the default depth
set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The 142 operations of @main's statements 181 … 240, in order, calls inlined. -/
abbrev opsP3 : List (HloOp τ sig (Elt F)) :=
  ( StableHlo.nullary main_cst_32 (constant S_ .f32 0x00000000#32)
  :: StableHlo.binary main_v145 main_cst_32 main_v146 ((fun x v => Host.reduceAdd x v reducesTo_S1048576x2_S1048576_d1 h_S_) : (⟨S1048576x2, .f32⟩ : BufTy).Contents (Elt F) → (⟨S_, .f32⟩ : BufTy).Contents (Elt F) → (⟨S1048576, .f32⟩ : BufTy).Contents (Elt F))
  :: StableHlo.unary main_v146 main_v147 (broadcastInDim S1048576x1 ![0] bcast_S1048576_S1048576x1_0 : (⟨S1048576, .f32⟩ : BufTy).Contents (Elt F) → (⟨S1048576x1, .f32⟩ : BufTy).Contents (Elt F))
  :: StableHlo.nullary main_cst_33 (constant S_ .f32 0x3F800000#32)
  :: StableHlo.unary main_cst_33 main_v148 (broadcastInDim S1048576x1 ![] bcast_S_S1048576x1 : (⟨S_, .f32⟩ : BufTy).Contents (Elt F) → (⟨S1048576x1, .f32⟩ : BufTy).Contents (Elt F))
  :: StableHlo.binary main_v148 main_v147 main_v149 (subf : (⟨S1048576x1, .f32⟩ : BufTy).Contents (Elt F) → (⟨S1048576x1, .f32⟩ : BufTy).Contents (Elt F) → (⟨S1048576x1, .f32⟩ : BufTy).Contents (Elt F))
  :: StableHlo.nullary main_cst_34 (constant S_ .f32 0x358637BD#32)
  :: StableHlo.TRef.unary (.of main_cst_34 : StableHlo.TRef sig ⟨S_, .f32⟩) (.of main_call7_v0 : StableHlo.TRef sig ⟨S_, .f32⟩) id
  :: StableHlo.TRef.unary (.of main_call7_v0 : StableHlo.TRef sig ⟨S_, .f32⟩) (.of main_call7_v1 : StableHlo.TRef sig ⟨S1048576x1, .f32⟩) (broadcastInDim S1048576x1 ![] bcast_S_S1048576x1)
  :: StableHlo.TRef.binary (.of main_call7_v1 : StableHlo.TRef sig ⟨S1048576x1, .f32⟩) (.of main_v149 : StableHlo.TRef sig ⟨S1048576x1, .f32⟩) (.of main_v150 : StableHlo.TRef sig ⟨S1048576x1, .f32⟩) maximumf
  :: StableHlo.unary main_v150 main_v151 (Host.sqrt : (⟨S1048576x1, .f32⟩ : BufTy).Contents (Elt F) → (⟨S1048576x1, .f32⟩ : BufTy).Contents (Elt F))
  :: StableHlo.unary main_v151 main_v152 (broadcastInDim S1048576x2 ![0, 1] bcast_S1048576x1_S1048576x2_0_1 : (⟨S1048576x1, .f32⟩ : BufTy).Contents (Elt F) → (⟨S1048576x2, .f32⟩ : BufTy).Contents (Elt F))
  :: StableHlo.binary main_arg0 main_v152 main_v153 (Host.divf : (⟨S1048576x2, .f32⟩ : BufTy).Contents (Elt F) → (⟨S1048576x2, .f32⟩ : BufTy).Contents (Elt F) → (⟨S1048576x2, .f32⟩ : BufTy).Contents (Elt F))
  :: StableHlo.unary main_v144 main_v154 (broadcastInDim S1048576x2 ![0, 1] bcast_S1048576x1_S1048576x2_0_1 : (⟨S1048576x1, .f32⟩ : BufTy).Contents (Elt F) → (⟨S1048576x2, .f32⟩ : BufTy).Contents (Elt F))
  :: StableHlo.binary main_v153 main_v154 main_v155 (mulf : (⟨S1048576x2, .f32⟩ : BufTy).Contents (Elt F) → (⟨S1048576x2, .f32⟩ : BufTy).Contents (Elt F) → (⟨S1048576x2, .f32⟩ : BufTy).Contents (Elt F))
  :: StableHlo.binary main_arg2 main_v155 main_v156 (addf : (⟨S1048576x2, .f32⟩ : BufTy).Contents (Elt F) → (⟨S1048576x2, .f32⟩ : BufTy).Contents (Elt F) → (⟨S1048576x2, .f32⟩ : BufTy).Contents (Elt F))
  :: StableHlo.nullary main_cst_35 (constant S_ .f32 0x44000000#32)
  :: StableHlo.unary main_cst_35 main_v157 (broadcastInDim S1048576x2 ![] bcast_S_S1048576x2 : (⟨S_, .f32⟩ : BufTy).Contents (Elt F) → (⟨S1048576x2, .f32⟩ : BufTy).Contents (Elt F))
  :: StableHlo.binary main_v156 main_v157 main_v158 (mulf : (⟨S1048576x2, .f32⟩ : BufTy).Contents (Elt F) → (⟨S1048576x2, .f32⟩ : BufTy).Contents (Elt F) → (⟨S1048576x2, .f32⟩ : BufTy).Contents (Elt F))
  :: StableHlo.nullary main_cst_36 (constant S_ .f32 0x3F000000#32)
  :: StableHlo.unary main_cst_36 main_v159 (broadcastInDim S1048576x2 ![] bcast_S_S1048576x2 : (⟨S_, .f32⟩ : BufTy).Contents (Elt F) → (⟨S1048576x2, .f32⟩ : BufTy).Contents (Elt F))
  :: StableHlo.binary main_v158 main_v159 main_v160 (subf : (⟨S1048576x2, .f32⟩ : BufTy).Contents (Elt F) → (⟨S1048576x2, .f32⟩ : BufTy).Contents (Elt F) → (⟨S1048576x2, .f32⟩ : BufTy).Contents (Elt F))
  :: StableHlo.unary main_v160 main_v161 (Host.floor : (⟨S1048576x2, .f32⟩ : BufTy).Contents (Elt F) → (⟨S1048576x2, .f32⟩ : BufTy).Contents (Elt F))
  :: StableHlo.unary main_v161 main_v162 (fptosi 32 : (⟨S1048576x2, .f32⟩ : BufTy).Contents (Elt F) → (⟨S1048576x2, .i32⟩ : BufTy).Contents (Elt F))
  :: StableHlo.unary main_v162 main_v163 (sitofp .f32 : (⟨S1048576x2, .i32⟩ : BufTy).Contents (Elt F) → (⟨S1048576x2, .f32⟩ : BufTy).Contents (Elt F))
  :: StableHlo.binary main_v160 main_v163 main_v164 (subf : (⟨S1048576x2, .f32⟩ : BufTy).Contents (Elt F) → (⟨S1048576x2, .f32⟩ : BufTy).Contents (Elt F) → (⟨S1048576x2, .f32⟩ : BufTy).Contents (Elt F))
  :: StableHlo.unary main_v162 main_v165 ((extractStridedSlice S1048576x1 ![0, 0] · slices_S1048576x2_S1048576x1_0_0) : (⟨S1048576x2, .i32⟩ : BufTy).Contents (Elt F) → (⟨S1048576x1, .i32⟩ : BufTy).Contents (Elt F))
  :: StableHlo.reshape main_v165 main_v166 rfl shapeCasts_S1048576x1_S1048576
  :: StableHlo.nullary main_c_37 (constantI S_ 32 512#32)
  :: StableHlo.TRef.unary (.of main_c_37 : StableHlo.TRef sig ⟨S_, .i32⟩) (.of main_call8_v0 : StableHlo.TRef sig ⟨S_, .i32⟩) id
  :: StableHlo.TRef.nullary (.of main_call8_c : StableHlo.TRef sig ⟨S_, .i32⟩) (constantI S_ 32 0#32)
  :: StableHlo.TRef.binary (.of main_call8_v0 : StableHlo.TRef sig ⟨S_, .i32⟩) (.of main_call8_c : StableHlo.TRef sig ⟨S_, .i32⟩) (.of main_call8_v1 : StableHlo.TRef sig ⟨S_, .i1⟩) (cmpi .eq)
  :: StableHlo.TRef.nullary (.of main_call8_c_0 : StableHlo.TRef sig ⟨S_, .i32⟩) (constantI S_ 32 1#32)
  :: StableHlo.TRef.ternary (.of main_call8_v1 : StableHlo.TRef sig ⟨S_, .i1⟩) (.of main_call8_c_0 : StableHlo.TRef sig ⟨S_, .i32⟩) (.of main_call8_v0 : StableHlo.TRef sig ⟨S_, .i32⟩) (.of main_call8_v2 : StableHlo.TRef sig ⟨S_, .i32⟩) select
  :: StableHlo.TRef.unary (.of main_call8_v2 : StableHlo.TRef sig ⟨S_, .i32⟩) (.of main_call8_v3 : StableHlo.TRef sig ⟨S1048576, .i32⟩) (broadcastInDim S1048576 ![] bcast_S_S1048576)
  :: StableHlo.TRef.binary (.of main_v166 : StableHlo.TRef sig ⟨S1048576, .i32⟩) (.of main_call8_v3 : StableHlo.TRef sig ⟨S1048576, .i32⟩) (.of main_call8_v4 : StableHlo.TRef sig ⟨S1048576, .i32⟩) Host.remsi
  :: StableHlo.TRef.nullary (.of main_call8_c_1 : StableHlo.TRef sig ⟨S_, .i32⟩) (constantI S_ 32 0#32)
  :: StableHlo.TRef.unary (.of main_call8_c_1 : StableHlo.TRef sig ⟨S_, .i32⟩) (.of main_call8_v5 : StableHlo.TRef sig ⟨S1048576, .i32⟩) (broadcastInDim S1048576 ![] bcast_S_S1048576)
  :: StableHlo.TRef.binary (.of main_call8_v4 : StableHlo.TRef sig ⟨S1048576, .i32⟩) (.of main_call8_v5 : StableHlo.TRef sig ⟨S1048576, .i32⟩) (.of main_call8_v6 : StableHlo.TRef sig ⟨S1048576, .i1⟩) (cmpi .ne)
  :: StableHlo.TRef.nullary (.of main_call8_c_2 : StableHlo.TRef sig ⟨S_, .i32⟩) (constantI S_ 32 0#32)
  :: StableHlo.TRef.unary (.of main_call8_c_2 : StableHlo.TRef sig ⟨S_, .i32⟩) (.of main_call8_v7 : StableHlo.TRef sig ⟨S1048576, .i32⟩) (broadcastInDim S1048576 ![] bcast_S_S1048576)
  :: StableHlo.TRef.binary (.of main_call8_v4 : StableHlo.TRef sig ⟨S1048576, .i32⟩) (.of main_call8_v7 : StableHlo.TRef sig ⟨S1048576, .i32⟩) (.of main_call8_v8 : StableHlo.TRef sig ⟨S1048576, .i1⟩) (cmpi .slt)
  :: StableHlo.TRef.nullary (.of main_call8_c_3 : StableHlo.TRef sig ⟨S_, .i32⟩) (constantI S_ 32 0#32)
  :: StableHlo.TRef.binary (.of main_call8_v2 : StableHlo.TRef sig ⟨S_, .i32⟩) (.of main_call8_c_3 : StableHlo.TRef sig ⟨S_, .i32⟩) (.of main_call8_v9 : StableHlo.TRef sig ⟨S_, .i1⟩) (cmpi .slt)
  :: StableHlo.TRef.unary (.of main_call8_v9 : StableHlo.TRef sig ⟨S_, .i1⟩) (.of main_call8_v10 : StableHlo.TRef sig ⟨S1048576, .i1⟩) (broadcastInDim S1048576 ![] bcast_S_S1048576)
  :: StableHlo.TRef.binary (.of main_call8_v8 : StableHlo.TRef sig ⟨S1048576, .i1⟩) (.of main_call8_v10 : StableHlo.TRef sig ⟨S1048576, .i1⟩) (.of main_call8_v11 : StableHlo.TRef sig ⟨S1048576, .i1⟩) (cmpi .ne)
  :: StableHlo.TRef.binary (.of main_call8_v11 : StableHlo.TRef sig ⟨S1048576, .i1⟩) (.of main_call8_v6 : StableHlo.TRef sig ⟨S1048576, .i1⟩) (.of main_call8_v12 : StableHlo.TRef sig ⟨S1048576, .i1⟩) andi
  :: StableHlo.TRef.unary (.of main_call8_v2 : StableHlo.TRef sig ⟨S_, .i32⟩) (.of main_call8_v13 : StableHlo.TRef sig ⟨S1048576, .i32⟩) (broadcastInDim S1048576 ![] bcast_S_S1048576)
  :: StableHlo.TRef.binary (.of main_call8_v4 : StableHlo.TRef sig ⟨S1048576, .i32⟩) (.of main_call8_v13 : StableHlo.TRef sig ⟨S1048576, .i32⟩) (.of main_call8_v14 : StableHlo.TRef sig ⟨S1048576, .i32⟩) addi
  :: StableHlo.TRef.ternary (.of main_call8_v12 : StableHlo.TRef sig ⟨S1048576, .i1⟩) (.of main_call8_v14 : StableHlo.TRef sig ⟨S1048576, .i32⟩) (.of main_call8_v4 : StableHlo.TRef sig ⟨S1048576, .i32⟩) (.of main_v167 : StableHlo.TRef sig ⟨S1048576, .i32⟩) select
  :: StableHlo.unary main_v162 main_v168 ((extractStridedSlice S1048576x1 ![0, 0] · slices_S1048576x2_S1048576x1_0_0) : (⟨S1048576x2, .i32⟩ : BufTy).Contents (Elt F) → (⟨S1048576x1, .i32⟩ : BufTy).Contents (Elt F))
  :: StableHlo.reshape main_v168 main_v169 rfl shapeCasts_S1048576x1_S1048576
  :: StableHlo.nullary main_c_38 (constantI S_ 32 1#32)
  :: StableHlo.unary main_c_38 main_v170 (broadcastInDim S1048576 ![] bcast_S_S1048576 : (⟨S_, .i32⟩ : BufTy).Contents (Elt F) → (⟨S1048576, .i32⟩ : BufTy).Contents (Elt F))
  :: StableHlo.binary main_v169 main_v170 main_v171 (addi : (⟨S1048576, .i32⟩ : BufTy).Contents (Elt F) → (⟨S1048576, .i32⟩ : BufTy).Contents (Elt F) → (⟨S1048576, .i32⟩ : BufTy).Contents (Elt F))
  :: StableHlo.nullary main_c_39 (constantI S_ 32 512#32)
  :: StableHlo.TRef.unary (.of main_c_39 : StableHlo.TRef sig ⟨S_, .i32⟩) (.of main_call9_v0 : StableHlo.TRef sig ⟨S_, .i32⟩) id
  :: StableHlo.TRef.nullary (.of main_call9_c : StableHlo.TRef sig ⟨S_, .i32⟩) (constantI S_ 32 0#32)
  :: StableHlo.TRef.binary (.of main_call9_v0 : StableHlo.TRef sig ⟨S_, .i32⟩) (.of main_call9_c : StableHlo.TRef sig ⟨S_, .i32⟩) (.of main_call9_v1 : StableHlo.TRef sig ⟨S_, .i1⟩) (cmpi .eq)
  :: StableHlo.TRef.nullary (.of main_call9_c_0 : StableHlo.TRef sig ⟨S_, .i32⟩) (constantI S_ 32 1#32)
  :: StableHlo.TRef.ternary (.of main_call9_v1 : StableHlo.TRef sig ⟨S_, .i1⟩) (.of main_call9_c_0 : StableHlo.TRef sig ⟨S_, .i32⟩) (.of main_call9_v0 : StableHlo.TRef sig ⟨S_, .i32⟩) (.of main_call9_v2 : StableHlo.TRef sig ⟨S_, .i32⟩) select
  :: StableHlo.TRef.unary (.of main_call9_v2 : StableHlo.TRef sig ⟨S_, .i32⟩) (.of main_call9_v3 : StableHlo.TRef sig ⟨S1048576, .i32⟩) (broadcastInDim S1048576 ![] bcast_S_S1048576)
  :: StableHlo.TRef.binary (.of main_v171 : StableHlo.TRef sig ⟨S1048576, .i32⟩) (.of main_call9_v3 : StableHlo.TRef sig ⟨S1048576, .i32⟩) (.of main_call9_v4 : StableHlo.TRef sig ⟨S1048576, .i32⟩) Host.remsi
  :: StableHlo.TRef.nullary (.of main_call9_c_1 : StableHlo.TRef sig ⟨S_, .i32⟩) (constantI S_ 32 0#32)
  :: StableHlo.TRef.unary (.of main_call9_c_1 : StableHlo.TRef sig ⟨S_, .i32⟩) (.of main_call9_v5 : StableHlo.TRef sig ⟨S1048576, .i32⟩) (broadcastInDim S1048576 ![] bcast_S_S1048576)
  :: StableHlo.TRef.binary (.of main_call9_v4 : StableHlo.TRef sig ⟨S1048576, .i32⟩) (.of main_call9_v5 : StableHlo.TRef sig ⟨S1048576, .i32⟩) (.of main_call9_v6 : StableHlo.TRef sig ⟨S1048576, .i1⟩) (cmpi .ne)
  :: StableHlo.TRef.nullary (.of main_call9_c_2 : StableHlo.TRef sig ⟨S_, .i32⟩) (constantI S_ 32 0#32)
  :: StableHlo.TRef.unary (.of main_call9_c_2 : StableHlo.TRef sig ⟨S_, .i32⟩) (.of main_call9_v7 : StableHlo.TRef sig ⟨S1048576, .i32⟩) (broadcastInDim S1048576 ![] bcast_S_S1048576)
  :: StableHlo.TRef.binary (.of main_call9_v4 : StableHlo.TRef sig ⟨S1048576, .i32⟩) (.of main_call9_v7 : StableHlo.TRef sig ⟨S1048576, .i32⟩) (.of main_call9_v8 : StableHlo.TRef sig ⟨S1048576, .i1⟩) (cmpi .slt)
  :: StableHlo.TRef.nullary (.of main_call9_c_3 : StableHlo.TRef sig ⟨S_, .i32⟩) (constantI S_ 32 0#32)
  :: StableHlo.TRef.binary (.of main_call9_v2 : StableHlo.TRef sig ⟨S_, .i32⟩) (.of main_call9_c_3 : StableHlo.TRef sig ⟨S_, .i32⟩) (.of main_call9_v9 : StableHlo.TRef sig ⟨S_, .i1⟩) (cmpi .slt)
  :: StableHlo.TRef.unary (.of main_call9_v9 : StableHlo.TRef sig ⟨S_, .i1⟩) (.of main_call9_v10 : StableHlo.TRef sig ⟨S1048576, .i1⟩) (broadcastInDim S1048576 ![] bcast_S_S1048576)
  :: StableHlo.TRef.binary (.of main_call9_v8 : StableHlo.TRef sig ⟨S1048576, .i1⟩) (.of main_call9_v10 : StableHlo.TRef sig ⟨S1048576, .i1⟩) (.of main_call9_v11 : StableHlo.TRef sig ⟨S1048576, .i1⟩) (cmpi .ne)
  :: StableHlo.TRef.binary (.of main_call9_v11 : StableHlo.TRef sig ⟨S1048576, .i1⟩) (.of main_call9_v6 : StableHlo.TRef sig ⟨S1048576, .i1⟩) (.of main_call9_v12 : StableHlo.TRef sig ⟨S1048576, .i1⟩) andi
  :: StableHlo.TRef.unary (.of main_call9_v2 : StableHlo.TRef sig ⟨S_, .i32⟩) (.of main_call9_v13 : StableHlo.TRef sig ⟨S1048576, .i32⟩) (broadcastInDim S1048576 ![] bcast_S_S1048576)
  :: StableHlo.TRef.binary (.of main_call9_v4 : StableHlo.TRef sig ⟨S1048576, .i32⟩) (.of main_call9_v13 : StableHlo.TRef sig ⟨S1048576, .i32⟩) (.of main_call9_v14 : StableHlo.TRef sig ⟨S1048576, .i32⟩) addi
  :: StableHlo.TRef.ternary (.of main_call9_v12 : StableHlo.TRef sig ⟨S1048576, .i1⟩) (.of main_call9_v14 : StableHlo.TRef sig ⟨S1048576, .i32⟩) (.of main_call9_v4 : StableHlo.TRef sig ⟨S1048576, .i32⟩) (.of main_v172 : StableHlo.TRef sig ⟨S1048576, .i32⟩) select
  :: StableHlo.unary main_v162 main_v173 ((extractStridedSlice S1048576x1 ![0, 1] · slices_S1048576x2_S1048576x1_0_1) : (⟨S1048576x2, .i32⟩ : BufTy).Contents (Elt F) → (⟨S1048576x1, .i32⟩ : BufTy).Contents (Elt F))
  :: StableHlo.reshape main_v173 main_v174 rfl shapeCasts_S1048576x1_S1048576
  :: StableHlo.nullary main_c_40 (constantI S_ 32 512#32)
  :: StableHlo.TRef.unary (.of main_c_40 : StableHlo.TRef sig ⟨S_, .i32⟩) (.of main_call10_v0 : StableHlo.TRef sig ⟨S_, .i32⟩) id
  :: StableHlo.TRef.nullary (.of main_call10_c : StableHlo.TRef sig ⟨S_, .i32⟩) (constantI S_ 32 0#32)
  :: StableHlo.TRef.binary (.of main_call10_v0 : StableHlo.TRef sig ⟨S_, .i32⟩) (.of main_call10_c : StableHlo.TRef sig ⟨S_, .i32⟩) (.of main_call10_v1 : StableHlo.TRef sig ⟨S_, .i1⟩) (cmpi .eq)
  :: StableHlo.TRef.nullary (.of main_call10_c_0 : StableHlo.TRef sig ⟨S_, .i32⟩) (constantI S_ 32 1#32)
  :: StableHlo.TRef.ternary (.of main_call10_v1 : StableHlo.TRef sig ⟨S_, .i1⟩) (.of main_call10_c_0 : StableHlo.TRef sig ⟨S_, .i32⟩) (.of main_call10_v0 : StableHlo.TRef sig ⟨S_, .i32⟩) (.of main_call10_v2 : StableHlo.TRef sig ⟨S_, .i32⟩) select
  :: StableHlo.TRef.unary (.of main_call10_v2 : StableHlo.TRef sig ⟨S_, .i32⟩) (.of main_call10_v3 : StableHlo.TRef sig ⟨S1048576, .i32⟩) (broadcastInDim S1048576 ![] bcast_S_S1048576)
  :: StableHlo.TRef.binary (.of main_v174 : StableHlo.TRef sig ⟨S1048576, .i32⟩) (.of main_call10_v3 : StableHlo.TRef sig ⟨S1048576, .i32⟩) (.of main_call10_v4 : StableHlo.TRef sig ⟨S1048576, .i32⟩) Host.remsi
  :: StableHlo.TRef.nullary (.of main_call10_c_1 : StableHlo.TRef sig ⟨S_, .i32⟩) (constantI S_ 32 0#32)
  :: StableHlo.TRef.unary (.of main_call10_c_1 : StableHlo.TRef sig ⟨S_, .i32⟩) (.of main_call10_v5 : StableHlo.TRef sig ⟨S1048576, .i32⟩) (broadcastInDim S1048576 ![] bcast_S_S1048576)
  :: StableHlo.TRef.binary (.of main_call10_v4 : StableHlo.TRef sig ⟨S1048576, .i32⟩) (.of main_call10_v5 : StableHlo.TRef sig ⟨S1048576, .i32⟩) (.of main_call10_v6 : StableHlo.TRef sig ⟨S1048576, .i1⟩) (cmpi .ne)
  :: StableHlo.TRef.nullary (.of main_call10_c_2 : StableHlo.TRef sig ⟨S_, .i32⟩) (constantI S_ 32 0#32)
  :: StableHlo.TRef.unary (.of main_call10_c_2 : StableHlo.TRef sig ⟨S_, .i32⟩) (.of main_call10_v7 : StableHlo.TRef sig ⟨S1048576, .i32⟩) (broadcastInDim S1048576 ![] bcast_S_S1048576)
  :: StableHlo.TRef.binary (.of main_call10_v4 : StableHlo.TRef sig ⟨S1048576, .i32⟩) (.of main_call10_v7 : StableHlo.TRef sig ⟨S1048576, .i32⟩) (.of main_call10_v8 : StableHlo.TRef sig ⟨S1048576, .i1⟩) (cmpi .slt)
  :: StableHlo.TRef.nullary (.of main_call10_c_3 : StableHlo.TRef sig ⟨S_, .i32⟩) (constantI S_ 32 0#32)
  :: StableHlo.TRef.binary (.of main_call10_v2 : StableHlo.TRef sig ⟨S_, .i32⟩) (.of main_call10_c_3 : StableHlo.TRef sig ⟨S_, .i32⟩) (.of main_call10_v9 : StableHlo.TRef sig ⟨S_, .i1⟩) (cmpi .slt)
  :: StableHlo.TRef.unary (.of main_call10_v9 : StableHlo.TRef sig ⟨S_, .i1⟩) (.of main_call10_v10 : StableHlo.TRef sig ⟨S1048576, .i1⟩) (broadcastInDim S1048576 ![] bcast_S_S1048576)
  :: StableHlo.TRef.binary (.of main_call10_v8 : StableHlo.TRef sig ⟨S1048576, .i1⟩) (.of main_call10_v10 : StableHlo.TRef sig ⟨S1048576, .i1⟩) (.of main_call10_v11 : StableHlo.TRef sig ⟨S1048576, .i1⟩) (cmpi .ne)
  :: StableHlo.TRef.binary (.of main_call10_v11 : StableHlo.TRef sig ⟨S1048576, .i1⟩) (.of main_call10_v6 : StableHlo.TRef sig ⟨S1048576, .i1⟩) (.of main_call10_v12 : StableHlo.TRef sig ⟨S1048576, .i1⟩) andi
  :: StableHlo.TRef.unary (.of main_call10_v2 : StableHlo.TRef sig ⟨S_, .i32⟩) (.of main_call10_v13 : StableHlo.TRef sig ⟨S1048576, .i32⟩) (broadcastInDim S1048576 ![] bcast_S_S1048576)
  :: StableHlo.TRef.binary (.of main_call10_v4 : StableHlo.TRef sig ⟨S1048576, .i32⟩) (.of main_call10_v13 : StableHlo.TRef sig ⟨S1048576, .i32⟩) (.of main_call10_v14 : StableHlo.TRef sig ⟨S1048576, .i32⟩) addi
  :: StableHlo.TRef.ternary (.of main_call10_v12 : StableHlo.TRef sig ⟨S1048576, .i1⟩) (.of main_call10_v14 : StableHlo.TRef sig ⟨S1048576, .i32⟩) (.of main_call10_v4 : StableHlo.TRef sig ⟨S1048576, .i32⟩) (.of main_v175 : StableHlo.TRef sig ⟨S1048576, .i32⟩) select
  :: StableHlo.unary main_v162 main_v176 ((extractStridedSlice S1048576x1 ![0, 1] · slices_S1048576x2_S1048576x1_0_1) : (⟨S1048576x2, .i32⟩ : BufTy).Contents (Elt F) → (⟨S1048576x1, .i32⟩ : BufTy).Contents (Elt F))
  :: StableHlo.reshape main_v176 main_v177 rfl shapeCasts_S1048576x1_S1048576
  :: StableHlo.nullary main_c_41 (constantI S_ 32 1#32)
  :: StableHlo.unary main_c_41 main_v178 (broadcastInDim S1048576 ![] bcast_S_S1048576 : (⟨S_, .i32⟩ : BufTy).Contents (Elt F) → (⟨S1048576, .i32⟩ : BufTy).Contents (Elt F))
  :: StableHlo.binary main_v177 main_v178 main_v179 (addi : (⟨S1048576, .i32⟩ : BufTy).Contents (Elt F) → (⟨S1048576, .i32⟩ : BufTy).Contents (Elt F) → (⟨S1048576, .i32⟩ : BufTy).Contents (Elt F))
  :: StableHlo.nullary main_c_42 (constantI S_ 32 512#32)
  :: StableHlo.TRef.unary (.of main_c_42 : StableHlo.TRef sig ⟨S_, .i32⟩) (.of main_call11_v0 : StableHlo.TRef sig ⟨S_, .i32⟩) id
  :: StableHlo.TRef.nullary (.of main_call11_c : StableHlo.TRef sig ⟨S_, .i32⟩) (constantI S_ 32 0#32)
  :: StableHlo.TRef.binary (.of main_call11_v0 : StableHlo.TRef sig ⟨S_, .i32⟩) (.of main_call11_c : StableHlo.TRef sig ⟨S_, .i32⟩) (.of main_call11_v1 : StableHlo.TRef sig ⟨S_, .i1⟩) (cmpi .eq)
  :: StableHlo.TRef.nullary (.of main_call11_c_0 : StableHlo.TRef sig ⟨S_, .i32⟩) (constantI S_ 32 1#32)
  :: StableHlo.TRef.ternary (.of main_call11_v1 : StableHlo.TRef sig ⟨S_, .i1⟩) (.of main_call11_c_0 : StableHlo.TRef sig ⟨S_, .i32⟩) (.of main_call11_v0 : StableHlo.TRef sig ⟨S_, .i32⟩) (.of main_call11_v2 : StableHlo.TRef sig ⟨S_, .i32⟩) select
  :: StableHlo.TRef.unary (.of main_call11_v2 : StableHlo.TRef sig ⟨S_, .i32⟩) (.of main_call11_v3 : StableHlo.TRef sig ⟨S1048576, .i32⟩) (broadcastInDim S1048576 ![] bcast_S_S1048576)
  :: StableHlo.TRef.binary (.of main_v179 : StableHlo.TRef sig ⟨S1048576, .i32⟩) (.of main_call11_v3 : StableHlo.TRef sig ⟨S1048576, .i32⟩) (.of main_call11_v4 : StableHlo.TRef sig ⟨S1048576, .i32⟩) Host.remsi
  :: StableHlo.TRef.nullary (.of main_call11_c_1 : StableHlo.TRef sig ⟨S_, .i32⟩) (constantI S_ 32 0#32)
  :: StableHlo.TRef.unary (.of main_call11_c_1 : StableHlo.TRef sig ⟨S_, .i32⟩) (.of main_call11_v5 : StableHlo.TRef sig ⟨S1048576, .i32⟩) (broadcastInDim S1048576 ![] bcast_S_S1048576)
  :: StableHlo.TRef.binary (.of main_call11_v4 : StableHlo.TRef sig ⟨S1048576, .i32⟩) (.of main_call11_v5 : StableHlo.TRef sig ⟨S1048576, .i32⟩) (.of main_call11_v6 : StableHlo.TRef sig ⟨S1048576, .i1⟩) (cmpi .ne)
  :: StableHlo.TRef.nullary (.of main_call11_c_2 : StableHlo.TRef sig ⟨S_, .i32⟩) (constantI S_ 32 0#32)
  :: StableHlo.TRef.unary (.of main_call11_c_2 : StableHlo.TRef sig ⟨S_, .i32⟩) (.of main_call11_v7 : StableHlo.TRef sig ⟨S1048576, .i32⟩) (broadcastInDim S1048576 ![] bcast_S_S1048576)
  :: StableHlo.TRef.binary (.of main_call11_v4 : StableHlo.TRef sig ⟨S1048576, .i32⟩) (.of main_call11_v7 : StableHlo.TRef sig ⟨S1048576, .i32⟩) (.of main_call11_v8 : StableHlo.TRef sig ⟨S1048576, .i1⟩) (cmpi .slt)
  :: StableHlo.TRef.nullary (.of main_call11_c_3 : StableHlo.TRef sig ⟨S_, .i32⟩) (constantI S_ 32 0#32)
  :: StableHlo.TRef.binary (.of main_call11_v2 : StableHlo.TRef sig ⟨S_, .i32⟩) (.of main_call11_c_3 : StableHlo.TRef sig ⟨S_, .i32⟩) (.of main_call11_v9 : StableHlo.TRef sig ⟨S_, .i1⟩) (cmpi .slt)
  :: StableHlo.TRef.unary (.of main_call11_v9 : StableHlo.TRef sig ⟨S_, .i1⟩) (.of main_call11_v10 : StableHlo.TRef sig ⟨S1048576, .i1⟩) (broadcastInDim S1048576 ![] bcast_S_S1048576)
  :: StableHlo.TRef.binary (.of main_call11_v8 : StableHlo.TRef sig ⟨S1048576, .i1⟩) (.of main_call11_v10 : StableHlo.TRef sig ⟨S1048576, .i1⟩) (.of main_call11_v11 : StableHlo.TRef sig ⟨S1048576, .i1⟩) (cmpi .ne)
  :: StableHlo.TRef.binary (.of main_call11_v11 : StableHlo.TRef sig ⟨S1048576, .i1⟩) (.of main_call11_v6 : StableHlo.TRef sig ⟨S1048576, .i1⟩) (.of main_call11_v12 : StableHlo.TRef sig ⟨S1048576, .i1⟩) andi
  :: StableHlo.TRef.unary (.of main_call11_v2 : StableHlo.TRef sig ⟨S_, .i32⟩) (.of main_call11_v13 : StableHlo.TRef sig ⟨S1048576, .i32⟩) (broadcastInDim S1048576 ![] bcast_S_S1048576)
  :: StableHlo.TRef.binary (.of main_call11_v4 : StableHlo.TRef sig ⟨S1048576, .i32⟩) (.of main_call11_v13 : StableHlo.TRef sig ⟨S1048576, .i32⟩) (.of main_call11_v14 : StableHlo.TRef sig ⟨S1048576, .i32⟩) addi
  :: StableHlo.TRef.ternary (.of main_call11_v12 : StableHlo.TRef sig ⟨S1048576, .i1⟩) (.of main_call11_v14 : StableHlo.TRef sig ⟨S1048576, .i32⟩) (.of main_call11_v4 : StableHlo.TRef sig ⟨S1048576, .i32⟩) (.of main_v180 : StableHlo.TRef sig ⟨S1048576, .i32⟩) select
  :: StableHlo.unary main_v164 main_v181 ((extractStridedSlice S1048576x1 ![0, 0] · slices_S1048576x2_S1048576x1_0_0) : (⟨S1048576x2, .f32⟩ : BufTy).Contents (Elt F) → (⟨S1048576x1, .f32⟩ : BufTy).Contents (Elt F))
  :: StableHlo.unary main_v164 main_v182 ((extractStridedSlice S1048576x1 ![0, 1] · slices_S1048576x2_S1048576x1_0_1) : (⟨S1048576x2, .f32⟩ : BufTy).Contents (Elt F) → (⟨S1048576x1, .f32⟩ : BufTy).Contents (Elt F))
  :: StableHlo.nullary main_c_43 (constantI S_ 32 0#32)
  :: StableHlo.unary main_c_43 main_v183 (broadcastInDim S1048576 ![] bcast_S_S1048576 : (⟨S_, .i32⟩ : BufTy).Contents (Elt F) → (⟨S1048576, .i32⟩ : BufTy).Contents (Elt F))
  :: StableHlo.binary main_v175 main_v183 main_v184 (cmpi .slt : (⟨S1048576, .i32⟩ : BufTy).Contents (Elt F) → (⟨S1048576, .i32⟩ : BufTy).Contents (Elt F) → (⟨S1048576, .i1⟩ : BufTy).Contents (Elt F))
  :: StableHlo.nullary main_c_44 (constantI S_ 32 512#32)
  :: StableHlo.unary main_c_44 main_v185 (broadcastInDim S1048576 ![] bcast_S_S1048576 : (⟨S_, .i32⟩ : BufTy).Contents (Elt F) → (⟨S1048576, .i32⟩ : BufTy).Contents (Elt F))
  :: StableHlo.binary main_v175 main_v185 main_v186 (addi : (⟨S1048576, .i32⟩ : BufTy).Contents (Elt F) → (⟨S1048576, .i32⟩ : BufTy).Contents (Elt F) → (⟨S1048576, .i32⟩ : BufTy).Contents (Elt F))
  :: StableHlo.ternary main_v184 main_v186 main_v175 main_v187 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.nullary main_c_45 (constantI S_ 32 0#32)
  :: StableHlo.unary main_c_45 main_v188 (broadcastInDim S1048576 ![] bcast_S_S1048576 : (⟨S_, .i32⟩ : BufTy).Contents (Elt F) → (⟨S1048576, .i32⟩ : BufTy).Contents (Elt F))
  :: StableHlo.binary main_v167 main_v188 main_v189 (cmpi .slt : (⟨S1048576, .i32⟩ : BufTy).Contents (Elt F) → (⟨S1048576, .i32⟩ : BufTy).Contents (Elt F) → (⟨S1048576, .i1⟩ : BufTy).Contents (Elt F))
  :: StableHlo.nullary main_c_46 (constantI S_ 32 512#32)
  :: StableHlo.unary main_c_46 main_v190 (broadcastInDim S1048576 ![] bcast_S_S1048576 : (⟨S_, .i32⟩ : BufTy).Contents (Elt F) → (⟨S1048576, .i32⟩ : BufTy).Contents (Elt F))
  :: [] )

/-- The window is that straight line: both sides unfold to the same chain of operation steps. -/
theorem main_part3_eq (c : Dev nD) : main_part3 (F := F) c = seq opsP3 := by
  chain_rfl

/-- Each operation touches TensorCore references only. -/
theorem opsP3_sub : (opsP3 : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., unary_bufs_sub .., unary_bufs_sub .., binary_bufs_sub .., unary_bufs_sub .., unary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., reshape_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., unary_bufs_sub .., reshape_bufs_sub .., nullary_bufs_sub .., unary_bufs_sub ..,
    binary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., unary_bufs_sub ..,
    reshape_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., unary_bufs_sub ..,
    reshape_bufs_sub .., nullary_bufs_sub .., unary_bufs_sub .., binary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., unary_bufs_sub .., unary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub ..⟩

/-- No operation allocates a buffer. -/
theorem opsP3_fresh : (opsP3 : List (HloOp τ sig (Elt F))).Forall fun op => op.fresh = ∅ :=
  fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_nil

/-- The references the line writes: each operation's result, in order. -/
abbrev opsP3_W : List (Ref sig .tc) :=
  [main_cst_32, main_v146, main_v147, main_cst_33, main_v148, main_v149, main_cst_34, main_call7_v0, main_call7_v1, main_v150,
   main_v151, main_v152, main_v153, main_v154, main_v155, main_v156, main_cst_35, main_v157, main_v158, main_cst_36,
   main_v159, main_v160, main_v161, main_v162, main_v163, main_v164, main_v165, main_v166, main_c_37, main_call8_v0,
   main_call8_c, main_call8_v1, main_call8_c_0, main_call8_v2, main_call8_v3, main_call8_v4, main_call8_c_1, main_call8_v5, main_call8_v6, main_call8_c_2,
   main_call8_v7, main_call8_v8, main_call8_c_3, main_call8_v9, main_call8_v10, main_call8_v11, main_call8_v12, main_call8_v13, main_call8_v14, main_v167,
   main_v168, main_v169, main_c_38, main_v170, main_v171, main_c_39, main_call9_v0, main_call9_c, main_call9_v1, main_call9_c_0,
   main_call9_v2, main_call9_v3, main_call9_v4, main_call9_c_1, main_call9_v5, main_call9_v6, main_call9_c_2, main_call9_v7, main_call9_v8, main_call9_c_3,
   main_call9_v9, main_call9_v10, main_call9_v11, main_call9_v12, main_call9_v13, main_call9_v14, main_v172, main_v173, main_v174, main_c_40,
   main_call10_v0, main_call10_c, main_call10_v1, main_call10_c_0, main_call10_v2, main_call10_v3, main_call10_v4, main_call10_c_1, main_call10_v5, main_call10_v6,
   main_call10_c_2, main_call10_v7, main_call10_v8, main_call10_c_3, main_call10_v9, main_call10_v10, main_call10_v11, main_call10_v12, main_call10_v13, main_call10_v14,
   main_v175, main_v176, main_v177, main_c_41, main_v178, main_v179, main_c_42, main_call11_v0, main_call11_c, main_call11_v1,
   main_call11_c_0, main_call11_v2, main_call11_v3, main_call11_v4, main_call11_c_1, main_call11_v5, main_call11_v6, main_call11_c_2, main_call11_v7, main_call11_v8,
   main_call11_c_3, main_call11_v9, main_call11_v10, main_call11_v11, main_call11_v12, main_call11_v13, main_call11_v14, main_v180, main_v181, main_v182,
   main_c_43, main_v183, main_v184, main_c_44, main_v185, main_v186, main_v187, main_c_45, main_v188, main_v189,
   main_c_46, main_v190]

/-- Every operation writes its one result buffer, which is listed. -/
theorem opsP3_writes : (opsP3 : List (HloOp τ sig (Elt F))).Forall fun op => op.writes ⊆ (opsP3_W.map (Proc.devRef (τ := τ) .tc)).toFinset :=
  writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_nil []

end Cert.ReferenceIdeal.RefRun

end
-- ==== Proof.Ref.Ops4.lean ====
/- The reference program's @main, statements 241 … 300 (its window `main_part4`), as the list of the 60 host
   operations it runs in order: the window
   is that straight line, every operation touches TensorCore buffers only and allocates none, and the buffers the
   line writes are listed. -/
import proofs.«142216_j1408749273558_2_alg».proof.Proof.Gen.ReferenceIdeal
import proofs.«142216_j1408749273558_2_alg».proof.Proof.Ref.Base
import Idealize.ShloMosaic.Lib.StableHlo.Run
import Idealize.ShloMosaic.Lib.Pipeline.Regions

-- a list of over a hundred operations written with `::` nests past the default depth
set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The 60 operations of @main's statements 241 … 300, in order, calls inlined. -/
abbrev opsP4 : List (HloOp τ sig (Elt F)) :=
  ( StableHlo.binary main_v167 main_v190 main_v191 (addi : (⟨S1048576, .i32⟩ : BufTy).Contents (Elt F) → (⟨S1048576, .i32⟩ : BufTy).Contents (Elt F) → (⟨S1048576, .i32⟩ : BufTy).Contents (Elt F))
  :: StableHlo.ternary main_v189 main_v191 main_v167 main_v192 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.unary main_v187 main_v193 (broadcastInDim S1048576x1 ![0] bcast_S1048576_S1048576x1_0 : (⟨S1048576, .i32⟩ : BufTy).Contents (Elt F) → (⟨S1048576x1, .i32⟩ : BufTy).Contents (Elt F))
  :: StableHlo.unary main_v192 main_v194 (broadcastInDim S1048576x1 ![0] bcast_S1048576_S1048576x1_0 : (⟨S1048576, .i32⟩ : BufTy).Contents (Elt F) → (⟨S1048576x1, .i32⟩ : BufTy).Contents (Elt F))
  :: StableHlo.binary main_v193 main_v194 main_v195 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F))
  :: StableHlo.binary main_arg4 main_v195 main_v196 ((fun x i => Host.gather gather_S512x512x8_S1048576x2_S1048576x8_1_01_n_n_01_1_118 x i) : (⟨S512x512x8, .f32⟩ : BufTy).Contents (Elt F) → (⟨S1048576x2, .i32⟩ : BufTy).Contents (Elt F) → (⟨S1048576x8, .f32⟩ : BufTy).Contents (Elt F))
  :: StableHlo.nullary main_c_47 (constantI S_ 32 0#32)
  :: StableHlo.unary main_c_47 main_v197 (broadcastInDim S1048576 ![] bcast_S_S1048576 : (⟨S_, .i32⟩ : BufTy).Contents (Elt F) → (⟨S1048576, .i32⟩ : BufTy).Contents (Elt F))
  :: StableHlo.binary main_v175 main_v197 main_v198 (cmpi .slt : (⟨S1048576, .i32⟩ : BufTy).Contents (Elt F) → (⟨S1048576, .i32⟩ : BufTy).Contents (Elt F) → (⟨S1048576, .i1⟩ : BufTy).Contents (Elt F))
  :: StableHlo.nullary main_c_48 (constantI S_ 32 512#32)
  :: StableHlo.unary main_c_48 main_v199 (broadcastInDim S1048576 ![] bcast_S_S1048576 : (⟨S_, .i32⟩ : BufTy).Contents (Elt F) → (⟨S1048576, .i32⟩ : BufTy).Contents (Elt F))
  :: StableHlo.binary main_v175 main_v199 main_v200 (addi : (⟨S1048576, .i32⟩ : BufTy).Contents (Elt F) → (⟨S1048576, .i32⟩ : BufTy).Contents (Elt F) → (⟨S1048576, .i32⟩ : BufTy).Contents (Elt F))
  :: StableHlo.ternary main_v198 main_v200 main_v175 main_v201 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.nullary main_c_49 (constantI S_ 32 0#32)
  :: StableHlo.unary main_c_49 main_v202 (broadcastInDim S1048576 ![] bcast_S_S1048576 : (⟨S_, .i32⟩ : BufTy).Contents (Elt F) → (⟨S1048576, .i32⟩ : BufTy).Contents (Elt F))
  :: StableHlo.binary main_v172 main_v202 main_v203 (cmpi .slt : (⟨S1048576, .i32⟩ : BufTy).Contents (Elt F) → (⟨S1048576, .i32⟩ : BufTy).Contents (Elt F) → (⟨S1048576, .i1⟩ : BufTy).Contents (Elt F))
  :: StableHlo.nullary main_c_50 (constantI S_ 32 512#32)
  :: StableHlo.unary main_c_50 main_v204 (broadcastInDim S1048576 ![] bcast_S_S1048576 : (⟨S_, .i32⟩ : BufTy).Contents (Elt F) → (⟨S1048576, .i32⟩ : BufTy).Contents (Elt F))
  :: StableHlo.binary main_v172 main_v204 main_v205 (addi : (⟨S1048576, .i32⟩ : BufTy).Contents (Elt F) → (⟨S1048576, .i32⟩ : BufTy).Contents (Elt F) → (⟨S1048576, .i32⟩ : BufTy).Contents (Elt F))
  :: StableHlo.ternary main_v203 main_v205 main_v172 main_v206 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.unary main_v201 main_v207 (broadcastInDim S1048576x1 ![0] bcast_S1048576_S1048576x1_0 : (⟨S1048576, .i32⟩ : BufTy).Contents (Elt F) → (⟨S1048576x1, .i32⟩ : BufTy).Contents (Elt F))
  :: StableHlo.unary main_v206 main_v208 (broadcastInDim S1048576x1 ![0] bcast_S1048576_S1048576x1_0 : (⟨S1048576, .i32⟩ : BufTy).Contents (Elt F) → (⟨S1048576x1, .i32⟩ : BufTy).Contents (Elt F))
  :: StableHlo.binary main_v207 main_v208 main_v209 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F))
  :: StableHlo.binary main_arg4 main_v209 main_v210 ((fun x i => Host.gather gather_S512x512x8_S1048576x2_S1048576x8_1_01_n_n_01_1_118 x i) : (⟨S512x512x8, .f32⟩ : BufTy).Contents (Elt F) → (⟨S1048576x2, .i32⟩ : BufTy).Contents (Elt F) → (⟨S1048576x8, .f32⟩ : BufTy).Contents (Elt F))
  :: StableHlo.nullary main_c_51 (constantI S_ 32 0#32)
  :: StableHlo.unary main_c_51 main_v211 (broadcastInDim S1048576 ![] bcast_S_S1048576 : (⟨S_, .i32⟩ : BufTy).Contents (Elt F) → (⟨S1048576, .i32⟩ : BufTy).Contents (Elt F))
  :: StableHlo.binary main_v180 main_v211 main_v212 (cmpi .slt : (⟨S1048576, .i32⟩ : BufTy).Contents (Elt F) → (⟨S1048576, .i32⟩ : BufTy).Contents (Elt F) → (⟨S1048576, .i1⟩ : BufTy).Contents (Elt F))
  :: StableHlo.nullary main_c_52 (constantI S_ 32 512#32)
  :: StableHlo.unary main_c_52 main_v213 (broadcastInDim S1048576 ![] bcast_S_S1048576 : (⟨S_, .i32⟩ : BufTy).Contents (Elt F) → (⟨S1048576, .i32⟩ : BufTy).Contents (Elt F))
  :: StableHlo.binary main_v180 main_v213 main_v214 (addi : (⟨S1048576, .i32⟩ : BufTy).Contents (Elt F) → (⟨S1048576, .i32⟩ : BufTy).Contents (Elt F) → (⟨S1048576, .i32⟩ : BufTy).Contents (Elt F))
  :: StableHlo.ternary main_v212 main_v214 main_v180 main_v215 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.nullary main_c_53 (constantI S_ 32 0#32)
  :: StableHlo.unary main_c_53 main_v216 (broadcastInDim S1048576 ![] bcast_S_S1048576 : (⟨S_, .i32⟩ : BufTy).Contents (Elt F) → (⟨S1048576, .i32⟩ : BufTy).Contents (Elt F))
  :: StableHlo.binary main_v167 main_v216 main_v217 (cmpi .slt : (⟨S1048576, .i32⟩ : BufTy).Contents (Elt F) → (⟨S1048576, .i32⟩ : BufTy).Contents (Elt F) → (⟨S1048576, .i1⟩ : BufTy).Contents (Elt F))
  :: StableHlo.nullary main_c_54 (constantI S_ 32 512#32)
  :: StableHlo.unary main_c_54 main_v218 (broadcastInDim S1048576 ![] bcast_S_S1048576 : (⟨S_, .i32⟩ : BufTy).Contents (Elt F) → (⟨S1048576, .i32⟩ : BufTy).Contents (Elt F))
  :: StableHlo.binary main_v167 main_v218 main_v219 (addi : (⟨S1048576, .i32⟩ : BufTy).Contents (Elt F) → (⟨S1048576, .i32⟩ : BufTy).Contents (Elt F) → (⟨S1048576, .i32⟩ : BufTy).Contents (Elt F))
  :: StableHlo.ternary main_v217 main_v219 main_v167 main_v220 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.unary main_v215 main_v221 (broadcastInDim S1048576x1 ![0] bcast_S1048576_S1048576x1_0 : (⟨S1048576, .i32⟩ : BufTy).Contents (Elt F) → (⟨S1048576x1, .i32⟩ : BufTy).Contents (Elt F))
  :: StableHlo.unary main_v220 main_v222 (broadcastInDim S1048576x1 ![0] bcast_S1048576_S1048576x1_0 : (⟨S1048576, .i32⟩ : BufTy).Contents (Elt F) → (⟨S1048576x1, .i32⟩ : BufTy).Contents (Elt F))
  :: StableHlo.binary main_v221 main_v222 main_v223 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F))
  :: StableHlo.binary main_arg4 main_v223 main_v224 ((fun x i => Host.gather gather_S512x512x8_S1048576x2_S1048576x8_1_01_n_n_01_1_118 x i) : (⟨S512x512x8, .f32⟩ : BufTy).Contents (Elt F) → (⟨S1048576x2, .i32⟩ : BufTy).Contents (Elt F) → (⟨S1048576x8, .f32⟩ : BufTy).Contents (Elt F))
  :: StableHlo.nullary main_c_55 (constantI S_ 32 0#32)
  :: StableHlo.unary main_c_55 main_v225 (broadcastInDim S1048576 ![] bcast_S_S1048576 : (⟨S_, .i32⟩ : BufTy).Contents (Elt F) → (⟨S1048576, .i32⟩ : BufTy).Contents (Elt F))
  :: StableHlo.binary main_v180 main_v225 main_v226 (cmpi .slt : (⟨S1048576, .i32⟩ : BufTy).Contents (Elt F) → (⟨S1048576, .i32⟩ : BufTy).Contents (Elt F) → (⟨S1048576, .i1⟩ : BufTy).Contents (Elt F))
  :: StableHlo.nullary main_c_56 (constantI S_ 32 512#32)
  :: StableHlo.unary main_c_56 main_v227 (broadcastInDim S1048576 ![] bcast_S_S1048576 : (⟨S_, .i32⟩ : BufTy).Contents (Elt F) → (⟨S1048576, .i32⟩ : BufTy).Contents (Elt F))
  :: StableHlo.binary main_v180 main_v227 main_v228 (addi : (⟨S1048576, .i32⟩ : BufTy).Contents (Elt F) → (⟨S1048576, .i32⟩ : BufTy).Contents (Elt F) → (⟨S1048576, .i32⟩ : BufTy).Contents (Elt F))
  :: StableHlo.ternary main_v226 main_v228 main_v180 main_v229 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.nullary main_c_57 (constantI S_ 32 0#32)
  :: StableHlo.unary main_c_57 main_v230 (broadcastInDim S1048576 ![] bcast_S_S1048576 : (⟨S_, .i32⟩ : BufTy).Contents (Elt F) → (⟨S1048576, .i32⟩ : BufTy).Contents (Elt F))
  :: StableHlo.binary main_v172 main_v230 main_v231 (cmpi .slt : (⟨S1048576, .i32⟩ : BufTy).Contents (Elt F) → (⟨S1048576, .i32⟩ : BufTy).Contents (Elt F) → (⟨S1048576, .i1⟩ : BufTy).Contents (Elt F))
  :: StableHlo.nullary main_c_58 (constantI S_ 32 512#32)
  :: StableHlo.unary main_c_58 main_v232 (broadcastInDim S1048576 ![] bcast_S_S1048576 : (⟨S_, .i32⟩ : BufTy).Contents (Elt F) → (⟨S1048576, .i32⟩ : BufTy).Contents (Elt F))
  :: StableHlo.binary main_v172 main_v232 main_v233 (addi : (⟨S1048576, .i32⟩ : BufTy).Contents (Elt F) → (⟨S1048576, .i32⟩ : BufTy).Contents (Elt F) → (⟨S1048576, .i32⟩ : BufTy).Contents (Elt F))
  :: StableHlo.ternary main_v231 main_v233 main_v172 main_v234 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.unary main_v229 main_v235 (broadcastInDim S1048576x1 ![0] bcast_S1048576_S1048576x1_0 : (⟨S1048576, .i32⟩ : BufTy).Contents (Elt F) → (⟨S1048576x1, .i32⟩ : BufTy).Contents (Elt F))
  :: StableHlo.unary main_v234 main_v236 (broadcastInDim S1048576x1 ![0] bcast_S1048576_S1048576x1_0 : (⟨S1048576, .i32⟩ : BufTy).Contents (Elt F) → (⟨S1048576x1, .i32⟩ : BufTy).Contents (Elt F))
  :: StableHlo.binary main_v235 main_v236 main_v237 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F))
  :: StableHlo.binary main_arg4 main_v237 main_v238 ((fun x i => Host.gather gather_S512x512x8_S1048576x2_S1048576x8_1_01_n_n_01_1_118 x i) : (⟨S512x512x8, .f32⟩ : BufTy).Contents (Elt F) → (⟨S1048576x2, .i32⟩ : BufTy).Contents (Elt F) → (⟨S1048576x8, .f32⟩ : BufTy).Contents (Elt F))
  :: [] )

/-- The window is that straight line: both sides unfold to the same chain of operation steps. -/
theorem main_part4_eq (c : Dev nD) : main_part4 (F := F) c = seq opsP4 := by
  chain_rfl

/-- Each operation touches TensorCore references only. -/
theorem opsP4_sub : (opsP4 : List (HloOp τ sig (Elt F))).Forall fun op => op.bufs ⊆ tcRefs τ sig :=
  ⟨binary_bufs_sub .., ternary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..⟩

/-- No operation allocates a buffer. -/
theorem opsP4_fresh : (opsP4 : List (HloOp τ sig (Elt F))).Forall fun op => op.fresh = ∅ :=
  fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_nil

/-- The references the line writes: each operation's result, in order. -/
abbrev opsP4_W : List (Ref sig .tc) :=
  [main_v191, main_v192, main_v193, main_v194, main_v195, main_v196, main_c_47, main_v197, main_v198, main_c_48,
   main_v199, main_v200, main_v201, main_c_49, main_v202, main_v203, main_c_50, main_v204, main_v205, main_v206,
   main_v207, main_v208, main_v209, main_v210, main_c_51, main_v211, main_v212, main_c_52, main_v213, main_v214,
   main_v215, main_c_53, main_v216, main_v217, main_c_54, main_v218, main_v219, main_v220, main_v221, main_v222,
   main_v223, main_v224, main_c_55, main_v225, main_v226, main_c_56, main_v227, main_v228, main_v229, main_c_57,
   main_v230, main_v231, main_c_58, main_v232, main_v233, main_v234, main_v235, main_v236, main_v237, main_v238]

/-- Every operation writes its one result buffer, which is listed. -/
theorem opsP4_writes : (opsP4 : List (HloOp τ sig (Elt F))).Forall fun op => op.writes ⊆ (opsP4_W.map (Proc.devRef (τ := τ) .tc)).toFinset :=
  writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_nil []

end Cert.ReferenceIdeal.RefRun

end
-- ==== Proof.Ref.Ops5.lean ====
/- The reference program's @main, statements 301 … 360 (its window `main_part5`), as the list of the 60 host
   operations it runs in order — the 2 calls it makes replaced by the callee's operations over that call's buffers —: the window
   is that straight line, every operation touches TensorCore buffers only and allocates none, and the buffers the
   line writes are listed. -/
import proofs.«142216_j1408749273558_2_alg».proof.Proof.Gen.ReferenceIdeal
import proofs.«142216_j1408749273558_2_alg».proof.Proof.Ref.Base
import Idealize.ShloMosaic.Lib.StableHlo.Run
import Idealize.ShloMosaic.Lib.Pipeline.Regions

-- a list of over a hundred operations written with `::` nests past the default depth
set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The 60 operations of @main's statements 301 … 360, in order, calls inlined. -/
abbrev opsP5 : List (HloOp τ sig (Elt F)) :=
  ( StableHlo.nullary main_cst_59 (constant S_ .f32 0x3F800000#32)
  :: StableHlo.unary main_cst_59 main_v239 (broadcastInDim S1048576x1 ![] bcast_S_S1048576x1 : (⟨S_, .f32⟩ : BufTy).Contents (Elt F) → (⟨S1048576x1, .f32⟩ : BufTy).Contents (Elt F))
  :: StableHlo.binary main_v239 main_v181 main_v240 (subf : (⟨S1048576x1, .f32⟩ : BufTy).Contents (Elt F) → (⟨S1048576x1, .f32⟩ : BufTy).Contents (Elt F) → (⟨S1048576x1, .f32⟩ : BufTy).Contents (Elt F))
  :: StableHlo.unary main_v240 main_v241 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v196 main_v241 main_v242 (mulf : (⟨S1048576x8, .f32⟩ : BufTy).Contents (Elt F) → (⟨S1048576x8, .f32⟩ : BufTy).Contents (Elt F) → (⟨S1048576x8, .f32⟩ : BufTy).Contents (Elt F))
  :: StableHlo.nullary main_cst_60 (constant S_ .f32 0x3F800000#32)
  :: StableHlo.unary main_cst_60 main_v243 (broadcastInDim S1048576x1 ![] bcast_S_S1048576x1 : (⟨S_, .f32⟩ : BufTy).Contents (Elt F) → (⟨S1048576x1, .f32⟩ : BufTy).Contents (Elt F))
  :: StableHlo.binary main_v243 main_v182 main_v244 (subf : (⟨S1048576x1, .f32⟩ : BufTy).Contents (Elt F) → (⟨S1048576x1, .f32⟩ : BufTy).Contents (Elt F) → (⟨S1048576x1, .f32⟩ : BufTy).Contents (Elt F))
  :: StableHlo.unary main_v244 main_v245 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v242 main_v245 main_v246 (mulf : (⟨S1048576x8, .f32⟩ : BufTy).Contents (Elt F) → (⟨S1048576x8, .f32⟩ : BufTy).Contents (Elt F) → (⟨S1048576x8, .f32⟩ : BufTy).Contents (Elt F))
  :: StableHlo.unary main_v181 main_v247 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v210 main_v247 main_v248 (mulf : (⟨S1048576x8, .f32⟩ : BufTy).Contents (Elt F) → (⟨S1048576x8, .f32⟩ : BufTy).Contents (Elt F) → (⟨S1048576x8, .f32⟩ : BufTy).Contents (Elt F))
  :: StableHlo.nullary main_cst_61 (constant S_ .f32 0x3F800000#32)
  :: StableHlo.unary main_cst_61 main_v249 (broadcastInDim S1048576x1 ![] bcast_S_S1048576x1 : (⟨S_, .f32⟩ : BufTy).Contents (Elt F) → (⟨S1048576x1, .f32⟩ : BufTy).Contents (Elt F))
  :: StableHlo.binary main_v249 main_v182 main_v250 (subf : (⟨S1048576x1, .f32⟩ : BufTy).Contents (Elt F) → (⟨S1048576x1, .f32⟩ : BufTy).Contents (Elt F) → (⟨S1048576x1, .f32⟩ : BufTy).Contents (Elt F))
  :: StableHlo.unary main_v250 main_v251 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v248 main_v251 main_v252 (mulf : (⟨S1048576x8, .f32⟩ : BufTy).Contents (Elt F) → (⟨S1048576x8, .f32⟩ : BufTy).Contents (Elt F) → (⟨S1048576x8, .f32⟩ : BufTy).Contents (Elt F))
  :: StableHlo.binary main_v246 main_v252 main_v253 (addf : (⟨S1048576x8, .f32⟩ : BufTy).Contents (Elt F) → (⟨S1048576x8, .f32⟩ : BufTy).Contents (Elt F) → (⟨S1048576x8, .f32⟩ : BufTy).Contents (Elt F))
  :: StableHlo.nullary main_cst_62 (constant S_ .f32 0x3F800000#32)
  :: StableHlo.unary main_cst_62 main_v254 (broadcastInDim S1048576x1 ![] bcast_S_S1048576x1 : (⟨S_, .f32⟩ : BufTy).Contents (Elt F) → (⟨S1048576x1, .f32⟩ : BufTy).Contents (Elt F))
  :: StableHlo.binary main_v254 main_v181 main_v255 (subf : (⟨S1048576x1, .f32⟩ : BufTy).Contents (Elt F) → (⟨S1048576x1, .f32⟩ : BufTy).Contents (Elt F) → (⟨S1048576x1, .f32⟩ : BufTy).Contents (Elt F))
  :: StableHlo.unary main_v255 main_v256 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v224 main_v256 main_v257 (mulf : (⟨S1048576x8, .f32⟩ : BufTy).Contents (Elt F) → (⟨S1048576x8, .f32⟩ : BufTy).Contents (Elt F) → (⟨S1048576x8, .f32⟩ : BufTy).Contents (Elt F))
  :: StableHlo.unary main_v182 main_v258 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v257 main_v258 main_v259 (mulf : (⟨S1048576x8, .f32⟩ : BufTy).Contents (Elt F) → (⟨S1048576x8, .f32⟩ : BufTy).Contents (Elt F) → (⟨S1048576x8, .f32⟩ : BufTy).Contents (Elt F))
  :: StableHlo.binary main_v253 main_v259 main_v260 (addf : (⟨S1048576x8, .f32⟩ : BufTy).Contents (Elt F) → (⟨S1048576x8, .f32⟩ : BufTy).Contents (Elt F) → (⟨S1048576x8, .f32⟩ : BufTy).Contents (Elt F))
  :: StableHlo.unary main_v181 main_v261 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v238 main_v261 main_v262 (mulf : (⟨S1048576x8, .f32⟩ : BufTy).Contents (Elt F) → (⟨S1048576x8, .f32⟩ : BufTy).Contents (Elt F) → (⟨S1048576x8, .f32⟩ : BufTy).Contents (Elt F))
  :: StableHlo.unary main_v182 main_v263 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v262 main_v263 main_v264 (mulf : (⟨S1048576x8, .f32⟩ : BufTy).Contents (Elt F) → (⟨S1048576x8, .f32⟩ : BufTy).Contents (Elt F) → (⟨S1048576x8, .f32⟩ : BufTy).Contents (Elt F))
  :: StableHlo.binary main_v260 main_v264 main_v265 (addf : (⟨S1048576x8, .f32⟩ : BufTy).Contents (Elt F) → (⟨S1048576x8, .f32⟩ : BufTy).Contents (Elt F) → (⟨S1048576x8, .f32⟩ : BufTy).Contents (Elt F))
  :: StableHlo.nary ![main_arg1, main_arg0, main_v265] main_v266 (fun u => concatenate S1048576x12 1 [⟨S1048576x2, u 0⟩, ⟨S1048576x2, u 1⟩, ⟨S1048576x8, u 2⟩] concatenates_S1048576x2_S1048576x2_S1048576x8_S1048576x12_d1)
  :: StableHlo.unary main_arg13 main_v267 ((transpose S12x32 [1, 0] · transposes_S32x12_S12x32_1_0) : (⟨S32x12, .f32⟩ : BufTy).Contents (Elt F) → (⟨S12x32, .f32⟩ : BufTy).Contents (Elt F))
  :: StableHlo.binary main_v266 main_v267 main_v268 ((fun l r => Host.dotGeneral dot_S1048576x12_S12x32_S1048576x32_1_0_0_1_n_n none l r) : (⟨S1048576x12, .f32⟩ : BufTy).Contents (Elt F) → (⟨S12x32, .f32⟩ : BufTy).Contents (Elt F) → (⟨S1048576x32, .f32⟩ : BufTy).Contents (Elt F))
  :: StableHlo.unary main_arg14 main_v269 (broadcastInDim S1x32 ![1] bcast_S32_S1x32_1 : (⟨S32, .f32⟩ : BufTy).Contents (Elt F) → (⟨S1x32, .f32⟩ : BufTy).Contents (Elt F))
  :: StableHlo.unary main_v269 main_v270 (broadcastInDim S1048576x32 ![0, 1] bcast_S1x32_S1048576x32_0_1 : (⟨S1x32, .f32⟩ : BufTy).Contents (Elt F) → (⟨S1048576x32, .f32⟩ : BufTy).Contents (Elt F))
  :: StableHlo.binary main_v268 main_v270 main_v271 (addf : (⟨S1048576x32, .f32⟩ : BufTy).Contents (Elt F) → (⟨S1048576x32, .f32⟩ : BufTy).Contents (Elt F) → (⟨S1048576x32, .f32⟩ : BufTy).Contents (Elt F))
  :: StableHlo.nullary main_cst_63 (constant S_ .f32 0x00000000#32)
  :: StableHlo.unary main_cst_63 main_v272 (broadcastInDim S1048576x32 ![] bcast_S_S1048576x32 : (⟨S_, .f32⟩ : BufTy).Contents (Elt F) → (⟨S1048576x32, .f32⟩ : BufTy).Contents (Elt F))
  :: StableHlo.binary main_v271 main_v272 main_v273 (cmpf .oge : (⟨S1048576x32, .f32⟩ : BufTy).Contents (Elt F) → (⟨S1048576x32, .f32⟩ : BufTy).Contents (Elt F) → (⟨S1048576x32, .i1⟩ : BufTy).Contents (Elt F))
  :: StableHlo.nullary main_cst_64 (constant S_ .f32 0x3C23D70A#32)
  :: StableHlo.unary main_cst_64 main_v274 (broadcastInDim S1048576x32 ![] bcast_S_S1048576x32 : (⟨S_, .f32⟩ : BufTy).Contents (Elt F) → (⟨S1048576x32, .f32⟩ : BufTy).Contents (Elt F))
  :: StableHlo.binary main_v274 main_v271 main_v275 (mulf : (⟨S1048576x32, .f32⟩ : BufTy).Contents (Elt F) → (⟨S1048576x32, .f32⟩ : BufTy).Contents (Elt F) → (⟨S1048576x32, .f32⟩ : BufTy).Contents (Elt F))
  :: StableHlo.TRef.ternary (.of main_v273 : StableHlo.TRef sig ⟨S1048576x32, .i1⟩) (.of main_v271 : StableHlo.TRef sig ⟨S1048576x32, .f32⟩) (.of main_v275 : StableHlo.TRef sig ⟨S1048576x32, .f32⟩) (.of main_v276 : StableHlo.TRef sig ⟨S1048576x32, .f32⟩) select
  :: StableHlo.unary main_arg15 main_v277 ((transpose S32x32 [1, 0] · transposes_S32x32_S32x32_1_0) : (⟨S32x32, .f32⟩ : BufTy).Contents (Elt F) → (⟨S32x32, .f32⟩ : BufTy).Contents (Elt F))
  :: StableHlo.binary main_v276 main_v277 main_v278 ((fun l r => Host.dotGeneral dot_S1048576x32_S32x32_S1048576x32_1_0_0_1_n_n none l r) : (⟨S1048576x32, .f32⟩ : BufTy).Contents (Elt F) → (⟨S32x32, .f32⟩ : BufTy).Contents (Elt F) → (⟨S1048576x32, .f32⟩ : BufTy).Contents (Elt F))
  :: StableHlo.unary main_arg16 main_v279 (broadcastInDim S1x32 ![1] bcast_S32_S1x32_1 : (⟨S32, .f32⟩ : BufTy).Contents (Elt F) → (⟨S1x32, .f32⟩ : BufTy).Contents (Elt F))
  :: StableHlo.unary main_v279 main_v280 (broadcastInDim S1048576x32 ![0, 1] bcast_S1x32_S1048576x32_0_1 : (⟨S1x32, .f32⟩ : BufTy).Contents (Elt F) → (⟨S1048576x32, .f32⟩ : BufTy).Contents (Elt F))
  :: StableHlo.binary main_v278 main_v280 main_v281 (addf : (⟨S1048576x32, .f32⟩ : BufTy).Contents (Elt F) → (⟨S1048576x32, .f32⟩ : BufTy).Contents (Elt F) → (⟨S1048576x32, .f32⟩ : BufTy).Contents (Elt F))
  :: StableHlo.nullary main_cst_65 (constant S_ .f32 0x00000000#32)
  :: StableHlo.unary main_cst_65 main_v282 (broadcastInDim S1048576x32 ![] bcast_S_S1048576x32 : (⟨S_, .f32⟩ : BufTy).Contents (Elt F) → (⟨S1048576x32, .f32⟩ : BufTy).Contents (Elt F))
  :: StableHlo.binary main_v281 main_v282 main_v283 (cmpf .oge : (⟨S1048576x32, .f32⟩ : BufTy).Contents (Elt F) → (⟨S1048576x32, .f32⟩ : BufTy).Contents (Elt F) → (⟨S1048576x32, .i1⟩ : BufTy).Contents (Elt F))
  :: StableHlo.nullary main_cst_66 (constant S_ .f32 0x3C23D70A#32)
  :: StableHlo.unary main_cst_66 main_v284 (broadcastInDim S1048576x32 ![] bcast_S_S1048576x32 : (⟨S_, .f32⟩ : BufTy).Contents (Elt F) → (⟨S1048576x32, .f32⟩ : BufTy).Contents (Elt F))
  :: StableHlo.binary main_v284 main_v281 main_v285 (mulf : (⟨S1048576x32, .f32⟩ : BufTy).Contents (Elt F) → (⟨S1048576x32, .f32⟩ : BufTy).Contents (Elt F) → (⟨S1048576x32, .f32⟩ : BufTy).Contents (Elt F))
  :: StableHlo.TRef.ternary (.of main_v283 : StableHlo.TRef sig ⟨S1048576x32, .i1⟩) (.of main_v281 : StableHlo.TRef sig ⟨S1048576x32, .f32⟩) (.of main_v285 : StableHlo.TRef sig ⟨S1048576x32, .f32⟩) (.of main_v286 : StableHlo.TRef sig ⟨S1048576x32, .f32⟩) select
  :: StableHlo.unary main_arg17 main_v287 ((transpose S32x32 [1, 0] · transposes_S32x32_S32x32_1_0) : (⟨S32x32, .f32⟩ : BufTy).Contents (Elt F) → (⟨S32x32, .f32⟩ : BufTy).Contents (Elt F))
  :: StableHlo.binary main_v286 main_v287 main_v288 ((fun l r => Host.dotGeneral dot_S1048576x32_S32x32_S1048576x32_1_0_0_1_n_n none l r) : (⟨S1048576x32, .f32⟩ : BufTy).Contents (Elt F) → (⟨S32x32, .f32⟩ : BufTy).Contents (Elt F) → (⟨S1048576x32, .f32⟩ : BufTy).Contents (Elt F))
  :: StableHlo.unary main_arg18 main_v289 (broadcastInDim S1x32 ![1] bcast_S32_S1x32_1 : (⟨S32, .f32⟩ : BufTy).Contents (Elt F) → (⟨S1x32, .f32⟩ : BufTy).Contents (Elt F))
  :: StableHlo.unary main_v289 main_v290 (broadcastInDim S1048576x32 ![0, 1] bcast_S1x32_S1048576x32_0_1 : (⟨S1x32, .f32⟩ : BufTy).Contents (Elt F) → (⟨S1048576x32, .f32⟩ : BufTy).Contents (Elt F))
  :: [] )

/-- The window is that straight line: both sides unfold to the same chain of operation steps. -/
theorem main_part5_eq (c : Dev nD) : main_part5 (F := F) c = seq opsP5 := by
  chain_rfl

/-- Each operation touches TensorCore references only. -/
theorem opsP5_sub : (opsP5 : List (HloOp τ sig (Elt F))).Forall fun op => op.bufs ⊆ tcRefs τ sig :=
  ⟨nullary_bufs_sub .., unary_bufs_sub .., binary_bufs_sub .., unary_bufs_sub .., binary_bufs_sub .., nullary_bufs_sub ..,
    unary_bufs_sub .., binary_bufs_sub .., unary_bufs_sub .., binary_bufs_sub .., unary_bufs_sub .., binary_bufs_sub ..,
    nullary_bufs_sub .., unary_bufs_sub .., binary_bufs_sub .., unary_bufs_sub .., binary_bufs_sub .., binary_bufs_sub ..,
    nullary_bufs_sub .., unary_bufs_sub .., binary_bufs_sub .., unary_bufs_sub .., binary_bufs_sub .., unary_bufs_sub ..,
    binary_bufs_sub .., binary_bufs_sub .., unary_bufs_sub .., binary_bufs_sub .., unary_bufs_sub .., binary_bufs_sub ..,
    binary_bufs_sub .., nary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..⟩

/-- No operation allocates a buffer. -/
theorem opsP5_fresh : (opsP5 : List (HloOp τ sig (Elt F))).Forall fun op => op.fresh = ∅ :=
  fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_nil

/-- The references the line writes: each operation's result, in order. -/
abbrev opsP5_W : List (Ref sig .tc) :=
  [main_cst_59, main_v239, main_v240, main_v241, main_v242, main_cst_60, main_v243, main_v244, main_v245, main_v246,
   main_v247, main_v248, main_cst_61, main_v249, main_v250, main_v251, main_v252, main_v253, main_cst_62, main_v254,
   main_v255, main_v256, main_v257, main_v258, main_v259, main_v260, main_v261, main_v262, main_v263, main_v264,
   main_v265, main_v266, main_v267, main_v268, main_v269, main_v270, main_v271, main_cst_63, main_v272, main_v273,
   main_cst_64, main_v274, main_v275, main_v276, main_v277, main_v278, main_v279, main_v280, main_v281, main_cst_65,
   main_v282, main_v283, main_cst_66, main_v284, main_v285, main_v286, main_v287, main_v288, main_v289, main_v290]

/-- Every operation writes its one result buffer, which is listed. -/
theorem opsP5_writes : (opsP5 : List (HloOp τ sig (Elt F))).Forall fun op => op.writes ⊆ (opsP5_W.map (Proc.devRef (τ := τ) .tc)).toFinset :=
  writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_nil []

end Cert.ReferenceIdeal.RefRun

end
-- ==== Proof.Ref.Ops6.lean ====
/- The reference program's @main, statements 361 … 374 (its window `main_part6`), as the list of the 13 host
   operations it runs in order — the 1 calls it makes replaced by the callee's operations over that call's buffers —: the window
   is that straight line, every operation touches TensorCore buffers only and allocates none, and the buffers the
   line writes are listed. -/
import proofs.«142216_j1408749273558_2_alg».proof.Proof.Gen.ReferenceIdeal
import proofs.«142216_j1408749273558_2_alg».proof.Proof.Ref.Base
import Idealize.ShloMosaic.Lib.StableHlo.Run
import Idealize.ShloMosaic.Lib.Pipeline.Regions

-- a list of over a hundred operations written with `::` nests past the default depth
set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The 13 operations of @main's statements 361 … 374, in order, calls inlined. -/
abbrev opsP6 : List (HloOp τ sig (Elt F)) :=
  ( StableHlo.binary main_v288 main_v290 main_v291 (addf : (⟨S1048576x32, .f32⟩ : BufTy).Contents (Elt F) → (⟨S1048576x32, .f32⟩ : BufTy).Contents (Elt F) → (⟨S1048576x32, .f32⟩ : BufTy).Contents (Elt F))
  :: StableHlo.nullary main_cst_67 (constant S_ .f32 0x00000000#32)
  :: StableHlo.unary main_cst_67 main_v292 (broadcastInDim S1048576x32 ![] bcast_S_S1048576x32 : (⟨S_, .f32⟩ : BufTy).Contents (Elt F) → (⟨S1048576x32, .f32⟩ : BufTy).Contents (Elt F))
  :: StableHlo.binary main_v291 main_v292 main_v293 (cmpf .oge : (⟨S1048576x32, .f32⟩ : BufTy).Contents (Elt F) → (⟨S1048576x32, .f32⟩ : BufTy).Contents (Elt F) → (⟨S1048576x32, .i1⟩ : BufTy).Contents (Elt F))
  :: StableHlo.nullary main_cst_68 (constant S_ .f32 0x3C23D70A#32)
  :: StableHlo.unary main_cst_68 main_v294 (broadcastInDim S1048576x32 ![] bcast_S_S1048576x32 : (⟨S_, .f32⟩ : BufTy).Contents (Elt F) → (⟨S1048576x32, .f32⟩ : BufTy).Contents (Elt F))
  :: StableHlo.binary main_v294 main_v291 main_v295 (mulf : (⟨S1048576x32, .f32⟩ : BufTy).Contents (Elt F) → (⟨S1048576x32, .f32⟩ : BufTy).Contents (Elt F) → (⟨S1048576x32, .f32⟩ : BufTy).Contents (Elt F))
  :: StableHlo.TRef.ternary (.of main_v293 : StableHlo.TRef sig ⟨S1048576x32, .i1⟩) (.of main_v291 : StableHlo.TRef sig ⟨S1048576x32, .f32⟩) (.of main_v295 : StableHlo.TRef sig ⟨S1048576x32, .f32⟩) (.of main_v296 : StableHlo.TRef sig ⟨S1048576x32, .f32⟩) select
  :: StableHlo.unary main_arg19 main_v297 ((transpose S32x3 [1, 0] · transposes_S3x32_S32x3_1_0) : (⟨S3x32, .f32⟩ : BufTy).Contents (Elt F) → (⟨S32x3, .f32⟩ : BufTy).Contents (Elt F))
  :: StableHlo.binary main_v296 main_v297 main_v298 ((fun l r => Host.dotGeneral dot_S1048576x32_S32x3_S1048576x3_1_0_0_1_n_n none l r) : (⟨S1048576x32, .f32⟩ : BufTy).Contents (Elt F) → (⟨S32x3, .f32⟩ : BufTy).Contents (Elt F) → (⟨S1048576x3, .f32⟩ : BufTy).Contents (Elt F))
  :: StableHlo.unary main_arg20 main_v299 (broadcastInDim S1x3 ![1] bcast_S3_S1x3_1 : (⟨S3, .f32⟩ : BufTy).Contents (Elt F) → (⟨S1x3, .f32⟩ : BufTy).Contents (Elt F))
  :: StableHlo.unary main_v299 main_v300 (broadcastInDim S1048576x3 ![0, 1] bcast_S1x3_S1048576x3_0_1 : (⟨S1x3, .f32⟩ : BufTy).Contents (Elt F) → (⟨S1048576x3, .f32⟩ : BufTy).Contents (Elt F))
  :: StableHlo.binary main_v298 main_v300 main_v301 (addf : (⟨S1048576x3, .f32⟩ : BufTy).Contents (Elt F) → (⟨S1048576x3, .f32⟩ : BufTy).Contents (Elt F) → (⟨S1048576x3, .f32⟩ : BufTy).Contents (Elt F))
  :: [] )

/-- The window is that straight line: both sides unfold to the same chain of operation steps. -/
theorem main_part6_eq (c : Dev nD) : main_part6 (F := F) c = seq opsP6 := by
  chain_rfl

/-- Each operation touches TensorCore references only. -/
theorem opsP6_sub : (opsP6 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub ..⟩

/-- No operation allocates a buffer. -/
theorem opsP6_fresh : (opsP6 : List (HloOp τ sig (Elt F))).Forall fun op => op.fresh = ∅ :=
  fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_cons rfl <| fresh_nil

/-- The references the line writes: each operation's result, in order. -/
abbrev opsP6_W : List (Ref sig .tc) :=
  [main_v291, main_cst_67, main_v292, main_v293, main_cst_68, main_v294, main_v295, main_v296, main_v297, main_v298,
   main_v299, main_v300, main_v301]

/-- Every operation writes its one result buffer, which is listed. -/
theorem opsP6_writes : (opsP6 : List (HloOp τ sig (Elt F))).Forall fun op => op.writes ⊆ (opsP6_W.map (Proc.devRef (τ := τ) .tc)).toFinset :=
  writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_nil []

end Cert.ReferenceIdeal.RefRun

end
-- ==== Proof.Ref.Run.lean ====
/- The reference program's @main as ONE list of its 535 host operations — the seven windows' lists in order, every call
   replaced by the callee's operations over that call's buffers — and its run: on every device, from any memory with
   zero counters, every weakly fair execution terminates with each TensorCore buffer at the fold of the operations'
   results over the launch contents; no operation writes an argument, so each argument keeps its launch contents. -/
import proofs.«142216_j1408749273558_2_alg».proof.Proof.Gen.ReferenceIdeal
import proofs.«142216_j1408749273558_2_alg».proof.Proof.Ref.Base
import proofs.«142216_j1408749273558_2_alg».proof.Proof.Ref.Ops0
import proofs.«142216_j1408749273558_2_alg».proof.Proof.Ref.Ops1
import proofs.«142216_j1408749273558_2_alg».proof.Proof.Ref.Ops2
import proofs.«142216_j1408749273558_2_alg».proof.Proof.Ref.Ops3
import proofs.«142216_j1408749273558_2_alg».proof.Proof.Ref.Ops4
import proofs.«142216_j1408749273558_2_alg».proof.Proof.Ref.Ops5
import proofs.«142216_j1408749273558_2_alg».proof.Proof.Ref.Ops6
import Idealize.ShloMosaic.Lib.StableHlo.Run

-- a list of over a hundred operations written with `::` nests past the default depth
set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- @main's operations, in order: the windows' lists concatenated. -/
abbrev ops : List (HloOp τ sig (Elt F)) :=
  opsP0 ++ (opsP1 ++ (opsP2 ++ (opsP3 ++ (opsP4 ++ (opsP5 ++ opsP6)))))

/-- @main runs its windows in order, each window is its line, and lines run in turn are their concatenation. -/
theorem main_eq (c : Dev nD) : main (F := F) c = seq ops := by
  have h : main (F := F) c
      = (main_part0 c >>= fun _ => main_part1 c >>= fun _ => main_part2 c >>= fun _ => main_part3 c >>= fun _ =>
          main_part4 c >>= fun _ => main_part5 c >>= fun _ => main_part6 c) := rfl
  rw [h, main_part0_eq, main_part1_eq, main_part2_eq, main_part3_eq, main_part4_eq, main_part5_eq, main_part6_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

/-- Each operation touches TensorCore references only. -/
theorem ops_sub : (ops : List (HloOp τ sig (Elt F))).Forall fun op => op.bufs ⊆ tcRefs τ sig :=
  forall_append opsP0_sub <| forall_append opsP1_sub <| forall_append opsP2_sub <| forall_append opsP3_sub <|
    forall_append opsP4_sub <| forall_append opsP5_sub opsP6_sub

/-- No operation allocates a buffer. -/
theorem ops_fresh : (ops : List (HloOp τ sig (Elt F))).Forall fun op => op.fresh = ∅ :=
  forall_append opsP0_fresh <| forall_append opsP1_fresh <| forall_append opsP2_fresh <| forall_append opsP3_fresh <|
    forall_append opsP4_fresh <| forall_append opsP5_fresh opsP6_fresh

/-- On every device, for any float values, from any memory with zero counters: every weakly fair execution of @main
    terminates, and every final state has each TensorCore buffer at the fold of the operations' results over the
    device's launch contents. -/
theorem run (m : (ℓ : Loc nD τ sig) → Buf (Elt F) ℓ) (ρ : Dev nD → PrngReg) :
    θ_run defs (onTc (τ := τ) (main (F := F))) ⟨m, fun _ => 0, ρ⟩ fun r => ∀ c : Dev nD, ∀ b : Ref sig .tc,
      r.2.mem ((c.tc : Thread nD τ).loc b) = StableHlo.after ops (StableHlo.launchContents m c) (Proc.devRef .tc b) :=
  run_seq scopedRefs_eq scopedSems_eq defs main (fun _ => ops) main_eq (fun _ => ops_sub) m ρ
    (fun _ => List.forall_iff_forall_mem.mp ops_fresh)

/-- A reference no window's line writes holds after @main what it held before. -/
theorem kept (r : Ref sig .tc) (h0 : r ∉ (opsP0_W : List (Ref sig .tc))) (h1 : r ∉ (opsP1_W : List (Ref sig .tc)))
    (h2 : r ∉ (opsP2_W : List (Ref sig .tc))) (h3 : r ∉ (opsP3_W : List (Ref sig .tc))) (h4 : r ∉ (opsP4_W : List (Ref sig .tc)))
    (h5 : r ∉ (opsP5_W : List (Ref sig .tc))) (h6 : r ∉ (opsP6_W : List (Ref sig .tc))) (V : Valuation τ sig (Elt F)) :
    StableHlo.after ops V (Proc.devRef .tc r) = V (Proc.devRef .tc r) := by
  simp only [ops, after_append]
  rw [after_of_writes_sub opsP6 _ opsP6_writes h6, after_of_writes_sub opsP5 _ opsP5_writes h5,
    after_of_writes_sub opsP4 _ opsP4_writes h4, after_of_writes_sub opsP3 _ opsP3_writes h3,
    after_of_writes_sub opsP2 _ opsP2_writes h2, after_of_writes_sub opsP1 _ opsP1_writes h1,
    after_of_writes_sub opsP0 _ opsP0_writes h0]

/-- No operation writes `main_arg0`: it keeps its launch contents. -/
theorem kept_arg0 (m : (ℓ : Loc nD τ sig) → Buf (Elt F) ℓ) (c : Dev nD) :
    StableHlo.after (ops (F := F)) (StableHlo.launchContents m c) (Proc.devRef .tc main_arg0) = m ((c.tc : Thread nD τ).loc main_arg0) :=
  kept main_arg0 (by decide) (by decide) (by decide) (by decide) (by decide) (by decide) (by decide) _

/-- No operation writes `main_arg1`: it keeps its launch contents. -/
theorem kept_arg1 (m : (ℓ : Loc nD τ sig) → Buf (Elt F) ℓ) (c : Dev nD) :
    StableHlo.after (ops (F := F)) (StableHlo.launchContents m c) (Proc.devRef .tc main_arg1) = m ((c.tc : Thread nD τ).loc main_arg1) :=
  kept main_arg1 (by decide) (by decide) (by decide) (by decide) (by decide) (by decide) (by decide) _

/-- No operation writes `main_arg2`: it keeps its launch contents. -/
theorem kept_arg2 (m : (ℓ : Loc nD τ sig) → Buf (Elt F) ℓ) (c : Dev nD) :
    StableHlo.after (ops (F := F)) (StableHlo.launchContents m c) (Proc.devRef .tc main_arg2) = m ((c.tc : Thread nD τ).loc main_arg2) :=
  kept main_arg2 (by decide) (by decide) (by decide) (by decide) (by decide) (by decide) (by decide) _

/-- No operation writes `main_arg3`: it keeps its launch contents. -/
theorem kept_arg3 (m : (ℓ : Loc nD τ sig) → Buf (Elt F) ℓ) (c : Dev nD) :
    StableHlo.after (ops (F := F)) (StableHlo.launchContents m c) (Proc.devRef .tc main_arg3) = m ((c.tc : Thread nD τ).loc main_arg3) :=
  kept main_arg3 (by decide) (by decide) (by decide) (by decide) (by decide) (by decide) (by decide) _

/-- No operation writes `main_arg4`: it keeps its launch contents. -/
theorem kept_arg4 (m : (ℓ : Loc nD τ sig) → Buf (Elt F) ℓ) (c : Dev nD) :
    StableHlo.after (ops (F := F)) (StableHlo.launchContents m c) (Proc.devRef .tc main_arg4) = m ((c.tc : Thread nD τ).loc main_arg4) :=
  kept main_arg4 (by decide) (by decide) (by decide) (by decide) (by decide) (by decide) (by decide) _

/-- No operation writes `main_arg5`: it keeps its launch contents. -/
theorem kept_arg5 (m : (ℓ : Loc nD τ sig) → Buf (Elt F) ℓ) (c : Dev nD) :
    StableHlo.after (ops (F := F)) (StableHlo.launchContents m c) (Proc.devRef .tc main_arg5) = m ((c.tc : Thread nD τ).loc main_arg5) :=
  kept main_arg5 (by decide) (by decide) (by decide) (by decide) (by decide) (by decide) (by decide) _

/-- No operation writes `main_arg6`: it keeps its launch contents. -/
theorem kept_arg6 (m : (ℓ : Loc nD τ sig) → Buf (Elt F) ℓ) (c : Dev nD) :
    StableHlo.after (ops (F := F)) (StableHlo.launchContents m c) (Proc.devRef .tc main_arg6) = m ((c.tc : Thread nD τ).loc main_arg6) :=
  kept main_arg6 (by decide) (by decide) (by decide) (by decide) (by decide) (by decide) (by decide) _

/-- No operation writes `main_arg7`: it keeps its launch contents. -/
theorem kept_arg7 (m : (ℓ : Loc nD τ sig) → Buf (Elt F) ℓ) (c : Dev nD) :
    StableHlo.after (ops (F := F)) (StableHlo.launchContents m c) (Proc.devRef .tc main_arg7) = m ((c.tc : Thread nD τ).loc main_arg7) :=
  kept main_arg7 (by decide) (by decide) (by decide) (by decide) (by decide) (by decide) (by decide) _

/-- No operation writes `main_arg8`: it keeps its launch contents. -/
theorem kept_arg8 (m : (ℓ : Loc nD τ sig) → Buf (Elt F) ℓ) (c : Dev nD) :
    StableHlo.after (ops (F := F)) (StableHlo.launchContents m c) (Proc.devRef .tc main_arg8) = m ((c.tc : Thread nD τ).loc main_arg8) :=
  kept main_arg8 (by decide) (by decide) (by decide) (by decide) (by decide) (by decide) (by decide) _

/-- No operation writes `main_arg9`: it keeps its launch contents. -/
theorem kept_arg9 (m : (ℓ : Loc nD τ sig) → Buf (Elt F) ℓ) (c : Dev nD) :
    StableHlo.after (ops (F := F)) (StableHlo.launchContents m c) (Proc.devRef .tc main_arg9) = m ((c.tc : Thread nD τ).loc main_arg9) :=
  kept main_arg9 (by decide) (by decide) (by decide) (by decide) (by decide) (by decide) (by decide) _

/-- No operation writes `main_arg10`: it keeps its launch contents. -/
theorem kept_arg10 (m : (ℓ : Loc nD τ sig) → Buf (Elt F) ℓ) (c : Dev nD) :
    StableHlo.after (ops (F := F)) (StableHlo.launchContents m c) (Proc.devRef .tc main_arg10) = m ((c.tc : Thread nD τ).loc main_arg10) :=
  kept main_arg10 (by decide) (by decide) (by decide) (by decide) (by decide) (by decide) (by decide) _

/-- No operation writes `main_arg11`: it keeps its launch contents. -/
theorem kept_arg11 (m : (ℓ : Loc nD τ sig) → Buf (Elt F) ℓ) (c : Dev nD) :
    StableHlo.after (ops (F := F)) (StableHlo.launchContents m c) (Proc.devRef .tc main_arg11) = m ((c.tc : Thread nD τ).loc main_arg11) :=
  kept main_arg11 (by decide) (by decide) (by decide) (by decide) (by decide) (by decide) (by decide) _

/-- No operation writes `main_arg12`: it keeps its launch contents. -/
theorem kept_arg12 (m : (ℓ : Loc nD τ sig) → Buf (Elt F) ℓ) (c : Dev nD) :
    StableHlo.after (ops (F := F)) (StableHlo.launchContents m c) (Proc.devRef .tc main_arg12) = m ((c.tc : Thread nD τ).loc main_arg12) :=
  kept main_arg12 (by decide) (by decide) (by decide) (by decide) (by decide) (by decide) (by decide) _

/-- No operation writes `main_arg13`: it keeps its launch contents. -/
theorem kept_arg13 (m : (ℓ : Loc nD τ sig) → Buf (Elt F) ℓ) (c : Dev nD) :
    StableHlo.after (ops (F := F)) (StableHlo.launchContents m c) (Proc.devRef .tc main_arg13) = m ((c.tc : Thread nD τ).loc main_arg13) :=
  kept main_arg13 (by decide) (by decide) (by decide) (by decide) (by decide) (by decide) (by decide) _

/-- No operation writes `main_arg14`: it keeps its launch contents. -/
theorem kept_arg14 (m : (ℓ : Loc nD τ sig) → Buf (Elt F) ℓ) (c : Dev nD) :
    StableHlo.after (ops (F := F)) (StableHlo.launchContents m c) (Proc.devRef .tc main_arg14) = m ((c.tc : Thread nD τ).loc main_arg14) :=
  kept main_arg14 (by decide) (by decide) (by decide) (by decide) (by decide) (by decide) (by decide) _

/-- No operation writes `main_arg15`: it keeps its launch contents. -/
theorem kept_arg15 (m : (ℓ : Loc nD τ sig) → Buf (Elt F) ℓ) (c : Dev nD) :
    StableHlo.after (ops (F := F)) (StableHlo.launchContents m c) (Proc.devRef .tc main_arg15) = m ((c.tc : Thread nD τ).loc main_arg15) :=
  kept main_arg15 (by decide) (by decide) (by decide) (by decide) (by decide) (by decide) (by decide) _

/-- No operation writes `main_arg16`: it keeps its launch contents. -/
theorem kept_arg16 (m : (ℓ : Loc nD τ sig) → Buf (Elt F) ℓ) (c : Dev nD) :
    StableHlo.after (ops (F := F)) (StableHlo.launchContents m c) (Proc.devRef .tc main_arg16) = m ((c.tc : Thread nD τ).loc main_arg16) :=
  kept main_arg16 (by decide) (by decide) (by decide) (by decide) (by decide) (by decide) (by decide) _

/-- No operation writes `main_arg17`: it keeps its launch contents. -/
theorem kept_arg17 (m : (ℓ : Loc nD τ sig) → Buf (Elt F) ℓ) (c : Dev nD) :
    StableHlo.after (ops (F := F)) (StableHlo.launchContents m c) (Proc.devRef .tc main_arg17) = m ((c.tc : Thread nD τ).loc main_arg17) :=
  kept main_arg17 (by decide) (by decide) (by decide) (by decide) (by decide) (by decide) (by decide) _

/-- No operation writes `main_arg18`: it keeps its launch contents. -/
theorem kept_arg18 (m : (ℓ : Loc nD τ sig) → Buf (Elt F) ℓ) (c : Dev nD) :
    StableHlo.after (ops (F := F)) (StableHlo.launchContents m c) (Proc.devRef .tc main_arg18) = m ((c.tc : Thread nD τ).loc main_arg18) :=
  kept main_arg18 (by decide) (by decide) (by decide) (by decide) (by decide) (by decide) (by decide) _

/-- No operation writes `main_arg19`: it keeps its launch contents. -/
theorem kept_arg19 (m : (ℓ : Loc nD τ sig) → Buf (Elt F) ℓ) (c : Dev nD) :
    StableHlo.after (ops (F := F)) (StableHlo.launchContents m c) (Proc.devRef .tc main_arg19) = m ((c.tc : Thread nD τ).loc main_arg19) :=
  kept main_arg19 (by decide) (by decide) (by decide) (by decide) (by decide) (by decide) (by decide) _

/-- No operation writes `main_arg20`: it keeps its launch contents. -/
theorem kept_arg20 (m : (ℓ : Loc nD τ sig) → Buf (Elt F) ℓ) (c : Dev nD) :
    StableHlo.after (ops (F := F)) (StableHlo.launchContents m c) (Proc.devRef .tc main_arg20) = m ((c.tc : Thread nD τ).loc main_arg20) :=
  kept main_arg20 (by decide) (by decide) (by decide) (by decide) (by decide) (by decide) (by decide) _

end Cert.ReferenceIdeal.RefRun

end
-- ==== Proof.Ref.Frame.lean ====
/-
  The reference's frame: its entry function is a straight line of host operations, none of which writes an argument
  array; so every execution terminates without a fault and each argument array ends at its launch contents.
-/
import proofs.«142216_j1408749273558_2_alg».proof.Proof.Ref.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c main_arg0).trans (kept_arg0 m c),
    (h c main_arg1).trans (kept_arg1 m c),
    (h c main_arg2).trans (kept_arg2 m c),
    (h c main_arg3).trans (kept_arg3 m c),
    (h c main_arg4).trans (kept_arg4 m c),
    (h c main_arg5).trans (kept_arg5 m c),
    (h c main_arg6).trans (kept_arg6 m c),
    (h c main_arg7).trans (kept_arg7 m c),
    (h c main_arg8).trans (kept_arg8 m c),
    (h c main_arg9).trans (kept_arg9 m c),
    (h c main_arg10).trans (kept_arg10 m c),
    (h c main_arg11).trans (kept_arg11 m c),
    (h c main_arg12).trans (kept_arg12 m c),
    (h c main_arg13).trans (kept_arg13 m c),
    (h c main_arg14).trans (kept_arg14 m c),
    (h c main_arg15).trans (kept_arg15 m c),
    (h c main_arg16).trans (kept_arg16 m c),
    (h c main_arg17).trans (kept_arg17 m c),
    (h c main_arg18).trans (kept_arg18 m c),
    (h c main_arg19).trans (kept_arg19 m c),
    (h c main_arg20).trans (kept_arg20 m c)⟩) (run m ρ)

/-- The run with the result named: the result array ends at the fold of the operations over the launch contents, read at
    its buffer; each argument array at its launch contents. -/
theorem run_out (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v301) = StableHlo.after ops (StableHlo.launchContents m c) (Proc.devRef .tc main_v301)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨h c main_v301, (h c main_arg0).trans (kept_arg0 m c),
    (h c main_arg1).trans (kept_arg1 m c),
    (h c main_arg2).trans (kept_arg2 m c),
    (h c main_arg3).trans (kept_arg3 m c),
    (h c main_arg4).trans (kept_arg4 m c),
    (h c main_arg5).trans (kept_arg5 m c),
    (h c main_arg6).trans (kept_arg6 m c),
    (h c main_arg7).trans (kept_arg7 m c),
    (h c main_arg8).trans (kept_arg8 m c),
    (h c main_arg9).trans (kept_arg9 m c),
    (h c main_arg10).trans (kept_arg10 m c),
    (h c main_arg11).trans (kept_arg11 m c),
    (h c main_arg12).trans (kept_arg12 m c),
    (h c main_arg13).trans (kept_arg13 m c),
    (h c main_arg14).trans (kept_arg14 m c),
    (h c main_arg15).trans (kept_arg15 m c),
    (h c main_arg16).trans (kept_arg16 m c),
    (h c main_arg17).trans (kept_arg17 m c),
    (h c main_arg18).trans (kept_arg18 m c),
    (h c main_arg19).trans (kept_arg19 m c),
    (h c main_arg20).trans (kept_arg20 m c)⟩) (run m ρ)

end Cert.ReferenceIdeal.RefRun

end
-- ==== Proof.Frames.lean ====
/-
  The three frame claims. Each kernel program runs as twenty-one segments — host stretches and the two kernel regions —
  over the thread state "every unscoped buffer whole at the boundary's contents"; no host operation writes an argument
  array and a region gives an input window's array back as it found it, so each argument ends at its launch contents.
  The reference is a straight line of host operations, none of which writes an argument.
-/
import proofs.«142216_j1408749273558_2_alg».proof.Defs
import proofs.«142216_j1408749273558_2_alg».proof.Proof.K.Run
import proofs.«142216_j1408749273558_2_alg».proof.Proof.KI.Run
import proofs.«142216_j1408749273558_2_alg».proof.Proof.Ref.Frame
import proofs.«142216_j1408749273558_2_alg».proof.Proof.Gen.Pre_finite_inputs

noncomputable section

namespace Cert.Proof.Frames

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ => Cert.ReferenceIdeal.RefRun.frame (F := Ideal) m ρ

theorem preserves : Cert.preserves_Kernel_KernelIdeal := trivial

end Cert.Proof.Frames

end
-- ==== Proof.Spec.lean ====
/-
  The shader's arithmetic as functions of extended reals over finite index types.

  A linear layer sends x to W x + b.  The leaky rectifier keeps a value that is at least zero and multiplies a negative
  one by a slope.  The network is four linear layers with the rectifier between consecutive layers.  The parallax offset
  moves a texture coordinate along the view direction: with c the view direction's two tangent components, the third
  component is z = sqrt (max eps (one - sum of c i * c i)), and the coordinate moves by c / z times the depth.  The
  division and the square root are the extended reals' of the ideal float values, corners included, and the operands are
  in the order the two programs write them, so that each program's term at an index is one of these by unfolding.
-/
import Idealize.ShloMosaic.PureOps.Ideal.Laws

noncomputable section

namespace Cert.NeuMip

open Idealize.ShloMosaic
open scoped BigOperators

/-- A linear layer: output `j` is `(∑ i, W j i * x i) + b j`. -/
def lin {ι κ : Type} [Fintype κ] (W : ι → κ → EReal) (b : ι → EReal) (x : κ → EReal) (j : ι) : EReal :=
  (∑ i, W j i * x i) + b j

/-- The leaky rectifier with slope `s`: `v` where `0 ≤ v`, else `s * v`. -/
def leaky (s v : EReal) : EReal := if 0 ≤ v then v else s * v

/-- Four linear layers with the rectifier after each of the first three. -/
def mlp4 {κ₀ κ₁ κ₂ κ₃ ι : Type} [Fintype κ₀] [Fintype κ₁] [Fintype κ₂] [Fintype κ₃]
    (W0 : κ₁ → κ₀ → EReal) (b0 : κ₁ → EReal) (W1 : κ₂ → κ₁ → EReal) (b1 : κ₂ → EReal)
    (W2 : κ₃ → κ₂ → EReal) (b2 : κ₃ → EReal) (W3 : ι → κ₃ → EReal) (b3 : ι → EReal)
    (s : EReal) (x : κ₀ → EReal) : ι → EReal :=
  lin W3 b3 (leaky s ∘ lin W2 b2 (leaky s ∘ lin W1 b1 (leaky s ∘ lin W0 b0 x)))

/-- The parallax offset of coordinate `a`: `uv a + cam a / sqrt (max eps (one - ∑ i, cam i * cam i)) * depth`. -/
def offsetUv {ι : Type} [Fintype ι] (cam uv : ι → EReal) (depth one eps : EReal) (a : ι) : EReal :=
  uv a + Ideal.div (cam a) (Ideal.sqrt (max eps (one - ∑ i, cam i * cam i))) * depth

/-- A select between `v` and `s * v` on the comparison "`v` is at least the zero word's value" is the leaky rectifier. -/
theorem leaky_eq_select (s v : EReal) :
    Scalar.select (Ideal.cmp .oge v (Ideal.ofBits .f32 0x00000000#32)) v (s * v) = leaky s v := by
  unfold Scalar.select Ideal.cmp leaky
  rw [Ideal.ofBits_zero_f32]
  by_cases h : (0 : EReal) ≤ v
  · simp [h]
  · simp [h]

end Cert.NeuMip

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.Ref.Bilin.lean ====
/- Bilinear sampling of a 512 × 512 texture of 8 channels, with wrap-around, at 1048576 points: the host
   operations of the sampler written out one binding per operation, in order, the integer remainders' bodies in place.
   `uv` holds the points' two coordinates, one texture width to the unit: scaled by 512 and lowered by one half, the floor gives the cell and the
   rest the two weights; the four neighbouring texels (indices taken modulo 512, negative ones wrapped) are gathered and
   blended by the products of the weights. -/
import proofs.«142216_j1408749273558_2_alg».proof.ReferenceIdeal

-- a chain of over two hundred bindings nests past the default depth
set_option maxRecDepth 16384

noncomputable section

namespace Cert.NeuMipHost

open Cert.ReferenceIdeal Idealize.ShloMosaic Idealize.SL.Sem
open Cert.ReferenceIdeal.Facts₀

variable {F : FTy → Type} [FloatOps F] [Facts₀]
/-- The 8 channels at each point: the four texels around `512 · uv − ½` (rows and columns modulo 512) blended by the
    fractional parts. -/
def bilin (tex : FVec F S512x512x8 .f32) (uv : FVec F S1048576x2 .f32) : FVec F S1048576x8 .f32 :=
  have cst : (⟨S_, .f32⟩ : BufTy).Contents (Elt F) := (constant S_ .f32 0x44000000#32)
  have v0 : (⟨S1048576x2, .f32⟩ : BufTy).Contents (Elt F) := (broadcastInDim S1048576x2 ![] bcast_S_S1048576x2 : (⟨S_, .f32⟩ : BufTy).Contents (Elt F) → (⟨S1048576x2, .f32⟩ : BufTy).Contents (Elt F)) cst
  have v1 : (⟨S1048576x2, .f32⟩ : BufTy).Contents (Elt F) := (mulf : (⟨S1048576x2, .f32⟩ : BufTy).Contents (Elt F) → (⟨S1048576x2, .f32⟩ : BufTy).Contents (Elt F) → (⟨S1048576x2, .f32⟩ : BufTy).Contents (Elt F)) uv v0
  have cst_0 : (⟨S_, .f32⟩ : BufTy).Contents (Elt F) := (constant S_ .f32 0x3F000000#32)
  have v2 : (⟨S1048576x2, .f32⟩ : BufTy).Contents (Elt F) := (broadcastInDim S1048576x2 ![] bcast_S_S1048576x2 : (⟨S_, .f32⟩ : BufTy).Contents (Elt F) → (⟨S1048576x2, .f32⟩ : BufTy).Contents (Elt F)) cst_0
  have v3 : (⟨S1048576x2, .f32⟩ : BufTy).Contents (Elt F) := (subf : (⟨S1048576x2, .f32⟩ : BufTy).Contents (Elt F) → (⟨S1048576x2, .f32⟩ : BufTy).Contents (Elt F) → (⟨S1048576x2, .f32⟩ : BufTy).Contents (Elt F)) v1 v2
  have v4 : (⟨S1048576x2, .f32⟩ : BufTy).Contents (Elt F) := (Host.floor : (⟨S1048576x2, .f32⟩ : BufTy).Contents (Elt F) → (⟨S1048576x2, .f32⟩ : BufTy).Contents (Elt F)) v3
  have v5 : (⟨S1048576x2, .i32⟩ : BufTy).Contents (Elt F) := (fptosi 32 : (⟨S1048576x2, .f32⟩ : BufTy).Contents (Elt F) → (⟨S1048576x2, .i32⟩ : BufTy).Contents (Elt F)) v4
  have v6 : (⟨S1048576x2, .f32⟩ : BufTy).Contents (Elt F) := (sitofp .f32 : (⟨S1048576x2, .i32⟩ : BufTy).Contents (Elt F) → (⟨S1048576x2, .f32⟩ : BufTy).Contents (Elt F)) v5
  have v7 : (⟨S1048576x2, .f32⟩ : BufTy).Contents (Elt F) := (subf : (⟨S1048576x2, .f32⟩ : BufTy).Contents (Elt F) → (⟨S1048576x2, .f32⟩ : BufTy).Contents (Elt F) → (⟨S1048576x2, .f32⟩ : BufTy).Contents (Elt F)) v3 v6
  have v8 : (⟨S1048576x1, .i32⟩ : BufTy).Contents (Elt F) := ((extractStridedSlice S1048576x1 ![0, 0] · slices_S1048576x2_S1048576x1_0_0) : (⟨S1048576x2, .i32⟩ : BufTy).Contents (Elt F) → (⟨S1048576x1, .i32⟩ : BufTy).Contents (Elt F)) v5
  have v9 : (⟨S1048576, .i32⟩ : BufTy).Contents (Elt F) := shapeCast S1048576 v8 shapeCasts_S1048576x1_S1048576
  have c : (⟨S_, .i32⟩ : BufTy).Contents (Elt F) := (constantI S_ 32 512#32)
  have call0_v0 : (⟨S_, .i32⟩ : BufTy).Contents (Elt F) := id c
  have call0_c : (⟨S_, .i32⟩ : BufTy).Contents (Elt F) := (constantI S_ 32 0#32)
  have call0_v1 : (⟨S_, .i1⟩ : BufTy).Contents (Elt F) := (cmpi .eq) call0_v0 call0_c
  have call0_c_0 : (⟨S_, .i32⟩ : BufTy).Contents (Elt F) := (constantI S_ 32 1#32)
  have call0_v2 : (⟨S_, .i32⟩ : BufTy).Contents (Elt F) := select call0_v1 call0_c_0 call0_v0
  have call0_v3 : (⟨S1048576, .i32⟩ : BufTy).Contents (Elt F) := (broadcastInDim S1048576 ![] bcast_S_S1048576) call0_v2
  have call0_v4 : (⟨S1048576, .i32⟩ : BufTy).Contents (Elt F) := Host.remsi v9 call0_v3
  have call0_c_1 : (⟨S_, .i32⟩ : BufTy).Contents (Elt F) := (constantI S_ 32 0#32)
  have call0_v5 : (⟨S1048576, .i32⟩ : BufTy).Contents (Elt F) := (broadcastInDim S1048576 ![] bcast_S_S1048576) call0_c_1
  have call0_v6 : (⟨S1048576, .i1⟩ : BufTy).Contents (Elt F) := (cmpi .ne) call0_v4 call0_v5
  have call0_c_2 : (⟨S_, .i32⟩ : BufTy).Contents (Elt F) := (constantI S_ 32 0#32)
  have call0_v7 : (⟨S1048576, .i32⟩ : BufTy).Contents (Elt F) := (broadcastInDim S1048576 ![] bcast_S_S1048576) call0_c_2
  have call0_v8 : (⟨S1048576, .i1⟩ : BufTy).Contents (Elt F) := (cmpi .slt) call0_v4 call0_v7
  have call0_c_3 : (⟨S_, .i32⟩ : BufTy).Contents (Elt F) := (constantI S_ 32 0#32)
  have call0_v9 : (⟨S_, .i1⟩ : BufTy).Contents (Elt F) := (cmpi .slt) call0_v2 call0_c_3
  have call0_v10 : (⟨S1048576, .i1⟩ : BufTy).Contents (Elt F) := (broadcastInDim S1048576 ![] bcast_S_S1048576) call0_v9
  have call0_v11 : (⟨S1048576, .i1⟩ : BufTy).Contents (Elt F) := (cmpi .ne) call0_v8 call0_v10
  have call0_v12 : (⟨S1048576, .i1⟩ : BufTy).Contents (Elt F) := andi call0_v11 call0_v6
  have call0_v13 : (⟨S1048576, .i32⟩ : BufTy).Contents (Elt F) := (broadcastInDim S1048576 ![] bcast_S_S1048576) call0_v2
  have call0_v14 : (⟨S1048576, .i32⟩ : BufTy).Contents (Elt F) := addi call0_v4 call0_v13
  have v10 : (⟨S1048576, .i32⟩ : BufTy).Contents (Elt F) := select call0_v12 call0_v14 call0_v4
  have v11 : (⟨S1048576x1, .i32⟩ : BufTy).Contents (Elt F) := ((extractStridedSlice S1048576x1 ![0, 0] · slices_S1048576x2_S1048576x1_0_0) : (⟨S1048576x2, .i32⟩ : BufTy).Contents (Elt F) → (⟨S1048576x1, .i32⟩ : BufTy).Contents (Elt F)) v5
  have v12 : (⟨S1048576, .i32⟩ : BufTy).Contents (Elt F) := shapeCast S1048576 v11 shapeCasts_S1048576x1_S1048576
  have c_1 : (⟨S_, .i32⟩ : BufTy).Contents (Elt F) := (constantI S_ 32 1#32)
  have v13 : (⟨S1048576, .i32⟩ : BufTy).Contents (Elt F) := (broadcastInDim S1048576 ![] bcast_S_S1048576 : (⟨S_, .i32⟩ : BufTy).Contents (Elt F) → (⟨S1048576, .i32⟩ : BufTy).Contents (Elt F)) c_1
  have v14 : (⟨S1048576, .i32⟩ : BufTy).Contents (Elt F) := (addi : (⟨S1048576, .i32⟩ : BufTy).Contents (Elt F) → (⟨S1048576, .i32⟩ : BufTy).Contents (Elt F) → (⟨S1048576, .i32⟩ : BufTy).Contents (Elt F)) v12 v13
  have c_2 : (⟨S_, .i32⟩ : BufTy).Contents (Elt F) := (constantI S_ 32 512#32)
  have call1_v0 : (⟨S_, .i32⟩ : BufTy).Contents (Elt F) := id c_2
  have call1_c : (⟨S_, .i32⟩ : BufTy).Contents (Elt F) := (constantI S_ 32 0#32)
  have call1_v1 : (⟨S_, .i1⟩ : BufTy).Contents (Elt F) := (cmpi .eq) call1_v0 call1_c
  have call1_c_0 : (⟨S_, .i32⟩ : BufTy).Contents (Elt F) := (constantI S_ 32 1#32)
  have call1_v2 : (⟨S_, .i32⟩ : BufTy).Contents (Elt F) := select call1_v1 call1_c_0 call1_v0
  have call1_v3 : (⟨S1048576, .i32⟩ : BufTy).Contents (Elt F) := (broadcastInDim S1048576 ![] bcast_S_S1048576) call1_v2
  have call1_v4 : (⟨S1048576, .i32⟩ : BufTy).Contents (Elt F) := Host.remsi v14 call1_v3
  have call1_c_1 : (⟨S_, .i32⟩ : BufTy).Contents (Elt F) := (constantI S_ 32 0#32)
  have call1_v5 : (⟨S1048576, .i32⟩ : BufTy).Contents (Elt F) := (broadcastInDim S1048576 ![] bcast_S_S1048576) call1_c_1
  have call1_v6 : (⟨S1048576, .i1⟩ : BufTy).Contents (Elt F) := (cmpi .ne) call1_v4 call1_v5
  have call1_c_2 : (⟨S_, .i32⟩ : BufTy).Contents (Elt F) := (constantI S_ 32 0#32)
  have call1_v7 : (⟨S1048576, .i32⟩ : BufTy).Contents (Elt F) := (broadcastInDim S1048576 ![] bcast_S_S1048576) call1_c_2
  have call1_v8 : (⟨S1048576, .i1⟩ : BufTy).Contents (Elt F) := (cmpi .slt) call1_v4 call1_v7
  have call1_c_3 : (⟨S_, .i32⟩ : BufTy).Contents (Elt F) := (constantI S_ 32 0#32)
  have call1_v9 : (⟨S_, .i1⟩ : BufTy).Contents (Elt F) := (cmpi .slt) call1_v2 call1_c_3
  have call1_v10 : (⟨S1048576, .i1⟩ : BufTy).Contents (Elt F) := (broadcastInDim S1048576 ![] bcast_S_S1048576) call1_v9
  have call1_v11 : (⟨S1048576, .i1⟩ : BufTy).Contents (Elt F) := (cmpi .ne) call1_v8 call1_v10
  have call1_v12 : (⟨S1048576, .i1⟩ : BufTy).Contents (Elt F) := andi call1_v11 call1_v6
  have call1_v13 : (⟨S1048576, .i32⟩ : BufTy).Contents (Elt F) := (broadcastInDim S1048576 ![] bcast_S_S1048576) call1_v2
  have call1_v14 : (⟨S1048576, .i32⟩ : BufTy).Contents (Elt F) := addi call1_v4 call1_v13
  have v15 : (⟨S1048576, .i32⟩ : BufTy).Contents (Elt F) := select call1_v12 call1_v14 call1_v4
  have v16 : (⟨S1048576x1, .i32⟩ : BufTy).Contents (Elt F) := ((extractStridedSlice S1048576x1 ![0, 1] · slices_S1048576x2_S1048576x1_0_1) : (⟨S1048576x2, .i32⟩ : BufTy).Contents (Elt F) → (⟨S1048576x1, .i32⟩ : BufTy).Contents (Elt F)) v5
  have v17 : (⟨S1048576, .i32⟩ : BufTy).Contents (Elt F) := shapeCast S1048576 v16 shapeCasts_S1048576x1_S1048576
  have c_3 : (⟨S_, .i32⟩ : BufTy).Contents (Elt F) := (constantI S_ 32 512#32)
  have call2_v0 : (⟨S_, .i32⟩ : BufTy).Contents (Elt F) := id c_3
  have call2_c : (⟨S_, .i32⟩ : BufTy).Contents (Elt F) := (constantI S_ 32 0#32)
  have call2_v1 : (⟨S_, .i1⟩ : BufTy).Contents (Elt F) := (cmpi .eq) call2_v0 call2_c
  have call2_c_0 : (⟨S_, .i32⟩ : BufTy).Contents (Elt F) := (constantI S_ 32 1#32)
  have call2_v2 : (⟨S_, .i32⟩ : BufTy).Contents (Elt F) := select call2_v1 call2_c_0 call2_v0
  have call2_v3 : (⟨S1048576, .i32⟩ : BufTy).Contents (Elt F) := (broadcastInDim S1048576 ![] bcast_S_S1048576) call2_v2
  have call2_v4 : (⟨S1048576, .i32⟩ : BufTy).Contents (Elt F) := Host.remsi v17 call2_v3
  have call2_c_1 : (⟨S_, .i32⟩ : BufTy).Contents (Elt F) := (constantI S_ 32 0#32)
  have call2_v5 : (⟨S1048576, .i32⟩ : BufTy).Contents (Elt F) := (broadcastInDim S1048576 ![] bcast_S_S1048576) call2_c_1
  have call2_v6 : (⟨S1048576, .i1⟩ : BufTy).Contents (Elt F) := (cmpi .ne) call2_v4 call2_v5
  have call2_c_2 : (⟨S_, .i32⟩ : BufTy).Contents (Elt F) := (constantI S_ 32 0#32)
  have call2_v7 : (⟨S1048576, .i32⟩ : BufTy).Contents (Elt F) := (broadcastInDim S1048576 ![] bcast_S_S1048576) call2_c_2
  have call2_v8 : (⟨S1048576, .i1⟩ : BufTy).Contents (Elt F) := (cmpi .slt) call2_v4 call2_v7
  have call2_c_3 : (⟨S_, .i32⟩ : BufTy).Contents (Elt F) := (constantI S_ 32 0#32)
  have call2_v9 : (⟨S_, .i1⟩ : BufTy).Contents (Elt F) := (cmpi .slt) call2_v2 call2_c_3
  have call2_v10 : (⟨S1048576, .i1⟩ : BufTy).Contents (Elt F) := (broadcastInDim S1048576 ![] bcast_S_S1048576) call2_v9
  have call2_v11 : (⟨S1048576, .i1⟩ : BufTy).Contents (Elt F) := (cmpi .ne) call2_v8 call2_v10
  have call2_v12 : (⟨S1048576, .i1⟩ : BufTy).Contents (Elt F) := andi call2_v11 call2_v6
  have call2_v13 : (⟨S1048576, .i32⟩ : BufTy).Contents (Elt F) := (broadcastInDim S1048576 ![] bcast_S_S1048576) call2_v2
  have call2_v14 : (⟨S1048576, .i32⟩ : BufTy).Contents (Elt F) := addi call2_v4 call2_v13
  have v18 : (⟨S1048576, .i32⟩ : BufTy).Contents (Elt F) := select call2_v12 call2_v14 call2_v4
  have v19 : (⟨S1048576x1, .i32⟩ : BufTy).Contents (Elt F) := ((extractStridedSlice S1048576x1 ![0, 1] · slices_S1048576x2_S1048576x1_0_1) : (⟨S1048576x2, .i32⟩ : BufTy).Contents (Elt F) → (⟨S1048576x1, .i32⟩ : BufTy).Contents (Elt F)) v5
  have v20 : (⟨S1048576, .i32⟩ : BufTy).Contents (Elt F) := shapeCast S1048576 v19 shapeCasts_S1048576x1_S1048576
  have c_4 : (⟨S_, .i32⟩ : BufTy).Contents (Elt F) := (constantI S_ 32 1#32)
  have v21 : (⟨S1048576, .i32⟩ : BufTy).Contents (Elt F) := (broadcastInDim S1048576 ![] bcast_S_S1048576 : (⟨S_, .i32⟩ : BufTy).Contents (Elt F) → (⟨S1048576, .i32⟩ : BufTy).Contents (Elt F)) c_4
  have v22 : (⟨S1048576, .i32⟩ : BufTy).Contents (Elt F) := (addi : (⟨S1048576, .i32⟩ : BufTy).Contents (Elt F) → (⟨S1048576, .i32⟩ : BufTy).Contents (Elt F) → (⟨S1048576, .i32⟩ : BufTy).Contents (Elt F)) v20 v21
  have c_5 : (⟨S_, .i32⟩ : BufTy).Contents (Elt F) := (constantI S_ 32 512#32)
  have call3_v0 : (⟨S_, .i32⟩ : BufTy).Contents (Elt F) := id c_5
  have call3_c : (⟨S_, .i32⟩ : BufTy).Contents (Elt F) := (constantI S_ 32 0#32)
  have call3_v1 : (⟨S_, .i1⟩ : BufTy).Contents (Elt F) := (cmpi .eq) call3_v0 call3_c
  have call3_c_0 : (⟨S_, .i32⟩ : BufTy).Contents (Elt F) := (constantI S_ 32 1#32)
  have call3_v2 : (⟨S_, .i32⟩ : BufTy).Contents (Elt F) := select call3_v1 call3_c_0 call3_v0
  have call3_v3 : (⟨S1048576, .i32⟩ : BufTy).Contents (Elt F) := (broadcastInDim S1048576 ![] bcast_S_S1048576) call3_v2
  have call3_v4 : (⟨S1048576, .i32⟩ : BufTy).Contents (Elt F) := Host.remsi v22 call3_v3
  have call3_c_1 : (⟨S_, .i32⟩ : BufTy).Contents (Elt F) := (constantI S_ 32 0#32)
  have call3_v5 : (⟨S1048576, .i32⟩ : BufTy).Contents (Elt F) := (broadcastInDim S1048576 ![] bcast_S_S1048576) call3_c_1
  have call3_v6 : (⟨S1048576, .i1⟩ : BufTy).Contents (Elt F) := (cmpi .ne) call3_v4 call3_v5
  have call3_c_2 : (⟨S_, .i32⟩ : BufTy).Contents (Elt F) := (constantI S_ 32 0#32)
  have call3_v7 : (⟨S1048576, .i32⟩ : BufTy).Contents (Elt F) := (broadcastInDim S1048576 ![] bcast_S_S1048576) call3_c_2
  have call3_v8 : (⟨S1048576, .i1⟩ : BufTy).Contents (Elt F) := (cmpi .slt) call3_v4 call3_v7
  have call3_c_3 : (⟨S_, .i32⟩ : BufTy).Contents (Elt F) := (constantI S_ 32 0#32)
  have call3_v9 : (⟨S_, .i1⟩ : BufTy).Contents (Elt F) := (cmpi .slt) call3_v2 call3_c_3
  have call3_v10 : (⟨S1048576, .i1⟩ : BufTy).Contents (Elt F) := (broadcastInDim S1048576 ![] bcast_S_S1048576) call3_v9
  have call3_v11 : (⟨S1048576, .i1⟩ : BufTy).Contents (Elt F) := (cmpi .ne) call3_v8 call3_v10
  have call3_v12 : (⟨S1048576, .i1⟩ : BufTy).Contents (Elt F) := andi call3_v11 call3_v6
  have call3_v13 : (⟨S1048576, .i32⟩ : BufTy).Contents (Elt F) := (broadcastInDim S1048576 ![] bcast_S_S1048576) call3_v2
  have call3_v14 : (⟨S1048576, .i32⟩ : BufTy).Contents (Elt F) := addi call3_v4 call3_v13
  have v23 : (⟨S1048576, .i32⟩ : BufTy).Contents (Elt F) := select call3_v12 call3_v14 call3_v4
  have v24 : (⟨S1048576x1, .f32⟩ : BufTy).Contents (Elt F) := ((extractStridedSlice S1048576x1 ![0, 0] · slices_S1048576x2_S1048576x1_0_0) : (⟨S1048576x2, .f32⟩ : BufTy).Contents (Elt F) → (⟨S1048576x1, .f32⟩ : BufTy).Contents (Elt F)) v7
  have v25 : (⟨S1048576x1, .f32⟩ : BufTy).Contents (Elt F) := ((extractStridedSlice S1048576x1 ![0, 1] · slices_S1048576x2_S1048576x1_0_1) : (⟨S1048576x2, .f32⟩ : BufTy).Contents (Elt F) → (⟨S1048576x1, .f32⟩ : BufTy).Contents (Elt F)) v7
  have c_6 : (⟨S_, .i32⟩ : BufTy).Contents (Elt F) := (constantI S_ 32 0#32)
  have v26 : (⟨S1048576, .i32⟩ : BufTy).Contents (Elt F) := (broadcastInDim S1048576 ![] bcast_S_S1048576 : (⟨S_, .i32⟩ : BufTy).Contents (Elt F) → (⟨S1048576, .i32⟩ : BufTy).Contents (Elt F)) c_6
  have v27 : (⟨S1048576, .i1⟩ : BufTy).Contents (Elt F) := (cmpi .slt : (⟨S1048576, .i32⟩ : BufTy).Contents (Elt F) → (⟨S1048576, .i32⟩ : BufTy).Contents (Elt F) → (⟨S1048576, .i1⟩ : BufTy).Contents (Elt F)) v18 v26
  have c_7 : (⟨S_, .i32⟩ : BufTy).Contents (Elt F) := (constantI S_ 32 512#32)
  have v28 : (⟨S1048576, .i32⟩ : BufTy).Contents (Elt F) := (broadcastInDim S1048576 ![] bcast_S_S1048576 : (⟨S_, .i32⟩ : BufTy).Contents (Elt F) → (⟨S1048576, .i32⟩ : BufTy).Contents (Elt F)) c_7
  have v29 : (⟨S1048576, .i32⟩ : BufTy).Contents (Elt F) := (addi : (⟨S1048576, .i32⟩ : BufTy).Contents (Elt F) → (⟨S1048576, .i32⟩ : BufTy).Contents (Elt F) → (⟨S1048576, .i32⟩ : BufTy).Contents (Elt F)) v18 v28
  have v30 : (⟨S1048576, .i32⟩ : BufTy).Contents (Elt F) := (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) v27 v29 v18
  have c_8 : (⟨S_, .i32⟩ : BufTy).Contents (Elt F) := (constantI S_ 32 0#32)
  have v31 : (⟨S1048576, .i32⟩ : BufTy).Contents (Elt F) := (broadcastInDim S1048576 ![] bcast_S_S1048576 : (⟨S_, .i32⟩ : BufTy).Contents (Elt F) → (⟨S1048576, .i32⟩ : BufTy).Contents (Elt F)) c_8
  have v32 : (⟨S1048576, .i1⟩ : BufTy).Contents (Elt F) := (cmpi .slt : (⟨S1048576, .i32⟩ : BufTy).Contents (Elt F) → (⟨S1048576, .i32⟩ : BufTy).Contents (Elt F) → (⟨S1048576, .i1⟩ : BufTy).Contents (Elt F)) v10 v31
  have c_9 : (⟨S_, .i32⟩ : BufTy).Contents (Elt F) := (constantI S_ 32 512#32)
  have v33 : (⟨S1048576, .i32⟩ : BufTy).Contents (Elt F) := (broadcastInDim S1048576 ![] bcast_S_S1048576 : (⟨S_, .i32⟩ : BufTy).Contents (Elt F) → (⟨S1048576, .i32⟩ : BufTy).Contents (Elt F)) c_9
  have v34 : (⟨S1048576, .i32⟩ : BufTy).Contents (Elt F) := (addi : (⟨S1048576, .i32⟩ : BufTy).Contents (Elt F) → (⟨S1048576, .i32⟩ : BufTy).Contents (Elt F) → (⟨S1048576, .i32⟩ : BufTy).Contents (Elt F)) v10 v33
  have v35 : (⟨S1048576, .i32⟩ : BufTy).Contents (Elt F) := (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) v32 v34 v10
  have v36 : (⟨S1048576x1, .i32⟩ : BufTy).Contents (Elt F) := (broadcastInDim S1048576x1 ![0] bcast_S1048576_S1048576x1_0 : (⟨S1048576, .i32⟩ : BufTy).Contents (Elt F) → (⟨S1048576x1, .i32⟩ : BufTy).Contents (Elt F)) v30
  have v37 : (⟨S1048576x1, .i32⟩ : BufTy).Contents (Elt F) := (broadcastInDim S1048576x1 ![0] bcast_S1048576_S1048576x1_0 : (⟨S1048576, .i32⟩ : BufTy).Contents (Elt F) → (⟨S1048576x1, .i32⟩ : BufTy).Contents (Elt F)) v35
  have v38 : (⟨S1048576x2, .i32⟩ : BufTy).Contents (Elt F) := ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)) v36 v37
  have v39 : (⟨S1048576x8, .f32⟩ : BufTy).Contents (Elt F) := ((fun x i => Host.gather gather_S512x512x8_S1048576x2_S1048576x8_1_01_n_n_01_1_118 x i) : (⟨S512x512x8, .f32⟩ : BufTy).Contents (Elt F) → (⟨S1048576x2, .i32⟩ : BufTy).Contents (Elt F) → (⟨S1048576x8, .f32⟩ : BufTy).Contents (Elt F)) tex v38
  have c_10 : (⟨S_, .i32⟩ : BufTy).Contents (Elt F) := (constantI S_ 32 0#32)
  have v40 : (⟨S1048576, .i32⟩ : BufTy).Contents (Elt F) := (broadcastInDim S1048576 ![] bcast_S_S1048576 : (⟨S_, .i32⟩ : BufTy).Contents (Elt F) → (⟨S1048576, .i32⟩ : BufTy).Contents (Elt F)) c_10
  have v41 : (⟨S1048576, .i1⟩ : BufTy).Contents (Elt F) := (cmpi .slt : (⟨S1048576, .i32⟩ : BufTy).Contents (Elt F) → (⟨S1048576, .i32⟩ : BufTy).Contents (Elt F) → (⟨S1048576, .i1⟩ : BufTy).Contents (Elt F)) v18 v40
  have c_11 : (⟨S_, .i32⟩ : BufTy).Contents (Elt F) := (constantI S_ 32 512#32)
  have v42 : (⟨S1048576, .i32⟩ : BufTy).Contents (Elt F) := (broadcastInDim S1048576 ![] bcast_S_S1048576 : (⟨S_, .i32⟩ : BufTy).Contents (Elt F) → (⟨S1048576, .i32⟩ : BufTy).Contents (Elt F)) c_11
  have v43 : (⟨S1048576, .i32⟩ : BufTy).Contents (Elt F) := (addi : (⟨S1048576, .i32⟩ : BufTy).Contents (Elt F) → (⟨S1048576, .i32⟩ : BufTy).Contents (Elt F) → (⟨S1048576, .i32⟩ : BufTy).Contents (Elt F)) v18 v42
  have v44 : (⟨S1048576, .i32⟩ : BufTy).Contents (Elt F) := (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) v41 v43 v18
  have c_12 : (⟨S_, .i32⟩ : BufTy).Contents (Elt F) := (constantI S_ 32 0#32)
  have v45 : (⟨S1048576, .i32⟩ : BufTy).Contents (Elt F) := (broadcastInDim S1048576 ![] bcast_S_S1048576 : (⟨S_, .i32⟩ : BufTy).Contents (Elt F) → (⟨S1048576, .i32⟩ : BufTy).Contents (Elt F)) c_12
  have v46 : (⟨S1048576, .i1⟩ : BufTy).Contents (Elt F) := (cmpi .slt : (⟨S1048576, .i32⟩ : BufTy).Contents (Elt F) → (⟨S1048576, .i32⟩ : BufTy).Contents (Elt F) → (⟨S1048576, .i1⟩ : BufTy).Contents (Elt F)) v15 v45
  have c_13 : (⟨S_, .i32⟩ : BufTy).Contents (Elt F) := (constantI S_ 32 512#32)
  have v47 : (⟨S1048576, .i32⟩ : BufTy).Contents (Elt F) := (broadcastInDim S1048576 ![] bcast_S_S1048576 : (⟨S_, .i32⟩ : BufTy).Contents (Elt F) → (⟨S1048576, .i32⟩ : BufTy).Contents (Elt F)) c_13
  have v48 : (⟨S1048576, .i32⟩ : BufTy).Contents (Elt F) := (addi : (⟨S1048576, .i32⟩ : BufTy).Contents (Elt F) → (⟨S1048576, .i32⟩ : BufTy).Contents (Elt F) → (⟨S1048576, .i32⟩ : BufTy).Contents (Elt F)) v15 v47
  have v49 : (⟨S1048576, .i32⟩ : BufTy).Contents (Elt F) := (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) v46 v48 v15
  have v50 : (⟨S1048576x1, .i32⟩ : BufTy).Contents (Elt F) := (broadcastInDim S1048576x1 ![0] bcast_S1048576_S1048576x1_0 : (⟨S1048576, .i32⟩ : BufTy).Contents (Elt F) → (⟨S1048576x1, .i32⟩ : BufTy).Contents (Elt F)) v44
  have v51 : (⟨S1048576x1, .i32⟩ : BufTy).Contents (Elt F) := (broadcastInDim S1048576x1 ![0] bcast_S1048576_S1048576x1_0 : (⟨S1048576, .i32⟩ : BufTy).Contents (Elt F) → (⟨S1048576x1, .i32⟩ : BufTy).Contents (Elt F)) v49
  have v52 : (⟨S1048576x2, .i32⟩ : BufTy).Contents (Elt F) := ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)) v50 v51
  have v53 : (⟨S1048576x8, .f32⟩ : BufTy).Contents (Elt F) := ((fun x i => Host.gather gather_S512x512x8_S1048576x2_S1048576x8_1_01_n_n_01_1_118 x i) : (⟨S512x512x8, .f32⟩ : BufTy).Contents (Elt F) → (⟨S1048576x2, .i32⟩ : BufTy).Contents (Elt F) → (⟨S1048576x8, .f32⟩ : BufTy).Contents (Elt F)) tex v52
  have c_14 : (⟨S_, .i32⟩ : BufTy).Contents (Elt F) := (constantI S_ 32 0#32)
  have v54 : (⟨S1048576, .i32⟩ : BufTy).Contents (Elt F) := (broadcastInDim S1048576 ![] bcast_S_S1048576 : (⟨S_, .i32⟩ : BufTy).Contents (Elt F) → (⟨S1048576, .i32⟩ : BufTy).Contents (Elt F)) c_14
  have v55 : (⟨S1048576, .i1⟩ : BufTy).Contents (Elt F) := (cmpi .slt : (⟨S1048576, .i32⟩ : BufTy).Contents (Elt F) → (⟨S1048576, .i32⟩ : BufTy).Contents (Elt F) → (⟨S1048576, .i1⟩ : BufTy).Contents (Elt F)) v23 v54
  have c_15 : (⟨S_, .i32⟩ : BufTy).Contents (Elt F) := (constantI S_ 32 512#32)
  have v56 : (⟨S1048576, .i32⟩ : BufTy).Contents (Elt F) := (broadcastInDim S1048576 ![] bcast_S_S1048576 : (⟨S_, .i32⟩ : BufTy).Contents (Elt F) → (⟨S1048576, .i32⟩ : BufTy).Contents (Elt F)) c_15
  have v57 : (⟨S1048576, .i32⟩ : BufTy).Contents (Elt F) := (addi : (⟨S1048576, .i32⟩ : BufTy).Contents (Elt F) → (⟨S1048576, .i32⟩ : BufTy).Contents (Elt F) → (⟨S1048576, .i32⟩ : BufTy).Contents (Elt F)) v23 v56
  have v58 : (⟨S1048576, .i32⟩ : BufTy).Contents (Elt F) := (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) v55 v57 v23
  have c_16 : (⟨S_, .i32⟩ : BufTy).Contents (Elt F) := (constantI S_ 32 0#32)
  have v59 : (⟨S1048576, .i32⟩ : BufTy).Contents (Elt F) := (broadcastInDim S1048576 ![] bcast_S_S1048576 : (⟨S_, .i32⟩ : BufTy).Contents (Elt F) → (⟨S1048576, .i32⟩ : BufTy).Contents (Elt F)) c_16
  have v60 : (⟨S1048576, .i1⟩ : BufTy).Contents (Elt F) := (cmpi .slt : (⟨S1048576, .i32⟩ : BufTy).Contents (Elt F) → (⟨S1048576, .i32⟩ : BufTy).Contents (Elt F) → (⟨S1048576, .i1⟩ : BufTy).Contents (Elt F)) v10 v59
  have c_17 : (⟨S_, .i32⟩ : BufTy).Contents (Elt F) := (constantI S_ 32 512#32)
  have v61 : (⟨S1048576, .i32⟩ : BufTy).Contents (Elt F) := (broadcastInDim S1048576 ![] bcast_S_S1048576 : (⟨S_, .i32⟩ : BufTy).Contents (Elt F) → (⟨S1048576, .i32⟩ : BufTy).Contents (Elt F)) c_17
  have v62 : (⟨S1048576, .i32⟩ : BufTy).Contents (Elt F) := (addi : (⟨S1048576, .i32⟩ : BufTy).Contents (Elt F) → (⟨S1048576, .i32⟩ : BufTy).Contents (Elt F) → (⟨S1048576, .i32⟩ : BufTy).Contents (Elt F)) v10 v61
  have v63 : (⟨S1048576, .i32⟩ : BufTy).Contents (Elt F) := (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) v60 v62 v10
  have v64 : (⟨S1048576x1, .i32⟩ : BufTy).Contents (Elt F) := (broadcastInDim S1048576x1 ![0] bcast_S1048576_S1048576x1_0 : (⟨S1048576, .i32⟩ : BufTy).Contents (Elt F) → (⟨S1048576x1, .i32⟩ : BufTy).Contents (Elt F)) v58
  have v65 : (⟨S1048576x1, .i32⟩ : BufTy).Contents (Elt F) := (broadcastInDim S1048576x1 ![0] bcast_S1048576_S1048576x1_0 : (⟨S1048576, .i32⟩ : BufTy).Contents (Elt F) → (⟨S1048576x1, .i32⟩ : BufTy).Contents (Elt F)) v63
  have v66 : (⟨S1048576x2, .i32⟩ : BufTy).Contents (Elt F) := ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)) v64 v65
  have v67 : (⟨S1048576x8, .f32⟩ : BufTy).Contents (Elt F) := ((fun x i => Host.gather gather_S512x512x8_S1048576x2_S1048576x8_1_01_n_n_01_1_118 x i) : (⟨S512x512x8, .f32⟩ : BufTy).Contents (Elt F) → (⟨S1048576x2, .i32⟩ : BufTy).Contents (Elt F) → (⟨S1048576x8, .f32⟩ : BufTy).Contents (Elt F)) tex v66
  have c_18 : (⟨S_, .i32⟩ : BufTy).Contents (Elt F) := (constantI S_ 32 0#32)
  have v68 : (⟨S1048576, .i32⟩ : BufTy).Contents (Elt F) := (broadcastInDim S1048576 ![] bcast_S_S1048576 : (⟨S_, .i32⟩ : BufTy).Contents (Elt F) → (⟨S1048576, .i32⟩ : BufTy).Contents (Elt F)) c_18
  have v69 : (⟨S1048576, .i1⟩ : BufTy).Contents (Elt F) := (cmpi .slt : (⟨S1048576, .i32⟩ : BufTy).Contents (Elt F) → (⟨S1048576, .i32⟩ : BufTy).Contents (Elt F) → (⟨S1048576, .i1⟩ : BufTy).Contents (Elt F)) v23 v68
  have c_19 : (⟨S_, .i32⟩ : BufTy).Contents (Elt F) := (constantI S_ 32 512#32)
  have v70 : (⟨S1048576, .i32⟩ : BufTy).Contents (Elt F) := (broadcastInDim S1048576 ![] bcast_S_S1048576 : (⟨S_, .i32⟩ : BufTy).Contents (Elt F) → (⟨S1048576, .i32⟩ : BufTy).Contents (Elt F)) c_19
  have v71 : (⟨S1048576, .i32⟩ : BufTy).Contents (Elt F) := (addi : (⟨S1048576, .i32⟩ : BufTy).Contents (Elt F) → (⟨S1048576, .i32⟩ : BufTy).Contents (Elt F) → (⟨S1048576, .i32⟩ : BufTy).Contents (Elt F)) v23 v70
  have v72 : (⟨S1048576, .i32⟩ : BufTy).Contents (Elt F) := (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) v69 v71 v23
  have c_20 : (⟨S_, .i32⟩ : BufTy).Contents (Elt F) := (constantI S_ 32 0#32)
  have v73 : (⟨S1048576, .i32⟩ : BufTy).Contents (Elt F) := (broadcastInDim S1048576 ![] bcast_S_S1048576 : (⟨S_, .i32⟩ : BufTy).Contents (Elt F) → (⟨S1048576, .i32⟩ : BufTy).Contents (Elt F)) c_20
  have v74 : (⟨S1048576, .i1⟩ : BufTy).Contents (Elt F) := (cmpi .slt : (⟨S1048576, .i32⟩ : BufTy).Contents (Elt F) → (⟨S1048576, .i32⟩ : BufTy).Contents (Elt F) → (⟨S1048576, .i1⟩ : BufTy).Contents (Elt F)) v15 v73
  have c_21 : (⟨S_, .i32⟩ : BufTy).Contents (Elt F) := (constantI S_ 32 512#32)
  have v75 : (⟨S1048576, .i32⟩ : BufTy).Contents (Elt F) := (broadcastInDim S1048576 ![] bcast_S_S1048576 : (⟨S_, .i32⟩ : BufTy).Contents (Elt F) → (⟨S1048576, .i32⟩ : BufTy).Contents (Elt F)) c_21
  have v76 : (⟨S1048576, .i32⟩ : BufTy).Contents (Elt F) := (addi : (⟨S1048576, .i32⟩ : BufTy).Contents (Elt F) → (⟨S1048576, .i32⟩ : BufTy).Contents (Elt F) → (⟨S1048576, .i32⟩ : BufTy).Contents (Elt F)) v15 v75
  have v77 : (⟨S1048576, .i32⟩ : BufTy).Contents (Elt F) := (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) v74 v76 v15
  have v78 : (⟨S1048576x1, .i32⟩ : BufTy).Contents (Elt F) := (broadcastInDim S1048576x1 ![0] bcast_S1048576_S1048576x1_0 : (⟨S1048576, .i32⟩ : BufTy).Contents (Elt F) → (⟨S1048576x1, .i32⟩ : BufTy).Contents (Elt F)) v72
  have v79 : (⟨S1048576x1, .i32⟩ : BufTy).Contents (Elt F) := (broadcastInDim S1048576x1 ![0] bcast_S1048576_S1048576x1_0 : (⟨S1048576, .i32⟩ : BufTy).Contents (Elt F) → (⟨S1048576x1, .i32⟩ : BufTy).Contents (Elt F)) v77
  have v80 : (⟨S1048576x2, .i32⟩ : BufTy).Contents (Elt F) := ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)) v78 v79
  have v81 : (⟨S1048576x8, .f32⟩ : BufTy).Contents (Elt F) := ((fun x i => Host.gather gather_S512x512x8_S1048576x2_S1048576x8_1_01_n_n_01_1_118 x i) : (⟨S512x512x8, .f32⟩ : BufTy).Contents (Elt F) → (⟨S1048576x2, .i32⟩ : BufTy).Contents (Elt F) → (⟨S1048576x8, .f32⟩ : BufTy).Contents (Elt F)) tex v80
  have cst_22 : (⟨S_, .f32⟩ : BufTy).Contents (Elt F) := (constant S_ .f32 0x3F800000#32)
  have v82 : (⟨S1048576x1, .f32⟩ : BufTy).Contents (Elt F) := (broadcastInDim S1048576x1 ![] bcast_S_S1048576x1 : (⟨S_, .f32⟩ : BufTy).Contents (Elt F) → (⟨S1048576x1, .f32⟩ : BufTy).Contents (Elt F)) cst_22
  have v83 : (⟨S1048576x1, .f32⟩ : BufTy).Contents (Elt F) := (subf : (⟨S1048576x1, .f32⟩ : BufTy).Contents (Elt F) → (⟨S1048576x1, .f32⟩ : BufTy).Contents (Elt F) → (⟨S1048576x1, .f32⟩ : BufTy).Contents (Elt F)) v82 v24
  have v84 : (⟨S1048576x8, .f32⟩ : BufTy).Contents (Elt F) := (broadcastInDim S1048576x8 ![0, 1] bcast_S1048576x1_S1048576x8_0_1 : (⟨S1048576x1, .f32⟩ : BufTy).Contents (Elt F) → (⟨S1048576x8, .f32⟩ : BufTy).Contents (Elt F)) v83
  have v85 : (⟨S1048576x8, .f32⟩ : BufTy).Contents (Elt F) := (mulf : (⟨S1048576x8, .f32⟩ : BufTy).Contents (Elt F) → (⟨S1048576x8, .f32⟩ : BufTy).Contents (Elt F) → (⟨S1048576x8, .f32⟩ : BufTy).Contents (Elt F)) v39 v84
  have cst_23 : (⟨S_, .f32⟩ : BufTy).Contents (Elt F) := (constant S_ .f32 0x3F800000#32)
  have v86 : (⟨S1048576x1, .f32⟩ : BufTy).Contents (Elt F) := (broadcastInDim S1048576x1 ![] bcast_S_S1048576x1 : (⟨S_, .f32⟩ : BufTy).Contents (Elt F) → (⟨S1048576x1, .f32⟩ : BufTy).Contents (Elt F)) cst_23
  have v87 : (⟨S1048576x1, .f32⟩ : BufTy).Contents (Elt F) := (subf : (⟨S1048576x1, .f32⟩ : BufTy).Contents (Elt F) → (⟨S1048576x1, .f32⟩ : BufTy).Contents (Elt F) → (⟨S1048576x1, .f32⟩ : BufTy).Contents (Elt F)) v86 v25
  have v88 : (⟨S1048576x8, .f32⟩ : BufTy).Contents (Elt F) := (broadcastInDim S1048576x8 ![0, 1] bcast_S1048576x1_S1048576x8_0_1 : (⟨S1048576x1, .f32⟩ : BufTy).Contents (Elt F) → (⟨S1048576x8, .f32⟩ : BufTy).Contents (Elt F)) v87
  have v89 : (⟨S1048576x8, .f32⟩ : BufTy).Contents (Elt F) := (mulf : (⟨S1048576x8, .f32⟩ : BufTy).Contents (Elt F) → (⟨S1048576x8, .f32⟩ : BufTy).Contents (Elt F) → (⟨S1048576x8, .f32⟩ : BufTy).Contents (Elt F)) v85 v88
  have v90 : (⟨S1048576x8, .f32⟩ : BufTy).Contents (Elt F) := (broadcastInDim S1048576x8 ![0, 1] bcast_S1048576x1_S1048576x8_0_1 : (⟨S1048576x1, .f32⟩ : BufTy).Contents (Elt F) → (⟨S1048576x8, .f32⟩ : BufTy).Contents (Elt F)) v24
  have v91 : (⟨S1048576x8, .f32⟩ : BufTy).Contents (Elt F) := (mulf : (⟨S1048576x8, .f32⟩ : BufTy).Contents (Elt F) → (⟨S1048576x8, .f32⟩ : BufTy).Contents (Elt F) → (⟨S1048576x8, .f32⟩ : BufTy).Contents (Elt F)) v53 v90
  have cst_24 : (⟨S_, .f32⟩ : BufTy).Contents (Elt F) := (constant S_ .f32 0x3F800000#32)
  have v92 : (⟨S1048576x1, .f32⟩ : BufTy).Contents (Elt F) := (broadcastInDim S1048576x1 ![] bcast_S_S1048576x1 : (⟨S_, .f32⟩ : BufTy).Contents (Elt F) → (⟨S1048576x1, .f32⟩ : BufTy).Contents (Elt F)) cst_24
  have v93 : (⟨S1048576x1, .f32⟩ : BufTy).Contents (Elt F) := (subf : (⟨S1048576x1, .f32⟩ : BufTy).Contents (Elt F) → (⟨S1048576x1, .f32⟩ : BufTy).Contents (Elt F) → (⟨S1048576x1, .f32⟩ : BufTy).Contents (Elt F)) v92 v25
  have v94 : (⟨S1048576x8, .f32⟩ : BufTy).Contents (Elt F) := (broadcastInDim S1048576x8 ![0, 1] bcast_S1048576x1_S1048576x8_0_1 : (⟨S1048576x1, .f32⟩ : BufTy).Contents (Elt F) → (⟨S1048576x8, .f32⟩ : BufTy).Contents (Elt F)) v93
  have v95 : (⟨S1048576x8, .f32⟩ : BufTy).Contents (Elt F) := (mulf : (⟨S1048576x8, .f32⟩ : BufTy).Contents (Elt F) → (⟨S1048576x8, .f32⟩ : BufTy).Contents (Elt F) → (⟨S1048576x8, .f32⟩ : BufTy).Contents (Elt F)) v91 v94
  have v96 : (⟨S1048576x8, .f32⟩ : BufTy).Contents (Elt F) := (addf : (⟨S1048576x8, .f32⟩ : BufTy).Contents (Elt F) → (⟨S1048576x8, .f32⟩ : BufTy).Contents (Elt F) → (⟨S1048576x8, .f32⟩ : BufTy).Contents (Elt F)) v89 v95
  have cst_25 : (⟨S_, .f32⟩ : BufTy).Contents (Elt F) := (constant S_ .f32 0x3F800000#32)
  have v97 : (⟨S1048576x1, .f32⟩ : BufTy).Contents (Elt F) := (broadcastInDim S1048576x1 ![] bcast_S_S1048576x1 : (⟨S_, .f32⟩ : BufTy).Contents (Elt F) → (⟨S1048576x1, .f32⟩ : BufTy).Contents (Elt F)) cst_25
  have v98 : (⟨S1048576x1, .f32⟩ : BufTy).Contents (Elt F) := (subf : (⟨S1048576x1, .f32⟩ : BufTy).Contents (Elt F) → (⟨S1048576x1, .f32⟩ : BufTy).Contents (Elt F) → (⟨S1048576x1, .f32⟩ : BufTy).Contents (Elt F)) v97 v24
  have v99 : (⟨S1048576x8, .f32⟩ : BufTy).Contents (Elt F) := (broadcastInDim S1048576x8 ![0, 1] bcast_S1048576x1_S1048576x8_0_1 : (⟨S1048576x1, .f32⟩ : BufTy).Contents (Elt F) → (⟨S1048576x8, .f32⟩ : BufTy).Contents (Elt F)) v98
  have v100 : (⟨S1048576x8, .f32⟩ : BufTy).Contents (Elt F) := (mulf : (⟨S1048576x8, .f32⟩ : BufTy).Contents (Elt F) → (⟨S1048576x8, .f32⟩ : BufTy).Contents (Elt F) → (⟨S1048576x8, .f32⟩ : BufTy).Contents (Elt F)) v67 v99
  have v101 : (⟨S1048576x8, .f32⟩ : BufTy).Contents (Elt F) := (broadcastInDim S1048576x8 ![0, 1] bcast_S1048576x1_S1048576x8_0_1 : (⟨S1048576x1, .f32⟩ : BufTy).Contents (Elt F) → (⟨S1048576x8, .f32⟩ : BufTy).Contents (Elt F)) v25
  have v102 : (⟨S1048576x8, .f32⟩ : BufTy).Contents (Elt F) := (mulf : (⟨S1048576x8, .f32⟩ : BufTy).Contents (Elt F) → (⟨S1048576x8, .f32⟩ : BufTy).Contents (Elt F) → (⟨S1048576x8, .f32⟩ : BufTy).Contents (Elt F)) v100 v101
  have v103 : (⟨S1048576x8, .f32⟩ : BufTy).Contents (Elt F) := (addf : (⟨S1048576x8, .f32⟩ : BufTy).Contents (Elt F) → (⟨S1048576x8, .f32⟩ : BufTy).Contents (Elt F) → (⟨S1048576x8, .f32⟩ : BufTy).Contents (Elt F)) v96 v102
  have v104 : (⟨S1048576x8, .f32⟩ : BufTy).Contents (Elt F) := (broadcastInDim S1048576x8 ![0, 1] bcast_S1048576x1_S1048576x8_0_1 : (⟨S1048576x1, .f32⟩ : BufTy).Contents (Elt F) → (⟨S1048576x8, .f32⟩ : BufTy).Contents (Elt F)) v24
  have v105 : (⟨S1048576x8, .f32⟩ : BufTy).Contents (Elt F) := (mulf : (⟨S1048576x8, .f32⟩ : BufTy).Contents (Elt F) → (⟨S1048576x8, .f32⟩ : BufTy).Contents (Elt F) → (⟨S1048576x8, .f32⟩ : BufTy).Contents (Elt F)) v81 v104
  have v106 : (⟨S1048576x8, .f32⟩ : BufTy).Contents (Elt F) := (broadcastInDim S1048576x8 ![0, 1] bcast_S1048576x1_S1048576x8_0_1 : (⟨S1048576x1, .f32⟩ : BufTy).Contents (Elt F) → (⟨S1048576x8, .f32⟩ : BufTy).Contents (Elt F)) v25
  have v107 : (⟨S1048576x8, .f32⟩ : BufTy).Contents (Elt F) := (mulf : (⟨S1048576x8, .f32⟩ : BufTy).Contents (Elt F) → (⟨S1048576x8, .f32⟩ : BufTy).Contents (Elt F) → (⟨S1048576x8, .f32⟩ : BufTy).Contents (Elt F)) v105 v106
  have v108 : (⟨S1048576x8, .f32⟩ : BufTy).Contents (Elt F) := (addf : (⟨S1048576x8, .f32⟩ : BufTy).Contents (Elt F) → (⟨S1048576x8, .f32⟩ : BufTy).Contents (Elt F) → (⟨S1048576x8, .f32⟩ : BufTy).Contents (Elt F)) v103 v107
  v108

end Cert.NeuMipHost

end
-- ==== Proof.Ref.Stages.lean ====
/- The stages of the neural-texture shading function after and between its two texture lookups, each the host operations
   of that stage written out one binding per operation, in order (the helper functions' bodies in place), and their
   composition. -/
import proofs.«142216_j1408749273558_2_alg».proof.ReferenceIdeal
import proofs.«142216_j1408749273558_2_alg».proof.Proof.Ref.Bilin

-- a chain of over two hundred bindings nests past the default depth
set_option maxRecDepth 16384

noncomputable section

namespace Cert.NeuMipHost

open Cert.ReferenceIdeal Idealize.ShloMosaic Idealize.SL.Sem
open Cert.ReferenceIdeal.Facts₀

variable {F : FTy → Type} [FloatOps F] [Facts₀]
/-- The offset network at each point: the 8 sampled channels joined with the 2 camera coordinates, then four affine layers
    (weights transposed, bias broadcast over the points) of widths 32, 32, 32, 1, each of the first three followed by the leaky
    rectifier `x ↦ if x ≥ 0 then x else s · x`, `s` the binary32 number nearest 0.01 (bits 0x3C23D70A). -/
def offMlp (offlat : FVec F S1048576x8 .f32) (cam : FVec F S1048576x2 .f32) (ow0 : FVec F S32x10 .f32) (ob0 : FVec F S32 .f32) (ow1 : FVec F S32x32 .f32) (ob1 : FVec F S32 .f32) (ow2 : FVec F S32x32 .f32) (ob2 : FVec F S32 .f32) (ow3 : FVec F S1x32 .f32) (ob3 : FVec F S1 .f32) : FVec F S1048576x1 .f32 :=
  have v109 : (⟨S1048576x10, .f32⟩ : BufTy).Contents (Elt F) := ((fun a b => concatenate S1048576x10 1 [⟨S1048576x8, a⟩, ⟨S1048576x2, b⟩] concatenates_S1048576x8_S1048576x2_S1048576x10_d1) : (⟨S1048576x8, .f32⟩ : BufTy).Contents (Elt F) → (⟨S1048576x2, .f32⟩ : BufTy).Contents (Elt F) → (⟨S1048576x10, .f32⟩ : BufTy).Contents (Elt F)) offlat cam
  have v110 : (⟨S10x32, .f32⟩ : BufTy).Contents (Elt F) := ((transpose S10x32 [1, 0] · transposes_S32x10_S10x32_1_0) : (⟨S32x10, .f32⟩ : BufTy).Contents (Elt F) → (⟨S10x32, .f32⟩ : BufTy).Contents (Elt F)) ow0
  have v111 : (⟨S1048576x32, .f32⟩ : BufTy).Contents (Elt F) := ((fun l r => Host.dotGeneral dot_S1048576x10_S10x32_S1048576x32_1_0_0_1_n_n none l r) : (⟨S1048576x10, .f32⟩ : BufTy).Contents (Elt F) → (⟨S10x32, .f32⟩ : BufTy).Contents (Elt F) → (⟨S1048576x32, .f32⟩ : BufTy).Contents (Elt F)) v109 v110
  have v112 : (⟨S1x32, .f32⟩ : BufTy).Contents (Elt F) := (broadcastInDim S1x32 ![1] bcast_S32_S1x32_1 : (⟨S32, .f32⟩ : BufTy).Contents (Elt F) → (⟨S1x32, .f32⟩ : BufTy).Contents (Elt F)) ob0
  have v113 : (⟨S1048576x32, .f32⟩ : BufTy).Contents (Elt F) := (broadcastInDim S1048576x32 ![0, 1] bcast_S1x32_S1048576x32_0_1 : (⟨S1x32, .f32⟩ : BufTy).Contents (Elt F) → (⟨S1048576x32, .f32⟩ : BufTy).Contents (Elt F)) v112
  have v114 : (⟨S1048576x32, .f32⟩ : BufTy).Contents (Elt F) := (addf : (⟨S1048576x32, .f32⟩ : BufTy).Contents (Elt F) → (⟨S1048576x32, .f32⟩ : BufTy).Contents (Elt F) → (⟨S1048576x32, .f32⟩ : BufTy).Contents (Elt F)) v111 v113
  have cst_26 : (⟨S_, .f32⟩ : BufTy).Contents (Elt F) := (constant S_ .f32 0x00000000#32)
  have v115 : (⟨S1048576x32, .f32⟩ : BufTy).Contents (Elt F) := (broadcastInDim S1048576x32 ![] bcast_S_S1048576x32 : (⟨S_, .f32⟩ : BufTy).Contents (Elt F) → (⟨S1048576x32, .f32⟩ : BufTy).Contents (Elt F)) cst_26
  have v116 : (⟨S1048576x32, .i1⟩ : BufTy).Contents (Elt F) := (cmpf .oge : (⟨S1048576x32, .f32⟩ : BufTy).Contents (Elt F) → (⟨S1048576x32, .f32⟩ : BufTy).Contents (Elt F) → (⟨S1048576x32, .i1⟩ : BufTy).Contents (Elt F)) v114 v115
  have cst_27 : (⟨S_, .f32⟩ : BufTy).Contents (Elt F) := (constant S_ .f32 0x3C23D70A#32)
  have v117 : (⟨S1048576x32, .f32⟩ : BufTy).Contents (Elt F) := (broadcastInDim S1048576x32 ![] bcast_S_S1048576x32 : (⟨S_, .f32⟩ : BufTy).Contents (Elt F) → (⟨S1048576x32, .f32⟩ : BufTy).Contents (Elt F)) cst_27
  have v118 : (⟨S1048576x32, .f32⟩ : BufTy).Contents (Elt F) := (mulf : (⟨S1048576x32, .f32⟩ : BufTy).Contents (Elt F) → (⟨S1048576x32, .f32⟩ : BufTy).Contents (Elt F) → (⟨S1048576x32, .f32⟩ : BufTy).Contents (Elt F)) v117 v114
  have v119 : (⟨S1048576x32, .f32⟩ : BufTy).Contents (Elt F) := select v116 v114 v118
  have v120 : (⟨S32x32, .f32⟩ : BufTy).Contents (Elt F) := ((transpose S32x32 [1, 0] · transposes_S32x32_S32x32_1_0) : (⟨S32x32, .f32⟩ : BufTy).Contents (Elt F) → (⟨S32x32, .f32⟩ : BufTy).Contents (Elt F)) ow1
  have v121 : (⟨S1048576x32, .f32⟩ : BufTy).Contents (Elt F) := ((fun l r => Host.dotGeneral dot_S1048576x32_S32x32_S1048576x32_1_0_0_1_n_n none l r) : (⟨S1048576x32, .f32⟩ : BufTy).Contents (Elt F) → (⟨S32x32, .f32⟩ : BufTy).Contents (Elt F) → (⟨S1048576x32, .f32⟩ : BufTy).Contents (Elt F)) v119 v120
  have v122 : (⟨S1x32, .f32⟩ : BufTy).Contents (Elt F) := (broadcastInDim S1x32 ![1] bcast_S32_S1x32_1 : (⟨S32, .f32⟩ : BufTy).Contents (Elt F) → (⟨S1x32, .f32⟩ : BufTy).Contents (Elt F)) ob1
  have v123 : (⟨S1048576x32, .f32⟩ : BufTy).Contents (Elt F) := (broadcastInDim S1048576x32 ![0, 1] bcast_S1x32_S1048576x32_0_1 : (⟨S1x32, .f32⟩ : BufTy).Contents (Elt F) → (⟨S1048576x32, .f32⟩ : BufTy).Contents (Elt F)) v122
  have v124 : (⟨S1048576x32, .f32⟩ : BufTy).Contents (Elt F) := (addf : (⟨S1048576x32, .f32⟩ : BufTy).Contents (Elt F) → (⟨S1048576x32, .f32⟩ : BufTy).Contents (Elt F) → (⟨S1048576x32, .f32⟩ : BufTy).Contents (Elt F)) v121 v123
  have cst_28 : (⟨S_, .f32⟩ : BufTy).Contents (Elt F) := (constant S_ .f32 0x00000000#32)
  have v125 : (⟨S1048576x32, .f32⟩ : BufTy).Contents (Elt F) := (broadcastInDim S1048576x32 ![] bcast_S_S1048576x32 : (⟨S_, .f32⟩ : BufTy).Contents (Elt F) → (⟨S1048576x32, .f32⟩ : BufTy).Contents (Elt F)) cst_28
  have v126 : (⟨S1048576x32, .i1⟩ : BufTy).Contents (Elt F) := (cmpf .oge : (⟨S1048576x32, .f32⟩ : BufTy).Contents (Elt F) → (⟨S1048576x32, .f32⟩ : BufTy).Contents (Elt F) → (⟨S1048576x32, .i1⟩ : BufTy).Contents (Elt F)) v124 v125
  have cst_29 : (⟨S_, .f32⟩ : BufTy).Contents (Elt F) := (constant S_ .f32 0x3C23D70A#32)
  have v127 : (⟨S1048576x32, .f32⟩ : BufTy).Contents (Elt F) := (broadcastInDim S1048576x32 ![] bcast_S_S1048576x32 : (⟨S_, .f32⟩ : BufTy).Contents (Elt F) → (⟨S1048576x32, .f32⟩ : BufTy).Contents (Elt F)) cst_29
  have v128 : (⟨S1048576x32, .f32⟩ : BufTy).Contents (Elt F) := (mulf : (⟨S1048576x32, .f32⟩ : BufTy).Contents (Elt F) → (⟨S1048576x32, .f32⟩ : BufTy).Contents (Elt F) → (⟨S1048576x32, .f32⟩ : BufTy).Contents (Elt F)) v127 v124
  have v129 : (⟨S1048576x32, .f32⟩ : BufTy).Contents (Elt F) := select v126 v124 v128
  have v130 : (⟨S32x32, .f32⟩ : BufTy).Contents (Elt F) := ((transpose S32x32 [1, 0] · transposes_S32x32_S32x32_1_0) : (⟨S32x32, .f32⟩ : BufTy).Contents (Elt F) → (⟨S32x32, .f32⟩ : BufTy).Contents (Elt F)) ow2
  have v131 : (⟨S1048576x32, .f32⟩ : BufTy).Contents (Elt F) := ((fun l r => Host.dotGeneral dot_S1048576x32_S32x32_S1048576x32_1_0_0_1_n_n none l r) : (⟨S1048576x32, .f32⟩ : BufTy).Contents (Elt F) → (⟨S32x32, .f32⟩ : BufTy).Contents (Elt F) → (⟨S1048576x32, .f32⟩ : BufTy).Contents (Elt F)) v129 v130
  have v132 : (⟨S1x32, .f32⟩ : BufTy).Contents (Elt F) := (broadcastInDim S1x32 ![1] bcast_S32_S1x32_1 : (⟨S32, .f32⟩ : BufTy).Contents (Elt F) → (⟨S1x32, .f32⟩ : BufTy).Contents (Elt F)) ob2
  have v133 : (⟨S1048576x32, .f32⟩ : BufTy).Contents (Elt F) := (broadcastInDim S1048576x32 ![0, 1] bcast_S1x32_S1048576x32_0_1 : (⟨S1x32, .f32⟩ : BufTy).Contents (Elt F) → (⟨S1048576x32, .f32⟩ : BufTy).Contents (Elt F)) v132
  have v134 : (⟨S1048576x32, .f32⟩ : BufTy).Contents (Elt F) := (addf : (⟨S1048576x32, .f32⟩ : BufTy).Contents (Elt F) → (⟨S1048576x32, .f32⟩ : BufTy).Contents (Elt F) → (⟨S1048576x32, .f32⟩ : BufTy).Contents (Elt F)) v131 v133
  have cst_30 : (⟨S_, .f32⟩ : BufTy).Contents (Elt F) := (constant S_ .f32 0x00000000#32)
  have v135 : (⟨S1048576x32, .f32⟩ : BufTy).Contents (Elt F) := (broadcastInDim S1048576x32 ![] bcast_S_S1048576x32 : (⟨S_, .f32⟩ : BufTy).Contents (Elt F) → (⟨S1048576x32, .f32⟩ : BufTy).Contents (Elt F)) cst_30
  have v136 : (⟨S1048576x32, .i1⟩ : BufTy).Contents (Elt F) := (cmpf .oge : (⟨S1048576x32, .f32⟩ : BufTy).Contents (Elt F) → (⟨S1048576x32, .f32⟩ : BufTy).Contents (Elt F) → (⟨S1048576x32, .i1⟩ : BufTy).Contents (Elt F)) v134 v135
  have cst_31 : (⟨S_, .f32⟩ : BufTy).Contents (Elt F) := (constant S_ .f32 0x3C23D70A#32)
  have v137 : (⟨S1048576x32, .f32⟩ : BufTy).Contents (Elt F) := (broadcastInDim S1048576x32 ![] bcast_S_S1048576x32 : (⟨S_, .f32⟩ : BufTy).Contents (Elt F) → (⟨S1048576x32, .f32⟩ : BufTy).Contents (Elt F)) cst_31
  have v138 : (⟨S1048576x32, .f32⟩ : BufTy).Contents (Elt F) := (mulf : (⟨S1048576x32, .f32⟩ : BufTy).Contents (Elt F) → (⟨S1048576x32, .f32⟩ : BufTy).Contents (Elt F) → (⟨S1048576x32, .f32⟩ : BufTy).Contents (Elt F)) v137 v134
  have v139 : (⟨S1048576x32, .f32⟩ : BufTy).Contents (Elt F) := select v136 v134 v138
  have v140 : (⟨S32x1, .f32⟩ : BufTy).Contents (Elt F) := ((transpose S32x1 [1, 0] · transposes_S1x32_S32x1_1_0) : (⟨S1x32, .f32⟩ : BufTy).Contents (Elt F) → (⟨S32x1, .f32⟩ : BufTy).Contents (Elt F)) ow3
  have v141 : (⟨S1048576x1, .f32⟩ : BufTy).Contents (Elt F) := ((fun l r => Host.dotGeneral dot_S1048576x32_S32x1_S1048576x1_1_0_0_1_n_n none l r) : (⟨S1048576x32, .f32⟩ : BufTy).Contents (Elt F) → (⟨S32x1, .f32⟩ : BufTy).Contents (Elt F) → (⟨S1048576x1, .f32⟩ : BufTy).Contents (Elt F)) v139 v140
  have v142 : (⟨S1x1, .f32⟩ : BufTy).Contents (Elt F) := (broadcastInDim S1x1 ![1] bcast_S1_S1x1_1 : (⟨S1, .f32⟩ : BufTy).Contents (Elt F) → (⟨S1x1, .f32⟩ : BufTy).Contents (Elt F)) ob3
  have v143 : (⟨S1048576x1, .f32⟩ : BufTy).Contents (Elt F) := (broadcastInDim S1048576x1 ![0, 1] bcast_S1x1_S1048576x1_0_1 : (⟨S1x1, .f32⟩ : BufTy).Contents (Elt F) → (⟨S1048576x1, .f32⟩ : BufTy).Contents (Elt F)) v142
  have v144 : (⟨S1048576x1, .f32⟩ : BufTy).Contents (Elt F) := (addf : (⟨S1048576x1, .f32⟩ : BufTy).Contents (Elt F) → (⟨S1048576x1, .f32⟩ : BufTy).Contents (Elt F) → (⟨S1048576x1, .f32⟩ : BufTy).Contents (Elt F)) v141 v143
  v144

/-- The shifted sampling point: `uv + depth · cam / √(max(ε, 1 − ‖cam‖²))`, `ε` the binary32 number nearest 10⁻⁶ (bits 0x358637BD),
    the squared norm summed over the two coordinates. -/
def uv2Of (uv : FVec F S1048576x2 .f32) (cam : FVec F S1048576x2 .f32) (depth : FVec F S1048576x1 .f32) : FVec F S1048576x2 .f32 :=
  have v145 : (⟨S1048576x2, .f32⟩ : BufTy).Contents (Elt F) := (mulf : (⟨S1048576x2, .f32⟩ : BufTy).Contents (Elt F) → (⟨S1048576x2, .f32⟩ : BufTy).Contents (Elt F) → (⟨S1048576x2, .f32⟩ : BufTy).Contents (Elt F)) cam cam
  have cst_32 : (⟨S_, .f32⟩ : BufTy).Contents (Elt F) := (constant S_ .f32 0x00000000#32)
  have v146 : (⟨S1048576, .f32⟩ : BufTy).Contents (Elt F) := ((fun x v => Host.reduceAdd x v reducesTo_S1048576x2_S1048576_d1 h_S_) : (⟨S1048576x2, .f32⟩ : BufTy).Contents (Elt F) → (⟨S_, .f32⟩ : BufTy).Contents (Elt F) → (⟨S1048576, .f32⟩ : BufTy).Contents (Elt F)) v145 cst_32
  have v147 : (⟨S1048576x1, .f32⟩ : BufTy).Contents (Elt F) := (broadcastInDim S1048576x1 ![0] bcast_S1048576_S1048576x1_0 : (⟨S1048576, .f32⟩ : BufTy).Contents (Elt F) → (⟨S1048576x1, .f32⟩ : BufTy).Contents (Elt F)) v146
  have cst_33 : (⟨S_, .f32⟩ : BufTy).Contents (Elt F) := (constant S_ .f32 0x3F800000#32)
  have v148 : (⟨S1048576x1, .f32⟩ : BufTy).Contents (Elt F) := (broadcastInDim S1048576x1 ![] bcast_S_S1048576x1 : (⟨S_, .f32⟩ : BufTy).Contents (Elt F) → (⟨S1048576x1, .f32⟩ : BufTy).Contents (Elt F)) cst_33
  have v149 : (⟨S1048576x1, .f32⟩ : BufTy).Contents (Elt F) := (subf : (⟨S1048576x1, .f32⟩ : BufTy).Contents (Elt F) → (⟨S1048576x1, .f32⟩ : BufTy).Contents (Elt F) → (⟨S1048576x1, .f32⟩ : BufTy).Contents (Elt F)) v148 v147
  have cst_34 : (⟨S_, .f32⟩ : BufTy).Contents (Elt F) := (constant S_ .f32 0x358637BD#32)
  have call7_v0 : (⟨S_, .f32⟩ : BufTy).Contents (Elt F) := id cst_34
  have call7_v1 : (⟨S1048576x1, .f32⟩ : BufTy).Contents (Elt F) := (broadcastInDim S1048576x1 ![] bcast_S_S1048576x1) call7_v0
  have v150 : (⟨S1048576x1, .f32⟩ : BufTy).Contents (Elt F) := maximumf call7_v1 v149
  have v151 : (⟨S1048576x1, .f32⟩ : BufTy).Contents (Elt F) := (Host.sqrt : (⟨S1048576x1, .f32⟩ : BufTy).Contents (Elt F) → (⟨S1048576x1, .f32⟩ : BufTy).Contents (Elt F)) v150
  have v152 : (⟨S1048576x2, .f32⟩ : BufTy).Contents (Elt F) := (broadcastInDim S1048576x2 ![0, 1] bcast_S1048576x1_S1048576x2_0_1 : (⟨S1048576x1, .f32⟩ : BufTy).Contents (Elt F) → (⟨S1048576x2, .f32⟩ : BufTy).Contents (Elt F)) v151
  have v153 : (⟨S1048576x2, .f32⟩ : BufTy).Contents (Elt F) := (Host.divf : (⟨S1048576x2, .f32⟩ : BufTy).Contents (Elt F) → (⟨S1048576x2, .f32⟩ : BufTy).Contents (Elt F) → (⟨S1048576x2, .f32⟩ : BufTy).Contents (Elt F)) cam v152
  have v154 : (⟨S1048576x2, .f32⟩ : BufTy).Contents (Elt F) := (broadcastInDim S1048576x2 ![0, 1] bcast_S1048576x1_S1048576x2_0_1 : (⟨S1048576x1, .f32⟩ : BufTy).Contents (Elt F) → (⟨S1048576x2, .f32⟩ : BufTy).Contents (Elt F)) depth
  have v155 : (⟨S1048576x2, .f32⟩ : BufTy).Contents (Elt F) := (mulf : (⟨S1048576x2, .f32⟩ : BufTy).Contents (Elt F) → (⟨S1048576x2, .f32⟩ : BufTy).Contents (Elt F) → (⟨S1048576x2, .f32⟩ : BufTy).Contents (Elt F)) v153 v154
  have v156 : (⟨S1048576x2, .f32⟩ : BufTy).Contents (Elt F) := (addf : (⟨S1048576x2, .f32⟩ : BufTy).Contents (Elt F) → (⟨S1048576x2, .f32⟩ : BufTy).Contents (Elt F) → (⟨S1048576x2, .f32⟩ : BufTy).Contents (Elt F)) uv v155
  v156

/-- The colour network at each point: light direction, camera direction and the 8 sampled channels joined (12 inputs), then
    four affine layers of widths 32, 32, 32, 3, each of the first three followed by the same leaky rectifier (slope the binary32 number nearest 0.01). -/
def rgbMlp (light : FVec F S1048576x2 .f32) (cam : FVec F S1048576x2 .f32) (rgblat : FVec F S1048576x8 .f32) (rw0 : FVec F S32x12 .f32) (rb0 : FVec F S32 .f32) (rw1 : FVec F S32x32 .f32) (rb1 : FVec F S32 .f32) (rw2 : FVec F S32x32 .f32) (rb2 : FVec F S32 .f32) (rw3 : FVec F S3x32 .f32) (rb3 : FVec F S3 .f32) : FVec F S1048576x3 .f32 :=
  have v266 : (⟨S1048576x12, .f32⟩ : BufTy).Contents (Elt F) := concatenate S1048576x12 1 [⟨S1048576x2, light⟩, ⟨S1048576x2, cam⟩, ⟨S1048576x8, rgblat⟩] concatenates_S1048576x2_S1048576x2_S1048576x8_S1048576x12_d1
  have v267 : (⟨S12x32, .f32⟩ : BufTy).Contents (Elt F) := ((transpose S12x32 [1, 0] · transposes_S32x12_S12x32_1_0) : (⟨S32x12, .f32⟩ : BufTy).Contents (Elt F) → (⟨S12x32, .f32⟩ : BufTy).Contents (Elt F)) rw0
  have v268 : (⟨S1048576x32, .f32⟩ : BufTy).Contents (Elt F) := ((fun l r => Host.dotGeneral dot_S1048576x12_S12x32_S1048576x32_1_0_0_1_n_n none l r) : (⟨S1048576x12, .f32⟩ : BufTy).Contents (Elt F) → (⟨S12x32, .f32⟩ : BufTy).Contents (Elt F) → (⟨S1048576x32, .f32⟩ : BufTy).Contents (Elt F)) v266 v267
  have v269 : (⟨S1x32, .f32⟩ : BufTy).Contents (Elt F) := (broadcastInDim S1x32 ![1] bcast_S32_S1x32_1 : (⟨S32, .f32⟩ : BufTy).Contents (Elt F) → (⟨S1x32, .f32⟩ : BufTy).Contents (Elt F)) rb0
  have v270 : (⟨S1048576x32, .f32⟩ : BufTy).Contents (Elt F) := (broadcastInDim S1048576x32 ![0, 1] bcast_S1x32_S1048576x32_0_1 : (⟨S1x32, .f32⟩ : BufTy).Contents (Elt F) → (⟨S1048576x32, .f32⟩ : BufTy).Contents (Elt F)) v269
  have v271 : (⟨S1048576x32, .f32⟩ : BufTy).Contents (Elt F) := (addf : (⟨S1048576x32, .f32⟩ : BufTy).Contents (Elt F) → (⟨S1048576x32, .f32⟩ : BufTy).Contents (Elt F) → (⟨S1048576x32, .f32⟩ : BufTy).Contents (Elt F)) v268 v270
  have cst_63 : (⟨S_, .f32⟩ : BufTy).Contents (Elt F) := (constant S_ .f32 0x00000000#32)
  have v272 : (⟨S1048576x32, .f32⟩ : BufTy).Contents (Elt F) := (broadcastInDim S1048576x32 ![] bcast_S_S1048576x32 : (⟨S_, .f32⟩ : BufTy).Contents (Elt F) → (⟨S1048576x32, .f32⟩ : BufTy).Contents (Elt F)) cst_63
  have v273 : (⟨S1048576x32, .i1⟩ : BufTy).Contents (Elt F) := (cmpf .oge : (⟨S1048576x32, .f32⟩ : BufTy).Contents (Elt F) → (⟨S1048576x32, .f32⟩ : BufTy).Contents (Elt F) → (⟨S1048576x32, .i1⟩ : BufTy).Contents (Elt F)) v271 v272
  have cst_64 : (⟨S_, .f32⟩ : BufTy).Contents (Elt F) := (constant S_ .f32 0x3C23D70A#32)
  have v274 : (⟨S1048576x32, .f32⟩ : BufTy).Contents (Elt F) := (broadcastInDim S1048576x32 ![] bcast_S_S1048576x32 : (⟨S_, .f32⟩ : BufTy).Contents (Elt F) → (⟨S1048576x32, .f32⟩ : BufTy).Contents (Elt F)) cst_64
  have v275 : (⟨S1048576x32, .f32⟩ : BufTy).Contents (Elt F) := (mulf : (⟨S1048576x32, .f32⟩ : BufTy).Contents (Elt F) → (⟨S1048576x32, .f32⟩ : BufTy).Contents (Elt F) → (⟨S1048576x32, .f32⟩ : BufTy).Contents (Elt F)) v274 v271
  have v276 : (⟨S1048576x32, .f32⟩ : BufTy).Contents (Elt F) := select v273 v271 v275
  have v277 : (⟨S32x32, .f32⟩ : BufTy).Contents (Elt F) := ((transpose S32x32 [1, 0] · transposes_S32x32_S32x32_1_0) : (⟨S32x32, .f32⟩ : BufTy).Contents (Elt F) → (⟨S32x32, .f32⟩ : BufTy).Contents (Elt F)) rw1
  have v278 : (⟨S1048576x32, .f32⟩ : BufTy).Contents (Elt F) := ((fun l r => Host.dotGeneral dot_S1048576x32_S32x32_S1048576x32_1_0_0_1_n_n none l r) : (⟨S1048576x32, .f32⟩ : BufTy).Contents (Elt F) → (⟨S32x32, .f32⟩ : BufTy).Contents (Elt F) → (⟨S1048576x32, .f32⟩ : BufTy).Contents (Elt F)) v276 v277
  have v279 : (⟨S1x32, .f32⟩ : BufTy).Contents (Elt F) := (broadcastInDim S1x32 ![1] bcast_S32_S1x32_1 : (⟨S32, .f32⟩ : BufTy).Contents (Elt F) → (⟨S1x32, .f32⟩ : BufTy).Contents (Elt F)) rb1
  have v280 : (⟨S1048576x32, .f32⟩ : BufTy).Contents (Elt F) := (broadcastInDim S1048576x32 ![0, 1] bcast_S1x32_S1048576x32_0_1 : (⟨S1x32, .f32⟩ : BufTy).Contents (Elt F) → (⟨S1048576x32, .f32⟩ : BufTy).Contents (Elt F)) v279
  have v281 : (⟨S1048576x32, .f32⟩ : BufTy).Contents (Elt F) := (addf : (⟨S1048576x32, .f32⟩ : BufTy).Contents (Elt F) → (⟨S1048576x32, .f32⟩ : BufTy).Contents (Elt F) → (⟨S1048576x32, .f32⟩ : BufTy).Contents (Elt F)) v278 v280
  have cst_65 : (⟨S_, .f32⟩ : BufTy).Contents (Elt F) := (constant S_ .f32 0x00000000#32)
  have v282 : (⟨S1048576x32, .f32⟩ : BufTy).Contents (Elt F) := (broadcastInDim S1048576x32 ![] bcast_S_S1048576x32 : (⟨S_, .f32⟩ : BufTy).Contents (Elt F) → (⟨S1048576x32, .f32⟩ : BufTy).Contents (Elt F)) cst_65
  have v283 : (⟨S1048576x32, .i1⟩ : BufTy).Contents (Elt F) := (cmpf .oge : (⟨S1048576x32, .f32⟩ : BufTy).Contents (Elt F) → (⟨S1048576x32, .f32⟩ : BufTy).Contents (Elt F) → (⟨S1048576x32, .i1⟩ : BufTy).Contents (Elt F)) v281 v282
  have cst_66 : (⟨S_, .f32⟩ : BufTy).Contents (Elt F) := (constant S_ .f32 0x3C23D70A#32)
  have v284 : (⟨S1048576x32, .f32⟩ : BufTy).Contents (Elt F) := (broadcastInDim S1048576x32 ![] bcast_S_S1048576x32 : (⟨S_, .f32⟩ : BufTy).Contents (Elt F) → (⟨S1048576x32, .f32⟩ : BufTy).Contents (Elt F)) cst_66
  have v285 : (⟨S1048576x32, .f32⟩ : BufTy).Contents (Elt F) := (mulf : (⟨S1048576x32, .f32⟩ : BufTy).Contents (Elt F) → (⟨S1048576x32, .f32⟩ : BufTy).Contents (Elt F) → (⟨S1048576x32, .f32⟩ : BufTy).Contents (Elt F)) v284 v281
  have v286 : (⟨S1048576x32, .f32⟩ : BufTy).Contents (Elt F) := select v283 v281 v285
  have v287 : (⟨S32x32, .f32⟩ : BufTy).Contents (Elt F) := ((transpose S32x32 [1, 0] · transposes_S32x32_S32x32_1_0) : (⟨S32x32, .f32⟩ : BufTy).Contents (Elt F) → (⟨S32x32, .f32⟩ : BufTy).Contents (Elt F)) rw2
  have v288 : (⟨S1048576x32, .f32⟩ : BufTy).Contents (Elt F) := ((fun l r => Host.dotGeneral dot_S1048576x32_S32x32_S1048576x32_1_0_0_1_n_n none l r) : (⟨S1048576x32, .f32⟩ : BufTy).Contents (Elt F) → (⟨S32x32, .f32⟩ : BufTy).Contents (Elt F) → (⟨S1048576x32, .f32⟩ : BufTy).Contents (Elt F)) v286 v287
  have v289 : (⟨S1x32, .f32⟩ : BufTy).Contents (Elt F) := (broadcastInDim S1x32 ![1] bcast_S32_S1x32_1 : (⟨S32, .f32⟩ : BufTy).Contents (Elt F) → (⟨S1x32, .f32⟩ : BufTy).Contents (Elt F)) rb2
  have v290 : (⟨S1048576x32, .f32⟩ : BufTy).Contents (Elt F) := (broadcastInDim S1048576x32 ![0, 1] bcast_S1x32_S1048576x32_0_1 : (⟨S1x32, .f32⟩ : BufTy).Contents (Elt F) → (⟨S1048576x32, .f32⟩ : BufTy).Contents (Elt F)) v289
  have v291 : (⟨S1048576x32, .f32⟩ : BufTy).Contents (Elt F) := (addf : (⟨S1048576x32, .f32⟩ : BufTy).Contents (Elt F) → (⟨S1048576x32, .f32⟩ : BufTy).Contents (Elt F) → (⟨S1048576x32, .f32⟩ : BufTy).Contents (Elt F)) v288 v290
  have cst_67 : (⟨S_, .f32⟩ : BufTy).Contents (Elt F) := (constant S_ .f32 0x00000000#32)
  have v292 : (⟨S1048576x32, .f32⟩ : BufTy).Contents (Elt F) := (broadcastInDim S1048576x32 ![] bcast_S_S1048576x32 : (⟨S_, .f32⟩ : BufTy).Contents (Elt F) → (⟨S1048576x32, .f32⟩ : BufTy).Contents (Elt F)) cst_67
  have v293 : (⟨S1048576x32, .i1⟩ : BufTy).Contents (Elt F) := (cmpf .oge : (⟨S1048576x32, .f32⟩ : BufTy).Contents (Elt F) → (⟨S1048576x32, .f32⟩ : BufTy).Contents (Elt F) → (⟨S1048576x32, .i1⟩ : BufTy).Contents (Elt F)) v291 v292
  have cst_68 : (⟨S_, .f32⟩ : BufTy).Contents (Elt F) := (constant S_ .f32 0x3C23D70A#32)
  have v294 : (⟨S1048576x32, .f32⟩ : BufTy).Contents (Elt F) := (broadcastInDim S1048576x32 ![] bcast_S_S1048576x32 : (⟨S_, .f32⟩ : BufTy).Contents (Elt F) → (⟨S1048576x32, .f32⟩ : BufTy).Contents (Elt F)) cst_68
  have v295 : (⟨S1048576x32, .f32⟩ : BufTy).Contents (Elt F) := (mulf : (⟨S1048576x32, .f32⟩ : BufTy).Contents (Elt F) → (⟨S1048576x32, .f32⟩ : BufTy).Contents (Elt F) → (⟨S1048576x32, .f32⟩ : BufTy).Contents (Elt F)) v294 v291
  have v296 : (⟨S1048576x32, .f32⟩ : BufTy).Contents (Elt F) := select v293 v291 v295
  have v297 : (⟨S32x3, .f32⟩ : BufTy).Contents (Elt F) := ((transpose S32x3 [1, 0] · transposes_S3x32_S32x3_1_0) : (⟨S3x32, .f32⟩ : BufTy).Contents (Elt F) → (⟨S32x3, .f32⟩ : BufTy).Contents (Elt F)) rw3
  have v298 : (⟨S1048576x3, .f32⟩ : BufTy).Contents (Elt F) := ((fun l r => Host.dotGeneral dot_S1048576x32_S32x3_S1048576x3_1_0_0_1_n_n none l r) : (⟨S1048576x32, .f32⟩ : BufTy).Contents (Elt F) → (⟨S32x3, .f32⟩ : BufTy).Contents (Elt F) → (⟨S1048576x3, .f32⟩ : BufTy).Contents (Elt F)) v296 v297
  have v299 : (⟨S1x3, .f32⟩ : BufTy).Contents (Elt F) := (broadcastInDim S1x3 ![1] bcast_S3_S1x3_1 : (⟨S3, .f32⟩ : BufTy).Contents (Elt F) → (⟨S1x3, .f32⟩ : BufTy).Contents (Elt F)) rb3
  have v300 : (⟨S1048576x3, .f32⟩ : BufTy).Contents (Elt F) := (broadcastInDim S1048576x3 ![0, 1] bcast_S1x3_S1048576x3_0_1 : (⟨S1x3, .f32⟩ : BufTy).Contents (Elt F) → (⟨S1048576x3, .f32⟩ : BufTy).Contents (Elt F)) v299
  have v301 : (⟨S1048576x3, .f32⟩ : BufTy).Contents (Elt F) := (addf : (⟨S1048576x3, .f32⟩ : BufTy).Contents (Elt F) → (⟨S1048576x3, .f32⟩ : BufTy).Contents (Elt F) → (⟨S1048576x3, .f32⟩ : BufTy).Contents (Elt F)) v298 v300
  v301

/-- The whole computation from the 21 arguments: sample the offset texture at `uv`, run the offset network for a depth, shift the
    point along the camera direction, sample the colour texture there, run the colour network. -/
def refOut (a0 : FVec F S1048576x2 .f32) (a1 : FVec F S1048576x2 .f32) (a2 : FVec F S1048576x2 .f32) (a3 : FVec F S512x512x8 .f32) (a4 : FVec F S512x512x8 .f32) (a5 : FVec F S32x10 .f32) (a6 : FVec F S32 .f32) (a7 : FVec F S32x32 .f32) (a8 : FVec F S32 .f32) (a9 : FVec F S32x32 .f32) (a10 : FVec F S32 .f32) (a11 : FVec F S1x32 .f32) (a12 : FVec F S1 .f32) (a13 : FVec F S32x12 .f32) (a14 : FVec F S32 .f32) (a15 : FVec F S32x32 .f32) (a16 : FVec F S32 .f32) (a17 : FVec F S32x32 .f32) (a18 : FVec F S32 .f32) (a19 : FVec F S3x32 .f32) (a20 : FVec F S3 .f32) : FVec F S1048576x3 .f32 :=
  rgbMlp a1 a0 (bilin a4 (uv2Of a2 a0 (offMlp (bilin a3 a2) a0 a5 a6 a7 a8 a9 a10 a11 a12))) a13 a14 a15 a16 a17 a18 a19 a20

end Cert.NeuMipHost

end
-- ==== Proof.HostPay.lean ====
/-
  The reference's arithmetic read at one element.

  The reference stores activations row-major: an array [pixels, channels].  A layer is the product of the activations
  with the transposed weights, plus the bias vector set up as a row and repeated down the pixels; read at (r, j) it is
  the linear layer of the specification applied to row r of the activations, at output j (the product's summand is
  x (r, k) * W (j, k); multiplication of extended reals commutes).  The rectifier is a select on the comparison with a
  zero constant repeated over the array.  The sum of squares is a sum along a row from the initial value zero.  A
  concatenation along the channels reads, at a column, the piece that column falls in.  With these, each of the
  reference's three stages read at an element is the specification's network or offset of one row of its inputs.
-/
import proofs.«142216_j1408749273558_2_alg».proof.Proof.Spec
import proofs.«142216_j1408749273558_2_alg».proof.Proof.LibMatmulAt
import proofs.«142216_j1408749273558_2_alg».proof.Proof.LibColumn
import Idealize.ShloMosaic.Lib.ValueLayout
import proofs.«142216_j1408749273558_2_alg».proof.Proof.Ref.Stages

noncomputable section

namespace Cert.NeuMip

open Idealize.ShloMosaic Idealize.ShloMosaic.ValueIdx
open scoped BigOperators

/-! ## Rows made of pieces -/

/-- Two pieces laid end to end, read at position `k`: the first piece below its length, then the second (zero past the
    end). -/
def row2 {m n : ℕ} (f : Fin m → EReal) (g : Fin n → EReal) (k : ℕ) : EReal :=
  if h : k < m then f ⟨k, h⟩ else if h' : k - m < n then g ⟨k - m, h'⟩ else 0

/-- Three pieces laid end to end, read at position `k`. -/
def row3 {l m n : ℕ} (e : Fin l → EReal) (f : Fin m → EReal) (g : Fin n → EReal) (k : ℕ) : EReal :=
  if h : k < l then e ⟨k, h⟩ else row2 f g (k - l)

/-! ## The host's operations at an element -/

/-- The host's product for the dimension numbers of an [R, K] × [K, C] product, read at `(p, q)`: the sum over `k` of
    the left operand at `(p, k)` times the right at `(k, q)`. -/
theorem hostDot_at {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    Host.dotGeneral (F := Ideal) D prec l r (ix2 p q) = ∑ k : Fin K, l (ix2 p k) * r (ix2 k q) := by
  obtain ⟨lc, rc, ln, rn, lb, rb, wf⟩ := D
  dsimp only at hlc hrc hln hrn hlb hrb
  subst hlc hrc hln hrn hlb hrb
  exact (Ideal.dotGeneral_apply (LibMatmulAt.plainOf wf) prec .single l r (ix2 p q)).trans
    (LibMatmulAt.plainOf_sum wf l r p q)

/-- A row-major layer read at `(r, j)`: the product of `x : [B, K]` with the transpose of `W : [N, K]`, plus the vector
    `b : [N]` set up as a row and repeated down the first axis, is the linear layer of row `r` of `x` at output `j`. -/
theorem hostLayer_at {B K N : ℕ} (D : DotDims ⟨2, ![B, K]⟩ ⟨2, ![K, N]⟩ ⟨2, ![B, N]⟩)
    (hlc : D.lhsContracting = [1]) (hrc : D.rhsContracting = [0]) (hln : D.lhsNonContracting = [0])
    (hrn : D.rhsNonContracting = [1]) (hlb : D.lhsBatch = []) (hrb : D.rhsBatch = [])
    (x : FVec Ideal ⟨2, ![B, K]⟩ .f32) (W : FVec Ideal ⟨2, ![N, K]⟩ .f32) (b : FVec Ideal ⟨1, ![N]⟩ .f32)
    (ht : (⟨2, ![N, K]⟩ : Shape).Transposes [1, 0] ⟨2, ![K, N]⟩)
    (hb1 : (⟨1, ![N]⟩ : Shape).BroadcastsInDim ⟨2, ![1, N]⟩ ![1])
    (hb2 : (⟨2, ![1, N]⟩ : Shape).BroadcastsInDim ⟨2, ![B, N]⟩ ![0, 1])
    (r : Fin B) (j : Fin N) :
    addf (Host.dotGeneral (F := Ideal) D none x (transpose ⟨2, ![K, N]⟩ [1, 0] W ht))
        (broadcastInDim ⟨2, ![B, N]⟩ ![0, 1] hb2 (broadcastInDim ⟨2, ![1, N]⟩ ![1] hb1 b)) (ix2 r j)
      = lin (fun (j : Fin N) (i : Fin K) => W (ix2 j i)) (fun (j : Fin N) => b (ix1 j))
          (fun (k : Fin K) => x (ix2 r k)) j := by
  rw [addf_apply, hostDot_at D hlc hrc hln hrn hlb hrb, LibColumn.bcastInDim_1b_ab_apply,
    LibColumn.bcastInDim_b_1b_apply]
  unfold lin
  refine congrArg (· + b (ix1 j)) (Finset.sum_congr rfl fun k _ => ?_)
  rw [transpose_ix2_apply, mul_comm]

/-- The host's rectifier read at an element: the select between `x` and the slope constant times `x`, on "`x` is at
    least the zero constant", both constants scalars repeated over the array, is the leaky rectifier of the element. -/
theorem hostLeaky_at {s : Shape} (x : FVec Ideal s .f32) (sl : BitVec 32)
    (h0 : (⟨0, ![]⟩ : Shape).BroadcastsInDim s (![] : Fin 0 → Fin s.rank)) (i : s.Idx) :
    select (cmpf .oge x (broadcastInDim s ![] h0 (constant (F := Ideal) ⟨0, ![]⟩ .f32 0x00000000#32))) x
        (mulf (broadcastInDim s ![] h0 (constant (F := Ideal) ⟨0, ![]⟩ .f32 sl)) x) i
      = leaky (Ideal.ofBits .f32 sl) (x i) :=
  leaky_eq_select (Ideal.ofBits .f32 sl) (x i)

/-- The host's sum along the rows of `x : [B, C]` from the initial value zero, read at row `r`: `∑ k, x (r, k)`. -/
theorem hostRowSum_at {B C : ℕ} (x : FVec Ideal ⟨2, ![B, C]⟩ .f32)
    (h' : (⟨2, ![B, C]⟩ : Shape).ReducesTo [1] ⟨1, ![B]⟩) (hu : 0 < (⟨0, ![]⟩ : Shape).numel) (r : Fin B) :
    Host.reduceAdd x (constant (F := Ideal) ⟨0, ![]⟩ .f32 0x00000000#32) h' hu (ix1 r) = ∑ k : Fin C, x (ix2 r k) := by
  have h : (⟨2, ![B, C]⟩ : Shape).Reduces [1] ⟨1, ![B]⟩ := ⟨h'.1, Nat.one_pos, h'.2⟩
  refine (Ideal.hostReduceAdd_single h' h x _ (ix1 r)).trans ?_
  show Ideal.ofBits .f32 0x00000000#32 + _ = _
  rw [Ideal.ofBits_zero_f32, zero_add]
  refine Finset.sum_congr rfl fun k _ => congrArg x (funext fun a => Fin.ext ?_)
  match a with
  | ⟨0, _⟩ => rfl
  | ⟨1, _⟩ => rfl

/-- The reference's offset read at `(r, a)`: with `cam`, `uv : [B, 2]` and `depth : [B, 1]`, the array
    `uv + cam / sqrt (max eps (one - sum of cam * cam along the row)) * depth`, the square root's column and the depth's
    column repeated over the two columns, is the specification's offset of row `r`. -/
theorem hostOffset_at {B : ℕ} (cam uv : FVec Ideal ⟨2, ![B, 2]⟩ .f32) (depth : FVec Ideal ⟨2, ![B, 1]⟩ .f32)
    (one eps : BitVec 32) (hr : (⟨2, ![B, 2]⟩ : Shape).ReducesTo [1] ⟨1, ![B]⟩) (hu : 0 < (⟨0, ![]⟩ : Shape).numel)
    (hc : (⟨1, ![B]⟩ : Shape).BroadcastsInDim ⟨2, ![B, 1]⟩ ![0])
    (h0 : (⟨0, ![]⟩ : Shape).BroadcastsInDim ⟨2, ![B, 1]⟩ (![] : Fin 0 → Fin 2))
    (hb : (⟨2, ![B, 1]⟩ : Shape).BroadcastsInDim ⟨2, ![B, 2]⟩ ![0, 1])
    (r : Fin B) (a : Fin 2) :
    addf uv (mulf (Host.divf cam (broadcastInDim ⟨2, ![B, 2]⟩ ![0, 1] hb (Host.sqrt (maximumf
          (broadcastInDim ⟨2, ![B, 1]⟩ ![] h0 (constant (F := Ideal) ⟨0, ![]⟩ .f32 eps))
          (subf (broadcastInDim ⟨2, ![B, 1]⟩ ![] h0 (constant (F := Ideal) ⟨0, ![]⟩ .f32 one))
            (broadcastInDim ⟨2, ![B, 1]⟩ ![0] hc
              (Host.reduceAdd (mulf cam cam) (constant (F := Ideal) ⟨0, ![]⟩ .f32 0x00000000#32) hr hu)))))))
        (broadcastInDim ⟨2, ![B, 2]⟩ ![0, 1] hb depth)) (ix2 r a)
      = offsetUv (fun (i : Fin 2) => cam (ix2 r i)) (fun (i : Fin 2) => uv (ix2 r i)) (depth (ix2 r (0 : Fin 1)))
          (Ideal.ofBits .f32 one) (Ideal.ofBits .f32 eps) a := by
  rw [addf_apply, mulf_apply, LibColumn.bcastInDim_a1_ab_apply]
  show _ + Ideal.div _ (broadcastInDim ⟨2, ![B, 2]⟩ _ hb _ (ix2 r a)) * _ = _
  rw [LibColumn.bcastInDim_a1_ab_apply]
  show _ + Ideal.div _ (Ideal.sqrt (max _ (_ - broadcastInDim ⟨2, ![B, 1]⟩ _ hc _ (ix2 r (0 : Fin 1))))) * _ = _
  rw [LibColumn.bcastInDim_a_a1_apply, hostRowSum_at]
  rfl

/-! ## A concatenation along the second axis at a column -/

/-- A concatenation of arrays `[B, ·]` along the second axis, read at `(r, c)`: piece `k`, of width `w`, when `c` is
    the widths before it plus a column `c'` of that piece. -/
theorem concat_piece_at {α : Type} {B t : ℕ} (xs : List ((s : Shape) × (s.Idx → α)))
    (h : Shape.Concatenates (xs.map (·.1)) ⟨2, ![B, t]⟩ 1) (r : Fin B) (c : Fin t)
    (k : ℕ) (hk : k < xs.length) {w : ℕ} (x : (⟨2, ![B, w]⟩ : Shape).Idx → α) (hxk : xs[k] = ⟨⟨2, ![B, w]⟩, x⟩)
    (pre : ℕ)
    (hpre : (((xs.take k).map (·.1)).map fun s : Shape =>
      if h : s.rank = (⟨2, ![B, t]⟩ : Shape).rank then s.size ((1 : Fin (⟨2, ![B, t]⟩ : Shape).rank).cast h.symm) else 0).sum = pre)
    (c' : Fin w) (hc : pre + c'.val = c.val) :
    concatenate ⟨2, ![B, t]⟩ 1 xs h (ix2 r c) = x (ix2 r c') :=
  concatenate_apply_piece 1 xs h (ix2 r c) k hk _ x hxk rfl pre hpre (ix2 r c')
    (fun b hb => by
      match b with
      | ⟨0, _⟩ => rfl
      | ⟨1, _⟩ => exact absurd rfl hb)
    hc

/-- Two pieces `[B, m]`, `[B, n]` along the second axis, read at `(r, c)`: the row made of the two pieces' rows. -/
theorem concat2_at {B m n t : ℕ} (x₁ : (⟨2, ![B, m]⟩ : Shape).Idx → EReal) (x₂ : (⟨2, ![B, n]⟩ : Shape).Idx → EReal)
    (h : Shape.Concatenates [⟨2, ![B, m]⟩, ⟨2, ![B, n]⟩] ⟨2, ![B, t]⟩ 1) (r : Fin B) (c : Fin t) :
    concatenate ⟨2, ![B, t]⟩ 1 [⟨⟨2, ![B, m]⟩, x₁⟩, ⟨⟨2, ![B, n]⟩, x₂⟩] h (ix2 r c)
      = row2 (fun (i : Fin m) => x₁ (ix2 r i)) (fun (i : Fin n) => x₂ (ix2 r i)) c.val := by
  have e : m + (n + 0) = t := h.2.2
  have hc := c.isLt
  unfold row2
  by_cases h1 : c.val < m
  · rw [dif_pos h1]
    exact concat_piece_at [⟨⟨2, ![B, m]⟩, x₁⟩, ⟨⟨2, ![B, n]⟩, x₂⟩] h r c 0 (by simp) x₁ rfl 0 rfl ⟨c.val, h1⟩ (Nat.zero_add _)
  · have h2 : c.val - m < n := by omega
    rw [dif_neg h1, dif_pos h2]
    exact concat_piece_at [⟨⟨2, ![B, m]⟩, x₁⟩, ⟨⟨2, ![B, n]⟩, x₂⟩] h r c 1 (by simp) x₂ rfl m rfl ⟨c.val - m, h2⟩ (by show m + (c.val - m) = c.val; omega)

/-- Three pieces `[B, l]`, `[B, m]`, `[B, n]` along the second axis, read at `(r, c)`. -/
theorem concat3_at {B l m n t : ℕ} (x₁ : (⟨2, ![B, l]⟩ : Shape).Idx → EReal) (x₂ : (⟨2, ![B, m]⟩ : Shape).Idx → EReal)
    (x₃ : (⟨2, ![B, n]⟩ : Shape).Idx → EReal)
    (h : Shape.Concatenates [⟨2, ![B, l]⟩, ⟨2, ![B, m]⟩, ⟨2, ![B, n]⟩] ⟨2, ![B, t]⟩ 1) (r : Fin B) (c : Fin t) :
    concatenate ⟨2, ![B, t]⟩ 1 [⟨⟨2, ![B, l]⟩, x₁⟩, ⟨⟨2, ![B, m]⟩, x₂⟩, ⟨⟨2, ![B, n]⟩, x₃⟩] h (ix2 r c)
      = row3 (fun (i : Fin l) => x₁ (ix2 r i)) (fun (i : Fin m) => x₂ (ix2 r i)) (fun (i : Fin n) => x₃ (ix2 r i))
          c.val := by
  have e : l + (m + (n + 0)) = t := h.2.2
  have hc := c.isLt
  unfold row3 row2
  by_cases h1 : c.val < l
  · rw [dif_pos h1]
    exact concat_piece_at [⟨⟨2, ![B, l]⟩, x₁⟩, ⟨⟨2, ![B, m]⟩, x₂⟩, ⟨⟨2, ![B, n]⟩, x₃⟩] h r c 0 (by simp) x₁ rfl 0 rfl ⟨c.val, h1⟩ (Nat.zero_add _)
  · rw [dif_neg h1]
    by_cases h2 : c.val - l < m
    · rw [dif_pos h2]
      exact concat_piece_at [⟨⟨2, ![B, l]⟩, x₁⟩, ⟨⟨2, ![B, m]⟩, x₂⟩, ⟨⟨2, ![B, n]⟩, x₃⟩] h r c 1 (by simp) x₂ rfl l rfl ⟨c.val - l, h2⟩ (by show l + (c.val - l) = c.val; omega)
    · have h3 : c.val - l - m < n := by omega
      rw [dif_neg h2, dif_pos h3]
      exact concat_piece_at [⟨⟨2, ![B, l]⟩, x₁⟩, ⟨⟨2, ![B, m]⟩, x₂⟩, ⟨⟨2, ![B, n]⟩, x₃⟩] h r c 2 (by simp) x₃ rfl (l + m) rfl ⟨c.val - l - m, h3⟩
        (by show l + m + (c.val - l - m) = c.val; omega)

/-! ## The reference's three stages at an element -/

section Stages

open Cert.ReferenceIdeal

variable [Cert.ReferenceIdeal.Facts₀]

/-- The reference's depth network at row `r`: the four-layer network of the row made of the 8 sampled channels and the
    2 view components. -/
theorem offMlp_at (offlat : FVec Ideal S1048576x8 .f32) (cam : FVec Ideal S1048576x2 .f32)
    (ow0 : FVec Ideal S32x10 .f32) (ob0 : FVec Ideal S32 .f32) (ow1 : FVec Ideal S32x32 .f32) (ob1 : FVec Ideal S32 .f32)
    (ow2 : FVec Ideal S32x32 .f32) (ob2 : FVec Ideal S32 .f32) (ow3 : FVec Ideal S1x32 .f32) (ob3 : FVec Ideal S1 .f32)
    (r : Fin 1048576) :
    Cert.NeuMipHost.offMlp (F := Ideal) offlat cam ow0 ob0 ow1 ob1 ow2 ob2 ow3 ob3 (ix2 r (0 : Fin 1))
      = mlp4 (fun (j : Fin 32) (i : Fin 10) => ow0 (ix2 j i)) (fun (j : Fin 32) => ob0 (ix1 j))
          (fun (j : Fin 32) (i : Fin 32) => ow1 (ix2 j i)) (fun (j : Fin 32) => ob1 (ix1 j))
          (fun (j : Fin 32) (i : Fin 32) => ow2 (ix2 j i)) (fun (j : Fin 32) => ob2 (ix1 j))
          (fun (j : Fin 1) (i : Fin 32) => ow3 (ix2 j i)) (fun (j : Fin 1) => ob3 (ix1 j))
          (Ideal.ofBits .f32 0x3C23D70A#32)
          (fun (k : Fin 10) => row2 (fun (i : Fin 8) => offlat (ix2 r i)) (fun (i : Fin 2) => cam (ix2 r i)) k.val)
          (0 : Fin 1) := by
  unfold Cert.NeuMipHost.offMlp mlp4
  refine (hostLayer_at dot_S1048576x32_S32x1_S1048576x1_1_0_0_1_n_n rfl rfl rfl rfl rfl rfl _ ow3 ob3 _ _ _ r (0 : Fin 1)).trans ?_
  refine congrArg (fun x => lin _ _ x (0 : Fin 1)) (funext fun k2 => ?_)
  refine (hostLeaky_at _ 0x3C23D70A#32 _ (ix2 r k2)).trans (congrArg (leaky _) ?_)
  refine (hostLayer_at dot_S1048576x32_S32x32_S1048576x32_1_0_0_1_n_n rfl rfl rfl rfl rfl rfl _ ow2 ob2 _ _ _ r k2).trans ?_
  refine congrArg (fun x => lin _ _ x k2) (funext fun k1 => ?_)
  refine (hostLeaky_at _ 0x3C23D70A#32 _ (ix2 r k1)).trans (congrArg (leaky _) ?_)
  refine (hostLayer_at dot_S1048576x32_S32x32_S1048576x32_1_0_0_1_n_n rfl rfl rfl rfl rfl rfl _ ow1 ob1 _ _ _ r k1).trans ?_
  refine congrArg (fun x => lin _ _ x k1) (funext fun k0 => ?_)
  refine (hostLeaky_at _ 0x3C23D70A#32 _ (ix2 r k0)).trans (congrArg (leaky _) ?_)
  refine (hostLayer_at dot_S1048576x10_S10x32_S1048576x32_1_0_0_1_n_n rfl rfl rfl rfl rfl rfl _ ow0 ob0 _ _ _ r k0).trans ?_
  refine congrArg (fun x => lin _ _ x k0) (funext fun k => ?_)
  exact concat2_at offlat cam _ r k

/-- The reference's shifted coordinate at `(r, a)`: the specification's offset of row `r`. -/
theorem uv2Of_at (uv cam : FVec Ideal S1048576x2 .f32) (depth : FVec Ideal S1048576x1 .f32) (r : Fin 1048576) (a : Fin 2) :
    Cert.NeuMipHost.uv2Of (F := Ideal) uv cam depth (ix2 r a)
      = offsetUv (fun (i : Fin 2) => cam (ix2 r i)) (fun (i : Fin 2) => uv (ix2 r i)) (depth (ix2 r (0 : Fin 1)))
          (Ideal.ofBits .f32 0x3F800000#32) (Ideal.ofBits .f32 0x358637BD#32) a := by
  unfold Cert.NeuMipHost.uv2Of
  exact hostOffset_at cam uv depth 0x3F800000#32 0x358637BD#32 _ _ _ _ _ r a

/-- The reference's colour network at `(r, j)`: the four-layer network of the row made of the 2 light components, the 2
    view components and the 8 sampled channels, at output `j`. -/
theorem rgbMlp_at (light cam : FVec Ideal S1048576x2 .f32) (rgblat : FVec Ideal S1048576x8 .f32)
    (rw0 : FVec Ideal S32x12 .f32) (rb0 : FVec Ideal S32 .f32) (rw1 : FVec Ideal S32x32 .f32) (rb1 : FVec Ideal S32 .f32)
    (rw2 : FVec Ideal S32x32 .f32) (rb2 : FVec Ideal S32 .f32) (rw3 : FVec Ideal S3x32 .f32) (rb3 : FVec Ideal S3 .f32)
    (r : Fin 1048576) (j : Fin 3) :
    Cert.NeuMipHost.rgbMlp (F := Ideal) light cam rgblat rw0 rb0 rw1 rb1 rw2 rb2 rw3 rb3 (ix2 r j)
      = mlp4 (fun (j : Fin 32) (i : Fin 12) => rw0 (ix2 j i)) (fun (j : Fin 32) => rb0 (ix1 j))
          (fun (j : Fin 32) (i : Fin 32) => rw1 (ix2 j i)) (fun (j : Fin 32) => rb1 (ix1 j))
          (fun (j : Fin 32) (i : Fin 32) => rw2 (ix2 j i)) (fun (j : Fin 32) => rb2 (ix1 j))
          (fun (j : Fin 3) (i : Fin 32) => rw3 (ix2 j i)) (fun (j : Fin 3) => rb3 (ix1 j))
          (Ideal.ofBits .f32 0x3C23D70A#32)
          (fun (k : Fin 12) => row3 (fun (i : Fin 2) => light (ix2 r i)) (fun (i : Fin 2) => cam (ix2 r i))
            (fun (i : Fin 8) => rgblat (ix2 r i)) k.val)
          j := by
  unfold Cert.NeuMipHost.rgbMlp mlp4
  refine (hostLayer_at dot_S1048576x32_S32x3_S1048576x3_1_0_0_1_n_n rfl rfl rfl rfl rfl rfl _ rw3 rb3 _ _ _ r j).trans ?_
  refine congrArg (fun x => lin _ _ x j) (funext fun k2 => ?_)
  refine (hostLeaky_at _ 0x3C23D70A#32 _ (ix2 r k2)).trans (congrArg (leaky _) ?_)
  refine (hostLayer_at dot_S1048576x32_S32x32_S1048576x32_1_0_0_1_n_n rfl rfl rfl rfl rfl rfl _ rw2 rb2 _ _ _ r k2).trans ?_
  refine congrArg (fun x => lin _ _ x k2) (funext fun k1 => ?_)
  refine (hostLeaky_at _ 0x3C23D70A#32 _ (ix2 r k1)).trans (congrArg (leaky _) ?_)
  refine (hostLayer_at dot_S1048576x32_S32x32_S1048576x32_1_0_0_1_n_n rfl rfl rfl rfl rfl rfl _ rw1 rb1 _ _ _ r k1).trans ?_
  refine congrArg (fun x => lin _ _ x k1) (funext fun k0 => ?_)
  refine (hostLeaky_at _ 0x3C23D70A#32 _ (ix2 r k0)).trans (congrArg (leaky _) ?_)
  refine (hostLayer_at dot_S1048576x12_S12x32_S1048576x32_1_0_0_1_n_n rfl rfl rfl rfl rfl rfl _ rw0 rb0 _ _ _ r k0).trans ?_
  refine congrArg (fun x => lin _ _ x k0) (funext fun k => ?_)
  exact concat3_at light cam rgblat _ r k

end Stages

end Cert.NeuMip

end
-- ==== Proof.Bridge.lean ====
/-
  The two programs compute one function of the arguments. Pixel by pixel both are: the offset texture sampled bilinearly at
  the pixel's uv; the offset network (four dense layers of width 32 with the leaky rectifier) on that sample and the camera
  direction, giving a depth; the point moved along the camera direction by that depth over the direction's third
  component; the colour texture sampled there; the colour network on the light and camera directions and that sample.
  The kernel program runs the two networks feature-major on blocks of 131072 pixels and the reference row-major on all of
  them; a dense layer is the same sum of products in either arrangement because multiplication of extended reals is
  commutative, and the samples agree because both programs apply the same host operations to equal arrays.
-/
import proofs.«142216_j1408749273558_2_alg».proof.Proof.KI.Run
import proofs.«142216_j1408749273558_2_alg».proof.Proof.HostPay
import proofs.«142216_j1408749273558_2_alg».proof.Proof.Gen.ReferenceIdeal

noncomputable section

namespace Cert.Proof.Bridge

open Idealize.ShloMosaic Idealize.ShloMosaic.TcCoe Idealize.SL.Sem Idealize.ShloMosaic.ValueIdx
open Cert.NeuMip Cert.NeuMipHost Cert.KernelIdeal.Hand

variable (m : (ℓ : Loc Cert.KernelIdeal.nD Cert.KernelIdeal.τ Cert.KernelIdeal.sig) → Buf (Elt Ideal) ℓ) (c : Dev Cert.KernelIdeal.nD)

/-! ## The argument arrays as the kernel program finds them -/

abbrev A0 : FVec Ideal Cert.ReferenceIdeal.S1048576x2 .f32 := m ((c.tc : Thread Cert.KernelIdeal.nD Cert.KernelIdeal.τ).loc Cert.KernelIdeal.main_arg0)
abbrev A1 : FVec Ideal Cert.ReferenceIdeal.S1048576x2 .f32 := m ((c.tc : Thread Cert.KernelIdeal.nD Cert.KernelIdeal.τ).loc Cert.KernelIdeal.main_arg1)
abbrev A2 : FVec Ideal Cert.ReferenceIdeal.S1048576x2 .f32 := m ((c.tc : Thread Cert.KernelIdeal.nD Cert.KernelIdeal.τ).loc Cert.KernelIdeal.main_arg2)
abbrev A3 : FVec Ideal Cert.ReferenceIdeal.S512x512x8 .f32 := m ((c.tc : Thread Cert.KernelIdeal.nD Cert.KernelIdeal.τ).loc Cert.KernelIdeal.main_arg3)
abbrev A4 : FVec Ideal Cert.ReferenceIdeal.S512x512x8 .f32 := m ((c.tc : Thread Cert.KernelIdeal.nD Cert.KernelIdeal.τ).loc Cert.KernelIdeal.main_arg4)
abbrev A5 : FVec Ideal Cert.ReferenceIdeal.S32x10 .f32 := m ((c.tc : Thread Cert.KernelIdeal.nD Cert.KernelIdeal.τ).loc Cert.KernelIdeal.main_arg5)
abbrev A6 : FVec Ideal Cert.ReferenceIdeal.S32 .f32 := m ((c.tc : Thread Cert.KernelIdeal.nD Cert.KernelIdeal.τ).loc Cert.KernelIdeal.main_arg6)
abbrev A7 : FVec Ideal Cert.ReferenceIdeal.S32x32 .f32 := m ((c.tc : Thread Cert.KernelIdeal.nD Cert.KernelIdeal.τ).loc Cert.KernelIdeal.main_arg7)
abbrev A8 : FVec Ideal Cert.ReferenceIdeal.S32 .f32 := m ((c.tc : Thread Cert.KernelIdeal.nD Cert.KernelIdeal.τ).loc Cert.KernelIdeal.main_arg8)
abbrev A9 : FVec Ideal Cert.ReferenceIdeal.S32x32 .f32 := m ((c.tc : Thread Cert.KernelIdeal.nD Cert.KernelIdeal.τ).loc Cert.KernelIdeal.main_arg9)
abbrev A10 : FVec Ideal Cert.ReferenceIdeal.S32 .f32 := m ((c.tc : Thread Cert.KernelIdeal.nD Cert.KernelIdeal.τ).loc Cert.KernelIdeal.main_arg10)
abbrev A11 : FVec Ideal Cert.ReferenceIdeal.S1x32 .f32 := m ((c.tc : Thread Cert.KernelIdeal.nD Cert.KernelIdeal.τ).loc Cert.KernelIdeal.main_arg11)
abbrev A12 : FVec Ideal Cert.ReferenceIdeal.S1 .f32 := m ((c.tc : Thread Cert.KernelIdeal.nD Cert.KernelIdeal.τ).loc Cert.KernelIdeal.main_arg12)
abbrev A13 : FVec Ideal Cert.ReferenceIdeal.S32x12 .f32 := m ((c.tc : Thread Cert.KernelIdeal.nD Cert.KernelIdeal.τ).loc Cert.KernelIdeal.main_arg13)
abbrev A14 : FVec Ideal Cert.ReferenceIdeal.S32 .f32 := m ((c.tc : Thread Cert.KernelIdeal.nD Cert.KernelIdeal.τ).loc Cert.KernelIdeal.main_arg14)
abbrev A15 : FVec Ideal Cert.ReferenceIdeal.S32x32 .f32 := m ((c.tc : Thread Cert.KernelIdeal.nD Cert.KernelIdeal.τ).loc Cert.KernelIdeal.main_arg15)
abbrev A16 : FVec Ideal Cert.ReferenceIdeal.S32 .f32 := m ((c.tc : Thread Cert.KernelIdeal.nD Cert.KernelIdeal.τ).loc Cert.KernelIdeal.main_arg16)
abbrev A17 : FVec Ideal Cert.ReferenceIdeal.S32x32 .f32 := m ((c.tc : Thread Cert.KernelIdeal.nD Cert.KernelIdeal.τ).loc Cert.KernelIdeal.main_arg17)
abbrev A18 : FVec Ideal Cert.ReferenceIdeal.S32 .f32 := m ((c.tc : Thread Cert.KernelIdeal.nD Cert.KernelIdeal.τ).loc Cert.KernelIdeal.main_arg18)
abbrev A19 : FVec Ideal Cert.ReferenceIdeal.S3x32 .f32 := m ((c.tc : Thread Cert.KernelIdeal.nD Cert.KernelIdeal.τ).loc Cert.KernelIdeal.main_arg19)
abbrev A20 : FVec Ideal Cert.ReferenceIdeal.S3 .f32 := m ((c.tc : Thread Cert.KernelIdeal.nD Cert.KernelIdeal.τ).loc Cert.KernelIdeal.main_arg20)

/-- The first texture sample, as the kernel program's host code leaves it. -/
abbrev OL : FVec Ideal Cert.ReferenceIdeal.S1048576x8 .f32 := W9 m c (Proc.devRef .tc Cert.KernelIdeal.main_v108)
/-- The moved sampling point. -/
abbrev UV2 : FVec Ideal Cert.ReferenceIdeal.S1048576x2 .f32 := X19 m c (Proc.devRef .tc Cert.KernelIdeal.main_v118)
/-- The second texture sample. -/
abbrev RL : FVec Ideal Cert.ReferenceIdeal.S1048576x8 .f32 := X19 m c (Proc.devRef .tc Cert.KernelIdeal.main_v227)
/-- The kernel program's result. -/
abbrev OUT : FVec Ideal Cert.ReferenceIdeal.S1048576x3 .f32 := X21 m c (Proc.devRef .tc Cert.KernelIdeal.main_v236)

abbrev slope : EReal := Ideal.ofBits .f32 0x3C23D70A#32
abbrev one : EReal := Ideal.ofBits .f32 0x3F800000#32
abbrev eps : EReal := Ideal.ofBits .f32 0x358637BD#32

/-- The reference's function of the arguments is the kernel program's result, given: the two texture samples of the
    kernel program as the shared sampling function of their inputs, the moved point and the result read pixel by pixel. -/
theorem refOut_eq
    (hOL : OL m c = bilin (A3 m c) (A2 m c))
    (hRL : RL m c = bilin (A4 m c) (UV2 m c))
    (hUv2 : ∀ (B : Fin 1048576) (a : Fin 2), UV2 m c (ix2 B a)
      = offsetUv (fun i : Fin 2 => A0 m c (ix2 B i)) (fun i : Fin 2 => A2 m c (ix2 B i))
          (mlp4 (fun (j : Fin 32) (i : Fin 10) => A5 m c (ix2 j i)) (fun (j : Fin 32) => A6 m c (ix1 j)) (fun (j : Fin 32) (i : Fin 32) => A7 m c (ix2 j i)) (fun (j : Fin 32) => A8 m c (ix1 j)) (fun (j : Fin 32) (i : Fin 32) => A9 m c (ix2 j i)) (fun (j : Fin 32) => A10 m c (ix1 j)) (fun (j : Fin 1) (i : Fin 32) => A11 m c (ix2 j i)) (fun (j : Fin 1) => A12 m c (ix1 j)) slope
            (fun k : Fin 10 => row2 (fun i : Fin 8 => OL m c (ix2 B i)) (fun i : Fin 2 => A0 m c (ix2 B i)) k.val) (0 : Fin 1)) one eps a)
    (hOut : ∀ (B : Fin 1048576) (j : Fin 3), OUT m c (ix2 B j)
      = mlp4 (fun (j : Fin 32) (i : Fin 12) => A13 m c (ix2 j i)) (fun (j : Fin 32) => A14 m c (ix1 j)) (fun (j : Fin 32) (i : Fin 32) => A15 m c (ix2 j i)) (fun (j : Fin 32) => A16 m c (ix1 j)) (fun (j : Fin 32) (i : Fin 32) => A17 m c (ix2 j i)) (fun (j : Fin 32) => A18 m c (ix1 j)) (fun (j : Fin 3) (i : Fin 32) => A19 m c (ix2 j i)) (fun (j : Fin 3) => A20 m c (ix1 j)) slope
          (fun k : Fin 12 => row3 (fun i : Fin 2 => A1 m c (ix2 B i)) (fun i : Fin 2 => A0 m c (ix2 B i)) (fun i : Fin 8 => RL m c (ix2 B i)) k.val) j) :
    refOut (F := Ideal) (A0 m c) (A1 m c) (A2 m c) (A3 m c) (A4 m c) (A5 m c) (A6 m c) (A7 m c) (A8 m c) (A9 m c) (A10 m c) (A11 m c) (A12 m c)
      (A13 m c) (A14 m c) (A15 m c) (A16 m c) (A17 m c) (A18 m c) (A19 m c) (A20 m c) = OUT m c := by
  have e1 : UV2 m c = uv2Of (A2 m c) (A0 m c) (offMlp (bilin (A3 m c) (A2 m c)) (A0 m c) (A5 m c) (A6 m c) (A7 m c) (A8 m c) (A9 m c) (A10 m c) (A11 m c) (A12 m c)) := by
    funext i
    obtain ⟨B, a, rfl⟩ : ∃ (B : Fin 1048576) (a : Fin 2), i = ix2 B a := ⟨i 0, i 1, eq_ix2 i⟩
    rw [hUv2 B a, uv2Of_at, offMlp_at, hOL]
  funext i
  obtain ⟨B, j, rfl⟩ : ∃ (B : Fin 1048576) (j : Fin 3), i = ix2 B j := ⟨i 0, i 1, eq_ix2 i⟩
  rw [hOut B j]
  unfold refOut
  rw [rgbMlp_at, hRL, e1]

end Cert.Proof.Bridge

end
-- ==== Proof.KI.Arr0.lean ====
import proofs.«142216_j1408749273558_2_alg».proof.Proof.KI.Region0
import Idealize.ShloMosaic.Lib.Pipeline.Value
import Idealize.ShloMosaic.Lib.ValueIdx

/-!
# Pipeline 0: the output array after the region, index by index

The output window's array has 2 rows and 1048576 columns; the grid's 8 points write it back in blocks of 131072
columns, point `t` the columns `t * 131072 … t * 131072 + 131071`. So the array ends holding, at row `a` and column
`Q`, the body's result at point `Q / 131072` read at row `a` and column `Q % 131072`: every index lies in exactly
that point's block, and what the point writes back is its block of this one whole-array function. The moving input
window's block at point `t` is the same stretch of columns of its array; the other eight input windows' blocks are
their whole arrays at every point.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

variable (V : (c : Dev nD) → (b : Ref sig .tc) → Buf (Elt F) ((c : Thread nD τ).loc b))

/-! ## Points and columns -/

theorem hz0 : (![0, 0] : Fin 2 → Nat) = fun _ => 0 := funext fun a => by fin_cases a <;> rfl

/-- A point of the 8-point grid as a point of the pipeline's grid. -/
theorem lt_N0 (t : Fin 8) : t.val < cfg0.N := by rw [show cfg0.N = 8 from N_0]; exact t.isLt

/-- Column `q` of block `t` is a column of the array. -/
theorem col_lt0 (t : Fin 8) (q : Fin 131072) : t.val * 131072 + q.val < 1048576 := by
  have := t.isLt; have := q.isLt; omega

/-- The grid point whose block holds column `Q`. -/
def pt0 (Q : Fin 1048576) : Fin cfg0.N :=
  ⟨Q.val / 131072, by rw [show cfg0.N = 8 from N_0]; have := Q.isLt; omega⟩

theorem pt0_val (Q : Fin 1048576) : (pt0 Q).val = Q.val / 131072 := rfl

/-! ## The whole-array function -/

/-- The body's result at point `t`: what it leaves in the output buffer, from the nine input blocks there. -/
def res0 (c : Dev nD) (t : Fin cfg0.N) : Vec F S2x131072 .f32 :=
  out0_9 (iblk0 V c 0 t) (iblk0 V c 1 t) (iblk0 V c 2 t) (iblk0 V c 3 t) (iblk0 V c 4 t) (iblk0 V c 5 t) (iblk0 V c 6 t) (iblk0 V c 7 t) (iblk0 V c 8 t)

theorem res0_eq (c : Dev nD) (t : Fin cfg0.N) : res0 V c t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := rfl

/-- The output array as one function of its index: at row `a`, column `Q`, the body's result at the point whose
    block holds the column, read at row `a` and the column's place inside the block. -/
def G0 (c : Dev nD) : S2x1048576.Idx → Elt F .f32 := fun i =>
  res0 V c (pt0 ⟨(i 1).val, (i 1).isLt⟩)
    (ix2 (n0 := 2) (n1 := 131072) ⟨(i 0).val, (i 0).isLt⟩ ⟨(i 1).val % 131072, Nat.mod_lt _ (by decide)⟩)

theorem G0_apply (c : Dev nD) (i : S2x1048576.Idx) :
    G0 V c i = res0 V c (pt0 ⟨(i 1).val, (i 1).isLt⟩)
      (ix2 (n0 := 2) (n1 := 131072) ⟨(i 0).val, (i 0).isLt⟩ ⟨(i 1).val % 131072, Nat.mod_lt _ (by decide)⟩) := rfl

/-- What a write-back of the output buffer holding `X` writes, at a block index: `X` there (the window is uncut). -/
theorem cut0_apply (X : Vec F S2x131072 .f32) (t : Fin cfg0.N) (j : ((cfg0.win 9).xblock (grid0.coords t)).Idx) :
    (cfg0.win 9).cut (grid0.coords t) X j = X j := rfl

/-- Point `t`'s block of an array `g`, at a block index: `g` at that index's place in the array. -/
theorem read_blk0_apply (g : S2x1048576.Idx → Elt F .f32) (t : Fin cfg0.N) (j : ((cfg0.win 9).xblock (grid0.coords t)).Idx) :
    ((cfg0.win 9).blk t).view.read (Elt F) g j = g (((cfg0.win 9).blk t).view.emb j) := rfl

/-! ## The index maps, decided over the grid -/

/-- The output window's block index at point `t` is `(0, t)`; so is the moving input window's. -/
theorem idx_move0 : ∀ t : Fin cfg0.N, win0_9.index t (0 : Fin 2) = 0 ∧ win0_9.index t (1 : Fin 2) = t.val
    ∧ win0_0.index t (0 : Fin 2) = 0 ∧ win0_0.index t (1 : Fin 2) = t.val :=
  (by decide +kernel : ∀ t : Fin grid0.N, _)

/-- The other input windows' block index is `(0, 0)` at every point. -/
theorem idx_const0 : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## What a point writes back is its block of the whole-array function -/

theorem flushed0_eq (c : Dev nD) (t : Fin cfg0.N) :
    (dat0 V c).flushed 9 t = ((cfg0.win 9).blk t).view.read (Elt F) (G0 V c) := by
  show (cfg0.win 9).cut (grid0.coords t) ((dat0 V c).after 9 t) = _
  rw [after0_9]
  obtain ⟨e0, e1, -, -⟩ := idx_move0 t
  funext j
  rw [cut0_apply, read_blk0_apply, G0_apply, ← res0_eq V c t]
  have hj0 : (j 0).val < 2 := (j 0).isLt
  have hj1 : (j 1).val < 131072 := (j 1).isLt
  have hq0 : ((((cfg0.win 9).blk t).view.emb j) 0).val = (j 0).val := by
    show win0_9.index t (0 : Fin 2) * 2 + 1 * (j 0).val = (j 0).val
    rw [e0]; omega
  have hq1 : ((((cfg0.win 9).blk t).view.emb j) 1).val = t.val * 131072 + (j 1).val := by
    show win0_9.index t (1 : Fin 2) * 131072 + 1 * (j 1).val = t.val * 131072 + (j 1).val
    rw [e1]; omega
  have ht : pt0 ⟨((((cfg0.win 9).blk t).view.emb j) 1).val, ((((cfg0.win 9).blk t).view.emb j) 1).isLt⟩ = t :=
    Fin.ext (by rw [pt0_val]; show ((((cfg0.win 9).blk t).view.emb j) 1).val / 131072 = t.val; rw [hq1]; omega)
  have hj : ix2 (n0 := 2) (n1 := 131072) ⟨((((cfg0.win 9).blk t).view.emb j) 0).val, ((((cfg0.win 9).blk t).view.emb j) 0).isLt⟩
      ⟨((((cfg0.win 9).blk t).view.emb j) 1).val % 131072, Nat.mod_lt _ (by decide)⟩ = j := by
    funext a; apply Fin.ext
    match a with
    | ⟨0, _⟩ => exact hq0
    | ⟨1, _⟩ => show ((((cfg0.win 9).blk t).view.emb j) 1).val % 131072 = (j 1).val; rw [hq1]; omega
  exact (congrArg₂ (fun t' j' => res0 V c t' j') ht hj).symm

/-! ## Every index is in some point's block -/

/-- An index of the array is in point `t`'s block iff each coordinate is in the block's range on its axis. -/
theorem mem_blk0 (t : Fin cfg0.N) (i : S2x1048576.Idx) :
    i ∈ ((cfg0.win 9).blk t).view.set ↔ ∀ a : Fin 2, win0_9.index t a * S2x131072.size a ≤ (i a).val ∧ (i a).val < win0_9.index t a * S2x131072.size a + S2x131072.size a := by
  show i ∈ ((View.whole main_v117).slice (win0_9.rect t)).set ↔ _
  rw [View.set_slice_whole, Rect.mem_set_unit]
  exact Iff.rfl

/-- Column `Q` lies in the block of point `Q / 131072`, which writes it back. -/
theorem cover0 (i : S2x1048576.Idx) :
    ∃ t : Fin cfg0.N, (cfg0.win 9).flush t = true ∧ i ∈ ((cfg0.win 9).blk t).view.set := by
  have hi0 : (i 0).val < 2 := (i 0).isLt
  have hi1 : (i 1).val < 1048576 := (i 1).isLt
  refine ⟨pt0 ⟨(i 1).val, hi1⟩, flush0_9 _, ?_⟩
  rw [mem_blk0]
  obtain ⟨e0, e1, -, -⟩ := idx_move0 (pt0 ⟨(i 1).val, hi1⟩)
  rw [pt0_val] at e1
  intro a
  match a with
  | ⟨0, _⟩ =>
    show win0_9.index (pt0 ⟨(i 1).val, hi1⟩) (0 : Fin 2) * 2 ≤ (i 0).val ∧ (i 0).val < win0_9.index (pt0 ⟨(i 1).val, hi1⟩) (0 : Fin 2) * 2 + 2
    rw [e0]; omega
  | ⟨1, _⟩ =>
    show win0_9.index (pt0 ⟨(i 1).val, hi1⟩) (1 : Fin 2) * 131072 ≤ (i 1).val ∧ (i 1).val < win0_9.index (pt0 ⟨(i 1).val, hi1⟩) (1 : Fin 2) * 131072 + 131072
    rw [e1]; show (i 1).val / 131072 * 131072 ≤ (i 1).val ∧ (i 1).val < (i 1).val / 131072 * 131072 + 131072; omega

/-! ## The array after the region -/

/-- The output array after the region's last point is the whole-array function. -/
theorem arr0 (c : Dev nD) : (dat0 V c).arrAt 9 cfg0.N = G0 V c :=
  (dat0 V c).arrAt_eq_of_cover 9 (G0 V c) (fun t _ => flushed0_eq V c t) (cover0)

/-- The whole-array function at row `a`, column `q` of block `t`: the body's result at point `t` there. -/
theorem G0_at (c : Dev nD) (a : Fin 2) (t : Fin 8) (q : Fin 131072) :
    G0 V c (ix2 a ⟨t.val * 131072 + q.val, col_lt0 t q⟩)
      = out0_9 (iblk0 V c 0 ⟨t.val, lt_N0 t⟩) (iblk0 V c 1 ⟨t.val, lt_N0 t⟩) (iblk0 V c 2 ⟨t.val, lt_N0 t⟩) (iblk0 V c 3 ⟨t.val, lt_N0 t⟩) (iblk0 V c 4 ⟨t.val, lt_N0 t⟩) (iblk0 V c 5 ⟨t.val, lt_N0 t⟩) (iblk0 V c 6 ⟨t.val, lt_N0 t⟩) (iblk0 V c 7 ⟨t.val, lt_N0 t⟩) (iblk0 V c 8 ⟨t.val, lt_N0 t⟩) (ix2 a q) := by
  have hq : q.val < 131072 := q.isLt
  have ht : pt0 ⟨t.val * 131072 + q.val, col_lt0 t q⟩ = ⟨t.val, lt_N0 t⟩ :=
    Fin.ext (by rw [pt0_val]; show (t.val * 131072 + q.val) / 131072 = t.val; omega)
  have hj : ix2 (n0 := 2) (n1 := 131072) ⟨a.val, a.isLt⟩ ⟨(t.val * 131072 + q.val) % 131072, Nat.mod_lt _ (by decide)⟩ = ix2 a q := by
    funext d
    match d with
    | ⟨0, _⟩ => rfl
    | ⟨1, _⟩ => exact Fin.ext (by show (t.val * 131072 + q.val) % 131072 = q.val; omega)
  exact congrArg₂ (fun t' j' => res0 V c t' j') ht hj

/-! ## The input windows' blocks as parts of their arrays -/

/-- The moving window's block at point `t` is columns `t * 131072 …` of its array. -/
theorem iblk0_0_at (c : Dev nD) (k : Fin 12) (t : Fin 8) (q : Fin 131072) :
    (iblk0 V c 0 ⟨t.val, lt_N0 t⟩ : Vec F S12x131072 .f32) (ix2 k q)
      = (V c (Pipeline.arrRef spec0 0) : S12x1048576.Idx → Elt F .f32) (ix2 k ⟨t.val * 131072 + q.val, col_lt0 t q⟩) := by
  obtain ⟨-, -, e0, e1⟩ := idx_move0 ⟨t.val, lt_N0 t⟩
  unfold iblk0
  rw [View.read_apply]
  show V c (Pipeline.arrRef spec0 0) _ = V c (Pipeline.arrRef spec0 0) _
  congr 1
  funext a; apply Fin.ext
  match a with
  | ⟨0, _⟩ =>
    show win0_0.index ⟨t.val, lt_N0 t⟩ (0 : Fin 2) * 12 + 1 * k.val = k.val
    rw [e0]; omega
  | ⟨1, _⟩ =>
    show win0_0.index ⟨t.val, lt_N0 t⟩ (1 : Fin 2) * 131072 + 1 * q.val = t.val * 131072 + q.val
    rw [e1]; show t.val * 131072 + 1 * q.val = t.val * 131072 + q.val; omega

/-- Input window 1's block is its whole array, at every point. -/
theorem iblk0_1 (c : Dev nD) (t : Fin cfg0.N) :
    (iblk0 V c 1 t : S32x10.Idx → Elt F .f32) = (V c (Pipeline.arrRef spec0 1) : S32x10.Idx → Elt F .f32) := by
  obtain ⟨e0, e1, -, -, -, -, -, -, -, -, -, -, -, -, -, -⟩ := idx_const0 t
  funext x
  unfold iblk0
  rw [View.read_apply]
  show V c (Pipeline.arrRef spec0 1) _ = V c (Pipeline.arrRef spec0 1) x
  congr 1
  funext a; apply Fin.ext
  match a with
  | ⟨0, _⟩ => show win0_1.index t (0 : Fin 2) * 32 + 1 * (x 0).val = (x 0).val; rw [e0]; omega
  | ⟨1, _⟩ => show win0_1.index t (1 : Fin 2) * 10 + 1 * (x 1).val = (x 1).val; rw [e1]; omega

/-- Input window 2's block is its whole array, at every point. -/
theorem iblk0_2 (c : Dev nD) (t : Fin cfg0.N) :
    (iblk0 V c 2 t : S32x1.Idx → Elt F .f32) = (V c (Pipeline.arrRef spec0 2) : S32x1.Idx → Elt F .f32) := by
  obtain ⟨-, -, e0, e1, -, -, -, -, -, -, -, -, -, -, -, -⟩ := idx_const0 t
  funext x
  unfold iblk0
  rw [View.read_apply]
  show V c (Pipeline.arrRef spec0 2) _ = V c (Pipeline.arrRef spec0 2) x
  congr 1
  funext a; apply Fin.ext
  match a with
  | ⟨0, _⟩ => show win0_2.index t (0 : Fin 2) * 32 + 1 * (x 0).val = (x 0).val; rw [e0]; omega
  | ⟨1, _⟩ => show win0_2.index t (1 : Fin 2) * 1 + 1 * (x 1).val = (x 1).val; rw [e1]; omega

/-- Input window 3's block is its whole array, at every point. -/
theorem iblk0_3 (c : Dev nD) (t : Fin cfg0.N) :
    (iblk0 V c 3 t : S32x32.Idx → Elt F .f32) = (V c (Pipeline.arrRef spec0 3) : S32x32.Idx → Elt F .f32) := by
  obtain ⟨-, -, -, -, e0, e1, -, -, -, -, -, -, -, -, -, -⟩ := idx_const0 t
  funext x
  unfold iblk0
  rw [View.read_apply]
  show V c (Pipeline.arrRef spec0 3) _ = V c (Pipeline.arrRef spec0 3) x
  congr 1
  funext a; apply Fin.ext
  match a with
  | ⟨0, _⟩ => show win0_3.index t (0 : Fin 2) * 32 + 1 * (x 0).val = (x 0).val; rw [e0]; omega
  | ⟨1, _⟩ => show win0_3.index t (1 : Fin 2) * 32 + 1 * (x 1).val = (x 1).val; rw [e1]; omega

/-- Input window 4's block is its whole array, at every point. -/
theorem iblk0_4 (c : Dev nD) (t : Fin cfg0.N) :
    (iblk0 V c 4 t : S32x1.Idx → Elt F .f32) = (V c (Pipeline.arrRef spec0 4) : S32x1.Idx → Elt F .f32) := by
  obtain ⟨-, -, -, -, -, -, e0, e1, -, -, -, -, -, -, -, -⟩ := idx_const0 t
  funext x
  unfold iblk0
  rw [View.read_apply]
  show V c (Pipeline.arrRef spec0 4) _ = V c (Pipeline.arrRef spec0 4) x
  congr 1
  funext a; apply Fin.ext
  match a with
  | ⟨0, _⟩ => show win0_4.index t (0 : Fin 2) * 32 + 1 * (x 0).val = (x 0).val; rw [e0]; omega
  | ⟨1, _⟩ => show win0_4.index t (1 : Fin 2) * 1 + 1 * (x 1).val = (x 1).val; rw [e1]; omega

/-- Input window 5's block is its whole array, at every point. -/
theorem iblk0_5 (c : Dev nD) (t : Fin cfg0.N) :
    (iblk0 V c 5 t : S32x32.Idx → Elt F .f32) = (V c (Pipeline.arrRef spec0 5) : S32x32.Idx → Elt F .f32) := by
  obtain ⟨-, -, -, -, -, -, -, -, e0, e1, -, -, -, -, -, -⟩ := idx_const0 t
  funext x
  unfold iblk0
  rw [View.read_apply]
  show V c (Pipeline.arrRef spec0 5) _ = V c (Pipeline.arrRef spec0 5) x
  congr 1
  funext a; apply Fin.ext
  match a with
  | ⟨0, _⟩ => show win0_5.index t (0 : Fin 2) * 32 + 1 * (x 0).val = (x 0).val; rw [e0]; omega
  | ⟨1, _⟩ => show win0_5.index t (1 : Fin 2) * 32 + 1 * (x 1).val = (x 1).val; rw [e1]; omega

/-- Input window 6's block is its whole array, at every point. -/
theorem iblk0_6 (c : Dev nD) (t : Fin cfg0.N) :
    (iblk0 V c 6 t : S32x1.Idx → Elt F .f32) = (V c (Pipeline.arrRef spec0 6) : S32x1.Idx → Elt F .f32) := by
  obtain ⟨-, -, -, -, -, -, -, -, -, -, e0, e1, -, -, -, -⟩ := idx_const0 t
  funext x
  unfold iblk0
  rw [View.read_apply]
  show V c (Pipeline.arrRef spec0 6) _ = V c (Pipeline.arrRef spec0 6) x
  congr 1
  funext a; apply Fin.ext
  match a with
  | ⟨0, _⟩ => show win0_6.index t (0 : Fin 2) * 32 + 1 * (x 0).val = (x 0).val; rw [e0]; omega
  | ⟨1, _⟩ => show win0_6.index t (1 : Fin 2) * 1 + 1 * (x 1).val = (x 1).val; rw [e1]; omega

/-- Input window 7's block is its whole array, at every point. -/
theorem iblk0_7 (c : Dev nD) (t : Fin cfg0.N) :
    (iblk0 V c 7 t : S1x32.Idx → Elt F .f32) = (V c (Pipeline.arrRef spec0 7) : S1x32.Idx → Elt F .f32) := by
  obtain ⟨-, -, -, -, -, -, -, -, -, -, -, -, e0, e1, -, -⟩ := idx_const0 t
  funext x
  unfold iblk0
  rw [View.read_apply]
  show V c (Pipeline.arrRef spec0 7) _ = V c (Pipeline.arrRef spec0 7) x
  congr 1
  funext a; apply Fin.ext
  match a with
  | ⟨0, _⟩ => show win0_7.index t (0 : Fin 2) * 1 + 1 * (x 0).val = (x 0).val; rw [e0]; omega
  | ⟨1, _⟩ => show win0_7.index t (1 : Fin 2) * 32 + 1 * (x 1).val = (x 1).val; rw [e1]; omega

/-- Input window 8's block is its whole array, at every point. -/
theorem iblk0_8 (c : Dev nD) (t : Fin cfg0.N) :
    (iblk0 V c 8 t : S1x1.Idx → Elt F .f32) = (V c (Pipeline.arrRef spec0 8) : S1x1.Idx → Elt F .f32) := by
  obtain ⟨-, -, -, -, -, -, -, -, -, -, -, -, -, -, e0, e1⟩ := idx_const0 t
  funext x
  unfold iblk0
  rw [View.read_apply]
  show V c (Pipeline.arrRef spec0 8) _ = V c (Pipeline.arrRef spec0 8) x
  congr 1
  funext a; apply Fin.ext
  match a with
  | ⟨0, _⟩ => show win0_8.index t (0 : Fin 2) * 1 + 1 * (x 0).val = (x 0).val; rw [e0]; omega
  | ⟨1, _⟩ => show win0_8.index t (1 : Fin 2) * 1 + 1 * (x 1).val = (x 1).val; rw [e1]; omega

/-! ## The body's result as its payload -/

/-- One store over the whole buffer leaves its payload, and a load of a whole buffer reads its contents: the
    body's result is the payload chain over the input blocks themselves. -/
theorem out0_9_eq (x0 : Vec F S12x131072 .f32) (x1 : Vec F S32x10 .f32) (x2 : Vec F S32x1 .f32) (x3 : Vec F S32x32 .f32) (x4 : Vec F S32x1 .f32) (x5 : Vec F S32x32 .f32) (x6 : Vec F S32x1 .f32) (x7 : Vec F S1x32 .f32) (x8 : Vec F S1x1 .f32) :
    out0_9 x0 x1 x2 x3 x4 x5 x6 x7 x8 = k0_pay1 (k0_pay3 x0) (k0_pay4 x0) (k0_pay5 x0 x1 x2 x3 x4 x5 x6) (k0_pay6 x0 x1 x2 x3 x4 x5 x6) (k0_pay7 (F := F)) x7 x8 := by
  unfold out0_9
  rw [View.canon_unit_zero hz0]
  simp only [View.ld_unit_zero (S := S12x131072) hz0, View.ld_unit_zero (S := S32x10) hz0, View.ld_unit_zero (S := S32x1) hz0, View.ld_unit_zero (S := S32x32) hz0, View.ld_unit_zero (S := S1x32) hz0, View.ld_unit_zero (S := S1x1) hz0]

end Cert.KernelIdeal.Hand

end
-- ==== Proof.KI.Arr1.lean ====
import proofs.«142216_j1408749273558_2_alg».proof.Proof.KI.Region1
import Idealize.ShloMosaic.Lib.Pipeline.Value
import Idealize.ShloMosaic.Lib.ValueIdx

/-!
# Pipeline 1: the output array after the region, index by index

The output window's array has 3 rows and 1048576 columns; the grid's 8 points write it back in blocks of 131072
columns, point `t` the columns `t * 131072 … t * 131072 + 131071`. So the array ends holding, at row `a` and column
`Q`, the body's result at point `Q / 131072` read at row `a` and column `Q % 131072`: every index lies in exactly
that point's block, and what the point writes back is its block of this one whole-array function. The moving input
window's block at point `t` is the same stretch of columns of its array; the other eight input windows' blocks are
their whole arrays at every point.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

variable (V : (c : Dev nD) → (b : Ref sig .tc) → Buf (Elt F) ((c : Thread nD τ).loc b))

/-! ## Points and columns -/

theorem hz1 : (![0, 0] : Fin 2 → Nat) = fun _ => 0 := funext fun a => by fin_cases a <;> rfl

/-- A point of the 8-point grid as a point of the pipeline's grid. -/
theorem lt_N1 (t : Fin 8) : t.val < cfg1.N := by rw [show cfg1.N = 8 from N_1]; exact t.isLt

/-- Column `q` of block `t` is a column of the array. -/
theorem col_lt1 (t : Fin 8) (q : Fin 131072) : t.val * 131072 + q.val < 1048576 := by
  have := t.isLt; have := q.isLt; omega

/-- The grid point whose block holds column `Q`. -/
def pt1 (Q : Fin 1048576) : Fin cfg1.N :=
  ⟨Q.val / 131072, by rw [show cfg1.N = 8 from N_1]; have := Q.isLt; omega⟩

theorem pt1_val (Q : Fin 1048576) : (pt1 Q).val = Q.val / 131072 := rfl

/-! ## The whole-array function -/

/-- The body's result at point `t`: what it leaves in the output buffer, from the nine input blocks there. -/
def res1 (c : Dev nD) (t : Fin cfg1.N) : Vec F S3x131072 .f32 :=
  out1_9 (iblk1 V c 0 t) (iblk1 V c 1 t) (iblk1 V c 2 t) (iblk1 V c 3 t) (iblk1 V c 4 t) (iblk1 V c 5 t) (iblk1 V c 6 t) (iblk1 V c 7 t) (iblk1 V c 8 t)

theorem res1_eq (c : Dev nD) (t : Fin cfg1.N) : res1 V c t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := rfl

/-- The output array as one function of its index: at row `a`, column `Q`, the body's result at the point whose
    block holds the column, read at row `a` and the column's place inside the block. -/
def G1 (c : Dev nD) : S3x1048576.Idx → Elt F .f32 := fun i =>
  res1 V c (pt1 ⟨(i 1).val, (i 1).isLt⟩)
    (ix2 (n0 := 3) (n1 := 131072) ⟨(i 0).val, (i 0).isLt⟩ ⟨(i 1).val % 131072, Nat.mod_lt _ (by decide)⟩)

theorem G1_apply (c : Dev nD) (i : S3x1048576.Idx) :
    G1 V c i = res1 V c (pt1 ⟨(i 1).val, (i 1).isLt⟩)
      (ix2 (n0 := 3) (n1 := 131072) ⟨(i 0).val, (i 0).isLt⟩ ⟨(i 1).val % 131072, Nat.mod_lt _ (by decide)⟩) := rfl

/-- What a write-back of the output buffer holding `X` writes, at a block index: `X` there (the window is uncut). -/
theorem cut1_apply (X : Vec F S3x131072 .f32) (t : Fin cfg1.N) (j : ((cfg1.win 9).xblock (grid1.coords t)).Idx) :
    (cfg1.win 9).cut (grid1.coords t) X j = X j := rfl

/-- Point `t`'s block of an array `g`, at a block index: `g` at that index's place in the array. -/
theorem read_blk1_apply (g : S3x1048576.Idx → Elt F .f32) (t : Fin cfg1.N) (j : ((cfg1.win 9).xblock (grid1.coords t)).Idx) :
    ((cfg1.win 9).blk t).view.read (Elt F) g j = g (((cfg1.win 9).blk t).view.emb j) := rfl

/-! ## The index maps, decided over the grid -/

/-- The output window's block index at point `t` is `(0, t)`; so is the moving input window's. -/
theorem idx_move1 : ∀ t : Fin cfg1.N, win1_9.index t (0 : Fin 2) = 0 ∧ win1_9.index t (1 : Fin 2) = t.val
    ∧ win1_0.index t (0 : Fin 2) = 0 ∧ win1_0.index t (1 : Fin 2) = t.val :=
  (by decide +kernel : ∀ t : Fin grid1.N, _)

/-- The other input windows' block index is `(0, 0)` at every point. -/
theorem idx_const1 : ∀ t : Fin cfg1.N, win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-! ## What a point writes back is its block of the whole-array function -/

theorem flushed1_eq (c : Dev nD) (t : Fin cfg1.N) :
    (dat1 V c).flushed 9 t = ((cfg1.win 9).blk t).view.read (Elt F) (G1 V c) := by
  show (cfg1.win 9).cut (grid1.coords t) ((dat1 V c).after 9 t) = _
  rw [after1_9]
  obtain ⟨e0, e1, -, -⟩ := idx_move1 t
  funext j
  rw [cut1_apply, read_blk1_apply, G1_apply, ← res1_eq V c t]
  have hj0 : (j 0).val < 3 := (j 0).isLt
  have hj1 : (j 1).val < 131072 := (j 1).isLt
  have hq0 : ((((cfg1.win 9).blk t).view.emb j) 0).val = (j 0).val := by
    show win1_9.index t (0 : Fin 2) * 3 + 1 * (j 0).val = (j 0).val
    rw [e0]; omega
  have hq1 : ((((cfg1.win 9).blk t).view.emb j) 1).val = t.val * 131072 + (j 1).val := by
    show win1_9.index t (1 : Fin 2) * 131072 + 1 * (j 1).val = t.val * 131072 + (j 1).val
    rw [e1]; omega
  have ht : pt1 ⟨((((cfg1.win 9).blk t).view.emb j) 1).val, ((((cfg1.win 9).blk t).view.emb j) 1).isLt⟩ = t :=
    Fin.ext (by rw [pt1_val]; show ((((cfg1.win 9).blk t).view.emb j) 1).val / 131072 = t.val; rw [hq1]; omega)
  have hj : ix2 (n0 := 3) (n1 := 131072) ⟨((((cfg1.win 9).blk t).view.emb j) 0).val, ((((cfg1.win 9).blk t).view.emb j) 0).isLt⟩
      ⟨((((cfg1.win 9).blk t).view.emb j) 1).val % 131072, Nat.mod_lt _ (by decide)⟩ = j := by
    funext a; apply Fin.ext
    match a with
    | ⟨0, _⟩ => exact hq0
    | ⟨1, _⟩ => show ((((cfg1.win 9).blk t).view.emb j) 1).val % 131072 = (j 1).val; rw [hq1]; omega
  exact (congrArg₂ (fun t' j' => res1 V c t' j') ht hj).symm

/-! ## Every index is in some point's block -/

/-- An index of the array is in point `t`'s block iff each coordinate is in the block's range on its axis. -/
theorem mem_blk1 (t : Fin cfg1.N) (i : S3x1048576.Idx) :
    i ∈ ((cfg1.win 9).blk t).view.set ↔ ∀ a : Fin 2, win1_9.index t a * S3x131072.size a ≤ (i a).val ∧ (i a).val < win1_9.index t a * S3x131072.size a + S3x131072.size a := by
  show i ∈ ((View.whole main_v235).slice (win1_9.rect t)).set ↔ _
  rw [View.set_slice_whole, Rect.mem_set_unit]
  exact Iff.rfl

/-- Column `Q` lies in the block of point `Q / 131072`, which writes it back. -/
theorem cover1 (i : S3x1048576.Idx) :
    ∃ t : Fin cfg1.N, (cfg1.win 9).flush t = true ∧ i ∈ ((cfg1.win 9).blk t).view.set := by
  have hi0 : (i 0).val < 3 := (i 0).isLt
  have hi1 : (i 1).val < 1048576 := (i 1).isLt
  refine ⟨pt1 ⟨(i 1).val, hi1⟩, flush1_9 _, ?_⟩
  rw [mem_blk1]
  obtain ⟨e0, e1, -, -⟩ := idx_move1 (pt1 ⟨(i 1).val, hi1⟩)
  rw [pt1_val] at e1
  intro a
  match a with
  | ⟨0, _⟩ =>
    show win1_9.index (pt1 ⟨(i 1).val, hi1⟩) (0 : Fin 2) * 3 ≤ (i 0).val ∧ (i 0).val < win1_9.index (pt1 ⟨(i 1).val, hi1⟩) (0 : Fin 2) * 3 + 3
    rw [e0]; omega
  | ⟨1, _⟩ =>
    show win1_9.index (pt1 ⟨(i 1).val, hi1⟩) (1 : Fin 2) * 131072 ≤ (i 1).val ∧ (i 1).val < win1_9.index (pt1 ⟨(i 1).val, hi1⟩) (1 : Fin 2) * 131072 + 131072
    rw [e1]; show (i 1).val / 131072 * 131072 ≤ (i 1).val ∧ (i 1).val < (i 1).val / 131072 * 131072 + 131072; omega

/-! ## The array after the region -/

/-- The output array after the region's last point is the whole-array function. -/
theorem arr1 (c : Dev nD) : (dat1 V c).arrAt 9 cfg1.N = G1 V c :=
  (dat1 V c).arrAt_eq_of_cover 9 (G1 V c) (fun t _ => flushed1_eq V c t) (cover1)

/-- The whole-array function at row `a`, column `q` of block `t`: the body's result at point `t` there. -/
theorem G1_at (c : Dev nD) (a : Fin 3) (t : Fin 8) (q : Fin 131072) :
    G1 V c (ix2 a ⟨t.val * 131072 + q.val, col_lt1 t q⟩)
      = out1_9 (iblk1 V c 0 ⟨t.val, lt_N1 t⟩) (iblk1 V c 1 ⟨t.val, lt_N1 t⟩) (iblk1 V c 2 ⟨t.val, lt_N1 t⟩) (iblk1 V c 3 ⟨t.val, lt_N1 t⟩) (iblk1 V c 4 ⟨t.val, lt_N1 t⟩) (iblk1 V c 5 ⟨t.val, lt_N1 t⟩) (iblk1 V c 6 ⟨t.val, lt_N1 t⟩) (iblk1 V c 7 ⟨t.val, lt_N1 t⟩) (iblk1 V c 8 ⟨t.val, lt_N1 t⟩) (ix2 a q) := by
  have hq : q.val < 131072 := q.isLt
  have ht : pt1 ⟨t.val * 131072 + q.val, col_lt1 t q⟩ = ⟨t.val, lt_N1 t⟩ :=
    Fin.ext (by rw [pt1_val]; show (t.val * 131072 + q.val) / 131072 = t.val; omega)
  have hj : ix2 (n0 := 3) (n1 := 131072) ⟨a.val, a.isLt⟩ ⟨(t.val * 131072 + q.val) % 131072, Nat.mod_lt _ (by decide)⟩ = ix2 a q := by
    funext d
    match d with
    | ⟨0, _⟩ => rfl
    | ⟨1, _⟩ => exact Fin.ext (by show (t.val * 131072 + q.val) % 131072 = q.val; omega)
  exact congrArg₂ (fun t' j' => res1 V c t' j') ht hj

/-! ## The input windows' blocks as parts of their arrays -/

/-- The moving window's block at point `t` is columns `t * 131072 …` of its array. -/
theorem iblk1_0_at (c : Dev nD) (k : Fin 12) (t : Fin 8) (q : Fin 131072) :
    (iblk1 V c 0 ⟨t.val, lt_N1 t⟩ : Vec F S12x131072 .f32) (ix2 k q)
      = (V c (Pipeline.arrRef spec1 0) : S12x1048576.Idx → Elt F .f32) (ix2 k ⟨t.val * 131072 + q.val, col_lt1 t q⟩) := by
  obtain ⟨-, -, e0, e1⟩ := idx_move1 ⟨t.val, lt_N1 t⟩
  unfold iblk1
  rw [View.read_apply]
  show V c (Pipeline.arrRef spec1 0) _ = V c (Pipeline.arrRef spec1 0) _
  congr 1
  funext a; apply Fin.ext
  match a with
  | ⟨0, _⟩ =>
    show win1_0.index ⟨t.val, lt_N1 t⟩ (0 : Fin 2) * 12 + 1 * k.val = k.val
    rw [e0]; omega
  | ⟨1, _⟩ =>
    show win1_0.index ⟨t.val, lt_N1 t⟩ (1 : Fin 2) * 131072 + 1 * q.val = t.val * 131072 + q.val
    rw [e1]; show t.val * 131072 + 1 * q.val = t.val * 131072 + q.val; omega

/-- Input window 1's block is its whole array, at every point. -/
theorem iblk1_1 (c : Dev nD) (t : Fin cfg1.N) :
    (iblk1 V c 1 t : S32x12.Idx → Elt F .f32) = (V c (Pipeline.arrRef spec1 1) : S32x12.Idx → Elt F .f32) := by
  obtain ⟨e0, e1, -, -, -, -, -, -, -, -, -, -, -, -, -, -⟩ := idx_const1 t
  funext x
  unfold iblk1
  rw [View.read_apply]
  show V c (Pipeline.arrRef spec1 1) _ = V c (Pipeline.arrRef spec1 1) x
  congr 1
  funext a; apply Fin.ext
  match a with
  | ⟨0, _⟩ => show win1_1.index t (0 : Fin 2) * 32 + 1 * (x 0).val = (x 0).val; rw [e0]; omega
  | ⟨1, _⟩ => show win1_1.index t (1 : Fin 2) * 12 + 1 * (x 1).val = (x 1).val; rw [e1]; omega

/-- Input window 2's block is its whole array, at every point. -/
theorem iblk1_2 (c : Dev nD) (t : Fin cfg1.N) :
    (iblk1 V c 2 t : S32x1.Idx → Elt F .f32) = (V c (Pipeline.arrRef spec1 2) : S32x1.Idx → Elt F .f32) := by
  obtain ⟨-, -, e0, e1, -, -, -, -, -, -, -, -, -, -, -, -⟩ := idx_const1 t
  funext x
  unfold iblk1
  rw [View.read_apply]
  show V c (Pipeline.arrRef spec1 2) _ = V c (Pipeline.arrRef spec1 2) x
  congr 1
  funext a; apply Fin.ext
  match a with
  | ⟨0, _⟩ => show win1_2.index t (0 : Fin 2) * 32 + 1 * (x 0).val = (x 0).val; rw [e0]; omega
  | ⟨1, _⟩ => show win1_2.index t (1 : Fin 2) * 1 + 1 * (x 1).val = (x 1).val; rw [e1]; omega

/-- Input window 3's block is its whole array, at every point. -/
theorem iblk1_3 (c : Dev nD) (t : Fin cfg1.N) :
    (iblk1 V c 3 t : S32x32.Idx → Elt F .f32) = (V c (Pipeline.arrRef spec1 3) : S32x32.Idx → Elt F .f32) := by
  obtain ⟨-, -, -, -, e0, e1, -, -, -, -, -, -, -, -, -, -⟩ := idx_const1 t
  funext x
  unfold iblk1
  rw [View.read_apply]
  show V c (Pipeline.arrRef spec1 3) _ = V c (Pipeline.arrRef spec1 3) x
  congr 1
  funext a; apply Fin.ext
  match a with
  | ⟨0, _⟩ => show win1_3.index t (0 : Fin 2) * 32 + 1 * (x 0).val = (x 0).val; rw [e0]; omega
  | ⟨1, _⟩ => show win1_3.index t (1 : Fin 2) * 32 + 1 * (x 1).val = (x 1).val; rw [e1]; omega

/-- Input window 4's block is its whole array, at every point. -/
theorem iblk1_4 (c : Dev nD) (t : Fin cfg1.N) :
    (iblk1 V c 4 t : S32x1.Idx → Elt F .f32) = (V c (Pipeline.arrRef spec1 4) : S32x1.Idx → Elt F .f32) := by
  obtain ⟨-, -, -, -, -, -, e0, e1, -, -, -, -, -, -, -, -⟩ := idx_const1 t
  funext x
  unfold iblk1
  rw [View.read_apply]
  show V c (Pipeline.arrRef spec1 4) _ = V c (Pipeline.arrRef spec1 4) x
  congr 1
  funext a; apply Fin.ext
  match a with
  | ⟨0, _⟩ => show win1_4.index t (0 : Fin 2) * 32 + 1 * (x 0).val = (x 0).val; rw [e0]; omega
  | ⟨1, _⟩ => show win1_4.index t (1 : Fin 2) * 1 + 1 * (x 1).val = (x 1).val; rw [e1]; omega

/-- Input window 5's block is its whole array, at every point. -/
theorem iblk1_5 (c : Dev nD) (t : Fin cfg1.N) :
    (iblk1 V c 5 t : S32x32.Idx → Elt F .f32) = (V c (Pipeline.arrRef spec1 5) : S32x32.Idx → Elt F .f32) := by
  obtain ⟨-, -, -, -, -, -, -, -, e0, e1, -, -, -, -, -, -⟩ := idx_const1 t
  funext x
  unfold iblk1
  rw [View.read_apply]
  show V c (Pipeline.arrRef spec1 5) _ = V c (Pipeline.arrRef spec1 5) x
  congr 1
  funext a; apply Fin.ext
  match a with
  | ⟨0, _⟩ => show win1_5.index t (0 : Fin 2) * 32 + 1 * (x 0).val = (x 0).val; rw [e0]; omega
  | ⟨1, _⟩ => show win1_5.index t (1 : Fin 2) * 32 + 1 * (x 1).val = (x 1).val; rw [e1]; omega

/-- Input window 6's block is its whole array, at every point. -/
theorem iblk1_6 (c : Dev nD) (t : Fin cfg1.N) :
    (iblk1 V c 6 t : S32x1.Idx → Elt F .f32) = (V c (Pipeline.arrRef spec1 6) : S32x1.Idx → Elt F .f32) := by
  obtain ⟨-, -, -, -, -, -, -, -, -, -, e0, e1, -, -, -, -⟩ := idx_const1 t
  funext x
  unfold iblk1
  rw [View.read_apply]
  show V c (Pipeline.arrRef spec1 6) _ = V c (Pipeline.arrRef spec1 6) x
  congr 1
  funext a; apply Fin.ext
  match a with
  | ⟨0, _⟩ => show win1_6.index t (0 : Fin 2) * 32 + 1 * (x 0).val = (x 0).val; rw [e0]; omega
  | ⟨1, _⟩ => show win1_6.index t (1 : Fin 2) * 1 + 1 * (x 1).val = (x 1).val; rw [e1]; omega

/-- Input window 7's block is its whole array, at every point. -/
theorem iblk1_7 (c : Dev nD) (t : Fin cfg1.N) :
    (iblk1 V c 7 t : S3x32.Idx → Elt F .f32) = (V c (Pipeline.arrRef spec1 7) : S3x32.Idx → Elt F .f32) := by
  obtain ⟨-, -, -, -, -, -, -, -, -, -, -, -, e0, e1, -, -⟩ := idx_const1 t
  funext x
  unfold iblk1
  rw [View.read_apply]
  show V c (Pipeline.arrRef spec1 7) _ = V c (Pipeline.arrRef spec1 7) x
  congr 1
  funext a; apply Fin.ext
  match a with
  | ⟨0, _⟩ => show win1_7.index t (0 : Fin 2) * 3 + 1 * (x 0).val = (x 0).val; rw [e0]; omega
  | ⟨1, _⟩ => show win1_7.index t (1 : Fin 2) * 32 + 1 * (x 1).val = (x 1).val; rw [e1]; omega

/-- Input window 8's block is its whole array, at every point. -/
theorem iblk1_8 (c : Dev nD) (t : Fin cfg1.N) :
    (iblk1 V c 8 t : S3x1.Idx → Elt F .f32) = (V c (Pipeline.arrRef spec1 8) : S3x1.Idx → Elt F .f32) := by
  obtain ⟨-, -, -, -, -, -, -, -, -, -, -, -, -, -, e0, e1⟩ := idx_const1 t
  funext x
  unfold iblk1
  rw [View.read_apply]
  show V c (Pipeline.arrRef spec1 8) _ = V c (Pipeline.arrRef spec1 8) x
  congr 1
  funext a; apply Fin.ext
  match a with
  | ⟨0, _⟩ => show win1_8.index t (0 : Fin 2) * 3 + 1 * (x 0).val = (x 0).val; rw [e0]; omega
  | ⟨1, _⟩ => show win1_8.index t (1 : Fin 2) * 1 + 1 * (x 1).val = (x 1).val; rw [e1]; omega

/-! ## The body's result as its payload -/

/-- One store over the whole buffer leaves its payload, and a load of a whole buffer reads its contents: the
    body's result is the payload chain over the input blocks themselves. -/
theorem out1_9_eq (x0 : Vec F S12x131072 .f32) (x1 : Vec F S32x12 .f32) (x2 : Vec F S32x1 .f32) (x3 : Vec F S32x32 .f32) (x4 : Vec F S32x1 .f32) (x5 : Vec F S32x32 .f32) (x6 : Vec F S32x1 .f32) (x7 : Vec F S3x32 .f32) (x8 : Vec F S3x1 .f32) :
    out1_9 x0 x1 x2 x3 x4 x5 x6 x7 x8 = k1_pay1 (k1_pay2 x0 x1 x2 x3 x4 x5 x6) x7 x8 := by
  unfold out1_9
  rw [View.canon_unit_zero hz1]
  simp only [View.ld_unit_zero (S := S12x131072) hz1, View.ld_unit_zero (S := S32x12) hz1, View.ld_unit_zero (S := S32x1) hz1, View.ld_unit_zero (S := S32x32) hz1, View.ld_unit_zero (S := S3x32) hz1, View.ld_unit_zero (S := S3x1) hz1]

end Cert.KernelIdeal.Hand

end
-- ==== Proof.KI.Tails.lean ====
import proofs.«142216_j1408749273558_2_alg».proof.Proof.Gen.KernelIdeal.Launch
import Idealize.ShloMosaic.Lib.Pipeline.Frame
import Idealize.ShloMosaic.Lib.StableHlo.Run

/-!
# The last operations of the two long host stretches

The stretch of host operations before each kernel region ends by laying out the region's operands: the sampled
texture channels and two of the per-pixel inputs are transposed to feature-major arrays and stacked by rows into the
region's 12-row input array, and each bias vector is set up as a column. Each stretch is its leading operations
followed by this short tail, so what the stretch leaves in a buffer the tail writes is the tail's own operation applied
to what the leading operations left — and a buffer the tail only reads holds, after the stretch, what they left.
Also here: the one transpose after each region (the first operation of the next stretch).
-/

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-! ## An operation of three operands at its result -/

section Nary3
variable {Val : EltTy → Type} {x a b y : Ref sig .tc}

/-- An operation over a literal family of three references, at its result: its function of the three operands' contents,
    each at its own reference. -/
theorem nary3_result
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl
end Nary3

/-- What one buffer holds after a short literal list of transposes, one stacking and reshapes. -/
macro "tail_results" : tactic =>
  `(tactic| (simp only [StableHlo.after_cons, StableHlo.after_nil]
             repeat (first
               | rw [nary3_result] | rw [StableHlo.unary_result] | rw [StableHlo.reshape_result]
               | (rw [StableHlo.unary_result_ne]; rotate_left; decide)
               | (rw [StableHlo.reshape_result_ne]; rotate_left; decide)
               | (rw [StableHlo.nary_result_ne]; rotate_left; decide))))

/-! ## The tail of the stretch before the first region -/

/-- The last eight operations of the stretch before the first region. -/
abbrev post08 : List (HloOp τ sig (Elt F)) :=
  [ StableHlo.unary main_v108 main_v109 ((transpose S8x1048576 [1, 0] · transposes_S1048576x8_S8x1048576_1_0) : (⟨S1048576x8, .f32⟩ : BufTy).Contents (Elt F) → (⟨S8x1048576, .f32⟩ : BufTy).Contents (Elt F)),
    StableHlo.unary main_arg0 main_v110 ((transpose S2x1048576 [1, 0] · transposes_S1048576x2_S2x1048576_1_0) : (⟨S1048576x2, .f32⟩ : BufTy).Contents (Elt F) → (⟨S2x1048576, .f32⟩ : BufTy).Contents (Elt F)),
    StableHlo.unary main_arg2 main_v111 ((transpose S2x1048576 [1, 0] · transposes_S1048576x2_S2x1048576_1_0) : (⟨S1048576x2, .f32⟩ : BufTy).Contents (Elt F) → (⟨S2x1048576, .f32⟩ : BufTy).Contents (Elt F)),
    StableHlo.nary ![main_v109, main_v110, main_v111] main_v112 (fun u => concatenate S12x1048576 0 [⟨S8x1048576, u 0⟩, ⟨S2x1048576, u 1⟩, ⟨S2x1048576, u 2⟩] concatenates_S8x1048576_S2x1048576_S2x1048576_S12x1048576_d0),
    StableHlo.reshape main_arg6 main_v113 rfl shapeCasts_S32_S32x1,
    StableHlo.reshape main_arg8 main_v114 rfl shapeCasts_S32_S32x1,
    StableHlo.reshape main_arg10 main_v115 rfl shapeCasts_S32_S32x1,
    StableHlo.reshape main_arg12 main_v116 rfl shapeCasts_S1_S1x1 ]

set_option maxHeartbeats 4000000 in
/-- The stretch is its first 105 operations followed by the tail. -/
theorem hostOps0_8_split : (hostOps0_8 : List (HloOp τ sig (Elt F))) = hostOps0_8.take 105 ++ post08 :=
  (List.take_append_drop 105 _).symm.trans (congrArg (fun l => (hostOps0_8 : List (HloOp τ sig (Elt F))).take 105 ++ l) rfl)

theorem after08 (V : Valuation τ sig (Elt F)) :
    StableHlo.after hostOps0_8 V = StableHlo.after post08 (StableHlo.after (hostOps0_8.take 105) V) :=
  (congrArg (fun l => StableHlo.after l V) hostOps0_8_split).trans (StableHlo.after_append _ _ V)

abbrev post08_W : List (Ref sig .tc) := [main_v109, main_v110, main_v111, main_v112, main_v113, main_v114, main_v115, main_v116]
theorem post08_writes : (post08 : List (HloOp τ sig (Elt F))).Forall fun op => op.writes ⊆ (post08_W.map (Proc.devRef (τ := τ) .tc)).toFinset := by
  simp only [List.Forall]
  repeat' apply And.intro
  all_goals (simp only [StableHlo.nullary_writes, StableHlo.unary_writes, StableHlo.binary_writes, StableHlo.reshape_writes, StableHlo.nary_writes, Finset.singleton_subset_iff, List.mem_toFinset]; exact List.mem_map_of_mem (by decide))

/-- A buffer the tail does not write holds what the leading operations left. -/
theorem post08_keep (U : Valuation τ sig (Elt F)) (r : Ref sig .tc) (hr : r ∉ post08_W) :
    StableHlo.after post08 U (Proc.devRef .tc r) = U (Proc.devRef .tc r) :=
  StableHlo.after_of_writes_sub post08 U post08_writes hr

/-- The region's 12-row input: the transposed sampled channels (8 rows), then the two transposed per-pixel inputs (2 rows each). -/
theorem post08_v112 (U : Valuation τ sig (Elt F)) :
    StableHlo.after post08 U (Proc.devRef .tc main_v112)
      = concatenate S12x1048576 0 [⟨S8x1048576, transpose S8x1048576 [1, 0] (U (Proc.devRef .tc main_v108)) transposes_S1048576x8_S8x1048576_1_0⟩,
          ⟨S2x1048576, transpose S2x1048576 [1, 0] (U (Proc.devRef .tc main_arg0)) transposes_S1048576x2_S2x1048576_1_0⟩,
          ⟨S2x1048576, transpose S2x1048576 [1, 0] (U (Proc.devRef .tc main_arg2)) transposes_S1048576x2_S2x1048576_1_0⟩]
          concatenates_S8x1048576_S2x1048576_S2x1048576_S12x1048576_d0 := by
  tail_results
  rfl

theorem post08_v110 (U : Valuation τ sig (Elt F)) :
    StableHlo.after post08 U (Proc.devRef .tc main_v110)
      = transpose S2x1048576 [1, 0] (U (Proc.devRef .tc main_arg0)) transposes_S1048576x2_S2x1048576_1_0 := by
  tail_results

theorem post08_v113 (U : Valuation τ sig (Elt F)) :
    StableHlo.after post08 U (Proc.devRef .tc main_v113) = shapeCast S32x1 (U (Proc.devRef .tc main_arg6)) shapeCasts_S32_S32x1 := by
  tail_results
  rfl
theorem post08_v114 (U : Valuation τ sig (Elt F)) :
    StableHlo.after post08 U (Proc.devRef .tc main_v114) = shapeCast S32x1 (U (Proc.devRef .tc main_arg8)) shapeCasts_S32_S32x1 := by
  tail_results
  rfl
theorem post08_v115 (U : Valuation τ sig (Elt F)) :
    StableHlo.after post08 U (Proc.devRef .tc main_v115) = shapeCast S32x1 (U (Proc.devRef .tc main_arg10)) shapeCasts_S32_S32x1 := by
  tail_results
  rfl
theorem post08_v116 (U : Valuation τ sig (Elt F)) :
    StableHlo.after post08 U (Proc.devRef .tc main_v116) = shapeCast S1x1 (U (Proc.devRef .tc main_arg12)) shapeCasts_S1_S1x1 := by
  tail_results
  rfl

/-! ## The tail of the stretch before the second region -/

/-- The last seven operations of the stretch before the second region. -/
abbrev post18 : List (HloOp τ sig (Elt F)) :=
  [ StableHlo.unary main_v227 main_v228 ((transpose S8x1048576 [1, 0] · transposes_S1048576x8_S8x1048576_1_0) : (⟨S1048576x8, .f32⟩ : BufTy).Contents (Elt F) → (⟨S8x1048576, .f32⟩ : BufTy).Contents (Elt F)),
    StableHlo.unary main_arg1 main_v229 ((transpose S2x1048576 [1, 0] · transposes_S1048576x2_S2x1048576_1_0) : (⟨S1048576x2, .f32⟩ : BufTy).Contents (Elt F) → (⟨S2x1048576, .f32⟩ : BufTy).Contents (Elt F)),
    StableHlo.nary ![main_v229, main_v110, main_v228] main_v230 (fun u => concatenate S12x1048576 0 [⟨S2x1048576, u 0⟩, ⟨S2x1048576, u 1⟩, ⟨S8x1048576, u 2⟩] concatenates_S2x1048576_S2x1048576_S8x1048576_S12x1048576_d0),
    StableHlo.reshape main_arg14 main_v231 rfl shapeCasts_S32_S32x1,
    StableHlo.reshape main_arg16 main_v232 rfl shapeCasts_S32_S32x1,
    StableHlo.reshape main_arg18 main_v233 rfl shapeCasts_S32_S32x1,
    StableHlo.reshape main_arg20 main_v234 rfl shapeCasts_S3_S3x1 ]

set_option maxHeartbeats 4000000 in
/-- The stretch is its first 105 operations followed by the tail. -/
theorem hostOps1_8_split : (hostOps1_8 : List (HloOp τ sig (Elt F))) = hostOps1_8.take 105 ++ post18 :=
  (List.take_append_drop 105 _).symm.trans (congrArg (fun l => (hostOps1_8 : List (HloOp τ sig (Elt F))).take 105 ++ l) rfl)

theorem after18 (V : Valuation τ sig (Elt F)) :
    StableHlo.after hostOps1_8 V = StableHlo.after post18 (StableHlo.after (hostOps1_8.take 105) V) :=
  (congrArg (fun l => StableHlo.after l V) hostOps1_8_split).trans (StableHlo.after_append _ _ V)

abbrev post18_W : List (Ref sig .tc) := [main_v228, main_v229, main_v230, main_v231, main_v232, main_v233, main_v234]
theorem post18_writes : (post18 : List (HloOp τ sig (Elt F))).Forall fun op => op.writes ⊆ (post18_W.map (Proc.devRef (τ := τ) .tc)).toFinset := by
  simp only [List.Forall]
  repeat' apply And.intro
  all_goals (simp only [StableHlo.nullary_writes, StableHlo.unary_writes, StableHlo.binary_writes, StableHlo.reshape_writes, StableHlo.nary_writes, Finset.singleton_subset_iff, List.mem_toFinset]; exact List.mem_map_of_mem (by decide))

/-- A buffer the tail does not write holds what the leading operations left. -/
theorem post18_keep (U : Valuation τ sig (Elt F)) (r : Ref sig .tc) (hr : r ∉ post18_W) :
    StableHlo.after post18 U (Proc.devRef .tc r) = U (Proc.devRef .tc r) :=
  StableHlo.after_of_writes_sub post18 U post18_writes hr

/-- The second region's 12-row input: a transposed per-pixel input (2 rows), the array the first tail left (2 rows), the
    transposed sampled channels (8 rows). -/
theorem post18_v230 (U : Valuation τ sig (Elt F)) :
    StableHlo.after post18 U (Proc.devRef .tc main_v230)
      = concatenate S12x1048576 0 [⟨S2x1048576, transpose S2x1048576 [1, 0] (U (Proc.devRef .tc main_arg1)) transposes_S1048576x2_S2x1048576_1_0⟩,
          ⟨S2x1048576, U (Proc.devRef .tc main_v110)⟩,
          ⟨S8x1048576, transpose S8x1048576 [1, 0] (U (Proc.devRef .tc main_v227)) transposes_S1048576x8_S8x1048576_1_0⟩]
          concatenates_S2x1048576_S2x1048576_S8x1048576_S12x1048576_d0 := by
  tail_results
  rfl

theorem post18_v231 (U : Valuation τ sig (Elt F)) :
    StableHlo.after post18 U (Proc.devRef .tc main_v231) = shapeCast S32x1 (U (Proc.devRef .tc main_arg14)) shapeCasts_S32_S32x1 := by
  tail_results
  rfl
theorem post18_v232 (U : Valuation τ sig (Elt F)) :
    StableHlo.after post18 U (Proc.devRef .tc main_v232) = shapeCast S32x1 (U (Proc.devRef .tc main_arg16)) shapeCasts_S32_S32x1 := by
  tail_results
  rfl
theorem post18_v233 (U : Valuation τ sig (Elt F)) :
    StableHlo.after post18 U (Proc.devRef .tc main_v233) = shapeCast S32x1 (U (Proc.devRef .tc main_arg18)) shapeCasts_S32_S32x1 := by
  tail_results
  rfl
theorem post18_v234 (U : Valuation τ sig (Elt F)) :
    StableHlo.after post18 U (Proc.devRef .tc main_v234) = shapeCast S3x1 (U (Proc.devRef .tc main_arg20)) shapeCasts_S3_S3x1 := by
  tail_results
  rfl

/-! ## The transpose after each region -/

/-- The stretch after the first region starts by transposing the region's output; nothing later in it writes the result. -/
theorem hostOps1_v118 (V : Valuation τ sig (Elt F)) :
    StableHlo.after hostOps1 V (Proc.devRef .tc main_v118)
      = transpose S1048576x2 [1, 0] (V (Proc.devRef .tc main_v117)) transposes_S2x1048576_S1048576x2_1_0 := by
  after_results

/-- The last stretch transposes the second region's output. -/
theorem hostOps2_v236 (V : Valuation τ sig (Elt F)) :
    StableHlo.after hostOps2 V (Proc.devRef .tc main_v236)
      = transpose S1048576x3 [1, 0] (V (Proc.devRef .tc main_v235)) transposes_S3x1048576_S1048576x3_1_0 := by
  after_results

end Cert.KernelIdeal.Hand

end
-- ==== Proof.Pay1.lean ====
/-
  The second kernel's arithmetic read at one element.

  Activations are stored feature-major: an array [channels, pixels].  A layer is the matrix product of the weights
  [rows, channels] with the activations, into a zero accumulator, plus the bias column [rows, 1] repeated along the
  pixels; read at (p, q) it is the linear layer of the specification applied to column q of the activations, at output p.
  The rectifier is a select on the comparison with the zero splat; read at an element it is the specification's leaky
  rectifier of that element.  The kernel's stored value at (p, q) is therefore the four-layer network of column q of
  its input block, at output p.
-/
import proofs.«142216_j1408749273558_2_alg».proof.Proof.Gen.KernelIdeal.Skeleton
import proofs.«142216_j1408749273558_2_alg».proof.Proof.Spec
import proofs.«142216_j1408749273558_2_alg».proof.Proof.LibMatmulAt
import proofs.«142216_j1408749273558_2_alg».proof.Proof.LibColumn

noncomputable section

namespace Cert.NeuMip

open Idealize.ShloMosaic Idealize.ShloMosaic.ValueIdx Cert.KernelIdeal

/-- A feature-major layer read at `(p, q)`: the product of `W : [R, K]` with `X : [K, C]` into the zero splat, plus the
    column `b : [R, 1]` repeated along the second axis, is the linear layer of column `q` of `X` at output `p`. -/
theorem layer_at {R K C : ℕ} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (W : FVec Ideal ⟨2, ![R, K]⟩ .f32) (X : FVec Ideal ⟨2, ![K, C]⟩ .f32) (b : FVec Ideal ⟨2, ![R, 1]⟩ .f32)
    (hs : (⟨2, ![R, 1]⟩ : Shape).ShapeCasts ⟨2, ![R, 1]⟩) (hb : (⟨2, ![R, 1]⟩ : Shape).Broadcasts ⟨2, ![R, C]⟩)
    (p : Fin R) (q : Fin C) :
    addf (matmul D none W X (constant (F := Ideal) ⟨2, ![R, C]⟩ .f32 0x00000000#32))
        (broadcastTo ⟨2, ![R, C]⟩ (shapeCast ⟨2, ![R, 1]⟩ b hs) hb) (ix2 p q)
      = lin (fun (j : Fin R) (i : Fin K) => W (ix2 j i)) (fun (j : Fin R) => b (ix2 j (0 : Fin 1)))
          (fun (k : Fin K) => X (ix2 k q)) p := by
  rw [addf_apply, LibMatmulAt.matmul_zero_apply D hlc hrc hln hrn hlb hrb, LibColumn.broadcastTo_a1_ab_apply,
    shapeCast_self]
  rfl

/-- The rectifier read at an element: the select between `x` and the slope splat times `x`, on "`x` is at least the
    zero splat", is the leaky rectifier of the element, with the slope the value its word denotes. -/
theorem leaky_at {s : Shape} (x : FVec Ideal s .f32) (sl : BitVec 32) (i : s.Idx) :
    select (cmpf .oge x (broadcast s (Scalar.ofBits (F := Ideal) .f32 0x00000000#32))) x
        (mulf (broadcast s (Scalar.ofBits (F := Ideal) .f32 sl)) x) i
      = leaky (Ideal.ofBits .f32 sl) (x i) :=
  leaky_eq_select (Ideal.ofBits .f32 sl) (x i)

/-- THE SECOND KERNEL AT AN ELEMENT: what it stores at `(p, q)` is the four-layer network of column `q` of its input
    block, at output `p`. -/
theorem k1_at (v0 : Vec Ideal S12x131072 .f32) (W0 : Vec Ideal S32x12 .f32) (b0 : Vec Ideal S32x1 .f32)
    (W1 : Vec Ideal S32x32 .f32) (b1 : Vec Ideal S32x1 .f32) (W2 : Vec Ideal S32x32 .f32) (b2 : Vec Ideal S32x1 .f32)
    (W3 : Vec Ideal S3x32 .f32) (b3 : Vec Ideal S3x1 .f32) (p : Fin 3) (q : Fin 131072) :
    Cert.KernelIdeal.Gen.k1_pay1 (F := Ideal) (Cert.KernelIdeal.Gen.k1_pay2 v0 W0 b0 W1 b1 W2 b2) W3 b3 (ix2 p q)
      = mlp4 (fun (j : Fin 32) (i : Fin 12) => W0 (ix2 j i)) (fun (j : Fin 32) => b0 (ix2 j (0 : Fin 1)))
          (fun (j : Fin 32) (i : Fin 32) => W1 (ix2 j i)) (fun (j : Fin 32) => b1 (ix2 j (0 : Fin 1)))
          (fun (j : Fin 32) (i : Fin 32) => W2 (ix2 j i)) (fun (j : Fin 32) => b2 (ix2 j (0 : Fin 1)))
          (fun (j : Fin 3) (i : Fin 32) => W3 (ix2 j i)) (fun (j : Fin 3) => b3 (ix2 j (0 : Fin 1)))
          (Ideal.ofBits .f32 0x3C23D70A#32) (fun (k : Fin 12) => v0 (ix2 k q)) p := by
  unfold Cert.KernelIdeal.Gen.k1_pay1 Cert.KernelIdeal.Gen.k1_pay2 mlp4
  refine (layer_at dot_S3x32_S32x131072_S3x131072_1_0_0_1_n_n rfl rfl rfl rfl rfl rfl W3 _ b3 _ _ p q).trans ?_
  refine congrArg (fun x => lin _ _ x p) (funext fun k2 => ?_)
  refine (leaky_at _ 0x3C23D70A#32 (ix2 k2 q)).trans (congrArg (leaky _) ?_)
  refine (layer_at dot_S32x32_S32x131072_S32x131072_1_0_0_1_n_n rfl rfl rfl rfl rfl rfl W2 _ b2 _ _ k2 q).trans ?_
  refine congrArg (fun x => lin _ _ x k2) (funext fun k1 => ?_)
  refine (leaky_at _ 0x3C23D70A#32 (ix2 k1 q)).trans (congrArg (leaky _) ?_)
  refine (layer_at dot_S32x32_S32x131072_S32x131072_1_0_0_1_n_n rfl rfl rfl rfl rfl rfl W1 _ b1 _ _ k1 q).trans ?_
  refine congrArg (fun x => lin _ _ x k1) (funext fun k0 => ?_)
  refine (leaky_at _ 0x3C23D70A#32 (ix2 k0 q)).trans (congrArg (leaky _) ?_)
  refine (layer_at dot_S32x12_S12x131072_S32x131072_1_0_0_1_n_n rfl rfl rfl rfl rfl rfl W0 _ b0 _ _ k0 q).trans ?_
  refine congrArg (fun x => lin _ _ x k0) (funext fun k => ?_)
  rw [shapeCast_self]

end Cert.NeuMip

end
-- ==== Proof.Pay0.lean ====
/-
  The first kernel's arithmetic read at one element.

  The input block [12, pixels] holds, feature-major, ten network inputs (rows 0 to 9, of which rows 8 and 9 are the view
  direction's two tangent components) and the texture coordinate (rows 10 and 11).  The kernel runs the four-layer network
  on rows 0 to 9, whose one output is a depth; it sums the squares of the two tangent components down the rows, takes
  z = sqrt (max eps (one - that sum)), and stores, at (a, q), coordinate a plus component a divided by z times the depth:
  the specification's parallax offset of column q.
-/
import proofs.«142216_j1408749273558_2_alg».proof.Proof.Pay1
import Idealize.ShloMosaic.Lib.ValueLayout

noncomputable section

namespace Cert.NeuMip

open Idealize.ShloMosaic Idealize.ShloMosaic.ValueIdx Cert.KernelIdeal
open scoped BigOperators

/-- A sum down the rows of `x : [R, C]` read at column `q`: `∑ k, x (k, q)`. -/
theorem sum_rows_at {R C : ℕ} (x : FVec Ideal ⟨2, ![R, C]⟩ .f32) (h : (⟨2, ![R, C]⟩ : Shape).Reduces [0] ⟨1, ![C]⟩)
    (hφ : FKind.Formats .f32) (hacc : (0x00000000#32 : BitVec 32) = FKind.add.neutral .f32 hφ) (q : Fin C) :
    multiReduction .add [0] ⟨1, ![C]⟩ x 0x00000000#32 h hφ hacc (ix1 q) = ∑ k : Fin R, x (ix2 k q) := by
  refine (Ideal.multiReduction_add_single x _ h hφ hacc (ix1 q)).trans ?_
  refine Finset.sum_congr rfl fun k _ => congrArg x (funext fun a => Fin.ext ?_)
  match a with
  | ⟨0, _⟩ => rfl
  | ⟨1, _⟩ => rfl

/-- The offset's tail read at `(a, q)`: with `cam`, `uv : [2, C]` and `depth : [1, C]`, the array
    `uv + cam / sqrt (max eps (one - sum of cam * cam down the rows)) * depth`, the square root's row and the depth's row
    repeated over the two rows, is the specification's offset of column `q`. -/
theorem offset_at {C : ℕ} (cam uv : FVec Ideal ⟨2, ![2, C]⟩ .f32) (depth : FVec Ideal ⟨2, ![1, C]⟩ .f32)
    (one eps : BitVec 32) (hr : (⟨2, ![2, C]⟩ : Shape).Reduces [0] ⟨1, ![C]⟩) (hφ : FKind.Formats .f32)
    (hacc : (0x00000000#32 : BitVec 32) = FKind.add.neutral .f32 hφ)
    (hs : (⟨1, ![C]⟩ : Shape).ShapeCasts ⟨2, ![1, C]⟩) (hb : (⟨2, ![1, C]⟩ : Shape).Broadcasts ⟨2, ![2, C]⟩)
    (a : Fin 2) (q : Fin C) :
    addf uv (mulf (divf cam (broadcastTo ⟨2, ![2, C]⟩ (sqrt (maximumf
          (broadcast ⟨2, ![1, C]⟩ (Scalar.ofBits (F := Ideal) .f32 eps))
          (subf (broadcast ⟨2, ![1, C]⟩ (Scalar.ofBits (F := Ideal) .f32 one))
            (shapeCast ⟨2, ![1, C]⟩ (multiReduction .add [0] ⟨1, ![C]⟩ (mulf cam cam) 0x00000000#32 hr hφ hacc) hs)))) hb))
        (broadcastTo ⟨2, ![2, C]⟩ depth hb)) (ix2 a q)
      = offsetUv (fun (i : Fin 2) => cam (ix2 i q)) (fun (i : Fin 2) => uv (ix2 i q)) (depth (ix2 (0 : Fin 1) q))
          (Ideal.ofBits .f32 one) (Ideal.ofBits .f32 eps) a := by
  rw [addf_apply, mulf_apply, divf_apply, broadcastTo_1b_ab_apply, broadcastTo_1b_ab_apply]
  show _ + Ideal.div _ (Ideal.sqrt (max _ (_ - shapeCast ⟨2, ![1, C]⟩ _ hs (ix2 (0 : Fin 1) q)))) * _ = _
  rw [shapeCast_a_1a_apply, sum_rows_at]
  rfl

/-- THE FIRST KERNEL AT AN ELEMENT: what it stores at `(a, q)` is the parallax offset of column `q` of its input block:
    the view direction's tangent components are rows 8 and 9, the coordinate rows 10 and 11, and the depth the four-layer
    network of rows 0 to 9. -/
theorem k0_at (v0 : Vec Ideal S12x131072 .f32) (W0 : Vec Ideal S32x10 .f32) (b0 : Vec Ideal S32x1 .f32)
    (W1 : Vec Ideal S32x32 .f32) (b1 : Vec Ideal S32x1 .f32) (W2 : Vec Ideal S32x32 .f32) (b2 : Vec Ideal S32x1 .f32)
    (W3 : Vec Ideal S1x32 .f32) (b3 : Vec Ideal S1x1 .f32) (a : Fin 2) (q : Fin 131072) :
    Cert.KernelIdeal.Gen.k0_pay1 (F := Ideal) (Cert.KernelIdeal.Gen.k0_pay3 v0) (Cert.KernelIdeal.Gen.k0_pay4 v0)
        (Cert.KernelIdeal.Gen.k0_pay5 v0 W0 b0 W1 b1 W2 b2) (Cert.KernelIdeal.Gen.k0_pay6 v0 W0 b0 W1 b1 W2 b2)
        Cert.KernelIdeal.Gen.k0_pay7 W3 b3 (ix2 a q)
      = offsetUv (fun (i : Fin 2) => v0 (ix2 (⟨8 + i.val, by omega⟩ : Fin 12) q))
          (fun (i : Fin 2) => v0 (ix2 (⟨10 + i.val, by omega⟩ : Fin 12) q))
          (mlp4 (fun (j : Fin 32) (i : Fin 10) => W0 (ix2 j i)) (fun (j : Fin 32) => b0 (ix2 j (0 : Fin 1)))
            (fun (j : Fin 32) (i : Fin 32) => W1 (ix2 j i)) (fun (j : Fin 32) => b1 (ix2 j (0 : Fin 1)))
            (fun (j : Fin 32) (i : Fin 32) => W2 (ix2 j i)) (fun (j : Fin 32) => b2 (ix2 j (0 : Fin 1)))
            (fun (j : Fin 1) (i : Fin 32) => W3 (ix2 j i)) (fun (j : Fin 1) => b3 (ix2 j (0 : Fin 1)))
            (Ideal.ofBits .f32 0x3C23D70A#32) (fun (k : Fin 10) => v0 (ix2 (⟨k.val, by omega⟩ : Fin 12) q)) (0 : Fin 1))
          (Ideal.ofBits .f32 0x3F800000#32) (Ideal.ofBits .f32 0x358637BD#32) a := by
  have key : ∀ (c c' u u' : Fin 2 → EReal) (d d' o e : EReal), c = c' → u = u' → d = d' →
      offsetUv c u d o e a = offsetUv c' u' d' o e a := by
    intro c c' u u' d d' o e hc hu hd; rw [hc, hu, hd]
  unfold Cert.KernelIdeal.Gen.k0_pay1
  refine (offset_at _ _ _ 0x3F800000#32 0x358637BD#32 _ _ _ _ _ a q).trans ?_
  refine key _ _ _ _ _ _ _ _ (funext fun i => ?_) (funext fun i => ?_) ?_
  · -- rows 8 and 9
    unfold Cert.KernelIdeal.Gen.k0_pay3 Cert.KernelIdeal.Gen.k0_pay2
    refine (slice2_axis0_apply 8 _ _ i q (⟨8 + i.val, by omega⟩ : Fin 12) rfl).trans ?_
    rw [shapeCast_self]
  · -- rows 10 and 11
    unfold Cert.KernelIdeal.Gen.k0_pay4 Cert.KernelIdeal.Gen.k0_pay2
    refine (slice2_axis0_apply 10 _ _ i q (⟨10 + i.val, by omega⟩ : Fin 12) rfl).trans ?_
    rw [shapeCast_self]
  · -- the depth: the network of rows 0 to 9
    unfold Cert.KernelIdeal.Gen.k0_pay6 Cert.KernelIdeal.Gen.k0_pay7 Cert.KernelIdeal.Gen.k0_pay5 Cert.KernelIdeal.Gen.k0_pay2 mlp4
    refine (layer_at dot_S1x32_S32x131072_S1x131072_1_0_0_1_n_n rfl rfl rfl rfl rfl rfl W3 _ b3 _ _ (0 : Fin 1) q).trans ?_
    refine congrArg (fun x => lin _ _ x (0 : Fin 1)) (funext fun k2 => ?_)
    refine (leaky_at _ 0x3C23D70A#32 (ix2 k2 q)).trans (congrArg (leaky _) ?_)
    refine (layer_at dot_S32x32_S32x131072_S32x131072_1_0_0_1_n_n rfl rfl rfl rfl rfl rfl W2 _ b2 _ _ k2 q).trans ?_
    refine congrArg (fun x => lin _ _ x k2) (funext fun k1 => ?_)
    refine (leaky_at _ 0x3C23D70A#32 (ix2 k1 q)).trans (congrArg (leaky _) ?_)
    refine (layer_at dot_S32x32_S32x131072_S32x131072_1_0_0_1_n_n rfl rfl rfl rfl rfl rfl W1 _ b1 _ _ k1 q).trans ?_
    refine congrArg (fun x => lin _ _ x k1) (funext fun k0 => ?_)
    refine (leaky_at _ 0x3C23D70A#32 (ix2 k0 q)).trans (congrArg (leaky _) ?_)
    refine (layer_at dot_S32x10_S10x131072_S32x131072_1_0_0_1_n_n rfl rfl rfl rfl rfl rfl W0 _ b0 _ _ k0 q).trans ?_
    refine congrArg (fun x => lin _ _ x k0) (funext fun k => ?_)
    refine (slice2_axis0_apply 0 _ _ k q (⟨k.val, by omega⟩ : Fin 12) (Nat.zero_add _).symm).trans ?_
    rw [shapeCast_self]

end Cert.NeuMip

end
-- ==== Proof.KI.Value.lean ====
import proofs.«142216_j1408749273558_2_alg».proof.Proof.KI.Run
import proofs.«142216_j1408749273558_2_alg».proof.Proof.KI.Arr0
import proofs.«142216_j1408749273558_2_alg».proof.Proof.KI.Arr1
import proofs.«142216_j1408749273558_2_alg».proof.Proof.KI.Tails
import proofs.«142216_j1408749273558_2_alg».proof.Proof.Spec
import proofs.«142216_j1408749273558_2_alg».proof.Proof.Pay0
import proofs.«142216_j1408749273558_2_alg».proof.Proof.Pay1
import proofs.«142216_j1408749273558_2_alg».proof.Proof.HostPay
import Idealize.ShloMosaic.Lib.ValueLayout

/-!
# The program's result, element by element, over the extended reals

The program shades 1048576 pixels. A first texture lookup gives each pixel 8 channels; with the pixel's view direction
they feed a four-layer network whose one output is a depth, and the pixel's texture coordinate moves along the view
direction by that depth (the first kernel region, 8 blocks of 131072 pixels). A second lookup at the moved coordinate
gives 8 more channels; with the light and view directions they feed a second four-layer network with three outputs, the
colour (the second region). Both lookups are left as they are: the sampled channels are named by the buffers that hold
them. Everything else is read here at one pixel: each region's output array is the kernel's arithmetic of the pixel's
column of the region's input, the input's rows are the transposed per-pixel arrays stacked, the weights are the
argument arrays (no host operation writes an argument and a region gives its inputs back), and each bias column is its
argument vector.
-/

set_option maxRecDepth 16384

noncomputable section

namespace Cert.KernelIdeal.Hand

open Cert.KernelIdeal Cert.KernelIdeal.Gen Cert.NeuMip
open Idealize.ShloMosaic Idealize.ShloMosaic.TcCoe Idealize.SL.Sem
open Idealize.ShloMosaic.Pipeline (Dat)
open Idealize.ShloMosaic.ValueIdx
open scoped BigOperators

/-! ## Which buffer each window stages -/

theorem arr0_0 : Pipeline.arrRef spec0 0 = main_v112 := rfl
theorem arr0_1 : Pipeline.arrRef spec0 1 = main_arg5 := rfl
theorem arr0_2 : Pipeline.arrRef spec0 2 = main_v113 := rfl
theorem arr0_3 : Pipeline.arrRef spec0 3 = main_arg7 := rfl
theorem arr0_4 : Pipeline.arrRef spec0 4 = main_v114 := rfl
theorem arr0_5 : Pipeline.arrRef spec0 5 = main_arg9 := rfl
theorem arr0_6 : Pipeline.arrRef spec0 6 = main_v115 := rfl
theorem arr0_7 : Pipeline.arrRef spec0 7 = main_arg11 := rfl
theorem arr0_8 : Pipeline.arrRef spec0 8 = main_v116 := rfl
theorem arr0_9 : Pipeline.arrRef spec0 9 = main_v117 := rfl
theorem arr1_0 : Pipeline.arrRef spec1 0 = main_v230 := rfl
theorem arr1_1 : Pipeline.arrRef spec1 1 = main_arg13 := rfl
theorem arr1_2 : Pipeline.arrRef spec1 2 = main_v231 := rfl
theorem arr1_3 : Pipeline.arrRef spec1 3 = main_arg15 := rfl
theorem arr1_4 : Pipeline.arrRef spec1 4 = main_v232 := rfl
theorem arr1_5 : Pipeline.arrRef spec1 5 = main_arg17 := rfl
theorem arr1_6 : Pipeline.arrRef spec1 6 = main_v233 := rfl
theorem arr1_7 : Pipeline.arrRef spec1 7 = main_arg19 := rfl
theorem arr1_8 : Pipeline.arrRef spec1 8 = main_v234 := rfl
theorem arr1_9 : Pipeline.arrRef spec1 9 = main_v235 := rfl

section Buffers

variable {F : FTy → Type} [FloatOps F]
variable (m : (ℓ : Loc nD τ sig) → Buf (Elt F) ℓ)

/-! ## Buffers the stretches leave alone -/

/-- An argument array holds its launch contents when the first region is entered. -/
theorem W9_arg (c : Dev nD) (r : Ref sig .tc) (hr : r ∈ argRefs) :
    W9 m c (Proc.devRef .tc r) = m ((c.tc : Thread nD τ).loc r) :=
  calc W9 m c (Proc.devRef .tc r)
      _ = W8 m c (Proc.devRef .tc r) := StableHlo.after_of_writes_sub hostOps0_8 _ hostOps0_8_writes (hostOps0_8_args r hr)
      _ = W7 m c (Proc.devRef .tc r) := StableHlo.after_of_writes_sub hostOps0_7 _ hostOps0_7_writes (hostOps0_7_args r hr)
      _ = W6 m c (Proc.devRef .tc r) := StableHlo.after_of_writes_sub hostOps0_6 _ hostOps0_6_writes (hostOps0_6_args r hr)
      _ = W5 m c (Proc.devRef .tc r) := StableHlo.after_of_writes_sub hostOps0_5 _ hostOps0_5_writes (hostOps0_5_args r hr)
      _ = W4 m c (Proc.devRef .tc r) := StableHlo.after_of_writes_sub hostOps0_4 _ hostOps0_4_writes (hostOps0_4_args r hr)
      _ = W3 m c (Proc.devRef .tc r) := StableHlo.after_of_writes_sub hostOps0_3 _ hostOps0_3_writes (hostOps0_3_args r hr)
      _ = W2 m c (Proc.devRef .tc r) := StableHlo.after_of_writes_sub hostOps0_2 _ hostOps0_2_writes (hostOps0_2_args r hr)
      _ = W1 m c (Proc.devRef .tc r) := StableHlo.after_of_writes_sub hostOps0_1 _ hostOps0_1_writes (hostOps0_1_args r hr)
      _ = W0 m c (Proc.devRef .tc r) := StableHlo.after_of_writes_sub hostOps0 _ hostOps0_writes (hostOps0_args r hr)
      _ = m ((c.tc : Thread nD τ).loc r) := rfl

/-- The first region changes only its output array. -/
theorem X10_keep (c : Dev nD) (r : Ref sig .tc) (hr : r ≠ Pipeline.arrRef spec0 9) :
    X10 m c (Proc.devRef .tc r) = W9 m c (Proc.devRef .tc r) := by
  by_cases h : ∃ w, Pipeline.arrRef spec0 w = r
  · obtain ⟨w, rfl⟩ := h
    exact (W10_arr m (o0 m) c w).trans (o0_in m c w fun e => hr (e ▸ rfl))
  · exact W10_of_ne m (o0 m) c r fun w e => h ⟨w, e⟩

/-- A buffer that is not the first region's output and that none of the nine stretches between the regions writes holds,
    when the second region is entered, what it held when the first was. -/
theorem X19_keep (c : Dev nD) (r : Ref sig .tc) (hr : r ≠ Pipeline.arrRef spec0 9)
    (h0 : r ∉ hostOps1_W) (h1 : r ∉ hostOps1_1_W) (h2 : r ∉ hostOps1_2_W) (h3 : r ∉ hostOps1_3_W) (h4 : r ∉ hostOps1_4_W)
    (h5 : r ∉ hostOps1_5_W) (h6 : r ∉ hostOps1_6_W) (h7 : r ∉ hostOps1_7_W) (h8 : r ∉ hostOps1_8_W) :
    X19 m c (Proc.devRef .tc r) = W9 m c (Proc.devRef .tc r) :=
  calc X19 m c (Proc.devRef .tc r)
      _ = W18 m (o0 m) c (Proc.devRef .tc r) := StableHlo.after_of_writes_sub hostOps1_8 _ hostOps1_8_writes h8
      _ = W17 m (o0 m) c (Proc.devRef .tc r) := StableHlo.after_of_writes_sub hostOps1_7 _ hostOps1_7_writes h7
      _ = W16 m (o0 m) c (Proc.devRef .tc r) := StableHlo.after_of_writes_sub hostOps1_6 _ hostOps1_6_writes h6
      _ = W15 m (o0 m) c (Proc.devRef .tc r) := StableHlo.after_of_writes_sub hostOps1_5 _ hostOps1_5_writes h5
      _ = W14 m (o0 m) c (Proc.devRef .tc r) := StableHlo.after_of_writes_sub hostOps1_4 _ hostOps1_4_writes h4
      _ = W13 m (o0 m) c (Proc.devRef .tc r) := StableHlo.after_of_writes_sub hostOps1_3 _ hostOps1_3_writes h3
      _ = W12 m (o0 m) c (Proc.devRef .tc r) := StableHlo.after_of_writes_sub hostOps1_2 _ hostOps1_2_writes h2
      _ = W11 m (o0 m) c (Proc.devRef .tc r) := StableHlo.after_of_writes_sub hostOps1_1 _ hostOps1_1_writes h1
      _ = X10 m c (Proc.devRef .tc r) := StableHlo.after_of_writes_sub hostOps1 _ hostOps1_writes h0
      _ = W9 m c (Proc.devRef .tc r) := X10_keep m c r hr

/-- An argument array holds its launch contents when the second region is entered. -/
theorem X19_arg (c : Dev nD) (r : Ref sig .tc) (hr : r ∈ argRefs) :
    X19 m c (Proc.devRef .tc r) = m ((c.tc : Thread nD τ).loc r) :=
  (X19_keep m c r (fun e => out0_not_arg (e ▸ hr)) (hostOps1_args r hr) (hostOps1_1_args r hr) (hostOps1_2_args r hr)
    (hostOps1_3_args r hr) (hostOps1_4_args r hr) (hostOps1_5_args r hr) (hostOps1_6_args r hr) (hostOps1_7_args r hr)
    (hostOps1_8_args r hr)).trans (W9_arg m c r hr)

/-! ## What the first region finds -/

theorem W9_tail (c : Dev nD) :
    W9 m c = StableHlo.after post08 (StableHlo.after ((hostOps0_8 : List (HloOp τ sig (Elt F))).take 105) (W8 m c)) :=
  after08 (W8 m c)

/-- Its 12-row input: the transposed sampled channels, then two transposed argument arrays. -/
theorem W9_v112 (c : Dev nD) :
    W9 m c (Proc.devRef .tc main_v112)
      = concatenate S12x1048576 0 [⟨S8x1048576, transpose S8x1048576 [1, 0] (W9 m c (Proc.devRef .tc main_v108)) transposes_S1048576x8_S8x1048576_1_0⟩,
          ⟨S2x1048576, transpose S2x1048576 [1, 0] (W9 m c (Proc.devRef .tc main_arg0)) transposes_S1048576x2_S2x1048576_1_0⟩,
          ⟨S2x1048576, transpose S2x1048576 [1, 0] (W9 m c (Proc.devRef .tc main_arg2)) transposes_S1048576x2_S2x1048576_1_0⟩]
          concatenates_S8x1048576_S2x1048576_S2x1048576_S12x1048576_d0 := by
  rw [W9_tail m c]
  generalize StableHlo.after ((hostOps0_8 : List (HloOp τ sig (Elt F))).take 105) (W8 m c) = U
  rw [post08_v112, post08_keep U main_v108 (by decide), post08_keep U main_arg0 (by decide), post08_keep U main_arg2 (by decide)]

theorem W9_v110 (c : Dev nD) :
    W9 m c (Proc.devRef .tc main_v110)
      = transpose S2x1048576 [1, 0] (W9 m c (Proc.devRef .tc main_arg0)) transposes_S1048576x2_S2x1048576_1_0 := by
  rw [W9_tail m c]
  generalize StableHlo.after ((hostOps0_8 : List (HloOp τ sig (Elt F))).take 105) (W8 m c) = U
  rw [post08_v110, post08_keep U main_arg0 (by decide)]

theorem W9_v113 (c : Dev nD) :
    W9 m c (Proc.devRef .tc main_v113) = shapeCast S32x1 (W9 m c (Proc.devRef .tc main_arg6)) shapeCasts_S32_S32x1 := by
  rw [W9_tail m c]
  generalize StableHlo.after ((hostOps0_8 : List (HloOp τ sig (Elt F))).take 105) (W8 m c) = U
  rw [post08_v113, post08_keep U main_arg6 (by decide)]
theorem W9_v114 (c : Dev nD) :
    W9 m c (Proc.devRef .tc main_v114) = shapeCast S32x1 (W9 m c (Proc.devRef .tc main_arg8)) shapeCasts_S32_S32x1 := by
  rw [W9_tail m c]
  generalize StableHlo.after ((hostOps0_8 : List (HloOp τ sig (Elt F))).take 105) (W8 m c) = U
  rw [post08_v114, post08_keep U main_arg8 (by decide)]
theorem W9_v115 (c : Dev nD) :
    W9 m c (Proc.devRef .tc main_v115) = shapeCast S32x1 (W9 m c (Proc.devRef .tc main_arg10)) shapeCasts_S32_S32x1 := by
  rw [W9_tail m c]
  generalize StableHlo.after ((hostOps0_8 : List (HloOp τ sig (Elt F))).take 105) (W8 m c) = U
  rw [post08_v115, post08_keep U main_arg10 (by decide)]
theorem W9_v116 (c : Dev nD) :
    W9 m c (Proc.devRef .tc main_v116) = shapeCast S1x1 (W9 m c (Proc.devRef .tc main_arg12)) shapeCasts_S1_S1x1 := by
  rw [W9_tail m c]
  generalize StableHlo.after ((hostOps0_8 : List (HloOp τ sig (Elt F))).take 105) (W8 m c) = U
  rw [post08_v116, post08_keep U main_arg12 (by decide)]

/-! ## What the second region finds -/

theorem X19_tail (c : Dev nD) :
    X19 m c = StableHlo.after post18 (StableHlo.after ((hostOps1_8 : List (HloOp τ sig (Elt F))).take 105) (W18 m (o0 m) c)) :=
  after18 (W18 m (o0 m) c)

/-- Its 12-row input: a transposed argument array, the array the first stretch's tail left, the transposed sampled channels. -/
theorem X19_v230 (c : Dev nD) :
    X19 m c (Proc.devRef .tc main_v230)
      = concatenate S12x1048576 0 [⟨S2x1048576, transpose S2x1048576 [1, 0] (X19 m c (Proc.devRef .tc main_arg1)) transposes_S1048576x2_S2x1048576_1_0⟩,
          ⟨S2x1048576, X19 m c (Proc.devRef .tc main_v110)⟩,
          ⟨S8x1048576, transpose S8x1048576 [1, 0] (X19 m c (Proc.devRef .tc main_v227)) transposes_S1048576x8_S8x1048576_1_0⟩]
          concatenates_S2x1048576_S2x1048576_S8x1048576_S12x1048576_d0 := by
  rw [X19_tail m c]
  generalize StableHlo.after ((hostOps1_8 : List (HloOp τ sig (Elt F))).take 105) (W18 m (o0 m) c) = U
  rw [post18_v230, post18_keep U main_arg1 (by decide), post18_keep U main_v110 (by decide), post18_keep U main_v227 (by decide)]

theorem X19_v231 (c : Dev nD) :
    X19 m c (Proc.devRef .tc main_v231) = shapeCast S32x1 (X19 m c (Proc.devRef .tc main_arg14)) shapeCasts_S32_S32x1 := by
  rw [X19_tail m c]
  generalize StableHlo.after ((hostOps1_8 : List (HloOp τ sig (Elt F))).take 105) (W18 m (o0 m) c) = U
  rw [post18_v231, post18_keep U main_arg14 (by decide)]
theorem X19_v232 (c : Dev nD) :
    X19 m c (Proc.devRef .tc main_v232) = shapeCast S32x1 (X19 m c (Proc.devRef .tc main_arg16)) shapeCasts_S32_S32x1 := by
  rw [X19_tail m c]
  generalize StableHlo.after ((hostOps1_8 : List (HloOp τ sig (Elt F))).take 105) (W18 m (o0 m) c) = U
  rw [post18_v232, post18_keep U main_arg16 (by decide)]
theorem X19_v233 (c : Dev nD) :
    X19 m c (Proc.devRef .tc main_v233) = shapeCast S32x1 (X19 m c (Proc.devRef .tc main_arg18)) shapeCasts_S32_S32x1 := by
  rw [X19_tail m c]
  generalize StableHlo.after ((hostOps1_8 : List (HloOp τ sig (Elt F))).take 105) (W18 m (o0 m) c) = U
  rw [post18_v233, post18_keep U main_arg18 (by decide)]
theorem X19_v234 (c : Dev nD) :
    X19 m c (Proc.devRef .tc main_v234) = shapeCast S3x1 (X19 m c (Proc.devRef .tc main_arg20)) shapeCasts_S3_S3x1 := by
  rw [X19_tail m c]
  generalize StableHlo.after ((hostOps1_8 : List (HloOp τ sig (Elt F))).take 105) (W18 m (o0 m) c) = U
  rw [post18_v234, post18_keep U main_arg20 (by decide)]

/-- The array the first stretch's tail left is still there: no later stretch writes it and it is no array of the first region. -/
theorem X19_v110 (c : Dev nD) : X19 m c (Proc.devRef .tc main_v110) = W9 m c (Proc.devRef .tc main_v110) :=
  X19_keep m c main_v110 (by decide) (by decide) (by decide) (by decide) (by decide) (by decide) (by decide) (by decide)
    (by decide) (by decide)

/-! ## The two regions' outputs, transposed -/

/-- The moved coordinates: the first region's output array transposed, still there when the second region is entered. -/
theorem X19_v118 (c : Dev nD) :
    X19 m c (Proc.devRef .tc main_v118)
      = transpose S1048576x2 [1, 0] (o0 m c 9) transposes_S2x1048576_S1048576x2_1_0 :=
  calc X19 m c (Proc.devRef .tc main_v118)
      _ = W18 m (o0 m) c (Proc.devRef .tc main_v118) := StableHlo.after_of_writes_sub hostOps1_8 _ hostOps1_8_writes (by decide)
      _ = W17 m (o0 m) c (Proc.devRef .tc main_v118) := StableHlo.after_of_writes_sub hostOps1_7 _ hostOps1_7_writes (by decide)
      _ = W16 m (o0 m) c (Proc.devRef .tc main_v118) := StableHlo.after_of_writes_sub hostOps1_6 _ hostOps1_6_writes (by decide)
      _ = W15 m (o0 m) c (Proc.devRef .tc main_v118) := StableHlo.after_of_writes_sub hostOps1_5 _ hostOps1_5_writes (by decide)
      _ = W14 m (o0 m) c (Proc.devRef .tc main_v118) := StableHlo.after_of_writes_sub hostOps1_4 _ hostOps1_4_writes (by decide)
      _ = W13 m (o0 m) c (Proc.devRef .tc main_v118) := StableHlo.after_of_writes_sub hostOps1_3 _ hostOps1_3_writes (by decide)
      _ = W12 m (o0 m) c (Proc.devRef .tc main_v118) := StableHlo.after_of_writes_sub hostOps1_2 _ hostOps1_2_writes (by decide)
      _ = W11 m (o0 m) c (Proc.devRef .tc main_v118) := StableHlo.after_of_writes_sub hostOps1_1 _ hostOps1_1_writes (by decide)
      _ = transpose S1048576x2 [1, 0] (X10 m c (Proc.devRef .tc main_v117)) transposes_S2x1048576_S1048576x2_1_0 := hostOps1_v118 (X10 m c)
      _ = transpose S1048576x2 [1, 0] (o0 m c 9) transposes_S2x1048576_S1048576x2_1_0 :=
        congrArg (fun x => transpose S1048576x2 [1, 0] x transposes_S2x1048576_S1048576x2_1_0) (W10_arr m (o0 m) c 9)

/-- The result: the second region's output array transposed. -/
theorem X21_v236 (c : Dev nD) :
    X21 m c (Proc.devRef .tc main_v236)
      = transpose S1048576x3 [1, 0] (o1 m c 9) transposes_S3x1048576_S1048576x3_1_0 :=
  (hostOps2_v236 (X20 m c)).trans
    (congrArg (fun x => transpose S1048576x3 [1, 0] x transposes_S3x1048576_S1048576x3_1_0) (W20_arr m (o0 m) (o1 m) c 9))

end Buffers

/-! ## Rows laid end to end, by position -/

theorem row3_first {l m' n : ℕ} (e : Fin l → EReal) (f : Fin m' → EReal) (g : Fin n → EReal) (k : ℕ) (i : Fin l)
    (hk : k = i.val) : row3 e f g k = e i := by
  subst hk; unfold row3; rw [dif_pos i.isLt]

theorem row3_mid {l m' n : ℕ} (e : Fin l → EReal) (f : Fin m' → EReal) (g : Fin n → EReal) (k : ℕ) (i : Fin m')
    (hk : k = l + i.val) : row3 e f g k = f i := by
  subst hk
  have hi := i.isLt
  unfold row3 row2
  rw [dif_neg (by omega), dif_pos (by omega)]
  exact congrArg f (Fin.ext (by show l + i.val - l = i.val; omega))

theorem row3_last {l m' n : ℕ} (e : Fin l → EReal) (f : Fin m' → EReal) (g : Fin n → EReal) (k : ℕ) (i : Fin n)
    (hk : k = l + m' + i.val) : row3 e f g k = g i := by
  subst hk
  have hi := i.isLt
  unfold row3 row2
  rw [dif_neg (by omega), dif_neg (by omega), dif_pos (by omega)]
  exact congrArg g (Fin.ext (by show l + m' + i.val - l - m' = i.val; omega))

/-- Below the third piece, three pieces read as the first two. -/
theorem row3_lt_row2 {l m' n : ℕ} (e : Fin l → EReal) (f : Fin m' → EReal) (g : Fin n → EReal) (k : ℕ) (hk : k < l + m') :
    row3 e f g k = row2 e f k := by
  unfold row3 row2
  by_cases h1 : k < l
  · rw [dif_pos h1, dif_pos h1]
  · rw [dif_neg h1, dif_neg h1, dif_pos (by omega), dif_pos (by omega)]

theorem row3_congr {l m' n : ℕ} {e e' : Fin l → EReal} {f f' : Fin m' → EReal} {g g' : Fin n → EReal} (k : ℕ)
    (h1 : e = e') (h2 : f = f') (h3 : g = g') : row3 e f g k = row3 e' f' g' k := by rw [h1, h2, h3]

/-! ## Arrays stacked by rows, at a row -/

/-- A stacking of arrays `[·, C]` along the first axis, read at `(r, q)`: piece `k`, of `w` rows, when `r` is the
    rows before it plus a row `r'` of that piece. -/
theorem concat0_piece_at {α : Type} {C t : ℕ} (xs : List ((s : Shape) × (s.Idx → α)))
    (h : Shape.Concatenates (xs.map (·.1)) ⟨2, ![t, C]⟩ 0) (r : Fin t) (q : Fin C)
    (k : ℕ) (hk : k < xs.length) {w : ℕ} (x : (⟨2, ![w, C]⟩ : Shape).Idx → α) (hxk : xs[k] = ⟨⟨2, ![w, C]⟩, x⟩)
    (pre : ℕ)
    (hpre : (((xs.take k).map (·.1)).map fun s : Shape =>
      if h : s.rank = (⟨2, ![t, C]⟩ : Shape).rank then s.size ((0 : Fin (⟨2, ![t, C]⟩ : Shape).rank).cast h.symm) else 0).sum = pre)
    (r' : Fin w) (hr : pre + r'.val = r.val) :
    concatenate ⟨2, ![t, C]⟩ 0 xs h (ix2 r q) = x (ix2 r' q) :=
  concatenate_apply_piece 0 xs h (ix2 r q) k hk _ x hxk rfl pre hpre (ix2 r' q)
    (fun b hb => by
      match b with
      | ⟨0, _⟩ => exact absurd rfl hb
      | ⟨1, _⟩ => rfl)
    hr

/-- Three arrays `[l, C]`, `[m, C]`, `[n, C]` stacked, read at `(r, q)`: the column made of the three pieces' columns. -/
theorem concat3_rows_at {C l m' n t : ℕ} (x₁ : (⟨2, ![l, C]⟩ : Shape).Idx → EReal) (x₂ : (⟨2, ![m', C]⟩ : Shape).Idx → EReal)
    (x₃ : (⟨2, ![n, C]⟩ : Shape).Idx → EReal)
    (h : Shape.Concatenates [⟨2, ![l, C]⟩, ⟨2, ![m', C]⟩, ⟨2, ![n, C]⟩] ⟨2, ![t, C]⟩ 0) (r : Fin t) (q : Fin C) :
    concatenate ⟨2, ![t, C]⟩ 0 [⟨⟨2, ![l, C]⟩, x₁⟩, ⟨⟨2, ![m', C]⟩, x₂⟩, ⟨⟨2, ![n, C]⟩, x₃⟩] h (ix2 r q)
      = row3 (fun (i : Fin l) => x₁ (ix2 i q)) (fun (i : Fin m') => x₂ (ix2 i q)) (fun (i : Fin n) => x₃ (ix2 i q)) r.val := by
  have e : l + (m' + (n + 0)) = t := h.2.2
  have hr := r.isLt
  unfold row3 row2
  by_cases h1 : r.val < l
  · rw [dif_pos h1]
    exact concat0_piece_at [⟨⟨2, ![l, C]⟩, x₁⟩, ⟨⟨2, ![m', C]⟩, x₂⟩, ⟨⟨2, ![n, C]⟩, x₃⟩] h r q 0 (by simp) x₁ rfl 0 rfl ⟨r.val, h1⟩ (Nat.zero_add _)
  · rw [dif_neg h1]
    by_cases h2 : r.val - l < m'
    · rw [dif_pos h2]
      exact concat0_piece_at [⟨⟨2, ![l, C]⟩, x₁⟩, ⟨⟨2, ![m', C]⟩, x₂⟩, ⟨⟨2, ![n, C]⟩, x₃⟩] h r q 1 (by simp) x₂ rfl l rfl ⟨r.val - l, h2⟩ (by show l + (r.val - l) = r.val; omega)
    · have h3 : r.val - l - m' < n := by omega
      rw [dif_neg h2, dif_pos h3]
      exact concat0_piece_at [⟨⟨2, ![l, C]⟩, x₁⟩, ⟨⟨2, ![m', C]⟩, x₂⟩, ⟨⟨2, ![n, C]⟩, x₃⟩] h r q 2 (by simp) x₃ rfl (l + m') rfl ⟨r.val - l - m', h3⟩
        (by show l + m' + (r.val - l - m') = r.val; omega)

/-! ## The specification's functions respect equal arguments -/

theorem offsetUv_congr {ι : Type} [Fintype ι] {cam cam' uv uv' : ι → EReal} {d d' : EReal} (o e : EReal) (a : ι)
    (h1 : cam = cam') (h2 : uv = uv') (h3 : d = d') : offsetUv cam uv d o e a = offsetUv cam' uv' d' o e a := by
  rw [h1, h2, h3]

theorem mlp4_congr {κ₀ κ₁ κ₂ κ₃ ι : Type} [Fintype κ₀] [Fintype κ₁] [Fintype κ₂] [Fintype κ₃]
    {W0 W0' : κ₁ → κ₀ → EReal} {b0 b0' : κ₁ → EReal} {W1 W1' : κ₂ → κ₁ → EReal} {b1 b1' : κ₂ → EReal}
    {W2 W2' : κ₃ → κ₂ → EReal} {b2 b2' : κ₃ → EReal} {W3 W3' : ι → κ₃ → EReal} {b3 b3' : ι → EReal} (s : EReal)
    {x x' : κ₀ → EReal}
    (hW0 : W0 = W0') (hb0 : b0 = b0') (hW1 : W1 = W1') (hb1 : b1 = b1') (hW2 : W2 = W2') (hb2 : b2 = b2')
    (hW3 : W3 = W3') (hb3 : b3 = b3') (hx : x = x') :
    mlp4 W0 b0 W1 b1 W2 b2 W3 b3 s x = mlp4 W0' b0' W1' b1' W2' b2' W3' b3' s x' := by
  subst hW0 hb0 hW1 hb1 hW2 hb2 hW3 hb3 hx; rfl

section AtIdeal

variable (m : (ℓ : Loc nD τ sig) → Buf (Elt Ideal) ℓ) (c : Dev nD)

/-- Every pixel is a column of one of the 8 blocks. -/
theorem pixel_split (B : Fin 1048576) : ∃ (t : Fin 8) (q : Fin 131072), B = ⟨t.val * 131072 + q.val, col_lt0 t q⟩ :=
  ⟨⟨B.val / 131072, by have := B.isLt; omega⟩, ⟨B.val % 131072, Nat.mod_lt _ (by decide)⟩,
    Fin.ext (by show B.val = B.val / 131072 * 131072 + B.val % 131072; omega)⟩

/-! ## The regions' 12-row inputs at a row and a pixel -/

/-- Row `k` of the first region's input at pixel `B`: the pixel's 8 sampled channels, then its view direction, then its
    texture coordinate. -/
theorem in0_at (k : Fin 12) (B : Fin 1048576) :
    (W9 m c (Proc.devRef .tc main_v112) : S12x1048576.Idx → EReal) (ix2 k B)
      = row3 (fun (i : Fin 8) => (W9 m c (Proc.devRef .tc main_v108) : S1048576x8.Idx → EReal) (ix2 B i)) (fun (i : Fin 2) => (m ((c.tc : Thread nD τ).loc main_arg0) : S1048576x2.Idx → EReal) (ix2 B i))
          (fun (i : Fin 2) => (m ((c.tc : Thread nD τ).loc main_arg2) : S1048576x2.Idx → EReal) (ix2 B i)) k.val := by
  rw [W9_v112, W9_arg m c main_arg0 (by decide), W9_arg m c main_arg2 (by decide)]
  refine (concat3_rows_at _ _ _ _ k B).trans ?_
  exact row3_congr k.val (funext fun i => transpose_ix2_apply _ _ i B) (funext fun i => transpose_ix2_apply _ _ i B)
    (funext fun i => transpose_ix2_apply _ _ i B)

/-- Row `k` of the second region's input at pixel `B`: the pixel's light direction, its view direction, then its 8
    channels sampled at the moved coordinate. -/
theorem in1_at (k : Fin 12) (B : Fin 1048576) :
    (X19 m c (Proc.devRef .tc main_v230) : S12x1048576.Idx → EReal) (ix2 k B)
      = row3 (fun (i : Fin 2) => (m ((c.tc : Thread nD τ).loc main_arg1) : S1048576x2.Idx → EReal) (ix2 B i)) (fun (i : Fin 2) => (m ((c.tc : Thread nD τ).loc main_arg0) : S1048576x2.Idx → EReal) (ix2 B i))
          (fun (i : Fin 8) => (X19 m c (Proc.devRef .tc main_v227) : S1048576x8.Idx → EReal) (ix2 B i)) k.val := by
  rw [X19_v230, X19_v110, W9_v110, X19_arg m c main_arg1 (by decide), W9_arg m c main_arg0 (by decide)]
  refine (concat3_rows_at _ _ _ _ k B).trans ?_
  exact row3_congr k.val (funext fun i => transpose_ix2_apply _ _ i B) (funext fun i => transpose_ix2_apply _ _ i B)
    (funext fun i => transpose_ix2_apply _ _ i B)

/-! ## The moved texture coordinate -/

/-- THE MOVED COORDINATE at pixel `B`, component `a`: the parallax offset of the pixel's coordinate along its view
    direction by the depth the first network gives the pixel's 8 sampled channels and view direction. -/
theorem uv2_at (B : Fin 1048576) (a : Fin 2) :
    (X19 m c (Proc.devRef .tc main_v118) : S1048576x2.Idx → EReal) (ix2 B a)
      = offsetUv (fun (i : Fin 2) => (m ((c.tc : Thread nD τ).loc main_arg0) : S1048576x2.Idx → EReal) (ix2 B i)) (fun (i : Fin 2) => (m ((c.tc : Thread nD τ).loc main_arg2) : S1048576x2.Idx → EReal) (ix2 B i))
          (mlp4 (fun (j : Fin 32) (i : Fin 10) => (m ((c.tc : Thread nD τ).loc main_arg5) : S32x10.Idx → EReal) (ix2 j i))
            (fun (j : Fin 32) => (m ((c.tc : Thread nD τ).loc main_arg6) : S32.Idx → EReal) (ix1 j))
            (fun (j : Fin 32) (i : Fin 32) => (m ((c.tc : Thread nD τ).loc main_arg7) : S32x32.Idx → EReal) (ix2 j i))
            (fun (j : Fin 32) => (m ((c.tc : Thread nD τ).loc main_arg8) : S32.Idx → EReal) (ix1 j))
            (fun (j : Fin 32) (i : Fin 32) => (m ((c.tc : Thread nD τ).loc main_arg9) : S32x32.Idx → EReal) (ix2 j i))
            (fun (j : Fin 32) => (m ((c.tc : Thread nD τ).loc main_arg10) : S32.Idx → EReal) (ix1 j))
            (fun (j : Fin 1) (i : Fin 32) => (m ((c.tc : Thread nD τ).loc main_arg11) : S1x32.Idx → EReal) (ix2 j i))
            (fun (j : Fin 1) => (m ((c.tc : Thread nD τ).loc main_arg12) : S1.Idx → EReal) (ix1 j))
            (Ideal.ofBits .f32 0x3C23D70A#32)
            (fun (k : Fin 10) => row2 (fun (i : Fin 8) => (W9 m c (Proc.devRef .tc main_v108) : S1048576x8.Idx → EReal) (ix2 B i)) (fun (i : Fin 2) => (m ((c.tc : Thread nD τ).loc main_arg0) : S1048576x2.Idx → EReal) (ix2 B i)) k.val) (0 : Fin 1))
          (Ideal.ofBits .f32 0x3F800000#32) (Ideal.ofBits .f32 0x358637BD#32) a := by
  obtain ⟨t, q, rfl⟩ := pixel_split B
  rw [X19_v118]
  refine (transpose_ix2_apply (a := 2) (b := 1048576) _ _ _ a).trans ?_
  rw [show o0 m c 9 = G0 (V9 m) c from arr0 (V9 m) c, G0_at, out0_9_eq]
  refine (k0_at _ _ _ _ _ _ _ _ _ a q).trans ?_
  have col : ∀ k : Fin 12, (iblk0 (V9 m) c 0 ⟨t.val, lt_N0 t⟩ : Vec Ideal S12x131072 .f32) (ix2 k q)
      = row3 (fun (i : Fin 8) => (W9 m c (Proc.devRef .tc main_v108) : S1048576x8.Idx → EReal) (ix2 (⟨t.val * 131072 + q.val, col_lt0 t q⟩ : Fin 1048576) i))
          (fun (i : Fin 2) => (m ((c.tc : Thread nD τ).loc main_arg0) : S1048576x2.Idx → EReal) (ix2 (⟨t.val * 131072 + q.val, col_lt0 t q⟩ : Fin 1048576) i))
          (fun (i : Fin 2) => (m ((c.tc : Thread nD τ).loc main_arg2) : S1048576x2.Idx → EReal) (ix2 (⟨t.val * 131072 + q.val, col_lt0 t q⟩ : Fin 1048576) i)) k.val :=
    fun k => (iblk0_0_at (V9 m) c k t q).trans (in0_at m c k _)
  have hW0 : (fun (j : Fin 32) (i : Fin 10) => (iblk0 (V9 m) c 1 ⟨t.val, lt_N0 t⟩ : S32x10.Idx → EReal) (ix2 j i))
      = fun (j : Fin 32) (i : Fin 10) => (m ((c.tc : Thread nD τ).loc main_arg5) : S32x10.Idx → EReal) (ix2 j i) := by
    rw [show (iblk0 (V9 m) c 1 ⟨t.val, lt_N0 t⟩ : S32x10.Idx → EReal) = (m ((c.tc : Thread nD τ).loc main_arg5) : S32x10.Idx → EReal) from
      (iblk0_1 (V9 m) c ⟨t.val, lt_N0 t⟩).trans (W9_arg m c main_arg5 (by decide))]
  have hb0 : (fun (j : Fin 32) => (iblk0 (V9 m) c 2 ⟨t.val, lt_N0 t⟩ : S32x1.Idx → EReal) (ix2 j (0 : Fin 1)))
      = fun (j : Fin 32) => (m ((c.tc : Thread nD τ).loc main_arg6) : S32.Idx → EReal) (ix1 j) := by
    rw [show (iblk0 (V9 m) c 2 ⟨t.val, lt_N0 t⟩ : S32x1.Idx → EReal) = shapeCast S32x1 (m ((c.tc : Thread nD τ).loc main_arg6) : S32.Idx → EReal) shapeCasts_S32_S32x1 from
      (iblk0_2 (V9 m) c ⟨t.val, lt_N0 t⟩).trans ((W9_v113 m c).trans (congrArg (fun x => shapeCast S32x1 x _) (W9_arg m c main_arg6 (by decide))))]
    exact funext fun j => Cert.LibColumn.shapeCast_a_a1_apply _ _ j (0 : Fin 1)
  have hW1 : (fun (j : Fin 32) (i : Fin 32) => (iblk0 (V9 m) c 3 ⟨t.val, lt_N0 t⟩ : S32x32.Idx → EReal) (ix2 j i))
      = fun (j : Fin 32) (i : Fin 32) => (m ((c.tc : Thread nD τ).loc main_arg7) : S32x32.Idx → EReal) (ix2 j i) := by
    rw [show (iblk0 (V9 m) c 3 ⟨t.val, lt_N0 t⟩ : S32x32.Idx → EReal) = (m ((c.tc : Thread nD τ).loc main_arg7) : S32x32.Idx → EReal) from
      (iblk0_3 (V9 m) c ⟨t.val, lt_N0 t⟩).trans (W9_arg m c main_arg7 (by decide))]
  have hb1 : (fun (j : Fin 32) => (iblk0 (V9 m) c 4 ⟨t.val, lt_N0 t⟩ : S32x1.Idx → EReal) (ix2 j (0 : Fin 1)))
      = fun (j : Fin 32) => (m ((c.tc : Thread nD τ).loc main_arg8) : S32.Idx → EReal) (ix1 j) := by
    rw [show (iblk0 (V9 m) c 4 ⟨t.val, lt_N0 t⟩ : S32x1.Idx → EReal) = shapeCast S32x1 (m ((c.tc : Thread nD τ).loc main_arg8) : S32.Idx → EReal) shapeCasts_S32_S32x1 from
      (iblk0_4 (V9 m) c ⟨t.val, lt_N0 t⟩).trans ((W9_v114 m c).trans (congrArg (fun x => shapeCast S32x1 x _) (W9_arg m c main_arg8 (by decide))))]
    exact funext fun j => Cert.LibColumn.shapeCast_a_a1_apply _ _ j (0 : Fin 1)
  have hW2 : (fun (j : Fin 32) (i : Fin 32) => (iblk0 (V9 m) c 5 ⟨t.val, lt_N0 t⟩ : S32x32.Idx → EReal) (ix2 j i))
      = fun (j : Fin 32) (i : Fin 32) => (m ((c.tc : Thread nD τ).loc main_arg9) : S32x32.Idx → EReal) (ix2 j i) := by
    rw [show (iblk0 (V9 m) c 5 ⟨t.val, lt_N0 t⟩ : S32x32.Idx → EReal) = (m ((c.tc : Thread nD τ).loc main_arg9) : S32x32.Idx → EReal) from
      (iblk0_5 (V9 m) c ⟨t.val, lt_N0 t⟩).trans (W9_arg m c main_arg9 (by decide))]
  have hb2 : (fun (j : Fin 32) => (iblk0 (V9 m) c 6 ⟨t.val, lt_N0 t⟩ : S32x1.Idx → EReal) (ix2 j (0 : Fin 1)))
      = fun (j : Fin 32) => (m ((c.tc : Thread nD τ).loc main_arg10) : S32.Idx → EReal) (ix1 j) := by
    rw [show (iblk0 (V9 m) c 6 ⟨t.val, lt_N0 t⟩ : S32x1.Idx → EReal) = shapeCast S32x1 (m ((c.tc : Thread nD τ).loc main_arg10) : S32.Idx → EReal) shapeCasts_S32_S32x1 from
      (iblk0_6 (V9 m) c ⟨t.val, lt_N0 t⟩).trans ((W9_v115 m c).trans (congrArg (fun x => shapeCast S32x1 x _) (W9_arg m c main_arg10 (by decide))))]
    exact funext fun j => Cert.LibColumn.shapeCast_a_a1_apply _ _ j (0 : Fin 1)
  have hW3 : (fun (j : Fin 1) (i : Fin 32) => (iblk0 (V9 m) c 7 ⟨t.val, lt_N0 t⟩ : S1x32.Idx → EReal) (ix2 j i))
      = fun (j : Fin 1) (i : Fin 32) => (m ((c.tc : Thread nD τ).loc main_arg11) : S1x32.Idx → EReal) (ix2 j i) := by
    rw [show (iblk0 (V9 m) c 7 ⟨t.val, lt_N0 t⟩ : S1x32.Idx → EReal) = (m ((c.tc : Thread nD τ).loc main_arg11) : S1x32.Idx → EReal) from
      (iblk0_7 (V9 m) c ⟨t.val, lt_N0 t⟩).trans (W9_arg m c main_arg11 (by decide))]
  have hb3 : (fun (j : Fin 1) => (iblk0 (V9 m) c 8 ⟨t.val, lt_N0 t⟩ : S1x1.Idx → EReal) (ix2 j (0 : Fin 1)))
      = fun (j : Fin 1) => (m ((c.tc : Thread nD τ).loc main_arg12) : S1.Idx → EReal) (ix1 j) := by
    rw [show (iblk0 (V9 m) c 8 ⟨t.val, lt_N0 t⟩ : S1x1.Idx → EReal) = shapeCast S1x1 (m ((c.tc : Thread nD τ).loc main_arg12) : S1.Idx → EReal) shapeCasts_S1_S1x1 from
      (iblk0_8 (V9 m) c ⟨t.val, lt_N0 t⟩).trans ((W9_v116 m c).trans (congrArg (fun x => shapeCast S1x1 x _) (W9_arg m c main_arg12 (by decide))))]
    exact funext fun j => Cert.LibColumn.shapeCast_a_a1_apply _ _ j (0 : Fin 1)
  refine offsetUv_congr _ _ a (funext fun i => ?_) (funext fun i => ?_)
    (congrFun (mlp4_congr _ hW0 hb0 hW1 hb1 hW2 hb2 hW3 hb3 (funext fun k => ?_)) (0 : Fin 1))
  · exact (col _).trans (row3_mid _ _ _ _ i rfl)
  · exact (col _).trans (row3_last _ _ _ _ i rfl)
  · exact (col _).trans (row3_lt_row2 _ _ _ _ (by have := k.isLt; show k.val < 8 + 2; omega))

/-! ## The colour -/

/-- THE RESULT at pixel `B`, channel `j`: the second network of the pixel's light direction, view direction and the 8
    channels sampled at the moved coordinate. -/
theorem out_at (B : Fin 1048576) (j : Fin 3) :
    (X21 m c (Proc.devRef .tc main_v236) : S1048576x3.Idx → EReal) (ix2 B j)
      = mlp4 (fun (j : Fin 32) (i : Fin 12) => (m ((c.tc : Thread nD τ).loc main_arg13) : S32x12.Idx → EReal) (ix2 j i))
            (fun (j : Fin 32) => (m ((c.tc : Thread nD τ).loc main_arg14) : S32.Idx → EReal) (ix1 j))
            (fun (j : Fin 32) (i : Fin 32) => (m ((c.tc : Thread nD τ).loc main_arg15) : S32x32.Idx → EReal) (ix2 j i))
            (fun (j : Fin 32) => (m ((c.tc : Thread nD τ).loc main_arg16) : S32.Idx → EReal) (ix1 j))
            (fun (j : Fin 32) (i : Fin 32) => (m ((c.tc : Thread nD τ).loc main_arg17) : S32x32.Idx → EReal) (ix2 j i))
            (fun (j : Fin 32) => (m ((c.tc : Thread nD τ).loc main_arg18) : S32.Idx → EReal) (ix1 j))
            (fun (j : Fin 3) (i : Fin 32) => (m ((c.tc : Thread nD τ).loc main_arg19) : S3x32.Idx → EReal) (ix2 j i))
            (fun (j : Fin 3) => (m ((c.tc : Thread nD τ).loc main_arg20) : S3.Idx → EReal) (ix1 j))
            (Ideal.ofBits .f32 0x3C23D70A#32)
            (fun (k : Fin 12) => row3 (fun (i : Fin 2) => (m ((c.tc : Thread nD τ).loc main_arg1) : S1048576x2.Idx → EReal) (ix2 B i)) (fun (i : Fin 2) => (m ((c.tc : Thread nD τ).loc main_arg0) : S1048576x2.Idx → EReal) (ix2 B i)) (fun (i : Fin 8) => (X19 m c (Proc.devRef .tc main_v227) : S1048576x8.Idx → EReal) (ix2 B i)) k.val) j := by
  obtain ⟨t, q, rfl⟩ := pixel_split B
  rw [X21_v236]
  refine (transpose_ix2_apply (a := 3) (b := 1048576) _ _ _ j).trans ?_
  rw [show o1 m c 9 = G1 (V19 m) c from arr1 (V19 m) c, G1_at, out1_9_eq]
  refine (k1_at _ _ _ _ _ _ _ _ _ j q).trans ?_
  have col : ∀ k : Fin 12, (iblk1 (V19 m) c 0 ⟨t.val, lt_N1 t⟩ : Vec Ideal S12x131072 .f32) (ix2 k q)
      = row3 (fun (i : Fin 2) => (m ((c.tc : Thread nD τ).loc main_arg1) : S1048576x2.Idx → EReal) (ix2 (⟨t.val * 131072 + q.val, col_lt0 t q⟩ : Fin 1048576) i))
          (fun (i : Fin 2) => (m ((c.tc : Thread nD τ).loc main_arg0) : S1048576x2.Idx → EReal) (ix2 (⟨t.val * 131072 + q.val, col_lt0 t q⟩ : Fin 1048576) i))
          (fun (i : Fin 8) => (X19 m c (Proc.devRef .tc main_v227) : S1048576x8.Idx → EReal) (ix2 (⟨t.val * 131072 + q.val, col_lt0 t q⟩ : Fin 1048576) i)) k.val :=
    fun k => (iblk1_0_at (V19 m) c k t q).trans (in1_at m c k _)
  have hW0 : (fun (j : Fin 32) (i : Fin 12) => (iblk1 (V19 m) c 1 ⟨t.val, lt_N1 t⟩ : S32x12.Idx → EReal) (ix2 j i))
      = fun (j : Fin 32) (i : Fin 12) => (m ((c.tc : Thread nD τ).loc main_arg13) : S32x12.Idx → EReal) (ix2 j i) := by
    rw [show (iblk1 (V19 m) c 1 ⟨t.val, lt_N1 t⟩ : S32x12.Idx → EReal) = (m ((c.tc : Thread nD τ).loc main_arg13) : S32x12.Idx → EReal) from
      (iblk1_1 (V19 m) c ⟨t.val, lt_N1 t⟩).trans (X19_arg m c main_arg13 (by decide))]
  have hb0 : (fun (j : Fin 32) => (iblk1 (V19 m) c 2 ⟨t.val, lt_N1 t⟩ : S32x1.Idx → EReal) (ix2 j (0 : Fin 1)))
      = fun (j : Fin 32) => (m ((c.tc : Thread nD τ).loc main_arg14) : S32.Idx → EReal) (ix1 j) := by
    rw [show (iblk1 (V19 m) c 2 ⟨t.val, lt_N1 t⟩ : S32x1.Idx → EReal) = shapeCast S32x1 (m ((c.tc : Thread nD τ).loc main_arg14) : S32.Idx → EReal) shapeCasts_S32_S32x1 from
      (iblk1_2 (V19 m) c ⟨t.val, lt_N1 t⟩).trans ((X19_v231 m c).trans (congrArg (fun x => shapeCast S32x1 x _) (X19_arg m c main_arg14 (by decide))))]
    exact funext fun j => Cert.LibColumn.shapeCast_a_a1_apply _ _ j (0 : Fin 1)
  have hW1 : (fun (j : Fin 32) (i : Fin 32) => (iblk1 (V19 m) c 3 ⟨t.val, lt_N1 t⟩ : S32x32.Idx → EReal) (ix2 j i))
      = fun (j : Fin 32) (i : Fin 32) => (m ((c.tc : Thread nD τ).loc main_arg15) : S32x32.Idx → EReal) (ix2 j i) := by
    rw [show (iblk1 (V19 m) c 3 ⟨t.val, lt_N1 t⟩ : S32x32.Idx → EReal) = (m ((c.tc : Thread nD τ).loc main_arg15) : S32x32.Idx → EReal) from
      (iblk1_3 (V19 m) c ⟨t.val, lt_N1 t⟩).trans (X19_arg m c main_arg15 (by decide))]
  have hb1 : (fun (j : Fin 32) => (iblk1 (V19 m) c 4 ⟨t.val, lt_N1 t⟩ : S32x1.Idx → EReal) (ix2 j (0 : Fin 1)))
      = fun (j : Fin 32) => (m ((c.tc : Thread nD τ).loc main_arg16) : S32.Idx → EReal) (ix1 j) := by
    rw [show (iblk1 (V19 m) c 4 ⟨t.val, lt_N1 t⟩ : S32x1.Idx → EReal) = shapeCast S32x1 (m ((c.tc : Thread nD τ).loc main_arg16) : S32.Idx → EReal) shapeCasts_S32_S32x1 from
      (iblk1_4 (V19 m) c ⟨t.val, lt_N1 t⟩).trans ((X19_v232 m c).trans (congrArg (fun x => shapeCast S32x1 x _) (X19_arg m c main_arg16 (by decide))))]
    exact funext fun j => Cert.LibColumn.shapeCast_a_a1_apply _ _ j (0 : Fin 1)
  have hW2 : (fun (j : Fin 32) (i : Fin 32) => (iblk1 (V19 m) c 5 ⟨t.val, lt_N1 t⟩ : S32x32.Idx → EReal) (ix2 j i))
      = fun (j : Fin 32) (i : Fin 32) => (m ((c.tc : Thread nD τ).loc main_arg17) : S32x32.Idx → EReal) (ix2 j i) := by
    rw [show (iblk1 (V19 m) c 5 ⟨t.val, lt_N1 t⟩ : S32x32.Idx → EReal) = (m ((c.tc : Thread nD τ).loc main_arg17) : S32x32.Idx → EReal) from
      (iblk1_5 (V19 m) c ⟨t.val, lt_N1 t⟩).trans (X19_arg m c main_arg17 (by decide))]
  have hb2 : (fun (j : Fin 32) => (iblk1 (V19 m) c 6 ⟨t.val, lt_N1 t⟩ : S32x1.Idx → EReal) (ix2 j (0 : Fin 1)))
      = fun (j : Fin 32) => (m ((c.tc : Thread nD τ).loc main_arg18) : S32.Idx → EReal) (ix1 j) := by
    rw [show (iblk1 (V19 m) c 6 ⟨t.val, lt_N1 t⟩ : S32x1.Idx → EReal) = shapeCast S32x1 (m ((c.tc : Thread nD τ).loc main_arg18) : S32.Idx → EReal) shapeCasts_S32_S32x1 from
      (iblk1_6 (V19 m) c ⟨t.val, lt_N1 t⟩).trans ((X19_v233 m c).trans (congrArg (fun x => shapeCast S32x1 x _) (X19_arg m c main_arg18 (by decide))))]
    exact funext fun j => Cert.LibColumn.shapeCast_a_a1_apply _ _ j (0 : Fin 1)
  have hW3 : (fun (j : Fin 3) (i : Fin 32) => (iblk1 (V19 m) c 7 ⟨t.val, lt_N1 t⟩ : S3x32.Idx → EReal) (ix2 j i))
      = fun (j : Fin 3) (i : Fin 32) => (m ((c.tc : Thread nD τ).loc main_arg19) : S3x32.Idx → EReal) (ix2 j i) := by
    rw [show (iblk1 (V19 m) c 7 ⟨t.val, lt_N1 t⟩ : S3x32.Idx → EReal) = (m ((c.tc : Thread nD τ).loc main_arg19) : S3x32.Idx → EReal) from
      (iblk1_7 (V19 m) c ⟨t.val, lt_N1 t⟩).trans (X19_arg m c main_arg19 (by decide))]
  have hb3 : (fun (j : Fin 3) => (iblk1 (V19 m) c 8 ⟨t.val, lt_N1 t⟩ : S3x1.Idx → EReal) (ix2 j (0 : Fin 1)))
      = fun (j : Fin 3) => (m ((c.tc : Thread nD τ).loc main_arg20) : S3.Idx → EReal) (ix1 j) := by
    rw [show (iblk1 (V19 m) c 8 ⟨t.val, lt_N1 t⟩ : S3x1.Idx → EReal) = shapeCast S3x1 (m ((c.tc : Thread nD τ).loc main_arg20) : S3.Idx → EReal) shapeCasts_S3_S3x1 from
      (iblk1_8 (V19 m) c ⟨t.val, lt_N1 t⟩).trans ((X19_v234 m c).trans (congrArg (fun x => shapeCast S3x1 x _) (X19_arg m c main_arg20 (by decide))))]
    exact funext fun j => Cert.LibColumn.shapeCast_a_a1_apply _ _ j (0 : Fin 1)
  exact congrFun (mlp4_congr _ hW0 hb0 hW1 hb1 hW2 hb2 hW3 hb3 (funext fun k => col k)) j

end AtIdeal

end Cert.KernelIdeal.Hand

end
-- ==== Proof.KI.BilinK.lean ====
/-
  The program's two texture lookups are the bilinear sampler.

  Before each of its two kernel regions the program runs, as host operations, the same sampler the reference runs: the
  cell and the two weights from the scaled coordinates, the four neighbouring texels (indices modulo 512, negative ones
  wrapped) gathered and blended.  Folded over any contents of the buffers, the stretches of host operations before the
  first region leave, in the sampler's result buffer, the sampler applied to the texture's and the coordinates'
  buffers; the stretches between the regions likewise, on the second texture and the shifted coordinates.
-/
import proofs.«142216_j1408749273558_2_alg».proof.Proof.KI.Run
import proofs.«142216_j1408749273558_2_alg».proof.Proof.Gen.ReferenceIdeal
import proofs.«142216_j1408749273558_2_alg».proof.Proof.Ref.Bilin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

set_option maxHeartbeats 4000000 in  -- one simplifier pass over the 217 operations of the nine stretches
/-- The first lookup, over any contents `V` of the buffers. -/
theorem lookup0_of (V : Valuation τ sig (Elt F)) :
    (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V))))))))) (Proc.devRef .tc main_v108)
      = Cert.NeuMipHost.bilin (V (Proc.devRef .tc main_arg3)) (V (Proc.devRef .tc main_arg2)) := by
  after_results_simp
  sl_kernel_rfl

set_option maxHeartbeats 4000000 in  -- one simplifier pass over the 218 operations of the nine stretches
/-- The second lookup, over any contents `V` of the buffers: the coordinates are what the first operation of the
    stretches leaves in its result buffer, which no later operation writes. -/
theorem lookup1_of (V : Valuation τ sig (Elt F)) :
    (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 V))))))))) (Proc.devRef .tc main_v227)
      = Cert.NeuMipHost.bilin (V (Proc.devRef .tc main_arg4))
          ((StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 V))))))))) (Proc.devRef .tc main_v118)) := by
  after_results_simp
  sl_kernel_rfl

variable (m : (ℓ : Loc nD τ sig) → Buf (Elt F) ℓ)

/-- An argument array holds its launch contents when the first region starts: no stretch before it writes one. -/
theorem W9_arg (c : Dev nD) (r : Ref sig .tc) (hr : r ∈ argRefs) :
    W9 m c (Proc.devRef .tc r) = m ((c.tc : Thread nD τ).loc r) :=
  calc W9 m c (Proc.devRef .tc r)
      _ = W8 m c (Proc.devRef .tc r) := StableHlo.after_of_writes_sub hostOps0_8 _ hostOps0_8_writes (hostOps0_8_args r hr)
      _ = W7 m c (Proc.devRef .tc r) := StableHlo.after_of_writes_sub hostOps0_7 _ hostOps0_7_writes (hostOps0_7_args r hr)
      _ = W6 m c (Proc.devRef .tc r) := StableHlo.after_of_writes_sub hostOps0_6 _ hostOps0_6_writes (hostOps0_6_args r hr)
      _ = W5 m c (Proc.devRef .tc r) := StableHlo.after_of_writes_sub hostOps0_5 _ hostOps0_5_writes (hostOps0_5_args r hr)
      _ = W4 m c (Proc.devRef .tc r) := StableHlo.after_of_writes_sub hostOps0_4 _ hostOps0_4_writes (hostOps0_4_args r hr)
      _ = W3 m c (Proc.devRef .tc r) := StableHlo.after_of_writes_sub hostOps0_3 _ hostOps0_3_writes (hostOps0_3_args r hr)
      _ = W2 m c (Proc.devRef .tc r) := StableHlo.after_of_writes_sub hostOps0_2 _ hostOps0_2_writes (hostOps0_2_args r hr)
      _ = W1 m c (Proc.devRef .tc r) := StableHlo.after_of_writes_sub hostOps0_1 _ hostOps0_1_writes (hostOps0_1_args r hr)
      _ = W0 m c (Proc.devRef .tc r) := StableHlo.after_of_writes_sub hostOps0 _ hostOps0_writes (hostOps0_args r hr)
      _ = m ((c.tc : Thread nD τ).loc r) := rfl

/-- The first lookup at the program's launch contents. -/
theorem lookup0 (c : Dev nD) :
    W9 m c (Proc.devRef .tc main_v108)
      = Cert.NeuMipHost.bilin (m ((c.tc : Thread nD τ).loc main_arg3)) (m ((c.tc : Thread nD τ).loc main_arg2)) :=
  lookup0_of (W0 m c)

/-- The second texture is no window's array of the first region, so the region leaves it as it found it. -/
theorem arg4_not_window0 : ∀ w, Pipeline.arrRef spec0 w ≠ main_arg4 := by decide

/-- The second lookup between the regions: on the second texture's launch contents and the shifted coordinates. -/
theorem lookup1 (c : Dev nD) :
    X19 m c (Proc.devRef .tc main_v227)
      = Cert.NeuMipHost.bilin (m ((c.tc : Thread nD τ).loc main_arg4)) (X19 m c (Proc.devRef .tc main_v118)) := by
  have h4 : X10 m c (Proc.devRef .tc main_arg4) = m ((c.tc : Thread nD τ).loc main_arg4) :=
    (W10_of_ne m (o0 m) c main_arg4 arg4_not_window0).trans (W9_arg m c main_arg4 (by decide))
  exact (lookup1_of (X10 m c)).trans (congrArg (fun x => Cert.NeuMipHost.bilin x (X19 m c (Proc.devRef .tc main_v118))) h4)

end Cert.KernelIdeal.Hand

end
-- ==== Proof.Ref.Segs.lean ====
/- Three of @main's windows cut where one stage of the computation ends and the next begins — the first texture lookup ends
   inside window 2, the offset network at its last operation but one, the shifted sampling point inside window 3, the second
   lookup inside window 5 —: the pieces as lists, each window the concatenation of its pieces, and what each piece writes. -/
import proofs.«142216_j1408749273558_2_alg».proof.Proof.Gen.ReferenceIdeal
import proofs.«142216_j1408749273558_2_alg».proof.Proof.Ref.Base
import proofs.«142216_j1408749273558_2_alg».proof.Proof.Ref.Ops2
import proofs.«142216_j1408749273558_2_alg».proof.Proof.Ref.Ops3
import proofs.«142216_j1408749273558_2_alg».proof.Proof.Ref.Ops5
import Idealize.ShloMosaic.Lib.StableHlo.Run

-- a list of over a hundred operations written with `::` nests past the default depth
set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Window 2's first 17 operations: the end of the first texture lookup (through `main_v108`). -/
abbrev opsP2a : List (HloOp τ sig (Elt F)) :=
  ( StableHlo.binary main_v92 main_v25 main_v93 (subf : (⟨S1048576x1, .f32⟩ : BufTy).Contents (Elt F) → (⟨S1048576x1, .f32⟩ : BufTy).Contents (Elt F) → (⟨S1048576x1, .f32⟩ : BufTy).Contents (Elt F))
  :: StableHlo.unary main_v93 main_v94 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v91 main_v94 main_v95 (mulf : (⟨S1048576x8, .f32⟩ : BufTy).Contents (Elt F) → (⟨S1048576x8, .f32⟩ : BufTy).Contents (Elt F) → (⟨S1048576x8, .f32⟩ : BufTy).Contents (Elt F))
  :: StableHlo.binary main_v89 main_v95 main_v96 (addf : (⟨S1048576x8, .f32⟩ : BufTy).Contents (Elt F) → (⟨S1048576x8, .f32⟩ : BufTy).Contents (Elt F) → (⟨S1048576x8, .f32⟩ : BufTy).Contents (Elt F))
  :: StableHlo.nullary main_cst_25 (constant S_ .f32 0x3F800000#32)
  :: StableHlo.unary main_cst_25 main_v97 (broadcastInDim S1048576x1 ![] bcast_S_S1048576x1 : (⟨S_, .f32⟩ : BufTy).Contents (Elt F) → (⟨S1048576x1, .f32⟩ : BufTy).Contents (Elt F))
  :: StableHlo.binary main_v97 main_v24 main_v98 (subf : (⟨S1048576x1, .f32⟩ : BufTy).Contents (Elt F) → (⟨S1048576x1, .f32⟩ : BufTy).Contents (Elt F) → (⟨S1048576x1, .f32⟩ : BufTy).Contents (Elt F))
  :: StableHlo.unary main_v98 main_v99 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v67 main_v99 main_v100 (mulf : (⟨S1048576x8, .f32⟩ : BufTy).Contents (Elt F) → (⟨S1048576x8, .f32⟩ : BufTy).Contents (Elt F) → (⟨S1048576x8, .f32⟩ : BufTy).Contents (Elt F))
  :: StableHlo.unary main_v25 main_v101 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v100 main_v101 main_v102 (mulf : (⟨S1048576x8, .f32⟩ : BufTy).Contents (Elt F) → (⟨S1048576x8, .f32⟩ : BufTy).Contents (Elt F) → (⟨S1048576x8, .f32⟩ : BufTy).Contents (Elt F))
  :: StableHlo.binary main_v96 main_v102 main_v103 (addf : (⟨S1048576x8, .f32⟩ : BufTy).Contents (Elt F) → (⟨S1048576x8, .f32⟩ : BufTy).Contents (Elt F) → (⟨S1048576x8, .f32⟩ : BufTy).Contents (Elt F))
  :: StableHlo.unary main_v24 main_v104 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v81 main_v104 main_v105 (mulf : (⟨S1048576x8, .f32⟩ : BufTy).Contents (Elt F) → (⟨S1048576x8, .f32⟩ : BufTy).Contents (Elt F) → (⟨S1048576x8, .f32⟩ : BufTy).Contents (Elt F))
  :: StableHlo.unary main_v25 main_v106 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v105 main_v106 main_v107 (mulf : (⟨S1048576x8, .f32⟩ : BufTy).Contents (Elt F) → (⟨S1048576x8, .f32⟩ : BufTy).Contents (Elt F) → (⟨S1048576x8, .f32⟩ : BufTy).Contents (Elt F))
  :: StableHlo.binary main_v103 main_v107 main_v108 (addf : (⟨S1048576x8, .f32⟩ : BufTy).Contents (Elt F) → (⟨S1048576x8, .f32⟩ : BufTy).Contents (Elt F) → (⟨S1048576x8, .f32⟩ : BufTy).Contents (Elt F))
  :: [] )

/-- The references `opsP2a` writes: each operation's result, in order. -/
abbrev opsP2a_W : List (Ref sig .tc) :=
  [main_v93, main_v94, main_v95, main_v96, main_cst_25, main_v97, main_v98, main_v99, main_v100, main_v101,
   main_v102, main_v103, main_v104, main_v105, main_v106, main_v107, main_v108]

theorem opsP2a_writes : (opsP2a : List (HloOp τ sig (Elt F))).Forall fun op => op.writes ⊆ (opsP2a_W.map (Proc.devRef (τ := τ) .tc)).toFinset :=
  writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_nil []

/-- Window 2's next 42 operations: the offset network (through `main_v144`). -/
abbrev opsP2b : List (HloOp τ sig (Elt F)) :=
  ( StableHlo.binary main_v108 main_arg0 main_v109 ((fun a b => concatenate S1048576x10 1 [⟨S1048576x8, a⟩, ⟨S1048576x2, b⟩] concatenates_S1048576x8_S1048576x2_S1048576x10_d1) : (⟨S1048576x8, .f32⟩ : BufTy).Contents (Elt F) → (⟨S1048576x2, .f32⟩ : BufTy).Contents (Elt F) → (⟨S1048576x10, .f32⟩ : BufTy).Contents (Elt F))
  :: StableHlo.unary main_arg5 main_v110 ((transpose S10x32 [1, 0] · transposes_S32x10_S10x32_1_0) : (⟨S32x10, .f32⟩ : BufTy).Contents (Elt F) → (⟨S10x32, .f32⟩ : BufTy).Contents (Elt F))
  :: StableHlo.binary main_v109 main_v110 main_v111 ((fun l r => Host.dotGeneral dot_S1048576x10_S10x32_S1048576x32_1_0_0_1_n_n none l r) : (⟨S1048576x10, .f32⟩ : BufTy).Contents (Elt F) → (⟨S10x32, .f32⟩ : BufTy).Contents (Elt F) → (⟨S1048576x32, .f32⟩ : BufTy).Contents (Elt F))
  :: StableHlo.unary main_arg6 main_v112 (broadcastInDim S1x32 ![1] bcast_S32_S1x32_1 : (⟨S32, .f32⟩ : BufTy).Contents (Elt F) → (⟨S1x32, .f32⟩ : BufTy).Contents (Elt F))
  :: StableHlo.unary main_v112 main_v113 (broadcastInDim S1048576x32 ![0, 1] bcast_S1x32_S1048576x32_0_1 : (⟨S1x32, .f32⟩ : BufTy).Contents (Elt F) → (⟨S1048576x32, .f32⟩ : BufTy).Contents (Elt F))
  :: StableHlo.binary main_v111 main_v113 main_v114 (addf : (⟨S1048576x32, .f32⟩ : BufTy).Contents (Elt F) → (⟨S1048576x32, .f32⟩ : BufTy).Contents (Elt F) → (⟨S1048576x32, .f32⟩ : BufTy).Contents (Elt F))
  :: StableHlo.nullary main_cst_26 (constant S_ .f32 0x00000000#32)
  :: StableHlo.unary main_cst_26 main_v115 (broadcastInDim S1048576x32 ![] bcast_S_S1048576x32 : (⟨S_, .f32⟩ : BufTy).Contents (Elt F) → (⟨S1048576x32, .f32⟩ : BufTy).Contents (Elt F))
  :: StableHlo.binary main_v114 main_v115 main_v116 (cmpf .oge : (⟨S1048576x32, .f32⟩ : BufTy).Contents (Elt F) → (⟨S1048576x32, .f32⟩ : BufTy).Contents (Elt F) → (⟨S1048576x32, .i1⟩ : BufTy).Contents (Elt F))
  :: StableHlo.nullary main_cst_27 (constant S_ .f32 0x3C23D70A#32)
  :: StableHlo.unary main_cst_27 main_v117 (broadcastInDim S1048576x32 ![] bcast_S_S1048576x32 : (⟨S_, .f32⟩ : BufTy).Contents (Elt F) → (⟨S1048576x32, .f32⟩ : BufTy).Contents (Elt F))
  :: StableHlo.binary main_v117 main_v114 main_v118 (mulf : (⟨S1048576x32, .f32⟩ : BufTy).Contents (Elt F) → (⟨S1048576x32, .f32⟩ : BufTy).Contents (Elt F) → (⟨S1048576x32, .f32⟩ : BufTy).Contents (Elt F))
  :: StableHlo.TRef.ternary (.of main_v116 : StableHlo.TRef sig ⟨S1048576x32, .i1⟩) (.of main_v114 : StableHlo.TRef sig ⟨S1048576x32, .f32⟩) (.of main_v118 : StableHlo.TRef sig ⟨S1048576x32, .f32⟩) (.of main_v119 : StableHlo.TRef sig ⟨S1048576x32, .f32⟩) select
  :: StableHlo.unary main_arg7 main_v120 ((transpose S32x32 [1, 0] · transposes_S32x32_S32x32_1_0) : (⟨S32x32, .f32⟩ : BufTy).Contents (Elt F) → (⟨S32x32, .f32⟩ : BufTy).Contents (Elt F))
  :: StableHlo.binary main_v119 main_v120 main_v121 ((fun l r => Host.dotGeneral dot_S1048576x32_S32x32_S1048576x32_1_0_0_1_n_n none l r) : (⟨S1048576x32, .f32⟩ : BufTy).Contents (Elt F) → (⟨S32x32, .f32⟩ : BufTy).Contents (Elt F) → (⟨S1048576x32, .f32⟩ : BufTy).Contents (Elt F))
  :: StableHlo.unary main_arg8 main_v122 (broadcastInDim S1x32 ![1] bcast_S32_S1x32_1 : (⟨S32, .f32⟩ : BufTy).Contents (Elt F) → (⟨S1x32, .f32⟩ : BufTy).Contents (Elt F))
  :: StableHlo.unary main_v122 main_v123 (broadcastInDim S1048576x32 ![0, 1] bcast_S1x32_S1048576x32_0_1 : (⟨S1x32, .f32⟩ : BufTy).Contents (Elt F) → (⟨S1048576x32, .f32⟩ : BufTy).Contents (Elt F))
  :: StableHlo.binary main_v121 main_v123 main_v124 (addf : (⟨S1048576x32, .f32⟩ : BufTy).Contents (Elt F) → (⟨S1048576x32, .f32⟩ : BufTy).Contents (Elt F) → (⟨S1048576x32, .f32⟩ : BufTy).Contents (Elt F))
  :: StableHlo.nullary main_cst_28 (constant S_ .f32 0x00000000#32)
  :: StableHlo.unary main_cst_28 main_v125 (broadcastInDim S1048576x32 ![] bcast_S_S1048576x32 : (⟨S_, .f32⟩ : BufTy).Contents (Elt F) → (⟨S1048576x32, .f32⟩ : BufTy).Contents (Elt F))
  :: StableHlo.binary main_v124 main_v125 main_v126 (cmpf .oge : (⟨S1048576x32, .f32⟩ : BufTy).Contents (Elt F) → (⟨S1048576x32, .f32⟩ : BufTy).Contents (Elt F) → (⟨S1048576x32, .i1⟩ : BufTy).Contents (Elt F))
  :: StableHlo.nullary main_cst_29 (constant S_ .f32 0x3C23D70A#32)
  :: StableHlo.unary main_cst_29 main_v127 (broadcastInDim S1048576x32 ![] bcast_S_S1048576x32 : (⟨S_, .f32⟩ : BufTy).Contents (Elt F) → (⟨S1048576x32, .f32⟩ : BufTy).Contents (Elt F))
  :: StableHlo.binary main_v127 main_v124 main_v128 (mulf : (⟨S1048576x32, .f32⟩ : BufTy).Contents (Elt F) → (⟨S1048576x32, .f32⟩ : BufTy).Contents (Elt F) → (⟨S1048576x32, .f32⟩ : BufTy).Contents (Elt F))
  :: StableHlo.TRef.ternary (.of main_v126 : StableHlo.TRef sig ⟨S1048576x32, .i1⟩) (.of main_v124 : StableHlo.TRef sig ⟨S1048576x32, .f32⟩) (.of main_v128 : StableHlo.TRef sig ⟨S1048576x32, .f32⟩) (.of main_v129 : StableHlo.TRef sig ⟨S1048576x32, .f32⟩) select
  :: StableHlo.unary main_arg9 main_v130 ((transpose S32x32 [1, 0] · transposes_S32x32_S32x32_1_0) : (⟨S32x32, .f32⟩ : BufTy).Contents (Elt F) → (⟨S32x32, .f32⟩ : BufTy).Contents (Elt F))
  :: StableHlo.binary main_v129 main_v130 main_v131 ((fun l r => Host.dotGeneral dot_S1048576x32_S32x32_S1048576x32_1_0_0_1_n_n none l r) : (⟨S1048576x32, .f32⟩ : BufTy).Contents (Elt F) → (⟨S32x32, .f32⟩ : BufTy).Contents (Elt F) → (⟨S1048576x32, .f32⟩ : BufTy).Contents (Elt F))
  :: StableHlo.unary main_arg10 main_v132 (broadcastInDim S1x32 ![1] bcast_S32_S1x32_1 : (⟨S32, .f32⟩ : BufTy).Contents (Elt F) → (⟨S1x32, .f32⟩ : BufTy).Contents (Elt F))
  :: StableHlo.unary main_v132 main_v133 (broadcastInDim S1048576x32 ![0, 1] bcast_S1x32_S1048576x32_0_1 : (⟨S1x32, .f32⟩ : BufTy).Contents (Elt F) → (⟨S1048576x32, .f32⟩ : BufTy).Contents (Elt F))
  :: StableHlo.binary main_v131 main_v133 main_v134 (addf : (⟨S1048576x32, .f32⟩ : BufTy).Contents (Elt F) → (⟨S1048576x32, .f32⟩ : BufTy).Contents (Elt F) → (⟨S1048576x32, .f32⟩ : BufTy).Contents (Elt F))
  :: StableHlo.nullary main_cst_30 (constant S_ .f32 0x00000000#32)
  :: StableHlo.unary main_cst_30 main_v135 (broadcastInDim S1048576x32 ![] bcast_S_S1048576x32 : (⟨S_, .f32⟩ : BufTy).Contents (Elt F) → (⟨S1048576x32, .f32⟩ : BufTy).Contents (Elt F))
  :: StableHlo.binary main_v134 main_v135 main_v136 (cmpf .oge : (⟨S1048576x32, .f32⟩ : BufTy).Contents (Elt F) → (⟨S1048576x32, .f32⟩ : BufTy).Contents (Elt F) → (⟨S1048576x32, .i1⟩ : BufTy).Contents (Elt F))
  :: StableHlo.nullary main_cst_31 (constant S_ .f32 0x3C23D70A#32)
  :: StableHlo.unary main_cst_31 main_v137 (broadcastInDim S1048576x32 ![] bcast_S_S1048576x32 : (⟨S_, .f32⟩ : BufTy).Contents (Elt F) → (⟨S1048576x32, .f32⟩ : BufTy).Contents (Elt F))
  :: StableHlo.binary main_v137 main_v134 main_v138 (mulf : (⟨S1048576x32, .f32⟩ : BufTy).Contents (Elt F) → (⟨S1048576x32, .f32⟩ : BufTy).Contents (Elt F) → (⟨S1048576x32, .f32⟩ : BufTy).Contents (Elt F))
  :: StableHlo.TRef.ternary (.of main_v136 : StableHlo.TRef sig ⟨S1048576x32, .i1⟩) (.of main_v134 : StableHlo.TRef sig ⟨S1048576x32, .f32⟩) (.of main_v138 : StableHlo.TRef sig ⟨S1048576x32, .f32⟩) (.of main_v139 : StableHlo.TRef sig ⟨S1048576x32, .f32⟩) select
  :: StableHlo.unary main_arg11 main_v140 ((transpose S32x1 [1, 0] · transposes_S1x32_S32x1_1_0) : (⟨S1x32, .f32⟩ : BufTy).Contents (Elt F) → (⟨S32x1, .f32⟩ : BufTy).Contents (Elt F))
  :: StableHlo.binary main_v139 main_v140 main_v141 ((fun l r => Host.dotGeneral dot_S1048576x32_S32x1_S1048576x1_1_0_0_1_n_n none l r) : (⟨S1048576x32, .f32⟩ : BufTy).Contents (Elt F) → (⟨S32x1, .f32⟩ : BufTy).Contents (Elt F) → (⟨S1048576x1, .f32⟩ : BufTy).Contents (Elt F))
  :: StableHlo.unary main_arg12 main_v142 (broadcastInDim S1x1 ![1] bcast_S1_S1x1_1 : (⟨S1, .f32⟩ : BufTy).Contents (Elt F) → (⟨S1x1, .f32⟩ : BufTy).Contents (Elt F))
  :: StableHlo.unary main_v142 main_v143 (broadcastInDim S1048576x1 ![0, 1] bcast_S1x1_S1048576x1_0_1 : (⟨S1x1, .f32⟩ : BufTy).Contents (Elt F) → (⟨S1048576x1, .f32⟩ : BufTy).Contents (Elt F))
  :: StableHlo.binary main_v141 main_v143 main_v144 (addf : (⟨S1048576x1, .f32⟩ : BufTy).Contents (Elt F) → (⟨S1048576x1, .f32⟩ : BufTy).Contents (Elt F) → (⟨S1048576x1, .f32⟩ : BufTy).Contents (Elt F))
  :: [] )

/-- The references `opsP2b` writes: each operation's result, in order. -/
abbrev opsP2b_W : List (Ref sig .tc) :=
  [main_v109, main_v110, main_v111, main_v112, main_v113, main_v114, main_cst_26, main_v115, main_v116, main_cst_27,
   main_v117, main_v118, main_v119, main_v120, main_v121, main_v122, main_v123, main_v124, main_cst_28, main_v125,
   main_v126, main_cst_29, main_v127, main_v128, main_v129, main_v130, main_v131, main_v132, main_v133, main_v134,
   main_cst_30, main_v135, main_v136, main_cst_31, main_v137, main_v138, main_v139, main_v140, main_v141, main_v142,
   main_v143, main_v144]

theorem opsP2b_writes : (opsP2b : List (HloOp τ sig (Elt F))).Forall fun op => op.writes ⊆ (opsP2b_W.map (Proc.devRef (τ := τ) .tc)).toFinset :=
  writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_nil []

/-- Window 2's last operation: the camera direction squared (`main_v145`). -/
abbrev opsP2c : List (HloOp τ sig (Elt F)) :=
  ( StableHlo.binary main_arg0 main_arg0 main_v145 (mulf : (⟨S1048576x2, .f32⟩ : BufTy).Contents (Elt F) → (⟨S1048576x2, .f32⟩ : BufTy).Contents (Elt F) → (⟨S1048576x2, .f32⟩ : BufTy).Contents (Elt F))
  :: [] )

/-- The references `opsP2c` writes: each operation's result, in order. -/
abbrev opsP2c_W : List (Ref sig .tc) :=
  [main_v145]

theorem opsP2c_writes : (opsP2c : List (HloOp τ sig (Elt F))).Forall fun op => op.writes ⊆ (opsP2c_W.map (Proc.devRef (τ := τ) .tc)).toFinset :=
  writes_cons rfl <| writes_nil []

/-- Window 2 is its three pieces in order. -/
theorem opsP2_split : (opsP2 : List (HloOp τ sig (Elt F))) = opsP2a ++ (opsP2b ++ opsP2c) := rfl

/-- Window 3's first 16 operations: the shifted sampling point (through `main_v156`). -/
abbrev opsP3a : List (HloOp τ sig (Elt F)) :=
  ( StableHlo.nullary main_cst_32 (constant S_ .f32 0x00000000#32)
  :: StableHlo.binary main_v145 main_cst_32 main_v146 ((fun x v => Host.reduceAdd x v reducesTo_S1048576x2_S1048576_d1 h_S_) : (⟨S1048576x2, .f32⟩ : BufTy).Contents (Elt F) → (⟨S_, .f32⟩ : BufTy).Contents (Elt F) → (⟨S1048576, .f32⟩ : BufTy).Contents (Elt F))
  :: StableHlo.unary main_v146 main_v147 (broadcastInDim S1048576x1 ![0] bcast_S1048576_S1048576x1_0 : (⟨S1048576, .f32⟩ : BufTy).Contents (Elt F) → (⟨S1048576x1, .f32⟩ : BufTy).Contents (Elt F))
  :: StableHlo.nullary main_cst_33 (constant S_ .f32 0x3F800000#32)
  :: StableHlo.unary main_cst_33 main_v148 (broadcastInDim S1048576x1 ![] bcast_S_S1048576x1 : (⟨S_, .f32⟩ : BufTy).Contents (Elt F) → (⟨S1048576x1, .f32⟩ : BufTy).Contents (Elt F))
  :: StableHlo.binary main_v148 main_v147 main_v149 (subf : (⟨S1048576x1, .f32⟩ : BufTy).Contents (Elt F) → (⟨S1048576x1, .f32⟩ : BufTy).Contents (Elt F) → (⟨S1048576x1, .f32⟩ : BufTy).Contents (Elt F))
  :: StableHlo.nullary main_cst_34 (constant S_ .f32 0x358637BD#32)
  :: StableHlo.TRef.unary (.of main_cst_34 : StableHlo.TRef sig ⟨S_, .f32⟩) (.of main_call7_v0 : StableHlo.TRef sig ⟨S_, .f32⟩) id
  :: StableHlo.TRef.unary (.of main_call7_v0 : StableHlo.TRef sig ⟨S_, .f32⟩) (.of main_call7_v1 : StableHlo.TRef sig ⟨S1048576x1, .f32⟩) (broadcastInDim S1048576x1 ![] bcast_S_S1048576x1)
  :: StableHlo.TRef.binary (.of main_call7_v1 : StableHlo.TRef sig ⟨S1048576x1, .f32⟩) (.of main_v149 : StableHlo.TRef sig ⟨S1048576x1, .f32⟩) (.of main_v150 : StableHlo.TRef sig ⟨S1048576x1, .f32⟩) maximumf
  :: StableHlo.unary main_v150 main_v151 (Host.sqrt : (⟨S1048576x1, .f32⟩ : BufTy).Contents (Elt F) → (⟨S1048576x1, .f32⟩ : BufTy).Contents (Elt F))
  :: StableHlo.unary main_v151 main_v152 (broadcastInDim S1048576x2 ![0, 1] bcast_S1048576x1_S1048576x2_0_1 : (⟨S1048576x1, .f32⟩ : BufTy).Contents (Elt F) → (⟨S1048576x2, .f32⟩ : BufTy).Contents (Elt F))
  :: StableHlo.binary main_arg0 main_v152 main_v153 (Host.divf : (⟨S1048576x2, .f32⟩ : BufTy).Contents (Elt F) → (⟨S1048576x2, .f32⟩ : BufTy).Contents (Elt F) → (⟨S1048576x2, .f32⟩ : BufTy).Contents (Elt F))
  :: StableHlo.unary main_v144 main_v154 (broadcastInDim S1048576x2 ![0, 1] bcast_S1048576x1_S1048576x2_0_1 : (⟨S1048576x1, .f32⟩ : BufTy).Contents (Elt F) → (⟨S1048576x2, .f32⟩ : BufTy).Contents (Elt F))
  :: StableHlo.binary main_v153 main_v154 main_v155 (mulf : (⟨S1048576x2, .f32⟩ : BufTy).Contents (Elt F) → (⟨S1048576x2, .f32⟩ : BufTy).Contents (Elt F) → (⟨S1048576x2, .f32⟩ : BufTy).Contents (Elt F))
  :: StableHlo.binary main_arg2 main_v155 main_v156 (addf : (⟨S1048576x2, .f32⟩ : BufTy).Contents (Elt F) → (⟨S1048576x2, .f32⟩ : BufTy).Contents (Elt F) → (⟨S1048576x2, .f32⟩ : BufTy).Contents (Elt F))
  :: [] )

/-- The references `opsP3a` writes: each operation's result, in order. -/
abbrev opsP3a_W : List (Ref sig .tc) :=
  [main_cst_32, main_v146, main_v147, main_cst_33, main_v148, main_v149, main_cst_34, main_call7_v0, main_call7_v1, main_v150,
   main_v151, main_v152, main_v153, main_v154, main_v155, main_v156]

theorem opsP3a_writes : (opsP3a : List (HloOp τ sig (Elt F))).Forall fun op => op.writes ⊆ (opsP3a_W.map (Proc.devRef (τ := τ) .tc)).toFinset :=
  writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_nil []

/-- Window 3's other 126 operations: the start of the second texture lookup. -/
abbrev opsP3b : List (HloOp τ sig (Elt F)) :=
  ( StableHlo.nullary main_cst_35 (constant S_ .f32 0x44000000#32)
  :: StableHlo.unary main_cst_35 main_v157 (broadcastInDim S1048576x2 ![] bcast_S_S1048576x2 : (⟨S_, .f32⟩ : BufTy).Contents (Elt F) → (⟨S1048576x2, .f32⟩ : BufTy).Contents (Elt F))
  :: StableHlo.binary main_v156 main_v157 main_v158 (mulf : (⟨S1048576x2, .f32⟩ : BufTy).Contents (Elt F) → (⟨S1048576x2, .f32⟩ : BufTy).Contents (Elt F) → (⟨S1048576x2, .f32⟩ : BufTy).Contents (Elt F))
  :: StableHlo.nullary main_cst_36 (constant S_ .f32 0x3F000000#32)
  :: StableHlo.unary main_cst_36 main_v159 (broadcastInDim S1048576x2 ![] bcast_S_S1048576x2 : (⟨S_, .f32⟩ : BufTy).Contents (Elt F) → (⟨S1048576x2, .f32⟩ : BufTy).Contents (Elt F))
  :: StableHlo.binary main_v158 main_v159 main_v160 (subf : (⟨S1048576x2, .f32⟩ : BufTy).Contents (Elt F) → (⟨S1048576x2, .f32⟩ : BufTy).Contents (Elt F) → (⟨S1048576x2, .f32⟩ : BufTy).Contents (Elt F))
  :: StableHlo.unary main_v160 main_v161 (Host.floor : (⟨S1048576x2, .f32⟩ : BufTy).Contents (Elt F) → (⟨S1048576x2, .f32⟩ : BufTy).Contents (Elt F))
  :: StableHlo.unary main_v161 main_v162 (fptosi 32 : (⟨S1048576x2, .f32⟩ : BufTy).Contents (Elt F) → (⟨S1048576x2, .i32⟩ : BufTy).Contents (Elt F))
  :: StableHlo.unary main_v162 main_v163 (sitofp .f32 : (⟨S1048576x2, .i32⟩ : BufTy).Contents (Elt F) → (⟨S1048576x2, .f32⟩ : BufTy).Contents (Elt F))
  :: StableHlo.binary main_v160 main_v163 main_v164 (subf : (⟨S1048576x2, .f32⟩ : BufTy).Contents (Elt F) → (⟨S1048576x2, .f32⟩ : BufTy).Contents (Elt F) → (⟨S1048576x2, .f32⟩ : BufTy).Contents (Elt F))
  :: StableHlo.unary main_v162 main_v165 ((extractStridedSlice S1048576x1 ![0, 0] · slices_S1048576x2_S1048576x1_0_0) : (⟨S1048576x2, .i32⟩ : BufTy).Contents (Elt F) → (⟨S1048576x1, .i32⟩ : BufTy).Contents (Elt F))
  :: StableHlo.reshape main_v165 main_v166 rfl shapeCasts_S1048576x1_S1048576
  :: StableHlo.nullary main_c_37 (constantI S_ 32 512#32)
  :: StableHlo.TRef.unary (.of main_c_37 : StableHlo.TRef sig ⟨S_, .i32⟩) (.of main_call8_v0 : StableHlo.TRef sig ⟨S_, .i32⟩) id
  :: StableHlo.TRef.nullary (.of main_call8_c : StableHlo.TRef sig ⟨S_, .i32⟩) (constantI S_ 32 0#32)
  :: StableHlo.TRef.binary (.of main_call8_v0 : StableHlo.TRef sig ⟨S_, .i32⟩) (.of main_call8_c : StableHlo.TRef sig ⟨S_, .i32⟩) (.of main_call8_v1 : StableHlo.TRef sig ⟨S_, .i1⟩) (cmpi .eq)
  :: StableHlo.TRef.nullary (.of main_call8_c_0 : StableHlo.TRef sig ⟨S_, .i32⟩) (constantI S_ 32 1#32)
  :: StableHlo.TRef.ternary (.of main_call8_v1 : StableHlo.TRef sig ⟨S_, .i1⟩) (.of main_call8_c_0 : StableHlo.TRef sig ⟨S_, .i32⟩) (.of main_call8_v0 : StableHlo.TRef sig ⟨S_, .i32⟩) (.of main_call8_v2 : StableHlo.TRef sig ⟨S_, .i32⟩) select
  :: StableHlo.TRef.unary (.of main_call8_v2 : StableHlo.TRef sig ⟨S_, .i32⟩) (.of main_call8_v3 : StableHlo.TRef sig ⟨S1048576, .i32⟩) (broadcastInDim S1048576 ![] bcast_S_S1048576)
  :: StableHlo.TRef.binary (.of main_v166 : StableHlo.TRef sig ⟨S1048576, .i32⟩) (.of main_call8_v3 : StableHlo.TRef sig ⟨S1048576, .i32⟩) (.of main_call8_v4 : StableHlo.TRef sig ⟨S1048576, .i32⟩) Host.remsi
  :: StableHlo.TRef.nullary (.of main_call8_c_1 : StableHlo.TRef sig ⟨S_, .i32⟩) (constantI S_ 32 0#32)
  :: StableHlo.TRef.unary (.of main_call8_c_1 : StableHlo.TRef sig ⟨S_, .i32⟩) (.of main_call8_v5 : StableHlo.TRef sig ⟨S1048576, .i32⟩) (broadcastInDim S1048576 ![] bcast_S_S1048576)
  :: StableHlo.TRef.binary (.of main_call8_v4 : StableHlo.TRef sig ⟨S1048576, .i32⟩) (.of main_call8_v5 : StableHlo.TRef sig ⟨S1048576, .i32⟩) (.of main_call8_v6 : StableHlo.TRef sig ⟨S1048576, .i1⟩) (cmpi .ne)
  :: StableHlo.TRef.nullary (.of main_call8_c_2 : StableHlo.TRef sig ⟨S_, .i32⟩) (constantI S_ 32 0#32)
  :: StableHlo.TRef.unary (.of main_call8_c_2 : StableHlo.TRef sig ⟨S_, .i32⟩) (.of main_call8_v7 : StableHlo.TRef sig ⟨S1048576, .i32⟩) (broadcastInDim S1048576 ![] bcast_S_S1048576)
  :: StableHlo.TRef.binary (.of main_call8_v4 : StableHlo.TRef sig ⟨S1048576, .i32⟩) (.of main_call8_v7 : StableHlo.TRef sig ⟨S1048576, .i32⟩) (.of main_call8_v8 : StableHlo.TRef sig ⟨S1048576, .i1⟩) (cmpi .slt)
  :: StableHlo.TRef.nullary (.of main_call8_c_3 : StableHlo.TRef sig ⟨S_, .i32⟩) (constantI S_ 32 0#32)
  :: StableHlo.TRef.binary (.of main_call8_v2 : StableHlo.TRef sig ⟨S_, .i32⟩) (.of main_call8_c_3 : StableHlo.TRef sig ⟨S_, .i32⟩) (.of main_call8_v9 : StableHlo.TRef sig ⟨S_, .i1⟩) (cmpi .slt)
  :: StableHlo.TRef.unary (.of main_call8_v9 : StableHlo.TRef sig ⟨S_, .i1⟩) (.of main_call8_v10 : StableHlo.TRef sig ⟨S1048576, .i1⟩) (broadcastInDim S1048576 ![] bcast_S_S1048576)
  :: StableHlo.TRef.binary (.of main_call8_v8 : StableHlo.TRef sig ⟨S1048576, .i1⟩) (.of main_call8_v10 : StableHlo.TRef sig ⟨S1048576, .i1⟩) (.of main_call8_v11 : StableHlo.TRef sig ⟨S1048576, .i1⟩) (cmpi .ne)
  :: StableHlo.TRef.binary (.of main_call8_v11 : StableHlo.TRef sig ⟨S1048576, .i1⟩) (.of main_call8_v6 : StableHlo.TRef sig ⟨S1048576, .i1⟩) (.of main_call8_v12 : StableHlo.TRef sig ⟨S1048576, .i1⟩) andi
  :: StableHlo.TRef.unary (.of main_call8_v2 : StableHlo.TRef sig ⟨S_, .i32⟩) (.of main_call8_v13 : StableHlo.TRef sig ⟨S1048576, .i32⟩) (broadcastInDim S1048576 ![] bcast_S_S1048576)
  :: StableHlo.TRef.binary (.of main_call8_v4 : StableHlo.TRef sig ⟨S1048576, .i32⟩) (.of main_call8_v13 : StableHlo.TRef sig ⟨S1048576, .i32⟩) (.of main_call8_v14 : StableHlo.TRef sig ⟨S1048576, .i32⟩) addi
  :: StableHlo.TRef.ternary (.of main_call8_v12 : StableHlo.TRef sig ⟨S1048576, .i1⟩) (.of main_call8_v14 : StableHlo.TRef sig ⟨S1048576, .i32⟩) (.of main_call8_v4 : StableHlo.TRef sig ⟨S1048576, .i32⟩) (.of main_v167 : StableHlo.TRef sig ⟨S1048576, .i32⟩) select
  :: StableHlo.unary main_v162 main_v168 ((extractStridedSlice S1048576x1 ![0, 0] · slices_S1048576x2_S1048576x1_0_0) : (⟨S1048576x2, .i32⟩ : BufTy).Contents (Elt F) → (⟨S1048576x1, .i32⟩ : BufTy).Contents (Elt F))
  :: StableHlo.reshape main_v168 main_v169 rfl shapeCasts_S1048576x1_S1048576
  :: StableHlo.nullary main_c_38 (constantI S_ 32 1#32)
  :: StableHlo.unary main_c_38 main_v170 (broadcastInDim S1048576 ![] bcast_S_S1048576 : (⟨S_, .i32⟩ : BufTy).Contents (Elt F) → (⟨S1048576, .i32⟩ : BufTy).Contents (Elt F))
  :: StableHlo.binary main_v169 main_v170 main_v171 (addi : (⟨S1048576, .i32⟩ : BufTy).Contents (Elt F) → (⟨S1048576, .i32⟩ : BufTy).Contents (Elt F) → (⟨S1048576, .i32⟩ : BufTy).Contents (Elt F))
  :: StableHlo.nullary main_c_39 (constantI S_ 32 512#32)
  :: StableHlo.TRef.unary (.of main_c_39 : StableHlo.TRef sig ⟨S_, .i32⟩) (.of main_call9_v0 : StableHlo.TRef sig ⟨S_, .i32⟩) id
  :: StableHlo.TRef.nullary (.of main_call9_c : StableHlo.TRef sig ⟨S_, .i32⟩) (constantI S_ 32 0#32)
  :: StableHlo.TRef.binary (.of main_call9_v0 : StableHlo.TRef sig ⟨S_, .i32⟩) (.of main_call9_c : StableHlo.TRef sig ⟨S_, .i32⟩) (.of main_call9_v1 : StableHlo.TRef sig ⟨S_, .i1⟩) (cmpi .eq)
  :: StableHlo.TRef.nullary (.of main_call9_c_0 : StableHlo.TRef sig ⟨S_, .i32⟩) (constantI S_ 32 1#32)
  :: StableHlo.TRef.ternary (.of main_call9_v1 : StableHlo.TRef sig ⟨S_, .i1⟩) (.of main_call9_c_0 : StableHlo.TRef sig ⟨S_, .i32⟩) (.of main_call9_v0 : StableHlo.TRef sig ⟨S_, .i32⟩) (.of main_call9_v2 : StableHlo.TRef sig ⟨S_, .i32⟩) select
  :: StableHlo.TRef.unary (.of main_call9_v2 : StableHlo.TRef sig ⟨S_, .i32⟩) (.of main_call9_v3 : StableHlo.TRef sig ⟨S1048576, .i32⟩) (broadcastInDim S1048576 ![] bcast_S_S1048576)
  :: StableHlo.TRef.binary (.of main_v171 : StableHlo.TRef sig ⟨S1048576, .i32⟩) (.of main_call9_v3 : StableHlo.TRef sig ⟨S1048576, .i32⟩) (.of main_call9_v4 : StableHlo.TRef sig ⟨S1048576, .i32⟩) Host.remsi
  :: StableHlo.TRef.nullary (.of main_call9_c_1 : StableHlo.TRef sig ⟨S_, .i32⟩) (constantI S_ 32 0#32)
  :: StableHlo.TRef.unary (.of main_call9_c_1 : StableHlo.TRef sig ⟨S_, .i32⟩) (.of main_call9_v5 : StableHlo.TRef sig ⟨S1048576, .i32⟩) (broadcastInDim S1048576 ![] bcast_S_S1048576)
  :: StableHlo.TRef.binary (.of main_call9_v4 : StableHlo.TRef sig ⟨S1048576, .i32⟩) (.of main_call9_v5 : StableHlo.TRef sig ⟨S1048576, .i32⟩) (.of main_call9_v6 : StableHlo.TRef sig ⟨S1048576, .i1⟩) (cmpi .ne)
  :: StableHlo.TRef.nullary (.of main_call9_c_2 : StableHlo.TRef sig ⟨S_, .i32⟩) (constantI S_ 32 0#32)
  :: StableHlo.TRef.unary (.of main_call9_c_2 : StableHlo.TRef sig ⟨S_, .i32⟩) (.of main_call9_v7 : StableHlo.TRef sig ⟨S1048576, .i32⟩) (broadcastInDim S1048576 ![] bcast_S_S1048576)
  :: StableHlo.TRef.binary (.of main_call9_v4 : StableHlo.TRef sig ⟨S1048576, .i32⟩) (.of main_call9_v7 : StableHlo.TRef sig ⟨S1048576, .i32⟩) (.of main_call9_v8 : StableHlo.TRef sig ⟨S1048576, .i1⟩) (cmpi .slt)
  :: StableHlo.TRef.nullary (.of main_call9_c_3 : StableHlo.TRef sig ⟨S_, .i32⟩) (constantI S_ 32 0#32)
  :: StableHlo.TRef.binary (.of main_call9_v2 : StableHlo.TRef sig ⟨S_, .i32⟩) (.of main_call9_c_3 : StableHlo.TRef sig ⟨S_, .i32⟩) (.of main_call9_v9 : StableHlo.TRef sig ⟨S_, .i1⟩) (cmpi .slt)
  :: StableHlo.TRef.unary (.of main_call9_v9 : StableHlo.TRef sig ⟨S_, .i1⟩) (.of main_call9_v10 : StableHlo.TRef sig ⟨S1048576, .i1⟩) (broadcastInDim S1048576 ![] bcast_S_S1048576)
  :: StableHlo.TRef.binary (.of main_call9_v8 : StableHlo.TRef sig ⟨S1048576, .i1⟩) (.of main_call9_v10 : StableHlo.TRef sig ⟨S1048576, .i1⟩) (.of main_call9_v11 : StableHlo.TRef sig ⟨S1048576, .i1⟩) (cmpi .ne)
  :: StableHlo.TRef.binary (.of main_call9_v11 : StableHlo.TRef sig ⟨S1048576, .i1⟩) (.of main_call9_v6 : StableHlo.TRef sig ⟨S1048576, .i1⟩) (.of main_call9_v12 : StableHlo.TRef sig ⟨S1048576, .i1⟩) andi
  :: StableHlo.TRef.unary (.of main_call9_v2 : StableHlo.TRef sig ⟨S_, .i32⟩) (.of main_call9_v13 : StableHlo.TRef sig ⟨S1048576, .i32⟩) (broadcastInDim S1048576 ![] bcast_S_S1048576)
  :: StableHlo.TRef.binary (.of main_call9_v4 : StableHlo.TRef sig ⟨S1048576, .i32⟩) (.of main_call9_v13 : StableHlo.TRef sig ⟨S1048576, .i32⟩) (.of main_call9_v14 : StableHlo.TRef sig ⟨S1048576, .i32⟩) addi
  :: StableHlo.TRef.ternary (.of main_call9_v12 : StableHlo.TRef sig ⟨S1048576, .i1⟩) (.of main_call9_v14 : StableHlo.TRef sig ⟨S1048576, .i32⟩) (.of main_call9_v4 : StableHlo.TRef sig ⟨S1048576, .i32⟩) (.of main_v172 : StableHlo.TRef sig ⟨S1048576, .i32⟩) select
  :: StableHlo.unary main_v162 main_v173 ((extractStridedSlice S1048576x1 ![0, 1] · slices_S1048576x2_S1048576x1_0_1) : (⟨S1048576x2, .i32⟩ : BufTy).Contents (Elt F) → (⟨S1048576x1, .i32⟩ : BufTy).Contents (Elt F))
  :: StableHlo.reshape main_v173 main_v174 rfl shapeCasts_S1048576x1_S1048576
  :: StableHlo.nullary main_c_40 (constantI S_ 32 512#32)
  :: StableHlo.TRef.unary (.of main_c_40 : StableHlo.TRef sig ⟨S_, .i32⟩) (.of main_call10_v0 : StableHlo.TRef sig ⟨S_, .i32⟩) id
  :: StableHlo.TRef.nullary (.of main_call10_c : StableHlo.TRef sig ⟨S_, .i32⟩) (constantI S_ 32 0#32)
  :: StableHlo.TRef.binary (.of main_call10_v0 : StableHlo.TRef sig ⟨S_, .i32⟩) (.of main_call10_c : StableHlo.TRef sig ⟨S_, .i32⟩) (.of main_call10_v1 : StableHlo.TRef sig ⟨S_, .i1⟩) (cmpi .eq)
  :: StableHlo.TRef.nullary (.of main_call10_c_0 : StableHlo.TRef sig ⟨S_, .i32⟩) (constantI S_ 32 1#32)
  :: StableHlo.TRef.ternary (.of main_call10_v1 : StableHlo.TRef sig ⟨S_, .i1⟩) (.of main_call10_c_0 : StableHlo.TRef sig ⟨S_, .i32⟩) (.of main_call10_v0 : StableHlo.TRef sig ⟨S_, .i32⟩) (.of main_call10_v2 : StableHlo.TRef sig ⟨S_, .i32⟩) select
  :: StableHlo.TRef.unary (.of main_call10_v2 : StableHlo.TRef sig ⟨S_, .i32⟩) (.of main_call10_v3 : StableHlo.TRef sig ⟨S1048576, .i32⟩) (broadcastInDim S1048576 ![] bcast_S_S1048576)
  :: StableHlo.TRef.binary (.of main_v174 : StableHlo.TRef sig ⟨S1048576, .i32⟩) (.of main_call10_v3 : StableHlo.TRef sig ⟨S1048576, .i32⟩) (.of main_call10_v4 : StableHlo.TRef sig ⟨S1048576, .i32⟩) Host.remsi
  :: StableHlo.TRef.nullary (.of main_call10_c_1 : StableHlo.TRef sig ⟨S_, .i32⟩) (constantI S_ 32 0#32)
  :: StableHlo.TRef.unary (.of main_call10_c_1 : StableHlo.TRef sig ⟨S_, .i32⟩) (.of main_call10_v5 : StableHlo.TRef sig ⟨S1048576, .i32⟩) (broadcastInDim S1048576 ![] bcast_S_S1048576)
  :: StableHlo.TRef.binary (.of main_call10_v4 : StableHlo.TRef sig ⟨S1048576, .i32⟩) (.of main_call10_v5 : StableHlo.TRef sig ⟨S1048576, .i32⟩) (.of main_call10_v6 : StableHlo.TRef sig ⟨S1048576, .i1⟩) (cmpi .ne)
  :: StableHlo.TRef.nullary (.of main_call10_c_2 : StableHlo.TRef sig ⟨S_, .i32⟩) (constantI S_ 32 0#32)
  :: StableHlo.TRef.unary (.of main_call10_c_2 : StableHlo.TRef sig ⟨S_, .i32⟩) (.of main_call10_v7 : StableHlo.TRef sig ⟨S1048576, .i32⟩) (broadcastInDim S1048576 ![] bcast_S_S1048576)
  :: StableHlo.TRef.binary (.of main_call10_v4 : StableHlo.TRef sig ⟨S1048576, .i32⟩) (.of main_call10_v7 : StableHlo.TRef sig ⟨S1048576, .i32⟩) (.of main_call10_v8 : StableHlo.TRef sig ⟨S1048576, .i1⟩) (cmpi .slt)
  :: StableHlo.TRef.nullary (.of main_call10_c_3 : StableHlo.TRef sig ⟨S_, .i32⟩) (constantI S_ 32 0#32)
  :: StableHlo.TRef.binary (.of main_call10_v2 : StableHlo.TRef sig ⟨S_, .i32⟩) (.of main_call10_c_3 : StableHlo.TRef sig ⟨S_, .i32⟩) (.of main_call10_v9 : StableHlo.TRef sig ⟨S_, .i1⟩) (cmpi .slt)
  :: StableHlo.TRef.unary (.of main_call10_v9 : StableHlo.TRef sig ⟨S_, .i1⟩) (.of main_call10_v10 : StableHlo.TRef sig ⟨S1048576, .i1⟩) (broadcastInDim S1048576 ![] bcast_S_S1048576)
  :: StableHlo.TRef.binary (.of main_call10_v8 : StableHlo.TRef sig ⟨S1048576, .i1⟩) (.of main_call10_v10 : StableHlo.TRef sig ⟨S1048576, .i1⟩) (.of main_call10_v11 : StableHlo.TRef sig ⟨S1048576, .i1⟩) (cmpi .ne)
  :: StableHlo.TRef.binary (.of main_call10_v11 : StableHlo.TRef sig ⟨S1048576, .i1⟩) (.of main_call10_v6 : StableHlo.TRef sig ⟨S1048576, .i1⟩) (.of main_call10_v12 : StableHlo.TRef sig ⟨S1048576, .i1⟩) andi
  :: StableHlo.TRef.unary (.of main_call10_v2 : StableHlo.TRef sig ⟨S_, .i32⟩) (.of main_call10_v13 : StableHlo.TRef sig ⟨S1048576, .i32⟩) (broadcastInDim S1048576 ![] bcast_S_S1048576)
  :: StableHlo.TRef.binary (.of main_call10_v4 : StableHlo.TRef sig ⟨S1048576, .i32⟩) (.of main_call10_v13 : StableHlo.TRef sig ⟨S1048576, .i32⟩) (.of main_call10_v14 : StableHlo.TRef sig ⟨S1048576, .i32⟩) addi
  :: StableHlo.TRef.ternary (.of main_call10_v12 : StableHlo.TRef sig ⟨S1048576, .i1⟩) (.of main_call10_v14 : StableHlo.TRef sig ⟨S1048576, .i32⟩) (.of main_call10_v4 : StableHlo.TRef sig ⟨S1048576, .i32⟩) (.of main_v175 : StableHlo.TRef sig ⟨S1048576, .i32⟩) select
  :: StableHlo.unary main_v162 main_v176 ((extractStridedSlice S1048576x1 ![0, 1] · slices_S1048576x2_S1048576x1_0_1) : (⟨S1048576x2, .i32⟩ : BufTy).Contents (Elt F) → (⟨S1048576x1, .i32⟩ : BufTy).Contents (Elt F))
  :: StableHlo.reshape main_v176 main_v177 rfl shapeCasts_S1048576x1_S1048576
  :: StableHlo.nullary main_c_41 (constantI S_ 32 1#32)
  :: StableHlo.unary main_c_41 main_v178 (broadcastInDim S1048576 ![] bcast_S_S1048576 : (⟨S_, .i32⟩ : BufTy).Contents (Elt F) → (⟨S1048576, .i32⟩ : BufTy).Contents (Elt F))
  :: StableHlo.binary main_v177 main_v178 main_v179 (addi : (⟨S1048576, .i32⟩ : BufTy).Contents (Elt F) → (⟨S1048576, .i32⟩ : BufTy).Contents (Elt F) → (⟨S1048576, .i32⟩ : BufTy).Contents (Elt F))
  :: StableHlo.nullary main_c_42 (constantI S_ 32 512#32)
  :: StableHlo.TRef.unary (.of main_c_42 : StableHlo.TRef sig ⟨S_, .i32⟩) (.of main_call11_v0 : StableHlo.TRef sig ⟨S_, .i32⟩) id
  :: StableHlo.TRef.nullary (.of main_call11_c : StableHlo.TRef sig ⟨S_, .i32⟩) (constantI S_ 32 0#32)
  :: StableHlo.TRef.binary (.of main_call11_v0 : StableHlo.TRef sig ⟨S_, .i32⟩) (.of main_call11_c : StableHlo.TRef sig ⟨S_, .i32⟩) (.of main_call11_v1 : StableHlo.TRef sig ⟨S_, .i1⟩) (cmpi .eq)
  :: StableHlo.TRef.nullary (.of main_call11_c_0 : StableHlo.TRef sig ⟨S_, .i32⟩) (constantI S_ 32 1#32)
  :: StableHlo.TRef.ternary (.of main_call11_v1 : StableHlo.TRef sig ⟨S_, .i1⟩) (.of main_call11_c_0 : StableHlo.TRef sig ⟨S_, .i32⟩) (.of main_call11_v0 : StableHlo.TRef sig ⟨S_, .i32⟩) (.of main_call11_v2 : StableHlo.TRef sig ⟨S_, .i32⟩) select
  :: StableHlo.TRef.unary (.of main_call11_v2 : StableHlo.TRef sig ⟨S_, .i32⟩) (.of main_call11_v3 : StableHlo.TRef sig ⟨S1048576, .i32⟩) (broadcastInDim S1048576 ![] bcast_S_S1048576)
  :: StableHlo.TRef.binary (.of main_v179 : StableHlo.TRef sig ⟨S1048576, .i32⟩) (.of main_call11_v3 : StableHlo.TRef sig ⟨S1048576, .i32⟩) (.of main_call11_v4 : StableHlo.TRef sig ⟨S1048576, .i32⟩) Host.remsi
  :: StableHlo.TRef.nullary (.of main_call11_c_1 : StableHlo.TRef sig ⟨S_, .i32⟩) (constantI S_ 32 0#32)
  :: StableHlo.TRef.unary (.of main_call11_c_1 : StableHlo.TRef sig ⟨S_, .i32⟩) (.of main_call11_v5 : StableHlo.TRef sig ⟨S1048576, .i32⟩) (broadcastInDim S1048576 ![] bcast_S_S1048576)
  :: StableHlo.TRef.binary (.of main_call11_v4 : StableHlo.TRef sig ⟨S1048576, .i32⟩) (.of main_call11_v5 : StableHlo.TRef sig ⟨S1048576, .i32⟩) (.of main_call11_v6 : StableHlo.TRef sig ⟨S1048576, .i1⟩) (cmpi .ne)
  :: StableHlo.TRef.nullary (.of main_call11_c_2 : StableHlo.TRef sig ⟨S_, .i32⟩) (constantI S_ 32 0#32)
  :: StableHlo.TRef.unary (.of main_call11_c_2 : StableHlo.TRef sig ⟨S_, .i32⟩) (.of main_call11_v7 : StableHlo.TRef sig ⟨S1048576, .i32⟩) (broadcastInDim S1048576 ![] bcast_S_S1048576)
  :: StableHlo.TRef.binary (.of main_call11_v4 : StableHlo.TRef sig ⟨S1048576, .i32⟩) (.of main_call11_v7 : StableHlo.TRef sig ⟨S1048576, .i32⟩) (.of main_call11_v8 : StableHlo.TRef sig ⟨S1048576, .i1⟩) (cmpi .slt)
  :: StableHlo.TRef.nullary (.of main_call11_c_3 : StableHlo.TRef sig ⟨S_, .i32⟩) (constantI S_ 32 0#32)
  :: StableHlo.TRef.binary (.of main_call11_v2 : StableHlo.TRef sig ⟨S_, .i32⟩) (.of main_call11_c_3 : StableHlo.TRef sig ⟨S_, .i32⟩) (.of main_call11_v9 : StableHlo.TRef sig ⟨S_, .i1⟩) (cmpi .slt)
  :: StableHlo.TRef.unary (.of main_call11_v9 : StableHlo.TRef sig ⟨S_, .i1⟩) (.of main_call11_v10 : StableHlo.TRef sig ⟨S1048576, .i1⟩) (broadcastInDim S1048576 ![] bcast_S_S1048576)
  :: StableHlo.TRef.binary (.of main_call11_v8 : StableHlo.TRef sig ⟨S1048576, .i1⟩) (.of main_call11_v10 : StableHlo.TRef sig ⟨S1048576, .i1⟩) (.of main_call11_v11 : StableHlo.TRef sig ⟨S1048576, .i1⟩) (cmpi .ne)
  :: StableHlo.TRef.binary (.of main_call11_v11 : StableHlo.TRef sig ⟨S1048576, .i1⟩) (.of main_call11_v6 : StableHlo.TRef sig ⟨S1048576, .i1⟩) (.of main_call11_v12 : StableHlo.TRef sig ⟨S1048576, .i1⟩) andi
  :: StableHlo.TRef.unary (.of main_call11_v2 : StableHlo.TRef sig ⟨S_, .i32⟩) (.of main_call11_v13 : StableHlo.TRef sig ⟨S1048576, .i32⟩) (broadcastInDim S1048576 ![] bcast_S_S1048576)
  :: StableHlo.TRef.binary (.of main_call11_v4 : StableHlo.TRef sig ⟨S1048576, .i32⟩) (.of main_call11_v13 : StableHlo.TRef sig ⟨S1048576, .i32⟩) (.of main_call11_v14 : StableHlo.TRef sig ⟨S1048576, .i32⟩) addi
  :: StableHlo.TRef.ternary (.of main_call11_v12 : StableHlo.TRef sig ⟨S1048576, .i1⟩) (.of main_call11_v14 : StableHlo.TRef sig ⟨S1048576, .i32⟩) (.of main_call11_v4 : StableHlo.TRef sig ⟨S1048576, .i32⟩) (.of main_v180 : StableHlo.TRef sig ⟨S1048576, .i32⟩) select
  :: StableHlo.unary main_v164 main_v181 ((extractStridedSlice S1048576x1 ![0, 0] · slices_S1048576x2_S1048576x1_0_0) : (⟨S1048576x2, .f32⟩ : BufTy).Contents (Elt F) → (⟨S1048576x1, .f32⟩ : BufTy).Contents (Elt F))
  :: StableHlo.unary main_v164 main_v182 ((extractStridedSlice S1048576x1 ![0, 1] · slices_S1048576x2_S1048576x1_0_1) : (⟨S1048576x2, .f32⟩ : BufTy).Contents (Elt F) → (⟨S1048576x1, .f32⟩ : BufTy).Contents (Elt F))
  :: StableHlo.nullary main_c_43 (constantI S_ 32 0#32)
  :: StableHlo.unary main_c_43 main_v183 (broadcastInDim S1048576 ![] bcast_S_S1048576 : (⟨S_, .i32⟩ : BufTy).Contents (Elt F) → (⟨S1048576, .i32⟩ : BufTy).Contents (Elt F))
  :: StableHlo.binary main_v175 main_v183 main_v184 (cmpi .slt : (⟨S1048576, .i32⟩ : BufTy).Contents (Elt F) → (⟨S1048576, .i32⟩ : BufTy).Contents (Elt F) → (⟨S1048576, .i1⟩ : BufTy).Contents (Elt F))
  :: StableHlo.nullary main_c_44 (constantI S_ 32 512#32)
  :: StableHlo.unary main_c_44 main_v185 (broadcastInDim S1048576 ![] bcast_S_S1048576 : (⟨S_, .i32⟩ : BufTy).Contents (Elt F) → (⟨S1048576, .i32⟩ : BufTy).Contents (Elt F))
  :: StableHlo.binary main_v175 main_v185 main_v186 (addi : (⟨S1048576, .i32⟩ : BufTy).Contents (Elt F) → (⟨S1048576, .i32⟩ : BufTy).Contents (Elt F) → (⟨S1048576, .i32⟩ : BufTy).Contents (Elt F))
  :: StableHlo.ternary main_v184 main_v186 main_v175 main_v187 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F))
  :: StableHlo.nullary main_c_45 (constantI S_ 32 0#32)
  :: StableHlo.unary main_c_45 main_v188 (broadcastInDim S1048576 ![] bcast_S_S1048576 : (⟨S_, .i32⟩ : BufTy).Contents (Elt F) → (⟨S1048576, .i32⟩ : BufTy).Contents (Elt F))
  :: StableHlo.binary main_v167 main_v188 main_v189 (cmpi .slt : (⟨S1048576, .i32⟩ : BufTy).Contents (Elt F) → (⟨S1048576, .i32⟩ : BufTy).Contents (Elt F) → (⟨S1048576, .i1⟩ : BufTy).Contents (Elt F))
  :: StableHlo.nullary main_c_46 (constantI S_ 32 512#32)
  :: StableHlo.unary main_c_46 main_v190 (broadcastInDim S1048576 ![] bcast_S_S1048576 : (⟨S_, .i32⟩ : BufTy).Contents (Elt F) → (⟨S1048576, .i32⟩ : BufTy).Contents (Elt F))
  :: [] )

/-- The references `opsP3b` writes: each operation's result, in order. -/
abbrev opsP3b_W : List (Ref sig .tc) :=
  [main_cst_35, main_v157, main_v158, main_cst_36, main_v159, main_v160, main_v161, main_v162, main_v163, main_v164,
   main_v165, main_v166, main_c_37, main_call8_v0, main_call8_c, main_call8_v1, main_call8_c_0, main_call8_v2, main_call8_v3, main_call8_v4,
   main_call8_c_1, main_call8_v5, main_call8_v6, main_call8_c_2, main_call8_v7, main_call8_v8, main_call8_c_3, main_call8_v9, main_call8_v10, main_call8_v11,
   main_call8_v12, main_call8_v13, main_call8_v14, main_v167, main_v168, main_v169, main_c_38, main_v170, main_v171, main_c_39,
   main_call9_v0, main_call9_c, main_call9_v1, main_call9_c_0, main_call9_v2, main_call9_v3, main_call9_v4, main_call9_c_1, main_call9_v5, main_call9_v6,
   main_call9_c_2, main_call9_v7, main_call9_v8, main_call9_c_3, main_call9_v9, main_call9_v10, main_call9_v11, main_call9_v12, main_call9_v13, main_call9_v14,
   main_v172, main_v173, main_v174, main_c_40, main_call10_v0, main_call10_c, main_call10_v1, main_call10_c_0, main_call10_v2, main_call10_v3,
   main_call10_v4, main_call10_c_1, main_call10_v5, main_call10_v6, main_call10_c_2, main_call10_v7, main_call10_v8, main_call10_c_3, main_call10_v9, main_call10_v10,
   main_call10_v11, main_call10_v12, main_call10_v13, main_call10_v14, main_v175, main_v176, main_v177, main_c_41, main_v178, main_v179,
   main_c_42, main_call11_v0, main_call11_c, main_call11_v1, main_call11_c_0, main_call11_v2, main_call11_v3, main_call11_v4, main_call11_c_1, main_call11_v5,
   main_call11_v6, main_call11_c_2, main_call11_v7, main_call11_v8, main_call11_c_3, main_call11_v9, main_call11_v10, main_call11_v11, main_call11_v12, main_call11_v13,
   main_call11_v14, main_v180, main_v181, main_v182, main_c_43, main_v183, main_v184, main_c_44, main_v185, main_v186,
   main_v187, main_c_45, main_v188, main_v189, main_c_46, main_v190]

theorem opsP3b_writes : (opsP3b : List (HloOp τ sig (Elt F))).Forall fun op => op.writes ⊆ (opsP3b_W.map (Proc.devRef (τ := τ) .tc)).toFinset :=
  writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_nil []

/-- Window 3 is its two pieces in order. -/
theorem opsP3_split : (opsP3 : List (HloOp τ sig (Elt F))) = opsP3a ++ opsP3b := rfl

/-- Window 5's first 31 operations: the end of the second texture lookup (through `main_v265`). -/
abbrev opsP5a : List (HloOp τ sig (Elt F)) :=
  ( StableHlo.nullary main_cst_59 (constant S_ .f32 0x3F800000#32)
  :: StableHlo.unary main_cst_59 main_v239 (broadcastInDim S1048576x1 ![] bcast_S_S1048576x1 : (⟨S_, .f32⟩ : BufTy).Contents (Elt F) → (⟨S1048576x1, .f32⟩ : BufTy).Contents (Elt F))
  :: StableHlo.binary main_v239 main_v181 main_v240 (subf : (⟨S1048576x1, .f32⟩ : BufTy).Contents (Elt F) → (⟨S1048576x1, .f32⟩ : BufTy).Contents (Elt F) → (⟨S1048576x1, .f32⟩ : BufTy).Contents (Elt F))
  :: StableHlo.unary main_v240 main_v241 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v196 main_v241 main_v242 (mulf : (⟨S1048576x8, .f32⟩ : BufTy).Contents (Elt F) → (⟨S1048576x8, .f32⟩ : BufTy).Contents (Elt F) → (⟨S1048576x8, .f32⟩ : BufTy).Contents (Elt F))
  :: StableHlo.nullary main_cst_60 (constant S_ .f32 0x3F800000#32)
  :: StableHlo.unary main_cst_60 main_v243 (broadcastInDim S1048576x1 ![] bcast_S_S1048576x1 : (⟨S_, .f32⟩ : BufTy).Contents (Elt F) → (⟨S1048576x1, .f32⟩ : BufTy).Contents (Elt F))
  :: StableHlo.binary main_v243 main_v182 main_v244 (subf : (⟨S1048576x1, .f32⟩ : BufTy).Contents (Elt F) → (⟨S1048576x1, .f32⟩ : BufTy).Contents (Elt F) → (⟨S1048576x1, .f32⟩ : BufTy).Contents (Elt F))
  :: StableHlo.unary main_v244 main_v245 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v242 main_v245 main_v246 (mulf : (⟨S1048576x8, .f32⟩ : BufTy).Contents (Elt F) → (⟨S1048576x8, .f32⟩ : BufTy).Contents (Elt F) → (⟨S1048576x8, .f32⟩ : BufTy).Contents (Elt F))
  :: StableHlo.unary main_v181 main_v247 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v210 main_v247 main_v248 (mulf : (⟨S1048576x8, .f32⟩ : BufTy).Contents (Elt F) → (⟨S1048576x8, .f32⟩ : BufTy).Contents (Elt F) → (⟨S1048576x8, .f32⟩ : BufTy).Contents (Elt F))
  :: StableHlo.nullary main_cst_61 (constant S_ .f32 0x3F800000#32)
  :: StableHlo.unary main_cst_61 main_v249 (broadcastInDim S1048576x1 ![] bcast_S_S1048576x1 : (⟨S_, .f32⟩ : BufTy).Contents (Elt F) → (⟨S1048576x1, .f32⟩ : BufTy).Contents (Elt F))
  :: StableHlo.binary main_v249 main_v182 main_v250 (subf : (⟨S1048576x1, .f32⟩ : BufTy).Contents (Elt F) → (⟨S1048576x1, .f32⟩ : BufTy).Contents (Elt F) → (⟨S1048576x1, .f32⟩ : BufTy).Contents (Elt F))
  :: StableHlo.unary main_v250 main_v251 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v248 main_v251 main_v252 (mulf : (⟨S1048576x8, .f32⟩ : BufTy).Contents (Elt F) → (⟨S1048576x8, .f32⟩ : BufTy).Contents (Elt F) → (⟨S1048576x8, .f32⟩ : BufTy).Contents (Elt F))
  :: StableHlo.binary main_v246 main_v252 main_v253 (addf : (⟨S1048576x8, .f32⟩ : BufTy).Contents (Elt F) → (⟨S1048576x8, .f32⟩ : BufTy).Contents (Elt F) → (⟨S1048576x8, .f32⟩ : BufTy).Contents (Elt F))
  :: StableHlo.nullary main_cst_62 (constant S_ .f32 0x3F800000#32)
  :: StableHlo.unary main_cst_62 main_v254 (broadcastInDim S1048576x1 ![] bcast_S_S1048576x1 : (⟨S_, .f32⟩ : BufTy).Contents (Elt F) → (⟨S1048576x1, .f32⟩ : BufTy).Contents (Elt F))
  :: StableHlo.binary main_v254 main_v181 main_v255 (subf : (⟨S1048576x1, .f32⟩ : BufTy).Contents (Elt F) → (⟨S1048576x1, .f32⟩ : BufTy).Contents (Elt F) → (⟨S1048576x1, .f32⟩ : BufTy).Contents (Elt F))
  :: StableHlo.unary main_v255 main_v256 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v224 main_v256 main_v257 (mulf : (⟨S1048576x8, .f32⟩ : BufTy).Contents (Elt F) → (⟨S1048576x8, .f32⟩ : BufTy).Contents (Elt F) → (⟨S1048576x8, .f32⟩ : BufTy).Contents (Elt F))
  :: StableHlo.unary main_v182 main_v258 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v257 main_v258 main_v259 (mulf : (⟨S1048576x8, .f32⟩ : BufTy).Contents (Elt F) → (⟨S1048576x8, .f32⟩ : BufTy).Contents (Elt F) → (⟨S1048576x8, .f32⟩ : BufTy).Contents (Elt F))
  :: StableHlo.binary main_v253 main_v259 main_v260 (addf : (⟨S1048576x8, .f32⟩ : BufTy).Contents (Elt F) → (⟨S1048576x8, .f32⟩ : BufTy).Contents (Elt F) → (⟨S1048576x8, .f32⟩ : BufTy).Contents (Elt F))
  :: StableHlo.unary main_v181 main_v261 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v238 main_v261 main_v262 (mulf : (⟨S1048576x8, .f32⟩ : BufTy).Contents (Elt F) → (⟨S1048576x8, .f32⟩ : BufTy).Contents (Elt F) → (⟨S1048576x8, .f32⟩ : BufTy).Contents (Elt F))
  :: StableHlo.unary main_v182 main_v263 (broadcastInDim S1048576x8 ![0, 1] bcast_S1048576x1_S1048576x8_0_1 : (⟨S1048576x1, .f32⟩ : BufTy).Contents (Elt F) → (⟨S1048576x8, .f32⟩ : BufTy).Contents (Elt F))
  :: StableHlo.binary main_v262 main_v263 main_v264 (mulf : (⟨S1048576x8, .f32⟩ : BufTy).Contents (Elt F) → (⟨S1048576x8, .f32⟩ : BufTy).Contents (Elt F) → (⟨S1048576x8, .f32⟩ : BufTy).Contents (Elt F))
  :: StableHlo.binary main_v260 main_v264 main_v265 (addf : (⟨S1048576x8, .f32⟩ : BufTy).Contents (Elt F) → (⟨S1048576x8, .f32⟩ : BufTy).Contents (Elt F) → (⟨S1048576x8, .f32⟩ : BufTy).Contents (Elt F))
  :: [] )

/-- The references `opsP5a` writes: each operation's result, in order. -/
abbrev opsP5a_W : List (Ref sig .tc) :=
  [main_cst_59, main_v239, main_v240, main_v241, main_v242, main_cst_60, main_v243, main_v244, main_v245, main_v246,
   main_v247, main_v248, main_cst_61, main_v249, main_v250, main_v251, main_v252, main_v253, main_cst_62, main_v254,
   main_v255, main_v256, main_v257, main_v258, main_v259, main_v260, main_v261, main_v262, main_v263, main_v264,
   main_v265]

theorem opsP5a_writes : (opsP5a : List (HloOp τ sig (Elt F))).Forall fun op => op.writes ⊆ (opsP5a_W.map (Proc.devRef (τ := τ) .tc)).toFinset :=
  writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_nil []

/-- Window 5's other 29 operations: the start of the colour network. -/
abbrev opsP5b : List (HloOp τ sig (Elt F)) :=
  ( StableHlo.nary ![main_arg1, main_arg0, main_v265] main_v266 (fun u => concatenate S1048576x12 1 [⟨S1048576x2, u 0⟩, ⟨S1048576x2, u 1⟩, ⟨S1048576x8, u 2⟩] concatenates_S1048576x2_S1048576x2_S1048576x8_S1048576x12_d1)
  :: StableHlo.unary main_arg13 main_v267 ((transpose S12x32 [1, 0] · transposes_S32x12_S12x32_1_0) : (⟨S32x12, .f32⟩ : BufTy).Contents (Elt F) → (⟨S12x32, .f32⟩ : BufTy).Contents (Elt F))
  :: StableHlo.binary main_v266 main_v267 main_v268 ((fun l r => Host.dotGeneral dot_S1048576x12_S12x32_S1048576x32_1_0_0_1_n_n none l r) : (⟨S1048576x12, .f32⟩ : BufTy).Contents (Elt F) → (⟨S12x32, .f32⟩ : BufTy).Contents (Elt F) → (⟨S1048576x32, .f32⟩ : BufTy).Contents (Elt F))
  :: StableHlo.unary main_arg14 main_v269 (broadcastInDim S1x32 ![1] bcast_S32_S1x32_1 : (⟨S32, .f32⟩ : BufTy).Contents (Elt F) → (⟨S1x32, .f32⟩ : BufTy).Contents (Elt F))
  :: StableHlo.unary main_v269 main_v270 (broadcastInDim S1048576x32 ![0, 1] bcast_S1x32_S1048576x32_0_1 : (⟨S1x32, .f32⟩ : BufTy).Contents (Elt F) → (⟨S1048576x32, .f32⟩ : BufTy).Contents (Elt F))
  :: StableHlo.binary main_v268 main_v270 main_v271 (addf : (⟨S1048576x32, .f32⟩ : BufTy).Contents (Elt F) → (⟨S1048576x32, .f32⟩ : BufTy).Contents (Elt F) → (⟨S1048576x32, .f32⟩ : BufTy).Contents (Elt F))
  :: StableHlo.nullary main_cst_63 (constant S_ .f32 0x00000000#32)
  :: StableHlo.unary main_cst_63 main_v272 (broadcastInDim S1048576x32 ![] bcast_S_S1048576x32 : (⟨S_, .f32⟩ : BufTy).Contents (Elt F) → (⟨S1048576x32, .f32⟩ : BufTy).Contents (Elt F))
  :: StableHlo.binary main_v271 main_v272 main_v273 (cmpf .oge : (⟨S1048576x32, .f32⟩ : BufTy).Contents (Elt F) → (⟨S1048576x32, .f32⟩ : BufTy).Contents (Elt F) → (⟨S1048576x32, .i1⟩ : BufTy).Contents (Elt F))
  :: StableHlo.nullary main_cst_64 (constant S_ .f32 0x3C23D70A#32)
  :: StableHlo.unary main_cst_64 main_v274 (broadcastInDim S1048576x32 ![] bcast_S_S1048576x32 : (⟨S_, .f32⟩ : BufTy).Contents (Elt F) → (⟨S1048576x32, .f32⟩ : BufTy).Contents (Elt F))
  :: StableHlo.binary main_v274 main_v271 main_v275 (mulf : (⟨S1048576x32, .f32⟩ : BufTy).Contents (Elt F) → (⟨S1048576x32, .f32⟩ : BufTy).Contents (Elt F) → (⟨S1048576x32, .f32⟩ : BufTy).Contents (Elt F))
  :: StableHlo.TRef.ternary (.of main_v273 : StableHlo.TRef sig ⟨S1048576x32, .i1⟩) (.of main_v271 : StableHlo.TRef sig ⟨S1048576x32, .f32⟩) (.of main_v275 : StableHlo.TRef sig ⟨S1048576x32, .f32⟩) (.of main_v276 : StableHlo.TRef sig ⟨S1048576x32, .f32⟩) select
  :: StableHlo.unary main_arg15 main_v277 ((transpose S32x32 [1, 0] · transposes_S32x32_S32x32_1_0) : (⟨S32x32, .f32⟩ : BufTy).Contents (Elt F) → (⟨S32x32, .f32⟩ : BufTy).Contents (Elt F))
  :: StableHlo.binary main_v276 main_v277 main_v278 ((fun l r => Host.dotGeneral dot_S1048576x32_S32x32_S1048576x32_1_0_0_1_n_n none l r) : (⟨S1048576x32, .f32⟩ : BufTy).Contents (Elt F) → (⟨S32x32, .f32⟩ : BufTy).Contents (Elt F) → (⟨S1048576x32, .f32⟩ : BufTy).Contents (Elt F))
  :: StableHlo.unary main_arg16 main_v279 (broadcastInDim S1x32 ![1] bcast_S32_S1x32_1 : (⟨S32, .f32⟩ : BufTy).Contents (Elt F) → (⟨S1x32, .f32⟩ : BufTy).Contents (Elt F))
  :: StableHlo.unary main_v279 main_v280 (broadcastInDim S1048576x32 ![0, 1] bcast_S1x32_S1048576x32_0_1 : (⟨S1x32, .f32⟩ : BufTy).Contents (Elt F) → (⟨S1048576x32, .f32⟩ : BufTy).Contents (Elt F))
  :: StableHlo.binary main_v278 main_v280 main_v281 (addf : (⟨S1048576x32, .f32⟩ : BufTy).Contents (Elt F) → (⟨S1048576x32, .f32⟩ : BufTy).Contents (Elt F) → (⟨S1048576x32, .f32⟩ : BufTy).Contents (Elt F))
  :: StableHlo.nullary main_cst_65 (constant S_ .f32 0x00000000#32)
  :: StableHlo.unary main_cst_65 main_v282 (broadcastInDim S1048576x32 ![] bcast_S_S1048576x32 : (⟨S_, .f32⟩ : BufTy).Contents (Elt F) → (⟨S1048576x32, .f32⟩ : BufTy).Contents (Elt F))
  :: StableHlo.binary main_v281 main_v282 main_v283 (cmpf .oge : (⟨S1048576x32, .f32⟩ : BufTy).Contents (Elt F) → (⟨S1048576x32, .f32⟩ : BufTy).Contents (Elt F) → (⟨S1048576x32, .i1⟩ : BufTy).Contents (Elt F))
  :: StableHlo.nullary main_cst_66 (constant S_ .f32 0x3C23D70A#32)
  :: StableHlo.unary main_cst_66 main_v284 (broadcastInDim S1048576x32 ![] bcast_S_S1048576x32 : (⟨S_, .f32⟩ : BufTy).Contents (Elt F) → (⟨S1048576x32, .f32⟩ : BufTy).Contents (Elt F))
  :: StableHlo.binary main_v284 main_v281 main_v285 (mulf : (⟨S1048576x32, .f32⟩ : BufTy).Contents (Elt F) → (⟨S1048576x32, .f32⟩ : BufTy).Contents (Elt F) → (⟨S1048576x32, .f32⟩ : BufTy).Contents (Elt F))
  :: StableHlo.TRef.ternary (.of main_v283 : StableHlo.TRef sig ⟨S1048576x32, .i1⟩) (.of main_v281 : StableHlo.TRef sig ⟨S1048576x32, .f32⟩) (.of main_v285 : StableHlo.TRef sig ⟨S1048576x32, .f32⟩) (.of main_v286 : StableHlo.TRef sig ⟨S1048576x32, .f32⟩) select
  :: StableHlo.unary main_arg17 main_v287 ((transpose S32x32 [1, 0] · transposes_S32x32_S32x32_1_0) : (⟨S32x32, .f32⟩ : BufTy).Contents (Elt F) → (⟨S32x32, .f32⟩ : BufTy).Contents (Elt F))
  :: StableHlo.binary main_v286 main_v287 main_v288 ((fun l r => Host.dotGeneral dot_S1048576x32_S32x32_S1048576x32_1_0_0_1_n_n none l r) : (⟨S1048576x32, .f32⟩ : BufTy).Contents (Elt F) → (⟨S32x32, .f32⟩ : BufTy).Contents (Elt F) → (⟨S1048576x32, .f32⟩ : BufTy).Contents (Elt F))
  :: StableHlo.unary main_arg18 main_v289 (broadcastInDim S1x32 ![1] bcast_S32_S1x32_1 : (⟨S32, .f32⟩ : BufTy).Contents (Elt F) → (⟨S1x32, .f32⟩ : BufTy).Contents (Elt F))
  :: StableHlo.unary main_v289 main_v290 (broadcastInDim S1048576x32 ![0, 1] bcast_S1x32_S1048576x32_0_1 : (⟨S1x32, .f32⟩ : BufTy).Contents (Elt F) → (⟨S1048576x32, .f32⟩ : BufTy).Contents (Elt F))
  :: [] )

/-- The references `opsP5b` writes: each operation's result, in order. -/
abbrev opsP5b_W : List (Ref sig .tc) :=
  [main_v266, main_v267, main_v268, main_v269, main_v270, main_v271, main_cst_63, main_v272, main_v273, main_cst_64,
   main_v274, main_v275, main_v276, main_v277, main_v278, main_v279, main_v280, main_v281, main_cst_65, main_v282,
   main_v283, main_cst_66, main_v284, main_v285, main_v286, main_v287, main_v288, main_v289, main_v290]

theorem opsP5b_writes : (opsP5b : List (HloOp τ sig (Elt F))).Forall fun op => op.writes ⊆ (opsP5b_W.map (Proc.devRef (τ := τ) .tc)).toFinset :=
  writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_cons rfl <| writes_nil []

/-- Window 5 is its two pieces in order. -/
theorem opsP5_split : (opsP5 : List (HloOp τ sig (Elt F))) = opsP5a ++ opsP5b := rfl

end Cert.ReferenceIdeal.RefRun

end
-- ==== Proof.Ref.StageA.lean ====
/- The first texture lookup, read off the reference's operations: after @main's first 217 operations the buffer `main_v108` holds the bilinear sample of `main_arg3` at `main_arg2`. -/
import proofs.«142216_j1408749273558_2_alg».proof.Proof.Gen.ReferenceIdeal
import proofs.«142216_j1408749273558_2_alg».proof.Proof.Ref.Ops0
import proofs.«142216_j1408749273558_2_alg».proof.Proof.Ref.Ops1
import proofs.«142216_j1408749273558_2_alg».proof.Proof.Ref.Segs
import proofs.«142216_j1408749273558_2_alg».proof.Proof.Ref.Bilin
import Idealize.ShloMosaic.Lib.StableHlo.Run
import Idealize.ShloMosaic.Lib.Pipeline.Regions

-- a list of over a hundred operations written with `::` nests past the default depth
set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
open Cert.NeuMipHost

set_option maxHeartbeats 40000000 in
/-- From any contents, the first 217 operations leave in `main_v108` the bilinear sample of the texture in `main_arg3` at the points in `main_arg2`: each operation's result read off in turn (one pass over the line) and the two sides then the same term, the bindings of the stage's definition unfolded. -/
theorem stageA (V : Valuation τ sig (Elt F)) :
    after opsP2a (after opsP1 (after opsP0 V)) (Proc.devRef .tc main_v108)
      = bilin (V (Proc.devRef .tc main_arg3)) (V (Proc.devRef .tc main_arg2)) := by
  after_results_simp
  chain_rfl

end Cert.ReferenceIdeal.RefRun

end
-- ==== Proof.Ref.StageB.lean ====
/- The offset network, read off the reference's operations. -/
import proofs.«142216_j1408749273558_2_alg».proof.Proof.Gen.ReferenceIdeal
import proofs.«142216_j1408749273558_2_alg».proof.Proof.Ref.Segs
import proofs.«142216_j1408749273558_2_alg».proof.Proof.Ref.Stages
import Idealize.ShloMosaic.Lib.StableHlo.Run
import Idealize.ShloMosaic.Lib.Pipeline.Regions

-- a list of over a hundred operations written with `::` nests past the default depth
set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
open Cert.NeuMipHost

set_option maxHeartbeats 40000000 in
/-- From any contents, the 42 operations of the offset network leave in `main_v144` the network's value at the sample in `main_v108`, the camera direction and its eight parameters: each operation's result read off in turn (one pass over the line) and the two sides then the same term, the bindings of the stage's definition unfolded. -/
theorem stageB (V : Valuation τ sig (Elt F)) :
    after opsP2b V (Proc.devRef .tc main_v144)
      = offMlp (V (Proc.devRef .tc main_v108)) (V (Proc.devRef .tc main_arg0)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  after_results_simp
  chain_rfl

end Cert.ReferenceIdeal.RefRun

end
-- ==== Proof.Ref.StageC.lean ====
/- The shifted sampling point, read off the reference's operations. -/
import proofs.«142216_j1408749273558_2_alg».proof.Proof.Gen.ReferenceIdeal
import proofs.«142216_j1408749273558_2_alg».proof.Proof.Ref.Segs
import proofs.«142216_j1408749273558_2_alg».proof.Proof.Ref.Stages
import Idealize.ShloMosaic.Lib.StableHlo.Run
import Idealize.ShloMosaic.Lib.Pipeline.Regions

-- a list of over a hundred operations written with `::` nests past the default depth
set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
open Cert.NeuMipHost

set_option maxHeartbeats 40000000 in
/-- From any contents, the 17 operations after the offset network leave in `main_v156` the shifted sampling point: each operation's result read off in turn (one pass over the line) and the two sides then the same term, the bindings of the stage's definition unfolded. -/
theorem stageC (V : Valuation τ sig (Elt F)) :
    after opsP3a (after opsP2c V) (Proc.devRef .tc main_v156)
      = uv2Of (V (Proc.devRef .tc main_arg2)) (V (Proc.devRef .tc main_arg0)) (V (Proc.devRef .tc main_v144)) := by
  after_results_simp
  chain_rfl

end Cert.ReferenceIdeal.RefRun

end
-- ==== Proof.Ref.StageD.lean ====
/- The second texture lookup, read off the reference's operations: the same 217 operations as the first, on the shifted point and the second texture. -/
import proofs.«142216_j1408749273558_2_alg».proof.Proof.Gen.ReferenceIdeal
import proofs.«142216_j1408749273558_2_alg».proof.Proof.Ref.Ops4
import proofs.«142216_j1408749273558_2_alg».proof.Proof.Ref.Segs
import proofs.«142216_j1408749273558_2_alg».proof.Proof.Ref.Bilin
import Idealize.ShloMosaic.Lib.StableHlo.Run
import Idealize.ShloMosaic.Lib.Pipeline.Regions

-- a list of over a hundred operations written with `::` nests past the default depth
set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
open Cert.NeuMipHost

set_option maxHeartbeats 40000000 in
/-- From any contents, the 217 operations of the second lookup leave in `main_v265` the bilinear sample of the texture in `main_arg4` at the points in `main_v156`: each operation's result read off in turn (one pass over the line) and the two sides then the same term, the bindings of the stage's definition unfolded. -/
theorem stageD (V : Valuation τ sig (Elt F)) :
    after opsP5a (after opsP4 (after opsP3b V)) (Proc.devRef .tc main_v265)
      = bilin (V (Proc.devRef .tc main_arg4)) (V (Proc.devRef .tc main_v156)) := by
  after_results_simp
  chain_rfl

end Cert.ReferenceIdeal.RefRun

end
-- ==== Proof.Ref.StageE.lean ====
/- The colour network, read off the reference's operations. -/
import proofs.«142216_j1408749273558_2_alg».proof.Proof.Gen.ReferenceIdeal
import proofs.«142216_j1408749273558_2_alg».proof.Proof.Ref.Ops6
import proofs.«142216_j1408749273558_2_alg».proof.Proof.Ref.Segs
import proofs.«142216_j1408749273558_2_alg».proof.Proof.Ref.Stages
import Idealize.ShloMosaic.Lib.StableHlo.Run
import Idealize.ShloMosaic.Lib.Pipeline.Regions

-- a list of over a hundred operations written with `::` nests past the default depth
set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
open Cert.NeuMipHost

set_option maxHeartbeats 40000000 in
/-- From any contents, the last 42 operations leave in `main_v301` the colour network's value at the light and camera directions, the sample in `main_v265` and its eight parameters: each operation's result read off in turn (one pass over the line) and the two sides then the same term, the bindings of the stage's definition unfolded. -/
theorem stageE (V : Valuation τ sig (Elt F)) :
    after opsP6 (after opsP5b V) (Proc.devRef .tc main_v301)
      = rgbMlp (V (Proc.devRef .tc main_arg1)) (V (Proc.devRef .tc main_arg0)) (V (Proc.devRef .tc main_v265)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) := by
  after_results_simp
  chain_rfl

end Cert.ReferenceIdeal.RefRun

end
-- ==== Proof.Ref.Value.lean ====
/- The value the reference program leaves in its result buffer, as the composition of its five stages: the fold of @main's 535
   operations is cut where the stages meet, each stage's result is its stage function of what the stage reads, and what a stage
   reads from before it is either an earlier stage's result or an argument, which no operation in between writes. -/
import proofs.«142216_j1408749273558_2_alg».proof.Proof.Gen.ReferenceIdeal
import proofs.«142216_j1408749273558_2_alg».proof.Proof.Ref.Base
import proofs.«142216_j1408749273558_2_alg».proof.Proof.Ref.Run
import proofs.«142216_j1408749273558_2_alg».proof.Proof.Ref.Segs
import proofs.«142216_j1408749273558_2_alg».proof.Proof.Ref.Stages
import proofs.«142216_j1408749273558_2_alg».proof.Proof.Ref.StageA
import proofs.«142216_j1408749273558_2_alg».proof.Proof.Ref.StageB
import proofs.«142216_j1408749273558_2_alg».proof.Proof.Ref.StageC
import proofs.«142216_j1408749273558_2_alg».proof.Proof.Ref.StageD
import proofs.«142216_j1408749273558_2_alg».proof.Proof.Ref.StageE
import Idealize.ShloMosaic.Lib.StableHlo.Run

-- a list of over a hundred operations written with `::` nests past the default depth
set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
open Cert.NeuMipHost

/-! ## A piece of @main leaves alone what it does not write -/

theorem keep_opsP0 {r : Ref sig .tc} (h : r ∉ (opsP0_W : List (Ref sig .tc))) (V : Valuation τ sig (Elt F)) :
    after opsP0 V (no_index (Proc.devRef .tc r)) = V (Proc.devRef .tc r) :=
  after_of_writes_sub opsP0 V opsP0_writes h
theorem keep_opsP1 {r : Ref sig .tc} (h : r ∉ (opsP1_W : List (Ref sig .tc))) (V : Valuation τ sig (Elt F)) :
    after opsP1 V (no_index (Proc.devRef .tc r)) = V (Proc.devRef .tc r) :=
  after_of_writes_sub opsP1 V opsP1_writes h
theorem keep_opsP2a {r : Ref sig .tc} (h : r ∉ (opsP2a_W : List (Ref sig .tc))) (V : Valuation τ sig (Elt F)) :
    after opsP2a V (no_index (Proc.devRef .tc r)) = V (Proc.devRef .tc r) :=
  after_of_writes_sub opsP2a V opsP2a_writes h
theorem keep_opsP2b {r : Ref sig .tc} (h : r ∉ (opsP2b_W : List (Ref sig .tc))) (V : Valuation τ sig (Elt F)) :
    after opsP2b V (no_index (Proc.devRef .tc r)) = V (Proc.devRef .tc r) :=
  after_of_writes_sub opsP2b V opsP2b_writes h
theorem keep_opsP2c {r : Ref sig .tc} (h : r ∉ (opsP2c_W : List (Ref sig .tc))) (V : Valuation τ sig (Elt F)) :
    after opsP2c V (no_index (Proc.devRef .tc r)) = V (Proc.devRef .tc r) :=
  after_of_writes_sub opsP2c V opsP2c_writes h
theorem keep_opsP3a {r : Ref sig .tc} (h : r ∉ (opsP3a_W : List (Ref sig .tc))) (V : Valuation τ sig (Elt F)) :
    after opsP3a V (no_index (Proc.devRef .tc r)) = V (Proc.devRef .tc r) :=
  after_of_writes_sub opsP3a V opsP3a_writes h
theorem keep_opsP3b {r : Ref sig .tc} (h : r ∉ (opsP3b_W : List (Ref sig .tc))) (V : Valuation τ sig (Elt F)) :
    after opsP3b V (no_index (Proc.devRef .tc r)) = V (Proc.devRef .tc r) :=
  after_of_writes_sub opsP3b V opsP3b_writes h
theorem keep_opsP4 {r : Ref sig .tc} (h : r ∉ (opsP4_W : List (Ref sig .tc))) (V : Valuation τ sig (Elt F)) :
    after opsP4 V (no_index (Proc.devRef .tc r)) = V (Proc.devRef .tc r) :=
  after_of_writes_sub opsP4 V opsP4_writes h
theorem keep_opsP5a {r : Ref sig .tc} (h : r ∉ (opsP5a_W : List (Ref sig .tc))) (V : Valuation τ sig (Elt F)) :
    after opsP5a V (no_index (Proc.devRef .tc r)) = V (Proc.devRef .tc r) :=
  after_of_writes_sub opsP5a V opsP5a_writes h
theorem keep_opsP5b {r : Ref sig .tc} (h : r ∉ (opsP5b_W : List (Ref sig .tc))) (V : Valuation τ sig (Elt F)) :
    after opsP5b V (no_index (Proc.devRef .tc r)) = V (Proc.devRef .tc r) :=
  after_of_writes_sub opsP5b V opsP5b_writes h
theorem keep_opsP6 {r : Ref sig .tc} (h : r ∉ (opsP6_W : List (Ref sig .tc))) (V : Valuation τ sig (Elt F)) :
    after opsP6 V (no_index (Proc.devRef .tc r)) = V (Proc.devRef .tc r) :=
  after_of_writes_sub opsP6 V opsP6_writes h

/-! ## The result -/

-- the stage functions stay folded: the equation is between their compositions
attribute [local irreducible] bilin offMlp uv2Of rgbMlp in
/-- From any contents `V`, @main's operations leave in `main_v301` the stages' composition applied to the 21 arguments'
    contents: the last 42 operations are the colour network of the second lookup's sample, the 217 before them that lookup at
    the shifted point, the 17 before those the shifted point from the offset network's value, the 42 before those that network
    at the first lookup's sample, and the first 217 that lookup. -/
theorem out_eq' (V : Valuation τ sig (Elt F)) :
    after (ops (F := F)) V (Proc.devRef .tc main_v301) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) := by
  simp only [ops, opsP2_split, opsP3_split, opsP5_split, after_append]
  rw [stageE]
  simp (disch := decide) only [keep_opsP6, keep_opsP5b, keep_opsP5a, keep_opsP4, keep_opsP3b, keep_opsP3a, keep_opsP2c, keep_opsP2b, keep_opsP2a, keep_opsP1, keep_opsP0]
  rw [stageD]
  simp (disch := decide) only [keep_opsP6, keep_opsP5b, keep_opsP5a, keep_opsP4, keep_opsP3b, keep_opsP3a, keep_opsP2c, keep_opsP2b, keep_opsP2a, keep_opsP1, keep_opsP0]
  rw [stageC]
  simp (disch := decide) only [keep_opsP6, keep_opsP5b, keep_opsP5a, keep_opsP4, keep_opsP3b, keep_opsP3a, keep_opsP2c, keep_opsP2b, keep_opsP2a, keep_opsP1, keep_opsP0]
  rw [stageB]
  simp (disch := decide) only [keep_opsP6, keep_opsP5b, keep_opsP5a, keep_opsP4, keep_opsP3b, keep_opsP3a, keep_opsP2c, keep_opsP2b, keep_opsP2a, keep_opsP1, keep_opsP0]
  rw [stageA]
  unfold refOut
  exact Eq.refl _

/-- On a device, from the launch contents: the result buffer holds the stages' composition of the arguments as launched. -/
theorem out_eq (m : (ℓ : Loc nD τ sig) → Buf (Elt F) ℓ) (c : Dev nD) :
    StableHlo.after (ops (F := F)) (StableHlo.launchContents m c) (Proc.devRef .tc main_v301)
      = refOut
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16))
        (m ((c.tc : Thread nD τ).loc main_arg17))
        (m ((c.tc : Thread nD τ).loc main_arg18))
        (m ((c.tc : Thread nD τ).loc main_arg19))
        (m ((c.tc : Thread nD τ).loc main_arg20)) :=
  out_eq' (StableHlo.launchContents m c)

end Cert.ReferenceIdeal.RefRun

end
-- ==== Proof.Algebraic.lean ====
/-
  The value claim: run from memories that agree on the arguments, the kernel program and the reference both terminate
  and end with equal results — the kernel program's result array is what the reference's run leaves, because the
  reference's function of the arguments is the kernel program's result (the bridge) and the arguments agree.
-/
import proofs.«142216_j1408749273558_2_alg».proof.Defs
import proofs.«142216_j1408749273558_2_alg».proof.Proof.Bridge
import proofs.«142216_j1408749273558_2_alg».proof.Proof.KI.Value
import proofs.«142216_j1408749273558_2_alg».proof.Proof.KI.BilinK
import proofs.«142216_j1408749273558_2_alg».proof.Proof.Ref.Value
import proofs.«142216_j1408749273558_2_alg».proof.Proof.Ref.Frame
import proofs.«142216_j1408749273558_2_alg».proof.Proof.Gen.Pre_finite_inputs

noncomputable section

namespace Cert.Proof.Algebraic

open Idealize.ShloMosaic Idealize.ShloMosaic.TcCoe Idealize.SL.Sem
open Cert.KernelIdeal.Hand

theorem algebraic : Cert.algebraic_KernelIdeal_ReferenceIdeal := by
  intro m ρ m' ρ' _ hagree
  refine ⟨fun c => X21 m c (Proc.devRef .tc Cert.KernelIdeal.main_v236), run_out (F := Ideal) m ρ, ?_⟩
  refine (θ_run Cert.ReferenceIdeal.defs _ _).mono (fun r h c => ?_) (Cert.ReferenceIdeal.RefRun.run_out (F := Ideal) m' ρ')
  obtain ⟨h0, hk⟩ := h c
  refine ⟨h0.trans ?_, hk⟩
  obtain ⟨e0, e1, e2, e3, e4, e5, e6, e7, e8, e9, e10, e11, e12, e13, e14, e15, e16, e17, e18, e19, e20⟩ := hagree c
  rw [Cert.ReferenceIdeal.RefRun.out_eq m' c, e0, e1, e2, e3, e4, e5, e6, e7, e8, e9, e10, e11, e12, e13, e14, e15, e16, e17, e18, e19, e20]
  exact Cert.Proof.Bridge.refOut_eq m c (lookup0 m c) (lookup1 m c) (uv2_at m c) (out_at m c)

end Cert.Proof.Algebraic

end
-- ==== Proof.lean ====
/-
  The certificate of the neural-texture shader against its reference: a bilinear sample of an offset texture, a small
  dense network giving a depth, the sampling point moved along the camera direction, a bilinear sample of a colour texture
  there, and a second dense network giving the pixel's colour. The kernel program runs the two networks in two kernel
  regions, feature-major, on blocks of 131072 pixels, with the texture samples as host code between them; the reference is
  host code throughout. The frames are in Proof/Frames.lean, the value claim in Proof/Algebraic.lean.
-/
import proofs.«142216_j1408749273558_2_alg».proof.Defs
import proofs.«142216_j1408749273558_2_alg».proof.Proof.Gen.Kernel
import proofs.«142216_j1408749273558_2_alg».proof.Proof.Gen.KernelIdeal
import proofs.«142216_j1408749273558_2_alg».proof.Proof.Gen.ReferenceIdeal
import proofs.«142216_j1408749273558_2_alg».proof.Proof.Gen.Pre_finite_inputs
import proofs.«142216_j1408749273558_2_alg».proof.Proof.Frames
import proofs.«142216_j1408749273558_2_alg».proof.Proof.Algebraic

noncomputable section

namespace Cert.Proof

theorem claim : Cert.Claim := ⟨Cert.Kernel.Gen.facts, Cert.KernelIdeal.Gen.facts, Cert.ReferenceIdeal.Gen.facts, Cert.Pre_finite_inputs.Gen.facts,
  Frames.frame_k, Frames.frame_ki, Frames.frame_ri, Frames.preserves, Algebraic.algebraic⟩

end Cert.Proof

end
